-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v113)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_v117) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S8000x4 : Shape := ⟨2, ![8000, 4]⟩
abbrev S8000x1 : Shape := ⟨2, ![8000, 1]⟩
abbrev S8000 : Shape := ⟨1, ![8000]⟩
abbrev S4000000x1 : Shape := ⟨2, ![4000000, 1]⟩
abbrev S4000000 : Shape := ⟨1, ![4000000]⟩
abbrev S_ : Shape := ⟨0, ![]⟩
abbrev S1 : Shape := ⟨1, ![1]⟩
abbrev S3999999 : Shape := ⟨1, ![3999999]⟩
abbrev S4000000x3 : Shape := ⟨2, ![4000000, 3]⟩
abbrev S20000x35x4 : Shape := ⟨3, ![20000, 35, 4]⟩
abbrev S4000000x2 : Shape := ⟨2, ![4000000, 2]⟩
abbrev S20000 : Shape := ⟨1, ![20000]⟩
abbrev S20000x3 : Shape := ⟨2, ![20000, 3]⟩

abbrev nBuf : Space → Nat
  | .hbm => 172
  | .vmem => 4
  | .smem => 0
  | _ => 0

abbrev hbmTy0_0 (i : Nat) : BufTy := match i % 128 with
  | 0 => ⟨S4000000x4, .f32⟩
  | 1 => ⟨S4000000x4, .i32⟩
  | 2 => ⟨S4000000x1, .i32⟩
  | 3 => ⟨S4000000, .i32⟩
  | 4 => ⟨S4000000x1, .i32⟩
  | 5 => ⟨S4000000, .i32⟩
  | 6 => ⟨S4000000x1, .i32⟩
  | 7 => ⟨S4000000, .i32⟩
  | 8 => ⟨S4000000x1, .i32⟩
  | 9 => ⟨S4000000, .i32⟩
  | 10 => ⟨S4000000, .i32⟩
  | 11 => ⟨S4000000, .i32⟩
  | 12 => ⟨S4000000, .i32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S4000000, .i32⟩
  | 22 => ⟨S4000000, .i32⟩
  | 23 => ⟨S_, .i1⟩
  | 24 => ⟨S1, .i1⟩
  | 25 => ⟨S3999999, .i32⟩
  | 26 => ⟨S3999999, .i32⟩
  | 27 => ⟨S3999999, .i1⟩
  | 28 => ⟨S4000000, .i1⟩
  | 29 => ⟨S4000000, .i32⟩
  | 30 => ⟨S_, .i32⟩
  | 31 => ⟨S_, .i32⟩
  | 32 => ⟨S4000000, .i32⟩
  | 33 => ⟨S_, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S_, .i32⟩
  | 41 => ⟨S_, .i32⟩
  | 42 => ⟨S4000000, .i32⟩
  | 43 => ⟨S4000000, .i32⟩
  | 44 => ⟨S_, .i32⟩
  | 45 => ⟨S4000000, .i32⟩
  | 46 => ⟨S4000000, .i1⟩
  | 47 => ⟨S_, .i32⟩
  | 48 => ⟨S4000000, .i32⟩
  | 49 => ⟨S_, .i32⟩
  | 50 => ⟨S_, .i32⟩
  | 51 => ⟨S4000000, .i32⟩
  | 52 => ⟨S4000000, .i32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S4000000, .i32⟩
  | 62 => ⟨S4000000, .i32⟩
  | 63 => ⟨S4000000, .i32⟩
  | 64 => ⟨S4000000, .i32⟩
  | 65 => ⟨S_, .i32⟩
  | 66 => ⟨S4000000, .i32⟩
  | 67 => ⟨S_, .i32⟩
  | 68 => ⟨S4000000, .i32⟩
  | 69 => ⟨S4000000, .i1⟩
  | 70 => ⟨S_, .i32⟩
  | 71 => ⟨S4000000, .i32⟩
  | 72 => ⟨S4000000, .i32⟩
  | 73 => ⟨S4000000, .i32⟩
  | 74 => ⟨S4000000x1, .i32⟩
  | 75 => ⟨S4000000, .i32⟩
  | 76 => ⟨S_, .i32⟩
  | 77 => ⟨S4000000, .i32⟩
  | 78 => ⟨S4000000, .i1⟩
  | 79 => ⟨S_, .i32⟩
  | 80 => ⟨S4000000, .i32⟩
  | 81 => ⟨S4000000, .i32⟩
  | 82 => ⟨S4000000, .i32⟩
  | 83 => ⟨S4000000x1, .i32⟩
  | 84 => ⟨S4000000, .i32⟩
  | 85 => ⟨S_, .i32⟩
  | 86 => ⟨S4000000, .i32⟩
  | 87 => ⟨S4000000, .i1⟩
  | 88 => ⟨S4000000, .i1⟩
  | 89 => ⟨S_, .i32⟩
  | 90 => ⟨S4000000, .i32⟩
  | 91 => ⟨S4000000, .i1⟩
  | 92 => ⟨S4000000, .i1⟩
  | 93 => ⟨S_, .i32⟩
  | 94 => ⟨S_, .i32⟩
  | 95 => ⟨S4000000, .i32⟩
  | 96 => ⟨S4000000, .i32⟩
  | 97 => ⟨S_, .i32⟩
  | 98 => ⟨S_, .i32⟩
  | 99 => ⟨S4000000, .i32⟩
  | 100 => ⟨S4000000, .i32⟩
  | 101 => ⟨S4000000x1, .i32⟩
  | 102 => ⟨S4000000x1, .i32⟩
  | 103 => ⟨S4000000x1, .i32⟩
  | 104 => ⟨S4000000x3, .i32⟩
  | 105 => ⟨S_, .i32⟩
  | 106 => ⟨S4000000, .i32⟩
  | 107 => ⟨S4000000, .i1⟩
  | 108 => ⟨S_, .i32⟩
  | 109 => ⟨S4000000, .i32⟩
  | 110 => ⟨S4000000, .i32⟩
  | 111 => ⟨S4000000, .i32⟩
  | 112 => ⟨S4000000x1, .i32⟩
  | 113 => ⟨S4000000x3, .i32⟩
  | 114 => ⟨S_, .i32⟩
  | 115 => ⟨S4000000, .i32⟩
  | 116 => ⟨S4000000, .i1⟩
  | 117 => ⟨S_, .i32⟩
  | 118 => ⟨S4000000, .i32⟩
  | 119 => ⟨S4000000, .i32⟩
  | 120 => ⟨S4000000, .i32⟩
  | 121 => ⟨S4000000x1, .i32⟩
  | 122 => ⟨S4000000x4, .f32⟩
  | 123 => ⟨S_, .f32⟩
  | 124 => ⟨S20000x35x4, .f32⟩
  | 125 => ⟨S_, .i32⟩
  | 126 => ⟨S4000000, .i32⟩
  | 127 => ⟨S4000000, .i1⟩
  | _ => ⟨S4000000x4, .f32⟩

abbrev hbmTy0_1 (i : Nat) : BufTy := match i % 128 with
  | 0 => ⟨S_, .i32⟩
  | 1 => ⟨S4000000, .i32⟩
  | 2 => ⟨S4000000, .i32⟩
  | 3 => ⟨S4000000, .i32⟩
  | 4 => ⟨S_, .i32⟩
  | 5 => ⟨S4000000, .i32⟩
  | 6 => ⟨S4000000, .i1⟩
  | 7 => ⟨S_, .i32⟩
  | 8 => ⟨S4000000, .i32⟩
  | 9 => ⟨S4000000, .i32⟩
  | 10 => ⟨S4000000, .i32⟩
  | 11 => ⟨S4000000x1, .i32⟩
  | 12 => ⟨S4000000x1, .i32⟩
  | 13 => ⟨S4000000x2, .i32⟩
  | 14 => ⟨S20000x35x4, .f32⟩
  | 15 => ⟨S_, .i32⟩
  | 16 => ⟨S20000, .i32⟩
  | 17 => ⟨S4000000, .i32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S20000, .i32⟩
  | 27 => ⟨S_, .i32⟩
  | 28 => ⟨S20000x3, .i32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S20000x3, .i32⟩
  | 38 => ⟨S4000000, .i1⟩
  | 39 => ⟨S4000000, .i32⟩
  | 40 => ⟨S_, .i32⟩
  | 41 => ⟨S_, .i32⟩
  | 42 => ⟨S_, .i32⟩
  | 43 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x4, .i32⟩
  | .local _ .vmem, ⟨3, _⟩ => ⟨S8000x4, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_call0_v0 : Ref sig .tc := ⟨.hbm, 10, rfl⟩
abbrev main_call0_v1_0 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_v0 : Ref sig .tc := ⟨.hbm, 29, rfl⟩
abbrev main_call1_call0_c : Ref sig .tc := ⟨.hbm, 30, rfl⟩
abbrev main_call1_call0_v0 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_v26 : Ref sig .tc := ⟨.hbm, 39, rfl⟩
abbrev main_call3_c : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_c_6 : Ref sig .tc := ⟨.hbm, 49, rfl⟩
abbrev main_call4_v0 : Ref sig .tc := ⟨.hbm, 50, rfl⟩
abbrev main_call4_v1 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call5_v0 : Ref sig .tc := ⟨.hbm, 62, rfl⟩
abbrev main_call5_v1_0 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_call6_v0 : Ref sig .tc := ⟨.hbm, 94, rfl⟩
abbrev main_call6_v1 : Ref sig .tc := ⟨.hbm, 95, rfl⟩
abbrev main_v62 : Ref sig .tc := ⟨.hbm, 96, rfl⟩
abbrev main_c_17 : Ref sig .tc := ⟨.hbm, 97, rfl⟩
abbrev main_call7_v0 : Ref sig .tc := ⟨.hbm, 98, rfl⟩
abbrev main_call7_v1 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst : Ref sig .tc := ⟨.hbm, 123, rfl⟩
abbrev main_v82 : Ref sig .tc := ⟨.hbm, 124, rfl⟩
abbrev main_c_22 : Ref sig .tc := ⟨.hbm, 125, rfl⟩
abbrev main_v83 : Ref sig .tc := ⟨.hbm, 126, rfl⟩
abbrev main_v84 : Ref sig .tc := ⟨.hbm, 127, rfl⟩
abbrev main_c_23 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_24 : Ref sig .tc := ⟨.hbm, 132, rfl⟩
abbrev main_v88 : Ref sig .tc := ⟨.hbm, 133, rfl⟩
abbrev main_v89 : Ref sig .tc := ⟨.hbm, 134, rfl⟩
abbrev main_c_25 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_26 : Ref sig .tc := ⟨.hbm, 143, rfl⟩
abbrev main_v97 : Ref sig .tc := ⟨.hbm, 144, rfl⟩
abbrev main_v98 : Ref sig .tc := ⟨.hbm, 145, rfl⟩
abbrev main_c_27 : Ref sig .tc := ⟨.hbm, 146, rfl⟩
abbrev main_v99 : Ref sig .tc := ⟨.hbm, 147, rfl⟩
abbrev main_v100 : Ref sig .tc := ⟨.hbm, 148, rfl⟩
abbrev main_c_28 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_29 : Ref sig .tc := ⟨.hbm, 155, rfl⟩
abbrev main_v106 : Ref sig .tc := ⟨.hbm, 156, rfl⟩
abbrev main_c_30 : Ref sig .tc := ⟨.hbm, 157, rfl⟩
abbrev main_v107 : Ref sig .tc := ⟨.hbm, 158, rfl⟩
abbrev main_v108 : Ref sig .tc := ⟨.hbm, 159, rfl⟩
abbrev main_c_31 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_c_32 : Ref sig .tc := ⟨.hbm, 168, rfl⟩
abbrev main_v116 : Ref sig .tc := ⟨.hbm, 169, rfl⟩
abbrev main_c_33 : Ref sig .tc := ⟨.hbm, 170, rfl⟩
abbrev main_v117 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x4_S8000x4_0_0 : ∀ a, (![0, 0] : Fin 2 → Nat) a + S8000x4.size a ≤ S8000x4.size a
  h_S8000x4 : 0 < S8000x4.numel
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  slices_S8000x4_o0_2_S8000x1 : S8000x4.Slices ![0, 2] S8000x1
  shapeCasts_S8000_S8000x1 : S8000.ShapeCasts S8000x1
  concatenates_S8000x1_S8000x1_S8000x1_S8000x1_S8000x4_d1 : Shape.Concatenates [S8000x1, S8000x1, S8000x1, S8000x1] S8000x4 1
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  concatenates_S4000000x1_S4000000x1_S4000000x1_S4000000x3_d1 : Shape.Concatenates [S4000000x1, S4000000x1, S4000000x1] S4000000x3 1
  bcast_S_S20000x35x4 : S_.BroadcastsInDim S20000x35x4 (![] : Fin 0 → Fin S20000x35x4.rank)
  concatenates_S4000000x1_S4000000x1_S4000000x2_d1 : Shape.Concatenates [S4000000x1, S4000000x1] S4000000x2 1
  bcast_S_S20000 : S_.BroadcastsInDim S20000 (![] : Fin 0 → Fin S20000.rank)
  bcast_S_S20000x3 : S_.BroadcastsInDim S20000x3 (![] : Fin 0 → Fin S20000x3.rank)
  reducesTo_S4000000_S_d0 : S4000000.ReducesTo [0] S_
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  gather_S4000000x3_S4000000x1_S4000000x3_1_0_n_n_0_1_13_wf : GatherDims.WF S4000000x3 S4000000x1 S4000000x3 [1] [0] [] [0] [] 1 ![1, 3]
  gather_S4000000x4_S4000000x1_S4000000x4_1_0_n_n_0_1_14_wf : GatherDims.WF S4000000x4 S4000000x1 S4000000x4 [1] [0] [] [0] [] 1 ![1, 4]
  scatter_S20000x35x4_S4000000x2_S4000000x4_1_01_01_1_wf : ScatterDims.WF S20000x35x4 S4000000x2 S4000000x4 [1] [0, 1] [0, 1] 1
  scatter_S20000_S4000000x1_S4000000_n_0_0_1_wf : ScatterDims.WF S20000 S4000000x1 S4000000 [] [0] [0] 1
  scatter_S20000x3_S4000000x1_S4000000x3_1_0_0_1_wf : ScatterDims.WF S20000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S4000000x4.size a
  hwx0_0 : ∀ i : grid0.Coords, EltTy.bits .f32 = 32 ∨ (Rect.block (s := S4000000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S4000000x4.size a
  hwx0_1 : ∀ i : grid0.Coords, EltTy.bits .i32 = 32 ∨ (Rect.block (s := S4000000x4) S8000x4.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def scatter_S20000x35x4_S4000000x2_S4000000x4_1_01_01_1 : ScatterDims S20000x35x4 S4000000x2 S4000000x4 where
  updateWindowDims := [1]
  insertedWindowDims := [0, 1]
  scatterDimsToOperandDims := [0, 1]
  indexVectorDim := 1
  wf := scatter_S20000x35x4_S4000000x2_S4000000x4_1_01_01_1_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf

abbrev win0_0 : Pipeline.Window sig grid0 :=
  Pipeline.Window.ofSpec (Memref.whole main_arg0) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S1 : Shape := ⟨1, ![1]⟩
abbrev S3999999 : Shape := ⟨1, ![3999999]⟩
abbrev S20000x35x4 : Shape := ⟨3, ![20000, 35, 4]⟩
abbrev S4000000x2 : Shape := ⟨2, ![4000000, 2]⟩
abbrev S20000 : Shape := ⟨1, ![20000]⟩
abbrev S20000x3 : Shape := ⟨2, ![20000, 3]⟩

abbrev nBuf : Space → Nat
  | .hbm => 199
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .i32⟩
  | 4 => ⟨S4000000x3, .f32⟩
  | 5 => ⟨S1x3, .f32⟩
  | 6 => ⟨S4000000x3, .f32⟩
  | 7 => ⟨S4000000x3, .f32⟩
  | 8 => ⟨S1x3, .f32⟩
  | 9 => ⟨S4000000x3, .f32⟩
  | 10 => ⟨S4000000x3, .f32⟩
  | 11 => ⟨S4000000x3, .f32⟩
  | 12 => ⟨S4000000x3, .i32⟩
  | 13 => ⟨S_, .i32⟩
  | 14 => ⟨S4000000x3, .i32⟩
  | 15 => ⟨S4000000x3, .i1⟩
  | 16 => ⟨S1x3, .i32⟩
  | 17 => ⟨S4000000x3, .i32⟩
  | 18 => ⟨S4000000x3, .i1⟩
  | 19 => ⟨S4000000x3, .i1⟩
  | 20 => ⟨S_, .i1⟩
  | 21 => ⟨S4000000, .i1⟩
  | 22 => ⟨S4000000x1, .i32⟩
  | 23 => ⟨S4000000, .i32⟩
  | 24 => ⟨S_, .i32⟩
  | 25 => ⟨S4000000, .i32⟩
  | 26 => ⟨S4000000, .i32⟩
  | 27 => ⟨S4000000x1, .i32⟩
  | 28 => ⟨S4000000, .i32⟩
  | 29 => ⟨S4000000, .i32⟩
  | 30 => ⟨S_, .i32⟩
  | 31 => ⟨S4000000, .i32⟩
  | 32 => ⟨S4000000, .i32⟩
  | 33 => ⟨S4000000x1, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S4000000, .i32⟩
  | 41 => ⟨S4000000, .i32⟩
  | 42 => ⟨S4000000, .i32⟩
  | 43 => ⟨S_, .i32⟩
  | 44 => ⟨S4000000, .i32⟩
  | 45 => ⟨S4000000, .i1⟩
  | 46 => ⟨S_, .i32⟩
  | 47 => ⟨S4000000, .i32⟩
  | 48 => ⟨S4000000, .i32⟩
  | 49 => ⟨S4000000, .i32⟩
  | 50 => ⟨S4000000x1, .i32⟩
  | 51 => ⟨S4000000, .i32⟩
  | 52 => ⟨S4000000, .i32⟩
  | 53 => ⟨S_, .i1⟩
  | 54 => ⟨S1, .i1⟩
  | 55 => ⟨S3999999, .i32⟩
  | 56 => ⟨S3999999, .i32⟩
  | 57 => ⟨S3999999, .i1⟩
  | 58 => ⟨S4000000, .i1⟩
  | 59 => ⟨S4000000, .i32⟩
  | 60 => ⟨S_, .i32⟩
  | 61 => ⟨S_, .i32⟩
  | 62 => ⟨S4000000, .i32⟩
  | 63 => ⟨S_, .i32⟩
  | 64 => ⟨S4000000, .i32⟩
  | 65 => ⟨S4000000, .i32⟩
  | 66 => ⟨S_, .i32⟩
  | 67 => ⟨S_, .i32⟩
  | 68 => ⟨S4000000, .i32⟩
  | 69 => ⟨S4000000, .i32⟩
  | 70 => ⟨S_, .i32⟩
  | 71 => ⟨S_, .i32⟩
  | 72 => ⟨S4000000, .i32⟩
  | 73 => ⟨S4000000, .i32⟩
  | 74 => ⟨S_, .i32⟩
  | 75 => ⟨S4000000, .i32⟩
  | 76 => ⟨S4000000, .i1⟩
  | 77 => ⟨S_, .i32⟩
  | 78 => ⟨S4000000, .i32⟩
  | 79 => ⟨S_, .i32⟩
  | 80 => ⟨S_, .i32⟩
  | 81 => ⟨S4000000, .i32⟩
  | 82 => ⟨S4000000, .i32⟩
  | 83 => ⟨S_, .i32⟩
  | 84 => ⟨S4000000, .i32⟩
  | 85 => ⟨S4000000, .i1⟩
  | 86 => ⟨S_, .i32⟩
  | 87 => ⟨S4000000, .i32⟩
  | 88 => ⟨S4000000, .i32⟩
  | 89 => ⟨S4000000, .i32⟩
  | 90 => ⟨S4000000x1, .i32⟩
  | 91 => ⟨S4000000, .i32⟩
  | 92 => ⟨S4000000, .i32⟩
  | 93 => ⟨S4000000, .i32⟩
  | 94 => ⟨S4000000, .i32⟩
  | 95 => ⟨S_, .i32⟩
  | 96 => ⟨S4000000, .i32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000, .i32⟩
  | 106 => ⟨S_, .i32⟩
  | 107 => ⟨S4000000, .i32⟩
  | 108 => ⟨S4000000, .i1⟩
  | 109 => ⟨S_, .i32⟩
  | 110 => ⟨S4000000, .i32⟩
  | 111 => ⟨S4000000, .i32⟩
  | 112 => ⟨S4000000, .i32⟩
  | 113 => ⟨S4000000x1, .i32⟩
  | 114 => ⟨S4000000, .i32⟩
  | 115 => ⟨S_, .i32⟩
  | 116 => ⟨S4000000, .i32⟩
  | 117 => ⟨S4000000, .i1⟩
  | 118 => ⟨S4000000, .i1⟩
  | 119 => ⟨S_, .i32⟩
  | 120 => ⟨S4000000, .i32⟩
  | 121 => ⟨S4000000, .i1⟩
  | 122 => ⟨S4000000, .i1⟩
  | 123 => ⟨S_, .i32⟩
  | 124 => ⟨S_, .i32⟩
  | 125 => ⟨S4000000, .i32⟩
  | 126 => ⟨S4000000, .i32⟩
  | 127 => ⟨S_, .i32⟩
  | _ => ⟨S4000000x4, .f32⟩

abbrev hbmTy0_1 (i : Nat) : BufTy := match i % 128 with
  | 0 => ⟨S_, .i32⟩
  | 1 => ⟨S4000000, .i32⟩
  | 2 => ⟨S4000000, .i32⟩
  | 3 => ⟨S_, .f32⟩
  | 4 => ⟨S20000x35x4, .f32⟩
  | 5 => ⟨S_, .i32⟩
  | 6 => ⟨S4000000, .i32⟩
  | 7 => ⟨S4000000, .i1⟩
  | 8 => ⟨S_, .i32⟩
  | 9 => ⟨S4000000, .i32⟩
  | 10 => ⟨S4000000, .i32⟩
  | 11 => ⟨S4000000, .i32⟩
  | 12 => ⟨S4000000x1, .i32⟩
  | 13 => ⟨S4000000x4, .f32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x1, .i32⟩
  | 30 => ⟨S4000000x2, .i32⟩
  | 31 => ⟨S20000x35x4, .f32⟩
  | 32 => ⟨S_, .i32⟩
  | 33 => ⟨S20000, .i32⟩
  | 34 => ⟨S4000000, .i32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S20000, .i32⟩
  | 44 => ⟨S_, .i32⟩
  | 45 => ⟨S20000x3, .i32⟩
  | 46 => ⟨S_, .i32⟩
  | 47 => ⟨S4000000, .i32⟩
  | 48 => ⟨S4000000, .i1⟩
  | 49 => ⟨S_, .i32⟩
  | 50 => ⟨S4000000, .i32⟩
  | 51 => ⟨S4000000, .i32⟩
  | 52 => ⟨S4000000, .i32⟩
  | 53 => ⟨S4000000x1, .i32⟩
  | 54 => ⟨S4000000x3, .i32⟩
  | 55 => ⟨S4000000x3, .i32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S4000000x1, .i32⟩
  | 64 => ⟨S20000x3, .i32⟩
  | 65 => ⟨S4000000, .i1⟩
  | 66 => ⟨S4000000, .i32⟩
  | 67 => ⟨S_, .i32⟩
  | 68 => ⟨S_, .i32⟩
  | 69 => ⟨S_, .i32⟩
  | 70 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_call1_v0 : Ref sig .tc := ⟨.hbm, 40, rfl⟩
abbrev main_call1_v1_0 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call2_v0 : Ref sig .tc := ⟨.hbm, 59, rfl⟩
abbrev main_call2_call0_c : Ref sig .tc := ⟨.hbm, 60, rfl⟩
abbrev main_call2_call0_v0 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_call3_v0 : Ref sig .tc := ⟨.hbm, 67, rfl⟩
abbrev main_call3_v1 : Ref sig .tc := ⟨.hbm, 68, rfl⟩
abbrev main_v46 : Ref sig .tc := ⟨.hbm, 69, rfl⟩
abbrev main_call4_c : Ref sig .tc := ⟨.hbm, 70, rfl⟩
abbrev main_call4_v0 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_c_13 : Ref sig .tc := ⟨.hbm, 79, rfl⟩
abbrev main_call5_v0 : Ref sig .tc := ⟨.hbm, 80, rfl⟩
abbrev main_call5_v1 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call6_v0 : Ref sig .tc := ⟨.hbm, 92, rfl⟩
abbrev main_call6_v1_0 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_c_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_v69 : Ref sig .tc := ⟨.hbm, 107, rfl⟩
abbrev main_v70 : Ref sig .tc := ⟨.hbm, 108, rfl⟩
abbrev main_c_20 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_21 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_22 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_23 : Ref sig .tc := ⟨.hbm, 123, rfl⟩
abbrev main_call7_v0 : Ref sig .tc := ⟨.hbm, 124, rfl⟩
abbrev main_call7_v1 : Ref sig .tc := ⟨.hbm, 125, rfl⟩
abbrev main_v82 : Ref sig .tc := ⟨.hbm, 126, rfl⟩
abbrev main_c_24 : Ref sig .tc := ⟨.hbm, 127, rfl⟩
abbrev main_call8_v0 : Ref sig .tc := ⟨.hbm, 128, rfl⟩
abbrev main_call8_v1 : Ref sig .tc := ⟨.hbm, 129, rfl⟩
abbrev main_v83 : Ref sig .tc := ⟨.hbm, 130, rfl⟩
abbrev main_cst_25 : Ref sig .tc := ⟨.hbm, 131, rfl⟩
abbrev main_v84 : Ref sig .tc := ⟨.hbm, 132, rfl⟩
abbrev main_c_26 : Ref sig .tc := ⟨.hbm, 133, rfl⟩
abbrev main_v85 : Ref sig .tc := ⟨.hbm, 134, rfl⟩
abbrev main_v86 : Ref sig .tc := ⟨.hbm, 135, rfl⟩
abbrev main_c_27 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_28 : Ref sig .tc := ⟨.hbm, 142, rfl⟩
abbrev main_v92 : Ref sig .tc := ⟨.hbm, 143, rfl⟩
abbrev main_v93 : Ref sig .tc := ⟨.hbm, 144, rfl⟩
abbrev main_c_29 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_30 : Ref sig .tc := ⟨.hbm, 149, rfl⟩
abbrev main_v97 : Ref sig .tc := ⟨.hbm, 150, rfl⟩
abbrev main_v98 : Ref sig .tc := ⟨.hbm, 151, rfl⟩
abbrev main_c_31 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_32 : Ref sig .tc := ⟨.hbm, 160, rfl⟩
abbrev main_v106 : Ref sig .tc := ⟨.hbm, 161, rfl⟩
abbrev main_v107 : Ref sig .tc := ⟨.hbm, 162, rfl⟩
abbrev main_c_33 : Ref sig .tc := ⟨.hbm, 163, rfl⟩
abbrev main_v108 : Ref sig .tc := ⟨.hbm, 164, rfl⟩
abbrev main_v109 : Ref sig .tc := ⟨.hbm, 165, rfl⟩
abbrev main_c_34 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_35 : Ref sig .tc := ⟨.hbm, 172, rfl⟩
abbrev main_v115 : Ref sig .tc := ⟨.hbm, 173, rfl⟩
abbrev main_c_36 : Ref sig .tc := ⟨.hbm, 174, rfl⟩
abbrev main_v116 : Ref sig .tc := ⟨.hbm, 175, rfl⟩
abbrev main_v117 : Ref sig .tc := ⟨.hbm, 176, rfl⟩
abbrev main_c_37 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_38 : Ref sig .tc := ⟨.hbm, 184, rfl⟩
abbrev main_v124 : Ref sig .tc := ⟨.hbm, 185, rfl⟩
abbrev main_v125 : Ref sig .tc := ⟨.hbm, 186, rfl⟩
abbrev main_c_39 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_c_40 : Ref sig .tc := ⟨.hbm, 195, rfl⟩
abbrev main_v133 : Ref sig .tc := ⟨.hbm, 196, rfl⟩
abbrev main_c_41 : Ref sig .tc := ⟨.hbm, 197, rfl⟩
abbrev main_v134 : Ref sig .tc := ⟨.hbm, 198, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  bcast_S_S4000000x3 : S_.BroadcastsInDim S4000000x3 (![] : Fin 0 → Fin S4000000x3.rank)
  reducesTo_S4000000x3_S4000000_d1 : S4000000x3.ReducesTo [1] S4000000
  h_S_ : 0 < S_.numel
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S20000x35x4 : S_.BroadcastsInDim S20000x35x4 (![] : Fin 0 → Fin S20000x35x4.rank)
  concatenates_S4000000x1_S4000000x1_S4000000x2_d1 : Shape.Concatenates [S4000000x1, S4000000x1] S4000000x2 1
  bcast_S_S20000 : S_.BroadcastsInDim S20000 (![] : Fin 0 → Fin S20000.rank)
  bcast_S_S20000x3 : S_.BroadcastsInDim S20000x3 (![] : Fin 0 → Fin S20000x3.rank)
  reducesTo_S4000000_S_d0 : S4000000.ReducesTo [0] S_
  gather_S4000000_S4000000x1_S4000000_n_0_n_n_0_1_1_wf : GatherDims.WF S4000000 S4000000x1 S4000000 [] [0] [] [0] [] 1 ![1]
  scatter_S4000000_S4000000x1_S4000000_n_0_0_1_wf : ScatterDims.WF S4000000 S4000000x1 S4000000 [] [0] [0] 1
  gather_S4000000x4_S4000000x1_S4000000x4_1_0_n_n_0_1_14_wf : GatherDims.WF S4000000x4 S4000000x1 S4000000x4 [1] [0] [] [0] [] 1 ![1, 4]
  scatter_S20000x35x4_S4000000x2_S4000000x4_1_01_01_1_wf : ScatterDims.WF S20000x35x4 S4000000x2 S4000000x4 [1] [0, 1] [0, 1] 1
  scatter_S20000_S4000000x1_S4000000_n_0_0_1_wf : ScatterDims.WF S20000 S4000000x1 S4000000 [] [0] [0] 1
  gather_S4000000x3_S4000000x1_S4000000x3_1_0_n_n_0_1_13_wf : GatherDims.WF S4000000x3 S4000000x1 S4000000x3 [1] [0] [] [0] [] 1 ![1, 3]
  scatter_S20000x3_S4000000x1_S4000000x3_1_0_0_1_wf : ScatterDims.WF S20000x3 S4000000x1 S4000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S4000000_S4000000x1_S4000000_n_0_0_1 : ScatterDims S4000000 S4000000x1 S4000000 where
  updateWindowDims := []
  insertedWindowDims := [0]
  scatterDimsToOperandDims := [0]
  indexVectorDim := 1
  wf := scatter_S4000000_S4000000x1_S4000000_n_0_0_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def scatter_S20000x35x4_S4000000x2_S4000000x4_1_01_01_1 : ScatterDims S20000x35x4 S4000000x2 S4000000x4 where
  updateWindowDims := [1]
  insertedWindowDims := [0, 1]
  scatterDimsToOperandDims := [0, 1]
  indexVectorDim := 1
  wf := scatter_S20000x35x4_S4000000x2_S4000000x4_1_01_01_1_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf

class Facts : Prop extends Facts₀ where

variable [Facts]
-- ==== Proof.KFrame.lean ====
/-
  The frame of `Kernel`: @main is one launch of the bucketing kernel over a grid of 500 points — each point loads its
  8000×4 block of the points array, computes per row the three voxel coordinates and the flat voxel id, and stores the
  8000×4 integer block whole — followed by 170 host operations (the stable argsort of the flat ids, the segment scans,
  the scatters) that read the kernel's result and the points array and write only buffers of their own. So every weakly
  fair execution terminates without a fault, the kernel's result array ends as the blocks the points wrote, every later
  buffer as the host operations compute it, and the argument array is never written.
  Stated for any float instance `F`.
-/
import proofs.«163751_j5892695130408_2_alg».proof.Proof.Gen.Kernel.Launch
import proofs.«163751_j5892695130408_2_alg».proof.Proof.Gen.Kernel.Skeleton
import proofs.«163751_j5892695130408_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the launch, stretch by stretch (a called function's operations are a stretch of their own). -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- Nothing precedes the launch: the region finds every buffer as launched. -/
abbrev V0 (c : Dev nD) : Valuation τ sig (Elt F) := StableHlo.after (List.flatten ([] : List (List (HloOp τ sig (Elt F))))) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-- @main is the launch continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall]) (by simp only [List.Forall]) main_chain

/-- The later operations touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop

/-- Each later operation writes only its own result buffer, which is neither the points array nor the kernel's result. -/
local macro "no_write" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (by decide)))

theorem hostOps1_keeps_arg : (hostOps1 : List (HloOp τ sig (Elt F))).Forall fun op => Proc.devRef .tc main_arg0 ∉ op.writes := by
  unfold hostOps1; no_write
theorem hostOps1_keeps_out : (hostOps1 : List (HloOp τ sig (Elt F))).Forall fun op => Proc.devRef .tc main_v0 ∉ op.writes := by
  unfold hostOps1; no_write
theorem hostOps1_1_keeps_arg : (hostOps1_1 : List (HloOp τ sig (Elt F))).Forall fun op => Proc.devRef .tc main_arg0 ∉ op.writes := by
  unfold hostOps1_1; no_write
theorem hostOps1_1_keeps_out : (hostOps1_1 : List (HloOp τ sig (Elt F))).Forall fun op => Proc.devRef .tc main_v0 ∉ op.writes := by
  unfold hostOps1_1; no_write
theorem hostOps1_2_keeps_arg : (hostOps1_2 : List (HloOp τ sig (Elt F))).Forall fun op => Proc.devRef .tc main_arg0 ∉ op.writes := by
  unfold hostOps1_2; no_write
theorem hostOps1_2_keeps_out : (hostOps1_2 : List (HloOp τ sig (Elt F))).Forall fun op => Proc.devRef .tc main_v0 ∉ op.writes := by
  unfold hostOps1_2; no_write
theorem hostOps1_3_keeps_arg : (hostOps1_3 : List (HloOp τ sig (Elt F))).Forall fun op => Proc.devRef .tc main_arg0 ∉ op.writes := by
  unfold hostOps1_3; no_write
theorem hostOps1_3_keeps_out : (hostOps1_3 : List (HloOp τ sig (Elt F))).Forall fun op => Proc.devRef .tc main_v0 ∉ op.writes := by
  unfold hostOps1_3; no_write
theorem hostOps1_4_keeps_arg : (hostOps1_4 : List (HloOp τ sig (Elt F))).Forall fun op => Proc.devRef .tc main_arg0 ∉ op.writes := by
  unfold hostOps1_4; no_write
theorem hostOps1_4_keeps_out : (hostOps1_4 : List (HloOp τ sig (Elt F))).Forall fun op => Proc.devRef .tc main_v0 ∉ op.writes := by
  unfold hostOps1_4; no_write
theorem hostOps1_5_keeps_arg : (hostOps1_5 : List (HloOp τ sig (Elt F))).Forall fun op => Proc.devRef .tc main_arg0 ∉ op.writes := by
  unfold hostOps1_5; no_write
theorem hostOps1_5_keeps_out : (hostOps1_5 : List (HloOp τ sig (Elt F))).Forall fun op => Proc.devRef .tc main_v0 ∉ op.writes := by
  unfold hostOps1_5; no_write
theorem hostOps1_6_keeps_arg : (hostOps1_6 : List (HloOp τ sig (Elt F))).Forall fun op => Proc.devRef .tc main_arg0 ∉ op.writes := by
  unfold hostOps1_6; no_write
theorem hostOps1_6_keeps_out : (hostOps1_6 : List (HloOp τ sig (Elt F))).Forall fun op => Proc.devRef .tc main_v0 ∉ op.writes := by
  unfold hostOps1_6; no_write
theorem hostOps1_7_keeps_arg : (hostOps1_7 : List (HloOp τ sig (Elt F))).Forall fun op => Proc.devRef .tc main_arg0 ∉ op.writes := by
  unfold hostOps1_7; no_write
theorem hostOps1_7_keeps_out : (hostOps1_7 : List (HloOp τ sig (Elt F))).Forall fun op => Proc.devRef .tc main_v0 ∉ op.writes := by
  unfold hostOps1_7; no_write
theorem hostOps1_8_keeps_arg : (hostOps1_8 : List (HloOp τ sig (Elt F))).Forall fun op => Proc.devRef .tc main_arg0 ∉ op.writes := by
  unfold hostOps1_8; no_write
theorem hostOps1_8_keeps_out : (hostOps1_8 : List (HloOp τ sig (Elt F))).Forall fun op => Proc.devRef .tc main_v0 ∉ op.writes := by
  unfold hostOps1_8; no_write
theorem hostOps1_9_keeps_arg : (hostOps1_9 : List (HloOp τ sig (Elt F))).Forall fun op => Proc.devRef .tc main_arg0 ∉ op.writes := by
  unfold hostOps1_9; no_write
theorem hostOps1_9_keeps_out : (hostOps1_9 : List (HloOp τ sig (Elt F))).Forall fun op => Proc.devRef .tc main_v0 ∉ op.writes := by
  unfold hostOps1_9; no_write
theorem hostOps1_10_keeps_arg : (hostOps1_10 : List (HloOp τ sig (Elt F))).Forall fun op => Proc.devRef .tc main_arg0 ∉ op.writes := by
  unfold hostOps1_10; no_write
theorem hostOps1_10_keeps_out : (hostOps1_10 : List (HloOp τ sig (Elt F))).Forall fun op => Proc.devRef .tc main_v0 ∉ op.writes := by
  unfold hostOps1_10; no_write
theorem hostOps1_11_keeps_arg : (hostOps1_11 : List (HloOp τ sig (Elt F))).Forall fun op => Proc.devRef .tc main_arg0 ∉ op.writes := by
  unfold hostOps1_11; no_write
theorem hostOps1_11_keeps_out : (hostOps1_11 : List (HloOp τ sig (Elt F))).Forall fun op => Proc.devRef .tc main_v0 ∉ op.writes := by
  unfold hostOps1_11; no_write
theorem hostOps1_12_keeps_arg : (hostOps1_12 : List (HloOp τ sig (Elt F))).Forall fun op => Proc.devRef .tc main_arg0 ∉ op.writes := by
  unfold hostOps1_12; no_write
theorem hostOps1_12_keeps_out : (hostOps1_12 : List (HloOp τ sig (Elt F))).Forall fun op => Proc.devRef .tc main_v0 ∉ op.writes := by
  unfold hostOps1_12; no_write
theorem hostOps1_13_keeps_arg : (hostOps1_13 : List (HloOp τ sig (Elt F))).Forall fun op => Proc.devRef .tc main_arg0 ∉ op.writes := by
  unfold hostOps1_13; no_write
theorem hostOps1_13_keeps_out : (hostOps1_13 : List (HloOp τ sig (Elt F))).Forall fun op => Proc.devRef .tc main_v0 ∉ op.writes := by
  unfold hostOps1_13; no_write
theorem hostOps1_14_keeps_arg : (hostOps1_14 : List (HloOp τ sig (Elt F))).Forall fun op => Proc.devRef .tc main_arg0 ∉ op.writes := by
  unfold hostOps1_14; no_write
theorem hostOps1_14_keeps_out : (hostOps1_14 : List (HloOp τ sig (Elt F))).Forall fun op => Proc.devRef .tc main_v0 ∉ op.writes := by
  unfold hostOps1_14; no_write
theorem hostOps1_15_keeps_arg : (hostOps1_15 : List (HloOp τ sig (Elt F))).Forall fun op => Proc.devRef .tc main_arg0 ∉ op.writes := by
  unfold hostOps1_15; no_write
theorem hostOps1_15_keeps_out : (hostOps1_15 : List (HloOp τ sig (Elt F))).Forall fun op => Proc.devRef .tc main_v0 ∉ op.writes := by
  unfold hostOps1_15; no_write

theorem arrRef_cases (w : Fin 2) : Pipeline.arrRef spec0 w = main_arg0 ∨ Pipeline.arrRef spec0 w = main_v0 := by
  fin_cases w
  · exact Or.inl rfl
  · exact Or.inr rfl

theorem sfx_keeps : ∀ ops ∈ (tail : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with hw | hw <;> rw [hw]
  · rcases hops with rfl | rfl | rfl | rfl | rfl | rfl | rfl | rfl | rfl | rfl | rfl | rfl | rfl | rfl | rfl | rfl
    · exact (List.forall_iff_forall_mem.mp hostOps1_keeps_arg) op hop
    · exact (List.forall_iff_forall_mem.mp hostOps1_1_keeps_arg) op hop
    · exact (List.forall_iff_forall_mem.mp hostOps1_2_keeps_arg) op hop
    · exact (List.forall_iff_forall_mem.mp hostOps1_3_keeps_arg) op hop
    · exact (List.forall_iff_forall_mem.mp hostOps1_4_keeps_arg) op hop
    · exact (List.forall_iff_forall_mem.mp hostOps1_5_keeps_arg) op hop
    · exact (List.forall_iff_forall_mem.mp hostOps1_6_keeps_arg) op hop
    · exact (List.forall_iff_forall_mem.mp hostOps1_7_keeps_arg) op hop
    · exact (List.forall_iff_forall_mem.mp hostOps1_8_keeps_arg) op hop
    · exact (List.forall_iff_forall_mem.mp hostOps1_9_keeps_arg) op hop
    · exact (List.forall_iff_forall_mem.mp hostOps1_10_keeps_arg) op hop
    · exact (List.forall_iff_forall_mem.mp hostOps1_11_keeps_arg) op hop
    · exact (List.forall_iff_forall_mem.mp hostOps1_12_keeps_arg) op hop
    · exact (List.forall_iff_forall_mem.mp hostOps1_13_keeps_arg) op hop
    · exact (List.forall_iff_forall_mem.mp hostOps1_14_keeps_arg) op hop
    · exact (List.forall_iff_forall_mem.mp hostOps1_15_keeps_arg) op hop
  · rcases hops with rfl | rfl | rfl | rfl | rfl | rfl | rfl | rfl | rfl | rfl | rfl | rfl | rfl | rfl | rfl | rfl
    · exact (List.forall_iff_forall_mem.mp hostOps1_keeps_out) op hop
    · exact (List.forall_iff_forall_mem.mp hostOps1_1_keeps_out) op hop
    · exact (List.forall_iff_forall_mem.mp hostOps1_2_keeps_out) op hop
    · exact (List.forall_iff_forall_mem.mp hostOps1_3_keeps_out) op hop
    · exact (List.forall_iff_forall_mem.mp hostOps1_4_keeps_out) op hop
    · exact (List.forall_iff_forall_mem.mp hostOps1_5_keeps_out) op hop
    · exact (List.forall_iff_forall_mem.mp hostOps1_6_keeps_out) op hop
    · exact (List.forall_iff_forall_mem.mp hostOps1_7_keeps_out) op hop
    · exact (List.forall_iff_forall_mem.mp hostOps1_8_keeps_out) op hop
    · exact (List.forall_iff_forall_mem.mp hostOps1_9_keeps_out) op hop
    · exact (List.forall_iff_forall_mem.mp hostOps1_10_keeps_out) op hop
    · exact (List.forall_iff_forall_mem.mp hostOps1_11_keeps_out) op hop
    · exact (List.forall_iff_forall_mem.mp hostOps1_12_keeps_out) op hop
    · exact (List.forall_iff_forall_mem.mp hostOps1_13_keeps_out) op hop
    · exact (List.forall_iff_forall_mem.mp hostOps1_14_keeps_out) op hop
    · exact (List.forall_iff_forall_mem.mp hostOps1_15_keeps_out) op hop

/-- The region finds the points array as launched. -/
theorem V_main_arg0 (c : Dev nD) : V m c main_arg0 = m ((c : Thread nD τ).loc main_arg0) := rfl

theorem tail_keeps_arg : ∀ op ∈ (tail : List (List (HloOp τ sig (Elt F)))).flatten, Proc.devRef .tc main_arg0 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_keeps_arg) op hop
  · exact (List.forall_iff_forall_mem.mp hostOps1_1_keeps_arg) op hop
  · exact (List.forall_iff_forall_mem.mp hostOps1_2_keeps_arg) op hop
  · exact (List.forall_iff_forall_mem.mp hostOps1_3_keeps_arg) op hop
  · exact (List.forall_iff_forall_mem.mp hostOps1_4_keeps_arg) op hop
  · exact (List.forall_iff_forall_mem.mp hostOps1_5_keeps_arg) op hop
  · exact (List.forall_iff_forall_mem.mp hostOps1_6_keeps_arg) op hop
  · exact (List.forall_iff_forall_mem.mp hostOps1_7_keeps_arg) op hop
  · exact (List.forall_iff_forall_mem.mp hostOps1_8_keeps_arg) op hop
  · exact (List.forall_iff_forall_mem.mp hostOps1_9_keeps_arg) op hop
  · exact (List.forall_iff_forall_mem.mp hostOps1_10_keeps_arg) op hop
  · exact (List.forall_iff_forall_mem.mp hostOps1_11_keeps_arg) op hop
  · exact (List.forall_iff_forall_mem.mp hostOps1_12_keeps_arg) op hop
  · exact (List.forall_iff_forall_mem.mp hostOps1_13_keeps_arg) op hop
  · exact (List.forall_iff_forall_mem.mp hostOps1_14_keeps_arg) op hop
  · exact (List.forall_iff_forall_mem.mp hostOps1_15_keeps_arg) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: the points array is the input window's array, which ends at its
    region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## What the body leaves in the output window's buffer -/

abbrev r0_0 : Rect S8000x4 := Rect.unit (s := S8000x4) ![0, 0] S8000x4.size inb_S8000x4_S8000x4_0_0

/-- The body's value from its input block: the four columns (z, y, x voxel coordinates and the flat id) side by side. -/
def bodyVal (x : Vec F S8000x4 .f32) : IVec S8000x4 32 :=
  k0_pay1 (k0_pay2 x) (k0_pay3 x) (k0_pay4 x) (k0_pay5 x) (k0_pay6 x)

/-- The output window's staging buffer after the body: its one whole-block store. -/
def out0_1 (x0 : Vec F S8000x4 .f32) : Vec F S8000x4 .i32 :=
  View.canon [⟨r0_0, bodyVal (View.ld x0 r0_0)⟩]

theorem cover0_1 (p0 : Vec F S8000x4 .i32) (y : S8000x4.Idx) :
    ∃ pc ∈ ([⟨r0_0, p0⟩] : List (View.Piece (Elt F) S8000x4 .i32)), y ∈ pc.1.set :=
  View.cover_of_tiled [⟨r0_0, p0⟩] S8000x4.size (by rfl) y

/-! ## The body's triple -/

set_option maxHeartbeats 1000000 in
/-- The body on whole staging memrefs — the input's at contents `x0`, the output's at anything — runs to the continuation
    holding the input's as it was and the output's at `out0_1 x0`. -/
theorem sound_kernel (c : Dev nD) (E : Set ℕ) (i : grid0.Coords) (arg1 : Memref sig .tc .vmem S8000x4 .f32) (harg1 : arg1.IsWhole) (arg2 : Memref sig .tc .vmem S8000x4 .i32) (harg2 : arg2.IsWhole)
    (x0 : Vec F S8000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bucket_kernel i arg1 harg1 arg2 harg2) K := by
  simp only [cc0__bucket_kernel_eq_skeleton]; unfold cc0__bucket_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's two arrays end at what the proof data compute, every
    other unscoped buffer as the later host operations leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim: the points array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Fr

end
-- ==== Proof.KIFrame.lean ====
/-
  The frame of `KernelIdeal`: @main is one launch of the bucketing kernel over a grid of 500 points — each point loads its
  8000×4 block of the points array, computes per row the three voxel coordinates and the flat voxel id, and stores the
  8000×4 integer block whole — followed by 170 host operations (the stable argsort of the flat ids, the segment scans,
  the scatters) that read the kernel's result and the points array and write only buffers of their own. So every weakly
  fair execution terminates without a fault, the kernel's result array ends as the blocks the points wrote, every later
  buffer as the host operations compute it, and the argument array is never written.
  Stated for any float instance `F`.
-/
import proofs.«163751_j5892695130408_2_alg».proof.Proof.Gen.KernelIdeal.Launch
import proofs.«163751_j5892695130408_2_alg».proof.Proof.Gen.KernelIdeal.Skeleton
import proofs.«163751_j5892695130408_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the launch, stretch by stretch (a called function's operations are a stretch of their own). -/
abbrev tail : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15]

/-- Nothing precedes the launch: the region finds every buffer as launched. -/
abbrev V0 (c : Dev nD) : Valuation τ sig (Elt F) := StableHlo.after (List.flatten ([] : List (List (HloOp τ sig (Elt F))))) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor

/-- @main is the launch continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall]) (by simp only [List.Forall]) main_chain

/-- The later operations touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop

/-- Each later operation writes only its own result buffer, which is neither the points array nor the kernel's result. -/
local macro "no_write" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (by decide)))

theorem hostOps1_keeps_arg : (hostOps1 : List (HloOp τ sig (Elt F))).Forall fun op => Proc.devRef .tc main_arg0 ∉ op.writes := by
  unfold hostOps1; no_write
theorem hostOps1_keeps_out : (hostOps1 : List (HloOp τ sig (Elt F))).Forall fun op => Proc.devRef .tc main_v0 ∉ op.writes := by
  unfold hostOps1; no_write
theorem hostOps1_1_keeps_arg : (hostOps1_1 : List (HloOp τ sig (Elt F))).Forall fun op => Proc.devRef .tc main_arg0 ∉ op.writes := by
  unfold hostOps1_1; no_write
theorem hostOps1_1_keeps_out : (hostOps1_1 : List (HloOp τ sig (Elt F))).Forall fun op => Proc.devRef .tc main_v0 ∉ op.writes := by
  unfold hostOps1_1; no_write
theorem hostOps1_2_keeps_arg : (hostOps1_2 : List (HloOp τ sig (Elt F))).Forall fun op => Proc.devRef .tc main_arg0 ∉ op.writes := by
  unfold hostOps1_2; no_write
theorem hostOps1_2_keeps_out : (hostOps1_2 : List (HloOp τ sig (Elt F))).Forall fun op => Proc.devRef .tc main_v0 ∉ op.writes := by
  unfold hostOps1_2; no_write
theorem hostOps1_3_keeps_arg : (hostOps1_3 : List (HloOp τ sig (Elt F))).Forall fun op => Proc.devRef .tc main_arg0 ∉ op.writes := by
  unfold hostOps1_3; no_write
theorem hostOps1_3_keeps_out : (hostOps1_3 : List (HloOp τ sig (Elt F))).Forall fun op => Proc.devRef .tc main_v0 ∉ op.writes := by
  unfold hostOps1_3; no_write
theorem hostOps1_4_keeps_arg : (hostOps1_4 : List (HloOp τ sig (Elt F))).Forall fun op => Proc.devRef .tc main_arg0 ∉ op.writes := by
  unfold hostOps1_4; no_write
theorem hostOps1_4_keeps_out : (hostOps1_4 : List (HloOp τ sig (Elt F))).Forall fun op => Proc.devRef .tc main_v0 ∉ op.writes := by
  unfold hostOps1_4; no_write
theorem hostOps1_5_keeps_arg : (hostOps1_5 : List (HloOp τ sig (Elt F))).Forall fun op => Proc.devRef .tc main_arg0 ∉ op.writes := by
  unfold hostOps1_5; no_write
theorem hostOps1_5_keeps_out : (hostOps1_5 : List (HloOp τ sig (Elt F))).Forall fun op => Proc.devRef .tc main_v0 ∉ op.writes := by
  unfold hostOps1_5; no_write
theorem hostOps1_6_keeps_arg : (hostOps1_6 : List (HloOp τ sig (Elt F))).Forall fun op => Proc.devRef .tc main_arg0 ∉ op.writes := by
  unfold hostOps1_6; no_write
theorem hostOps1_6_keeps_out : (hostOps1_6 : List (HloOp τ sig (Elt F))).Forall fun op => Proc.devRef .tc main_v0 ∉ op.writes := by
  unfold hostOps1_6; no_write
theorem hostOps1_7_keeps_arg : (hostOps1_7 : List (HloOp τ sig (Elt F))).Forall fun op => Proc.devRef .tc main_arg0 ∉ op.writes := by
  unfold hostOps1_7; no_write
theorem hostOps1_7_keeps_out : (hostOps1_7 : List (HloOp τ sig (Elt F))).Forall fun op => Proc.devRef .tc main_v0 ∉ op.writes := by
  unfold hostOps1_7; no_write
theorem hostOps1_8_keeps_arg : (hostOps1_8 : List (HloOp τ sig (Elt F))).Forall fun op => Proc.devRef .tc main_arg0 ∉ op.writes := by
  unfold hostOps1_8; no_write
theorem hostOps1_8_keeps_out : (hostOps1_8 : List (HloOp τ sig (Elt F))).Forall fun op => Proc.devRef .tc main_v0 ∉ op.writes := by
  unfold hostOps1_8; no_write
theorem hostOps1_9_keeps_arg : (hostOps1_9 : List (HloOp τ sig (Elt F))).Forall fun op => Proc.devRef .tc main_arg0 ∉ op.writes := by
  unfold hostOps1_9; no_write
theorem hostOps1_9_keeps_out : (hostOps1_9 : List (HloOp τ sig (Elt F))).Forall fun op => Proc.devRef .tc main_v0 ∉ op.writes := by
  unfold hostOps1_9; no_write
theorem hostOps1_10_keeps_arg : (hostOps1_10 : List (HloOp τ sig (Elt F))).Forall fun op => Proc.devRef .tc main_arg0 ∉ op.writes := by
  unfold hostOps1_10; no_write
theorem hostOps1_10_keeps_out : (hostOps1_10 : List (HloOp τ sig (Elt F))).Forall fun op => Proc.devRef .tc main_v0 ∉ op.writes := by
  unfold hostOps1_10; no_write
theorem hostOps1_11_keeps_arg : (hostOps1_11 : List (HloOp τ sig (Elt F))).Forall fun op => Proc.devRef .tc main_arg0 ∉ op.writes := by
  unfold hostOps1_11; no_write
theorem hostOps1_11_keeps_out : (hostOps1_11 : List (HloOp τ sig (Elt F))).Forall fun op => Proc.devRef .tc main_v0 ∉ op.writes := by
  unfold hostOps1_11; no_write
theorem hostOps1_12_keeps_arg : (hostOps1_12 : List (HloOp τ sig (Elt F))).Forall fun op => Proc.devRef .tc main_arg0 ∉ op.writes := by
  unfold hostOps1_12; no_write
theorem hostOps1_12_keeps_out : (hostOps1_12 : List (HloOp τ sig (Elt F))).Forall fun op => Proc.devRef .tc main_v0 ∉ op.writes := by
  unfold hostOps1_12; no_write
theorem hostOps1_13_keeps_arg : (hostOps1_13 : List (HloOp τ sig (Elt F))).Forall fun op => Proc.devRef .tc main_arg0 ∉ op.writes := by
  unfold hostOps1_13; no_write
theorem hostOps1_13_keeps_out : (hostOps1_13 : List (HloOp τ sig (Elt F))).Forall fun op => Proc.devRef .tc main_v0 ∉ op.writes := by
  unfold hostOps1_13; no_write
theorem hostOps1_14_keeps_arg : (hostOps1_14 : List (HloOp τ sig (Elt F))).Forall fun op => Proc.devRef .tc main_arg0 ∉ op.writes := by
  unfold hostOps1_14; no_write
theorem hostOps1_14_keeps_out : (hostOps1_14 : List (HloOp τ sig (Elt F))).Forall fun op => Proc.devRef .tc main_v0 ∉ op.writes := by
  unfold hostOps1_14; no_write
theorem hostOps1_15_keeps_arg : (hostOps1_15 : List (HloOp τ sig (Elt F))).Forall fun op => Proc.devRef .tc main_arg0 ∉ op.writes := by
  unfold hostOps1_15; no_write
theorem hostOps1_15_keeps_out : (hostOps1_15 : List (HloOp τ sig (Elt F))).Forall fun op => Proc.devRef .tc main_v0 ∉ op.writes := by
  unfold hostOps1_15; no_write

theorem arrRef_cases (w : Fin 2) : Pipeline.arrRef spec0 w = main_arg0 ∨ Pipeline.arrRef spec0 w = main_v0 := by
  fin_cases w
  · exact Or.inl rfl
  · exact Or.inr rfl

theorem sfx_keeps : ∀ ops ∈ (tail : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with hw | hw <;> rw [hw]
  · rcases hops with rfl | rfl | rfl | rfl | rfl | rfl | rfl | rfl | rfl | rfl | rfl | rfl | rfl | rfl | rfl | rfl
    · exact (List.forall_iff_forall_mem.mp hostOps1_keeps_arg) op hop
    · exact (List.forall_iff_forall_mem.mp hostOps1_1_keeps_arg) op hop
    · exact (List.forall_iff_forall_mem.mp hostOps1_2_keeps_arg) op hop
    · exact (List.forall_iff_forall_mem.mp hostOps1_3_keeps_arg) op hop
    · exact (List.forall_iff_forall_mem.mp hostOps1_4_keeps_arg) op hop
    · exact (List.forall_iff_forall_mem.mp hostOps1_5_keeps_arg) op hop
    · exact (List.forall_iff_forall_mem.mp hostOps1_6_keeps_arg) op hop
    · exact (List.forall_iff_forall_mem.mp hostOps1_7_keeps_arg) op hop
    · exact (List.forall_iff_forall_mem.mp hostOps1_8_keeps_arg) op hop
    · exact (List.forall_iff_forall_mem.mp hostOps1_9_keeps_arg) op hop
    · exact (List.forall_iff_forall_mem.mp hostOps1_10_keeps_arg) op hop
    · exact (List.forall_iff_forall_mem.mp hostOps1_11_keeps_arg) op hop
    · exact (List.forall_iff_forall_mem.mp hostOps1_12_keeps_arg) op hop
    · exact (List.forall_iff_forall_mem.mp hostOps1_13_keeps_arg) op hop
    · exact (List.forall_iff_forall_mem.mp hostOps1_14_keeps_arg) op hop
    · exact (List.forall_iff_forall_mem.mp hostOps1_15_keeps_arg) op hop
  · rcases hops with rfl | rfl | rfl | rfl | rfl | rfl | rfl | rfl | rfl | rfl | rfl | rfl | rfl | rfl | rfl | rfl
    · exact (List.forall_iff_forall_mem.mp hostOps1_keeps_out) op hop
    · exact (List.forall_iff_forall_mem.mp hostOps1_1_keeps_out) op hop
    · exact (List.forall_iff_forall_mem.mp hostOps1_2_keeps_out) op hop
    · exact (List.forall_iff_forall_mem.mp hostOps1_3_keeps_out) op hop
    · exact (List.forall_iff_forall_mem.mp hostOps1_4_keeps_out) op hop
    · exact (List.forall_iff_forall_mem.mp hostOps1_5_keeps_out) op hop
    · exact (List.forall_iff_forall_mem.mp hostOps1_6_keeps_out) op hop
    · exact (List.forall_iff_forall_mem.mp hostOps1_7_keeps_out) op hop
    · exact (List.forall_iff_forall_mem.mp hostOps1_8_keeps_out) op hop
    · exact (List.forall_iff_forall_mem.mp hostOps1_9_keeps_out) op hop
    · exact (List.forall_iff_forall_mem.mp hostOps1_10_keeps_out) op hop
    · exact (List.forall_iff_forall_mem.mp hostOps1_11_keeps_out) op hop
    · exact (List.forall_iff_forall_mem.mp hostOps1_12_keeps_out) op hop
    · exact (List.forall_iff_forall_mem.mp hostOps1_13_keeps_out) op hop
    · exact (List.forall_iff_forall_mem.mp hostOps1_14_keeps_out) op hop
    · exact (List.forall_iff_forall_mem.mp hostOps1_15_keeps_out) op hop

/-- The region finds the points array as launched. -/
theorem V_main_arg0 (c : Dev nD) : V m c main_arg0 = m ((c : Thread nD τ).loc main_arg0) := rfl

theorem tail_keeps_arg : ∀ op ∈ (tail : List (List (HloOp τ sig (Elt F)))).flatten, Proc.devRef .tc main_arg0 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps1_keeps_arg) op hop
  · exact (List.forall_iff_forall_mem.mp hostOps1_1_keeps_arg) op hop
  · exact (List.forall_iff_forall_mem.mp hostOps1_2_keeps_arg) op hop
  · exact (List.forall_iff_forall_mem.mp hostOps1_3_keeps_arg) op hop
  · exact (List.forall_iff_forall_mem.mp hostOps1_4_keeps_arg) op hop
  · exact (List.forall_iff_forall_mem.mp hostOps1_5_keeps_arg) op hop
  · exact (List.forall_iff_forall_mem.mp hostOps1_6_keeps_arg) op hop
  · exact (List.forall_iff_forall_mem.mp hostOps1_7_keeps_arg) op hop
  · exact (List.forall_iff_forall_mem.mp hostOps1_8_keeps_arg) op hop
  · exact (List.forall_iff_forall_mem.mp hostOps1_9_keeps_arg) op hop
  · exact (List.forall_iff_forall_mem.mp hostOps1_10_keeps_arg) op hop
  · exact (List.forall_iff_forall_mem.mp hostOps1_11_keeps_arg) op hop
  · exact (List.forall_iff_forall_mem.mp hostOps1_12_keeps_arg) op hop
  · exact (List.forall_iff_forall_mem.mp hostOps1_13_keeps_arg) op hop
  · exact (List.forall_iff_forall_mem.mp hostOps1_14_keeps_arg) op hop
  · exact (List.forall_iff_forall_mem.mp hostOps1_15_keeps_arg) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: the points array is the input window's array, which ends at its
    region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## What the body leaves in the output window's buffer -/

abbrev r0_0 : Rect S8000x4 := Rect.unit (s := S8000x4) ![0, 0] S8000x4.size inb_S8000x4_S8000x4_0_0

/-- The body's value from its input block: the four columns (z, y, x voxel coordinates and the flat id) side by side. -/
def bodyVal (x : Vec F S8000x4 .f32) : IVec S8000x4 32 :=
  k0_pay1 (k0_pay2 x) (k0_pay3 x) (k0_pay4 x) (k0_pay5 x) (k0_pay6 x)

/-- The output window's staging buffer after the body: its one whole-block store. -/
def out0_1 (x0 : Vec F S8000x4 .f32) : Vec F S8000x4 .i32 :=
  View.canon [⟨r0_0, bodyVal (View.ld x0 r0_0)⟩]

theorem cover0_1 (p0 : Vec F S8000x4 .i32) (y : S8000x4.Idx) :
    ∃ pc ∈ ([⟨r0_0, p0⟩] : List (View.Piece (Elt F) S8000x4 .i32)), y ∈ pc.1.set :=
  View.cover_of_tiled [⟨r0_0, p0⟩] S8000x4.size (by rfl) y

/-! ## The body's triple -/

set_option maxHeartbeats 1000000 in
/-- The body on whole staging memrefs — the input's at contents `x0`, the output's at anything — runs to the continuation
    holding the input's as it was and the output's at `out0_1 x0`. -/
theorem sound_kernel (c : Dev nD) (E : Set ℕ) (i : grid0.Coords) (arg1 : Memref sig .tc .vmem S8000x4 .f32) (harg1 : arg1.IsWhole) (arg2 : Memref sig .tc .vmem S8000x4 .i32) (harg2 : arg2.IsWhole)
    (x0 : Vec F S8000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bucket_kernel i arg1 harg1 arg2 harg2) K := by
  simp only [cc0__bucket_kernel_eq_skeleton]; unfold cc0__bucket_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's two arrays end at what the proof data compute, every
    other unscoped buffer as the later host operations leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim: the points array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Fr

end
-- ==== Proof.KIBody.lean ====
/-
  The bucketing kernel's arithmetic, read row by row. A block is 8000 rows of four floats; row r of the result block
  holds, in this order, the z, y and x voxel coordinates of the point in row r — each ⌊(p − lo)/size⌋ converted to a
  signed 32-bit integer — and the flat voxel id (x·1600 + y)·40 + z when all three coordinates lie in the grid
  1408 × 1600 × 40, the sentinel 90112000 otherwise. Every entry of row r depends on row r of the input block only.
-/
import proofs.«163751_j5892695130408_2_alg».proof.Proof.Gen.KernelIdeal.Skeleton
import Idealize.ShloMosaic.Lib.Pipeline.Value
import Idealize.ShloMosaic.Lib.ValueIdx

noncomputable section

namespace Cert.KernelIdeal.Bd

open Cert.KernelIdeal Cert.KernelIdeal.Gen Idealize.ShloMosaic Idealize.ShloMosaic.ValueIdx

variable {F : FTy → Type} [FloatOps F]

/-- One voxel coordinate of a point: ⌊(p − lo)/size⌋ as a signed 32-bit integer (lo and size given by their words). -/
def vox (lo vs : BitVec 32) (p : F .f32) : BitVec 32 :=
  FloatOps.fptosi 32 (FloatOps.floor (FloatOps.divf (FloatOps.subf p (Scalar.ofBits .f32 lo)) (Scalar.ofBits .f32 vs)))

/-- All three coordinates inside the grid: 0 ≤ a < 1408, 0 ≤ b < 1600, 0 ≤ c < 40, as one bit. -/
def inGrid (a b c : BitVec 32) : BitVec 1 :=
  IntOp.andi (IntOp.andi (IntOp.andi (IntOp.andi (IntOp.andi (IntOp.cmpi .sge a 0#32) (IntOp.cmpi .slt a 1408#32))
    (IntOp.cmpi .sge b 0#32)) (IntOp.cmpi .slt b 1600#32)) (IntOp.cmpi .sge c 0#32)) (IntOp.cmpi .slt c 40#32)

/-- The flat voxel id (a·1600 + b)·40 + c of in-grid coordinates, the sentinel 90112000 otherwise. -/
def flatId (a b c : BitVec 32) : BitVec 32 :=
  Scalar.select (inGrid a b c) (IntOp.addi (IntOp.muli (IntOp.addi (IntOp.muli a 1600#32) b) 40#32) c) 90112000#32

/-- The result row of a point (p0, p1, p2, ·): z, y, x coordinates and the flat id. -/
def rowOf (p0 p1 p2 : F .f32) : Fin 4 → BitVec 32 :=
  ![vox 0xC0400000#32 0x3DCCCCCD#32 p2, vox 0xC2200000#32 0x3D4CCCCD#32 p1, vox 0x00000000#32 0x3D4CCCCD#32 p0,
    flatId (vox 0x00000000#32 0x3D4CCCCD#32 p0) (vox 0xC2200000#32 0x3D4CCCCD#32 p1) (vox 0xC0400000#32 0x3DCCCCCD#32 p2)]

/-- Column k of a block, taken as a slice [8000,1] and flattened to [8000], read at row r. -/
theorem col_apply (xb : Vec F S8000x4 .f32) (k : Fin 4) (off : Fin 2 → Nat) (hoff : off = ![0, k.val])
    (h1 : S8000x4.Slices off S8000x1) (h2 : S8000x1.ShapeCasts S8000) (r : Fin 8000) :
    shapeCast S8000 (extractStridedSlice S8000x1 off xb h1) h2 (ix1 r) = xb (ix2 r k) := by
  rw [shapeCast_apply _ h2 (ix1 r) (ix2 r (0 : Fin 1)) (by rw [Shape.rowMajor_val_two, Shape.rowMajor_val_one]; simp)]
  refine extractStridedSlice_apply off xb h1 (ix2 r (0 : Fin 1)) (ix2 r k) (fun a => ?_)
  subst hoff
  match a with
  | ⟨0, _⟩ => simp
  | ⟨1, _⟩ => simp

theorem pay2_apply (xb : Vec F S8000x4 .f32) (r : Fin 8000) :
    k0_pay2 xb (ix1 r) = vox 0x00000000#32 0x3D4CCCCD#32 (xb (ix2 r 0)) := by
  unfold k0_pay2 vox
  show FloatOps.fptosi 32 (FloatOps.floor (FloatOps.divf (FloatOps.subf (shapeCast S8000 (extractStridedSlice S8000x1 ![0, 0] xb _) _ (ix1 r)) _) _)) = _
  rw [col_apply xb 0 ![0, 0] rfl]
  rfl

theorem pay3_apply (xb : Vec F S8000x4 .f32) (r : Fin 8000) :
    k0_pay3 xb (ix1 r) = vox 0xC2200000#32 0x3D4CCCCD#32 (xb (ix2 r 1)) := by
  unfold k0_pay3 vox
  show FloatOps.fptosi 32 (FloatOps.floor (FloatOps.divf (FloatOps.subf (shapeCast S8000 (extractStridedSlice S8000x1 ![0, 1] xb _) _ (ix1 r)) _) _)) = _
  rw [col_apply xb 1 ![0, 1] rfl]
  rfl

theorem pay4_apply (xb : Vec F S8000x4 .f32) (r : Fin 8000) :
    k0_pay4 xb (ix1 r) = vox 0xC0400000#32 0x3DCCCCCD#32 (xb (ix2 r 2)) := by
  unfold k0_pay4 vox
  show FloatOps.fptosi 32 (FloatOps.floor (FloatOps.divf (FloatOps.subf (shapeCast S8000 (extractStridedSlice S8000x1 ![0, 2] xb _) _ (ix1 r)) _) _)) = _
  rw [col_apply xb 2 ![0, 2] rfl]
  rfl

theorem pay5_apply (xb : Vec F S8000x4 .f32) (r : Fin 8000) :
    k0_pay5 xb (ix1 r) = inGrid (k0_pay2 xb (ix1 r)) (k0_pay3 xb (ix1 r)) (k0_pay4 xb (ix1 r)) := rfl

theorem pay6_apply (xb : Vec F S8000x4 .f32) (r : Fin 8000) :
    k0_pay6 xb (ix1 r) = IntOp.muli (k0_pay2 xb (ix1 r)) 1600#32 := rfl

/-- A flat vector laid out as a column [8000,1], read at row r. -/
theorem asCol_apply {α : Type} (v : S8000.Idx → α) (h : S8000.ShapeCasts S8000x1) (r : Fin 8000) :
    shapeCast S8000x1 v h (ix2 r (0 : Fin 1)) = v (ix1 r) :=
  shapeCast_apply v h (ix2 r (0 : Fin 1)) (ix1 r) (by rw [Shape.rowMajor_val_two, Shape.rowMajor_val_one]; simp)

/-- The body's value: the four columns side by side. -/
def bodyVal (x : Vec F S8000x4 .f32) : IVec S8000x4 32 :=
  k0_pay1 (k0_pay2 x) (k0_pay3 x) (k0_pay4 x) (k0_pay5 x) (k0_pay6 x)

/-- Four columns [8000,1] laid side by side, read at (r, j): column j at row r. -/
theorem concat4_apply {α : Type} (v0 v1 v2 v3 : S8000x1.Idx → α)
    (h : Shape.Concatenates (([⟨S8000x1, v0⟩, ⟨S8000x1, v1⟩, ⟨S8000x1, v2⟩, ⟨S8000x1, v3⟩] : List ((s : Shape) × (s.Idx → α))).map (·.1)) S8000x4 1)
    (r : Fin 8000) (j : Fin 4) :
    concatenate S8000x4 1 [⟨S8000x1, v0⟩, ⟨S8000x1, v1⟩, ⟨S8000x1, v2⟩, ⟨S8000x1, v3⟩] h (ix2 r j)
      = (match j with | ⟨0, _⟩ => v0 | ⟨1, _⟩ => v1 | ⟨2, _⟩ => v2 | ⟨3, _⟩ => v3) (ix2 r (0 : Fin 1)) := by
  have hb : ∀ (jj : Fin 4) (b : Fin 2), b.cast (rfl : S8000x1.rank = S8000x4.rank) ≠ (1 : Fin 2) →
      ((ix2 r (0 : Fin 1) : S8000x1.Idx) b).val = ((ix2 r jj : S8000x4.Idx) (b.cast rfl)).val := by
    intro jj b hb
    match b with
    | ⟨0, _⟩ => rfl
    | ⟨1, _⟩ => exact absurd rfl hb
  match j with
  | ⟨0, _⟩ =>
    exact concatenate_apply_piece (1 : Fin 2) [⟨S8000x1, v0⟩, ⟨S8000x1, v1⟩, ⟨S8000x1, v2⟩, ⟨S8000x1, v3⟩] h (ix2 r (0 : Fin 4)) 0 (by show (0 : Nat) < 4; decide) S8000x1 v0 rfl rfl 0 rfl
      (ix2 r (0 : Fin 1)) (hb 0) rfl
  | ⟨1, _⟩ =>
    exact concatenate_apply_piece (1 : Fin 2) [⟨S8000x1, v0⟩, ⟨S8000x1, v1⟩, ⟨S8000x1, v2⟩, ⟨S8000x1, v3⟩] h (ix2 r (1 : Fin 4)) 1 (by show (1 : Nat) < 4; decide) S8000x1 v1 rfl rfl 1 rfl
      (ix2 r (0 : Fin 1)) (hb 1) rfl
  | ⟨2, _⟩ =>
    exact concatenate_apply_piece (1 : Fin 2) [⟨S8000x1, v0⟩, ⟨S8000x1, v1⟩, ⟨S8000x1, v2⟩, ⟨S8000x1, v3⟩] h (ix2 r (2 : Fin 4)) 2 (by show (2 : Nat) < 4; decide) S8000x1 v2 rfl rfl 2 rfl
      (ix2 r (0 : Fin 1)) (hb 2) rfl
  | ⟨3, _⟩ =>
    exact concatenate_apply_piece (1 : Fin 2) [⟨S8000x1, v0⟩, ⟨S8000x1, v1⟩, ⟨S8000x1, v2⟩, ⟨S8000x1, v3⟩] h (ix2 r (3 : Fin 4)) 3 (by show (3 : Nat) < 4; decide) S8000x1 v3 rfl rfl 3 rfl
      (ix2 r (0 : Fin 1)) (hb 3) rfl

/-- Row r of the body's value is the result row of the point in row r of the block. -/
theorem bodyVal_apply (xb : Vec F S8000x4 .f32) (r : Fin 8000) (j : Fin 4) :
    bodyVal xb (ix2 r j) = rowOf (xb (ix2 r 0)) (xb (ix2 r 1)) (xb (ix2 r 2)) j := by
  unfold bodyVal k0_pay1
  refine (concat4_apply _ _ _ _ _ r j).trans ?_
  match j with
  | ⟨0, _⟩ => dsimp only; rw [asCol_apply, pay4_apply]; rfl
  | ⟨1, _⟩ => dsimp only; rw [asCol_apply, pay3_apply]; rfl
  | ⟨2, _⟩ => dsimp only; rw [asCol_apply, pay2_apply]; rfl
  | ⟨3, _⟩ =>
    dsimp only
    rw [asCol_apply]
    show Scalar.select (k0_pay5 xb (ix1 r)) (IntOp.addi (IntOp.muli (IntOp.addi (k0_pay6 xb (ix1 r)) (k0_pay3 xb (ix1 r))) 40#32) (k0_pay4 xb (ix1 r))) 90112000#32 = _
    rw [pay5_apply, pay6_apply, pay2_apply, pay3_apply, pay4_apply]; rfl

end Cert.KernelIdeal.Bd

end
-- ==== Proof.KIBlocks.lean ====
/-
  From blocks to the whole array. Grid point t of the 500 writes rows 8000·t … 8000·t + 7999 of the kernel's result,
  computed from the same rows of the points array; the 500 blocks tile the 4,000,000 rows, so after the launch the
  result array is ONE function of the points array: row i is the result row of point i.
-/
import proofs.«163751_j5892695130408_2_alg».proof.Proof.KIFrame
import proofs.«163751_j5892695130408_2_alg».proof.Proof.KIBody

set_option maxRecDepth 16384

noncomputable section

namespace Cert.KernelIdeal.Bl

open Cert.KernelIdeal Cert.KernelIdeal.Gen Cert.KernelIdeal.Fr Cert.KernelIdeal.Bd
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ) (ρ : Dev nD → PrngReg)

/-- The kernel's result as a function of the points array: row i is the result row of point i. -/
def G (x : S4000000x4.Idx → F .f32) : S4000000x4.Idx → BitVec 32 := fun i =>
  rowOf (x (ix2 (n0 := 4000000) (i 0) (0 : Fin 4))) (x (ix2 (n0 := 4000000) (i 0) (1 : Fin 4))) (x (ix2 (n0 := 4000000) (i 0) (2 : Fin 4))) (i 1)

theorem hz : (![0, 0] : Fin 2 → Nat) = fun _ => 0 := funext fun a => by fin_cases a <;> rfl

/-- The printed index maps over the grid: both windows' block t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row (jj 0) of a block's value against the array function at an index e with the same column, when the block's row
    is the array's row e 0. -/
theorem row_fact (xb : Vec F S8000x4 .f32) (X : S4000000x4.Idx → F .f32) (jj : S8000x4.Idx) (e : S4000000x4.Idx)
    (he0 : ∀ (r : Fin 8000) (k : Fin 4), r.val = (jj 0).val → xb (ix2 r k) = X (ix2 (n0 := 4000000) (e 0) k))
    (he1 : (e 1).val = (jj 1).val) :
    Bd.bodyVal xb jj = G X e := by
  obtain ⟨r, k, rfl⟩ : ∃ (r : Fin 8000) (k : Fin 4), jj = ix2 r k := ⟨jj 0, jj 1, eq_ix2 jj⟩
  rw [bodyVal_apply]
  unfold G
  rw [he0 r 0 rfl, he0 r 1 rfl, he0 r 2 rfl]
  exact congrArg _ (Fin.ext he1.symm)

/-- What point t writes back is block t of `G` of the points array as the region finds it. -/
theorem flushed_eq (c : Dev nD) (t : Fin cfg0.N) :
    (dats m 0 c).flushed 1 t = ((cfg0.win 1).blk t).view.read (Elt F) (G (V m c main_arg0)) := by
  show (cfg0.win 1).cut (grid0.coords t) ((dats m 0 c).after 1 t) = _
  rw [after0_1]
  unfold out0_1
  rw [View.canon_unit_zero hz]
  simp only [View.ld_unit_zero (S := S8000x4) hz]
  obtain ⟨e0, e1, e2, e3⟩ := idx_facts t
  funext j
  refine row_fact (iblk m c 0 t) (V m c main_arg0) j (((cfg0.win 1).blk t).view.emb j) (fun r k hr => ?_) ?_
  · show V m c main_arg0 (((cfg0.win 0).blk t).view.emb (ix2 r k)) = _
    refine congrArg _ (funext fun a => Fin.ext ?_)
    match a with
    | ⟨0, _⟩ => show win0_0.index t (0 : Fin 2) * 8000 + 1 * r.val = win0_1.index t (0 : Fin 2) * 8000 + 1 * (j 0).val; omega
    | ⟨1, _⟩ => show win0_0.index t (1 : Fin 2) * 4 + 1 * k.val = k.val; omega
  · show win0_1.index t (1 : Fin 2) * 4 + 1 * (j 1).val = (j 1).val; omega

/-- An index of the array is in point t's block iff each coordinate is in the block's range. -/
theorem mem_blk (t : Fin cfg0.N) (i : S4000000x4.Idx) :
    i ∈ ((cfg0.win 1).blk t).view.set ↔ ∀ a : Fin 2, win0_1.index t a * S8000x4.size a ≤ (i a).val ∧ (i a).val < win0_1.index t a * S8000x4.size a + S8000x4.size a := by
  show i ∈ ((View.whole main_v0).slice (win0_1.rect t)).set ↔ _
  rw [View.set_slice_whole, Rect.mem_set_unit]
  exact Iff.rfl

/-- Every row lies in some point's block: row i in block i / 8000. -/
theorem cover (i : S4000000x4.Idx) : ∃ t : Fin cfg0.N, (cfg0.win 1).flush t = true ∧ i ∈ ((cfg0.win 1).blk t).view.set := by
  have hi0 : (i 0).val < 4000000 := (i 0).isLt
  have hi1 : (i 1).val < 4 := (i 1).isLt
  have hN : cfg0.N = 500 := N_0
  let t : Fin cfg0.N := ⟨(i 0).val / 8000, by rw [hN]; omega⟩
  obtain ⟨e0, e1, e2, e3⟩ := idx_facts t
  refine ⟨t, flush0_1 t, ?_⟩
  rw [mem_blk]
  intro a
  have ht : t.val = (i 0).val / 8000 := rfl
  match a with
  | ⟨0, _⟩ => show win0_1.index t (0 : Fin 2) * 8000 ≤ (i 0).val ∧ (i 0).val < win0_1.index t (0 : Fin 2) * 8000 + 8000; omega
  | ⟨1, _⟩ => show win0_1.index t (1 : Fin 2) * 4 ≤ (i 1).val ∧ (i 1).val < win0_1.index t (1 : Fin 2) * 4 + 4; omega

/-- The kernel's result array after the launch. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

end Cert.KernelIdeal.Bl

end
-- ==== Proof.KIValue.lean ====
/-
  The kernel program's run, read: after the launch the later host operations run from a valuation that holds the points
  array as launched and the kernel's result array at its whole-array function `G` of the points array; each of @main's
  four results ends as the fold of those operations over that valuation, and the points array ends as launched.
-/
import proofs.«163751_j5892695130408_2_alg».proof.Proof.KIBlocks

set_option maxRecDepth 16384

noncomputable section

namespace Cert.KernelIdeal.Vl

open Cert.KernelIdeal Cert.KernelIdeal.Gen Cert.KernelIdeal.Fr Cert.KernelIdeal.Bl
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- What the later host operations start from on core c: every buffer as launched, the pipeline's two arrays as the
    launch leaves them. -/
def W (c : Dev nD) : Valuation τ sig (Elt F) :=
  Pipeline.withArrays spec0 c (V0 m c) fun w => (dats m 0 c).arrAt w cfg0.N

/-- The points array there is as launched. -/
theorem W_arg0 (c : Dev nD) : W m c (Proc.devRef .tc main_arg0) = m ((c : Thread nD τ).loc main_arg0) := by
  unfold W
  refine (Pipeline.withArrays_arr spec0 launch0.win.arr_inj c _ _ 0).trans ?_
  exact ((dats m 0 c).arrAt_in 0 rfl _).trans ((A_eq m c 0).trans (V_main_arg0 m c))

/-- The kernel's result array there is `G` of the points array. -/
theorem W_out (c : Dev nD) : W m c (Proc.devRef .tc main_v0) = G (m ((c : Thread nD τ).loc main_arg0)) := by
  unfold W
  exact (Pipeline.withArrays_arr spec0 launch0.win.arr_inj c _ _ 1).trans (final m c)

/-- A result buffer after the run: the later operations folded over `W`. -/
theorem tail_eq (c : Dev nD) (b : Ref sig .tc) :
    Pipeline.afterTail₀ cfgs (dats m) 0 (V0 m) tail c b = StableHlo.after (tail (F := F)).flatten (W m c) (Proc.devRef .tc b) := rfl

/-- The run: each result at the fold of the later operations over `W`, the points array unchanged. -/
theorem run : θ_run defs (onTc (τ := τ) (main (F := F))) ⟨m, fun _ => 0, ρ⟩ fun r => ∀ c : Dev nD,
      r.2.mem ((c.tc : Thread nD τ).loc main_v96) = StableHlo.after (tail (F := F)).flatten (W m c) (Proc.devRef .tc main_v96)
      ∧ r.2.mem ((c.tc : Thread nD τ).loc main_v113) = StableHlo.after (tail (F := F)).flatten (W m c) (Proc.devRef .tc main_v113)
      ∧ r.2.mem ((c.tc : Thread nD τ).loc main_v105) = StableHlo.after (tail (F := F)).flatten (W m c) (Proc.devRef .tc main_v105)
      ∧ r.2.mem ((c.tc : Thread nD τ).loc main_v117) = StableHlo.after (tail (F := F)).flatten (W m c) (Proc.devRef .tc main_v117)
      ∧ r.2.mem ((c.tc : Thread nD τ).loc main_arg0) = m ((c.tc : Thread nD τ).loc main_arg0) :=
  (θ_run defs _ _).mono (fun _ h c =>
    ⟨((h c).2 main_v96 (Pipeline.mem_restRefs_of main_v96 (by decide) (by decide))).trans (tail_eq m c main_v96),
     ((h c).2 main_v113 (Pipeline.mem_restRefs_of main_v113 (by decide) (by decide))).trans (tail_eq m c main_v113),
     ((h c).2 main_v105 (Pipeline.mem_restRefs_of main_v105 (by decide) (by decide))).trans (tail_eq m c main_v105),
     ((h c).2 main_v117 (Pipeline.mem_restRefs_of main_v117 (by decide) (by decide))).trans (tail_eq m c main_v117),
     ((h c).1 0).trans (((dats m 0 c).arrAt_in 0 rfl _).trans ((A_eq m c 0).trans (V_main_arg0 m c)))⟩)
    (run_main m ρ)

end Cert.KernelIdeal.Vl

end
-- ==== Proof.KITailDefs.lean ====
/-
  The host tail of `KernelIdeal`'s @main, read as named pure functions. The tail starts from two arrays — the points
  `x : f32[4000000,4]` and the kernel's result `o : i32[4000000,4]` (columns: the z, y, x voxel coordinates and the flat
  voxel id of each point) — and everything but the final scatters' payloads is a function of the flat-id column alone.
  One definition per stage of the computation, each a small term over the earlier stages, spelt with the same
  operations, dimension records and side conditions as the program's host operations:

    czOf, cyOf, cxOf, flatOf   the four columns of `o` as vectors
    perm       the stable argsort of the flat ids            sf        the sorted flat ids
    pos        the positions 0 … 3999999                      new       1 where a sorted id differs from its predecessor
    seg        the segment number of each sorted position     start     the position where its segment starts
    rank       the position inside the segment                segValid  whether the sorted id is a real voxel id
    segFirst   per segment, the smallest original index of a valid member (else 4000000)
    order      the argsort of segFirst                        slotOfSeg the inverse of `order`: each segment's output slot
    slot       each sorted position's output slot             keep      valid, slot < 20000 and rank < 35
    s, r       the kept positions' slot and rank (else 20000, 0)
    czyx       the three coordinate columns side by side      UK        its rows in sorted order
    pointsPerm the points in sorted order
    TV, TN, TC, TM   the four results: voxels, points per voxel, voxel coordinates, number of voxels.
-/
import proofs.«163751_j5892695130408_2_alg».proof.Proof.Gen.KernelIdeal

noncomputable section

namespace Cert.KernelIdeal.Tl

open Cert.KernelIdeal Cert.KernelIdeal.Gen Idealize.ShloMosaic Idealize.SL.Sem

variable {F : FTy → Type} [FloatOps F]

/-! ## The columns of the kernel's result -/

/-- Column 0 of the kernel's result: the z voxel coordinate of each point. -/
def czOf (o : IVec S4000000x4 32) : IVec S4000000 32 :=
  shapeCast S4000000 (extractStridedSlice S4000000x1 ![0, 0] o slices_S4000000x4_S4000000x1_0_0) shapeCasts_S4000000x1_S4000000
/-- Column 1: the y voxel coordinate. -/
def cyOf (o : IVec S4000000x4 32) : IVec S4000000 32 :=
  shapeCast S4000000 (extractStridedSlice S4000000x1 ![0, 1] o slices_S4000000x4_S4000000x1_0_1) shapeCasts_S4000000x1_S4000000
/-- Column 2: the x voxel coordinate. -/
def cxOf (o : IVec S4000000x4 32) : IVec S4000000 32 :=
  shapeCast S4000000 (extractStridedSlice S4000000x1 ![0, 2] o slices_S4000000x4_S4000000x1_0_2) shapeCasts_S4000000x1_S4000000
/-- Column 3: the flat voxel id. -/
def flatOf (o : IVec S4000000x4 32) : IVec S4000000 32 :=
  shapeCast S4000000 (extractStridedSlice S4000000x1 ![0, 3] o slices_S4000000x4_S4000000x1_0_3) shapeCasts_S4000000x1_S4000000

/-! ## Index plumbing -/

/-- An index vector with its negative entries moved up by `n` (the wrap-around of a negative index into an axis of extent `n`). -/
def wrap (n : BitVec 32) (p : IVec S4000000 32) : IVec S4000000 32 :=
  select (cmpi .slt p (broadcastInDim S4000000 ![] bcast_S_S4000000 (constantI S_ 32 0#32)))
    (addi p (broadcastInDim S4000000 ![] bcast_S_S4000000 (constantI S_ 32 n))) p
/-- A vector laid out as one column, [4000000] → [4000000,1]. -/
def col (p : IVec S4000000 32) : IVec S4000000x1 32 :=
  broadcastInDim S4000000x1 ![0] bcast_S4000000_S4000000x1_0 p
/-- An index vector into an axis of extent 4000000, wrapped and laid out as the index column of a gather or scatter. -/
def wrapCol (p : IVec S4000000 32) : IVec S4000000x1 32 := col (wrap 4000000#32 p)

/-! ## The stages that depend on the flat ids alone -/

/-- The positions 0 … 3999999. -/
def pos : IVec S4000000 32 := iotaInDim S4000000 32 0

/-- The stable argsort of the flat ids. -/
def perm (flat : IVec S4000000 32) : IVec S4000000 32 :=
  (Host.sort2 S4000000 0 comparator_i32_i32_d0 flat (iotaInDim S4000000 32 0)).2

/-- The flat ids in sorted order. -/
def sf (flat : IVec S4000000 32) : IVec S4000000 32 :=
  Host.gather gather_S4000000_S4000000x1_S4000000_n_0_n_n_0_1_1 flat (wrapCol (perm flat))

/-- 1 at position 0 and wherever a sorted id differs from the one before it. -/
def new (flat : IVec S4000000 32) : IVec S4000000 1 :=
  concatenate S4000000 0
    [⟨S1, broadcastInDim S1 ![] bcast_S_S1 (constantI S_ 1 1#1)⟩,
     ⟨S3999999, cmpi .ne (extractStridedSlice S3999999 ![1] (sf flat) slices_S4000000_S3999999_1)
        (extractStridedSlice S3999999 ![0] (sf flat) slices_S4000000_S3999999_0)⟩]
    concatenates_S1_S3999999_S4000000_d0

/-- The segment number of each sorted position: the running count of `new`, less one. -/
def seg (flat : IVec S4000000 32) : IVec S4000000 32 :=
  subi
    (Host.reduceWindow IntOp.addi ![4000000] ![1] ![3999999] ![0] (extui 32 (new flat) natLt_1_32)
      (broadcastInDim S_ ![] bcast_S_S_ (constantI S_ 32 0#32)) reduceWindows_S4000000_S4000000_w4000000s1p3999999_0 h_S_)
    (broadcastInDim S4000000 ![] bcast_S_S4000000 (constantI S_ 32 1#32))

/-- The position at which each sorted position's segment starts: the running maximum of the segment starts' positions. -/
def start (flat : IVec S4000000 32) : IVec S4000000 32 :=
  Host.reduceWindow IntOp.maxsi ![4000000] ![1] ![3999999] ![0]
    (select (new flat) pos (broadcastInDim S4000000 ![] bcast_S_S4000000 (id (constantI S_ 32 0#32))))
    (broadcastInDim S_ ![] bcast_S_S_ (constantI S_ 32 2147483648#32)) reduceWindows_S4000000_S4000000_w4000000s1p3999999_0 h_S_

/-- The position of each sorted position inside its segment. -/
def rank (flat : IVec S4000000 32) : IVec S4000000 32 := subi pos (start flat)

/-- Whether the sorted id is a real voxel id (below the grid's 90112000 cells). -/
def segValid (flat : IVec S4000000 32) : IVec S4000000 1 :=
  cmpi .slt (sf flat) (broadcastInDim S4000000 ![] bcast_S_S4000000 (constantI S_ 32 90112000#32))

/-- Per segment, the smallest original index among its valid members; 4000000 where there is none. -/
def segFirst (flat : IVec S4000000 32) : IVec S4000000 32 :=
  Host.scatter scatter_S4000000_S4000000x1_S4000000_n_0_0_1 IntOp.minsi
    (broadcastInDim S4000000 ![] bcast_S_S4000000 (constantI S_ 32 4000000#32))
    (wrapCol (seg flat))
    (select (segValid flat) (perm flat) (broadcastInDim S4000000 ![] bcast_S_S4000000 (id (constantI S_ 32 4000000#32))))

/-- The stable argsort of `segFirst`: the segments in order of first appearance. -/
def order (flat : IVec S4000000 32) : IVec S4000000 32 :=
  (Host.sort2 S4000000 0 comparator_i32_i32_d0 (segFirst flat) (iotaInDim S4000000 32 0)).2

/-- The inverse of `order`: the output slot of each segment. -/
def slotOfSeg (flat : IVec S4000000 32) : IVec S4000000 32 :=
  Host.scatter scatter_S4000000_S4000000x1_S4000000_n_0_0_1 (fun _ b => b)
    (broadcastInDim S4000000 ![] bcast_S_S4000000 (constantI S_ 32 0#32))
    (wrapCol (order flat)) pos

/-- The output slot of each sorted position's segment. -/
def slot (flat : IVec S4000000 32) : IVec S4000000 32 :=
  Host.gather gather_S4000000_S4000000x1_S4000000_n_0_n_n_0_1_1 (slotOfSeg flat) (wrapCol (seg flat))

/-- Whether a sorted position is kept: a real voxel id, among the first 20000 voxels, among the voxel's first 35 points. -/
def keep (flat : IVec S4000000 32) : IVec S4000000 1 :=
  andi
    (andi (segValid flat) (cmpi .slt (slot flat) (broadcastInDim S4000000 ![] bcast_S_S4000000 (constantI S_ 32 20000#32))))
    (cmpi .slt (rank flat) (broadcastInDim S4000000 ![] bcast_S_S4000000 (constantI S_ 32 35#32)))

/-- The voxel slot a sorted position is written to: its slot when kept, else 20000 (out of range: dropped). -/
def s (flat : IVec S4000000 32) : IVec S4000000 32 :=
  select (keep flat) (slot flat) (broadcastInDim S4000000 ![] bcast_S_S4000000 (id (constantI S_ 32 20000#32)))

/-- The row inside the voxel a sorted position is written to: its rank when kept, else 0. -/
def r (flat : IVec S4000000 32) : IVec S4000000 32 :=
  select (keep flat) (rank flat) (broadcastInDim S4000000 ![] bcast_S_S4000000 (id (constantI S_ 32 0#32)))

/-- The slot index column of the three scatters into the 20000 voxels. -/
def sCol (flat : IVec S4000000 32) : IVec S4000000x1 32 := col (wrap 20000#32 (s flat))
/-- The row index column of the voxels scatter. -/
def rCol (flat : IVec S4000000 32) : IVec S4000000x1 32 := col (wrap 35#32 (r flat))

/-- The index column of the two gathers that put rows in sorted order. -/
def idxCol (flat : IVec S4000000 32) : IVec S4000000x1 32 := wrapCol (perm flat)

/-! ## The payloads -/

/-- The three voxel coordinates of each point side by side, [4000000,3]. -/
def czyx (o : IVec S4000000x4 32) : IVec S4000000x3 32 :=
  concatenate S4000000x3 1 [⟨S4000000x1, col (czOf o)⟩, ⟨S4000000x1, col (cyOf o)⟩, ⟨S4000000x1, col (cxOf o)⟩]
    concatenates_S4000000x1_S4000000x1_S4000000x1_S4000000x3_d1

/-- The coordinate rows in sorted order. -/
def UK (o : IVec S4000000x4 32) : IVec S4000000x3 32 :=
  Host.gather gather_S4000000x3_S4000000x1_S4000000x3_1_0_n_n_0_1_13 (czyx o) (idxCol (flatOf o))

/-- The points in sorted order. -/
def pointsPerm (flat : IVec S4000000 32) (x : FVec F S4000000x4 .f32) : FVec F S4000000x4 .f32 :=
  Host.gather gather_S4000000x4_S4000000x1_S4000000x4_1_0_n_n_0_1_14 x (idxCol flat)

/-! ## The four results -/

/-- The voxels, f32[20000,35,4]: zeros, with each kept sorted point written at (slot, rank). -/
def TV (flat : IVec S4000000 32) (x : FVec F S4000000x4 .f32) : FVec F S20000x35x4 .f32 :=
  Host.scatter scatter_S20000x35x4_S4000000x2_S4000000x4_1_01_01_1 (fun _ b => b)
    (broadcastInDim S20000x35x4 ![] bcast_S_S20000x35x4 (constant (F := F) S_ .f32 0x00000000#32))
    (concatenate S4000000x2 1 [⟨S4000000x1, sCol flat⟩, ⟨S4000000x1, rCol flat⟩] concatenates_S4000000x1_S4000000x1_S4000000x2_d1)
    (pointsPerm flat x)

/-- The number of points kept per voxel, i32[20000]. -/
def TN (flat : IVec S4000000 32) : IVec S20000 32 :=
  Host.scatter scatter_S20000_S4000000x1_S4000000_n_0_0_1 IntOp.addi
    (broadcastInDim S20000 ![] bcast_S_S20000 (constantI S_ 32 0#32))
    (sCol flat) (extui 32 (keep flat) natLt_1_32)

/-- The voxels' coordinates, i32[20000,3]: zeros, with row `U` of each sorted position written at its slot. -/
def TC (flat : IVec S4000000 32) (U : IVec S4000000x3 32) : IVec S20000x3 32 :=
  Host.scatter scatter_S20000x3_S4000000x1_S4000000x3_1_0_0_1 (fun _ b => b)
    (broadcastInDim S20000x3 ![] bcast_S_S20000x3 (constantI S_ 32 0#32))
    (sCol flat) U

/-- The number of voxels: the number of valid segments, at most 20000. -/
def TM (flat : IVec S4000000 32) : IVec S_ 32 :=
  minsi
    (Host.reduce IntOp.addi (extui 32 (andi (new flat) (segValid flat)) natLt_1_32) (constantI S_ 32 0#32) reducesTo_S4000000_S_d0 h_S_)
    (constantI S_ 32 20000#32)

end Cert.KernelIdeal.Tl

end
-- ==== Proof.KITail.lean ====
/-
  The host tail of `KernelIdeal`'s @main read back: after the 170 host operations that follow the launch, from any
  valuation `W`, each stage buffer holds the corresponding named function (KITailDefs) of the two arrays the tail starts
  from — the kernel's result `W main_v0`, through its flat-id column, and the points `W main_arg0`. The tail is read
  stretch by stretch: for each stretch, which buffers it writes (every other keeps its contents), and each buffer it
  hands on, first as the stretch's operations compose over the buffers the stretch is handed, then — those being stage
  functions already — as the stage function it is; the four results of @main are the last stretch's.
-/
import proofs.«163751_j5892695130408_2_alg».proof.Proof.KIFrame
import proofs.«163751_j5892695130408_2_alg».proof.Proof.KITailDefs
import Idealize.ShloMosaic.Lib.StableHlo.Run

set_option maxRecDepth 16384

noncomputable section

namespace Cert.KernelIdeal.Tl

open Cert.KernelIdeal Cert.KernelIdeal.Gen Cert.KernelIdeal.Fr Idealize.ShloMosaic Idealize.ShloMosaic.TcCoe Idealize.SL.Sem Idealize.ShloMosaic.StableHlo

variable {F : FTy → Type} [FloatOps F]

local notation "𝕍" => Valuation τ sig (Elt F)

/-- The reads that remain inside a concatenate's list of vectors: an operation's result at its own buffer is its function's value, at any other buffer what was there. -/
local macro "results_rw" : tactic => `(tactic| (repeat (first
  | rw [StableHlo.nullary_result] | rw [StableHlo.unary_result] | rw [StableHlo.binary_result] | rw [StableHlo.ternary_result]
  | rw [StableHlo.reshape_result] | rw [StableHlo.nary_result]
  | (rw [StableHlo.nullary_result_ne]; rotate_left; decide)
  | (rw [StableHlo.unary_result_ne]; rotate_left; decide)
  | (rw [StableHlo.binary_result_ne]; rotate_left; decide)
  | (rw [StableHlo.ternary_result_ne]; rotate_left; decide)
  | (rw [StableHlo.reshape_result_ne]; rotate_left; decide)
  | (rw [StableHlo.nary_result_ne]; rotate_left; decide))))

/-! ## Which buffers each stretch writes -/

/-- A written buffer that is on a list is inside the list's set of device buffers. -/
theorem sub_of_mem {wr : List (Ref sig .tc)} {y : Ref sig .tc} (h : y ∈ wr) :
    ({Proc.devRef .tc y} : Finset (DevRef τ sig)) ⊆ (wr.map (Proc.devRef (τ := τ) .tc)).toFinset :=
  Finset.singleton_subset_iff.2 (List.mem_toFinset.2 (List.mem_map_of_mem h))

local macro "writes_in" : tactic => `(tactic| (
  simp only [List.Forall, StableHlo.nullary_writes, StableHlo.unary_writes, StableHlo.binary_writes, StableHlo.ternary_writes,
    StableHlo.reshape_writes, StableHlo.nary_writes]
  repeat' apply And.intro
  all_goals exact sub_of_mem (by decide)))

/-- The buffers stretch 0 writes. -/
def wr0 : List (Ref sig .tc) := [main_v1, main_v2, main_v3, main_v4, main_v5, main_v6, main_v7, main_v8]
theorem hW0 : (hostOps1 : List (HloOp τ sig (Elt F))).Forall fun op => op.writes ⊆ (wr0.map (Proc.devRef (τ := τ) .tc)).toFinset := by
  unfold hostOps1; writes_in
/-- A buffer stretch 0 does not write keeps its contents. -/
theorem keep0 (X : 𝕍) {b : Ref sig .tc} (hb : b ∉ wr0) : after hostOps1 X (Proc.devRef .tc b) = X (Proc.devRef .tc b) :=
  after_of_writes_sub _ X hW0 hb

/-- The buffers stretch 1 writes. -/
def wr1 : List (Ref sig .tc) := [main_call0_v0, main_call0_v1_0, main_v9]
theorem hW1 : (hostOps1_1 : List (HloOp τ sig (Elt F))).Forall fun op => op.writes ⊆ (wr1.map (Proc.devRef (τ := τ) .tc)).toFinset := by
  unfold hostOps1_1; writes_in
/-- A buffer stretch 1 does not write keeps its contents. -/
theorem keep1 (X : 𝕍) {b : Ref sig .tc} (hb : b ∉ wr1) : after hostOps1_1 X (Proc.devRef .tc b) = X (Proc.devRef .tc b) :=
  after_of_writes_sub _ X hW1 hb

/-- The buffers stretch 2 writes. -/
def wr2 : List (Ref sig .tc) := [main_c, main_v10, main_v11, main_c_0, main_v12, main_v13, main_v14, main_v15, main_v16, main_v17, main_c_1, main_v18, main_v19, main_v20, main_v21, main_v22]
theorem hW2 : (hostOps1_2 : List (HloOp τ sig (Elt F))).Forall fun op => op.writes ⊆ (wr2.map (Proc.devRef (τ := τ) .tc)).toFinset := by
  unfold hostOps1_2; writes_in
/-- A buffer stretch 2 does not write keeps its contents. -/
theorem keep2 (X : 𝕍) {b : Ref sig .tc} (hb : b ∉ wr2) : after hostOps1_2 X (Proc.devRef .tc b) = X (Proc.devRef .tc b) :=
  after_of_writes_sub _ X hW2 hb

/-- The buffers stretch 3 writes. -/
def wr3 : List (Ref sig .tc) := [main_call1_v0, main_call1_call0_c, main_call1_call0_v0, main_v23]
theorem hW3 : (hostOps1_3 : List (HloOp τ sig (Elt F))).Forall fun op => op.writes ⊆ (wr3.map (Proc.devRef (τ := τ) .tc)).toFinset := by
  unfold hostOps1_3; writes_in
/-- A buffer stretch 3 does not write keeps its contents. -/
theorem keep3 (X : 𝕍) {b : Ref sig .tc} (hb : b ∉ wr3) : after hostOps1_3 X (Proc.devRef .tc b) = X (Proc.devRef .tc b) :=
  after_of_writes_sub _ X hW3 hb

/-- The buffers stretch 4 writes. -/
def wr4 : List (Ref sig .tc) := [main_c_2, main_v24, main_v25, main_c_3]
theorem hW4 : (hostOps1_4 : List (HloOp τ sig (Elt F))).Forall fun op => op.writes ⊆ (wr4.map (Proc.devRef (τ := τ) .tc)).toFinset := by
  unfold hostOps1_4; writes_in
/-- A buffer stretch 4 does not write keeps its contents. -/
theorem keep4 (X : 𝕍) {b : Ref sig .tc} (hb : b ∉ wr4) : after hostOps1_4 X (Proc.devRef .tc b) = X (Proc.devRef .tc b) :=
  after_of_writes_sub _ X hW4 hb

/-- The buffers stretch 5 writes. -/
def wr5 : List (Ref sig .tc) := [main_call2_v0, main_call2_v1, main_v26]
theorem hW5 : (hostOps1_5 : List (HloOp τ sig (Elt F))).Forall fun op => op.writes ⊆ (wr5.map (Proc.devRef (τ := τ) .tc)).toFinset := by
  unfold hostOps1_5; writes_in
/-- A buffer stretch 5 does not write keeps its contents. -/
theorem keep5 (X : 𝕍) {b : Ref sig .tc} (hb : b ∉ wr5) : after hostOps1_5 X (Proc.devRef .tc b) = X (Proc.devRef .tc b) :=
  after_of_writes_sub _ X hW5 hb

/-- The buffers stretch 6 writes. -/
def wr6 : List (Ref sig .tc) := [main_call3_c, main_call3_v0, main_v27]
theorem hW6 : (hostOps1_6 : List (HloOp τ sig (Elt F))).Forall fun op => op.writes ⊆ (wr6.map (Proc.devRef (τ := τ) .tc)).toFinset := by
  unfold hostOps1_6; writes_in
/-- A buffer stretch 6 does not write keeps its contents. -/
theorem keep6 (X : 𝕍) {b : Ref sig .tc} (hb : b ∉ wr6) : after hostOps1_6 X (Proc.devRef .tc b) = X (Proc.devRef .tc b) :=
  after_of_writes_sub _ X hW6 hb

/-- The buffers stretch 7 writes. -/
def wr7 : List (Ref sig .tc) := [main_v28, main_c_4, main_v29, main_v30, main_c_5, main_v31, main_c_6]
theorem hW7 : (hostOps1_7 : List (HloOp τ sig (Elt F))).Forall fun op => op.writes ⊆ (wr7.map (Proc.devRef (τ := τ) .tc)).toFinset := by
  unfold hostOps1_7; writes_in
/-- A buffer stretch 7 does not write keeps its contents. -/
theorem keep7 (X : 𝕍) {b : Ref sig .tc} (hb : b ∉ wr7) : after hostOps1_7 X (Proc.devRef .tc b) = X (Proc.devRef .tc b) :=
  after_of_writes_sub _ X hW7 hb

/-- The buffers stretch 8 writes. -/
def wr8 : List (Ref sig .tc) := [main_call4_v0, main_call4_v1, main_v32]
theorem hW8 : (hostOps1_8 : List (HloOp τ sig (Elt F))).Forall fun op => op.writes ⊆ (wr8.map (Proc.devRef (τ := τ) .tc)).toFinset := by
  unfold hostOps1_8; writes_in
/-- A buffer stretch 8 does not write keeps its contents. -/
theorem keep8 (X : 𝕍) {b : Ref sig .tc} (hb : b ∉ wr8) : after hostOps1_8 X (Proc.devRef .tc b) = X (Proc.devRef .tc b) :=
  after_of_writes_sub _ X hW8 hb

/-- The buffers stretch 9 writes. -/
def wr9 : List (Ref sig .tc) := [main_c_7, main_v33, main_v34, main_c_8, main_v35, main_v36, main_v37, main_v38, main_v39]
theorem hW9 : (hostOps1_9 : List (HloOp τ sig (Elt F))).Forall fun op => op.writes ⊆ (wr9.map (Proc.devRef (τ := τ) .tc)).toFinset := by
  unfold hostOps1_9; writes_in
/-- A buffer stretch 9 does not write keeps its contents. -/
theorem keep9 (X : 𝕍) {b : Ref sig .tc} (hb : b ∉ wr9) : after hostOps1_9 X (Proc.devRef .tc b) = X (Proc.devRef .tc b) :=
  after_of_writes_sub _ X hW9 hb

/-- The buffers stretch 10 writes. -/
def wr10 : List (Ref sig .tc) := [main_call5_v0, main_call5_v1_0, main_v40]
theorem hW10 : (hostOps1_10 : List (HloOp τ sig (Elt F))).Forall fun op => op.writes ⊆ (wr10.map (Proc.devRef (τ := τ) .tc)).toFinset := by
  unfold hostOps1_10; writes_in
/-- A buffer stretch 10 does not write keeps its contents. -/
theorem keep10 (X : 𝕍) {b : Ref sig .tc} (hb : b ∉ wr10) : after hostOps1_10 X (Proc.devRef .tc b) = X (Proc.devRef .tc b) :=
  after_of_writes_sub _ X hW10 hb

/-- The buffers stretch 11 writes. -/
def wr11 : List (Ref sig .tc) := [main_c_9, main_v41, main_c_10, main_v42, main_v43, main_c_11, main_v44, main_v45, main_v46, main_v47, main_v48, main_c_12, main_v49, main_v50, main_c_13, main_v51, main_v52, main_v53, main_v54, main_v55, main_c_14, main_v56, main_v57, main_v58, main_c_15, main_v59, main_v60, main_v61, main_c_16]
theorem hW11 : (hostOps1_11 : List (HloOp τ sig (Elt F))).Forall fun op => op.writes ⊆ (wr11.map (Proc.devRef (τ := τ) .tc)).toFinset := by
  unfold hostOps1_11; writes_in
/-- A buffer stretch 11 does not write keeps its contents. -/
theorem keep11 (X : 𝕍) {b : Ref sig .tc} (hb : b ∉ wr11) : after hostOps1_11 X (Proc.devRef .tc b) = X (Proc.devRef .tc b) :=
  after_of_writes_sub _ X hW11 hb

/-- The buffers stretch 12 writes. -/
def wr12 : List (Ref sig .tc) := [main_call6_v0, main_call6_v1, main_v62]
theorem hW12 : (hostOps1_12 : List (HloOp τ sig (Elt F))).Forall fun op => op.writes ⊆ (wr12.map (Proc.devRef (τ := τ) .tc)).toFinset := by
  unfold hostOps1_12; writes_in
/-- A buffer stretch 12 does not write keeps its contents. -/
theorem keep12 (X : 𝕍) {b : Ref sig .tc} (hb : b ∉ wr12) : after hostOps1_12 X (Proc.devRef .tc b) = X (Proc.devRef .tc b) :=
  after_of_writes_sub _ X hW12 hb

/-- The buffers stretch 13 writes. -/
def wr13 : List (Ref sig .tc) := [main_c_17]
theorem hW13 : (hostOps1_13 : List (HloOp τ sig (Elt F))).Forall fun op => op.writes ⊆ (wr13.map (Proc.devRef (τ := τ) .tc)).toFinset := by
  unfold hostOps1_13; writes_in
/-- A buffer stretch 13 does not write keeps its contents. -/
theorem keep13 (X : 𝕍) {b : Ref sig .tc} (hb : b ∉ wr13) : after hostOps1_13 X (Proc.devRef .tc b) = X (Proc.devRef .tc b) :=
  after_of_writes_sub _ X hW13 hb

/-- The buffers stretch 14 writes. -/
def wr14 : List (Ref sig .tc) := [main_call7_v0, main_call7_v1, main_v63]
theorem hW14 : (hostOps1_14 : List (HloOp τ sig (Elt F))).Forall fun op => op.writes ⊆ (wr14.map (Proc.devRef (τ := τ) .tc)).toFinset := by
  unfold hostOps1_14; writes_in
/-- A buffer stretch 14 does not write keeps its contents. -/
theorem keep14 (X : 𝕍) {b : Ref sig .tc} (hb : b ∉ wr14) : after hostOps1_14 X (Proc.devRef .tc b) = X (Proc.devRef .tc b) :=
  after_of_writes_sub _ X hW14 hb

/-- The buffers stretch 15 writes. -/
def wr15 : List (Ref sig .tc) := [main_v64, main_v65, main_v66, main_v67, main_c_18, main_v68, main_v69, main_c_19, main_v70, main_v71, main_v72, main_v73, main_v74, main_c_20, main_v75, main_v76, main_c_21, main_v77, main_v78, main_v79, main_v80, main_v81, main_cst, main_v82, main_c_22, main_v83, main_v84, main_c_23, main_v85, main_v86, main_v87, main_c_24, main_v88, main_v89, main_c_25, main_v90, main_v91, main_v92, main_v93, main_v94, main_v95, main_v96, main_c_26, main_v97, main_v98, main_c_27, main_v99, main_v100, main_c_28, main_v101, main_v102, main_v103, main_v104, main_v105, main_c_29, main_v106, main_c_30, main_v107, main_v108, main_c_31, main_v109, main_v110, main_v111, main_v112, main_v113, main_v114, main_v115, main_c_32, main_v116, main_c_33, main_v117]
theorem hW15 : (hostOps1_15 : List (HloOp τ sig (Elt F))).Forall fun op => op.writes ⊆ (wr15.map (Proc.devRef (τ := τ) .tc)).toFinset := by
  unfold hostOps1_15; writes_in
/-- A buffer stretch 15 does not write keeps its contents. -/
theorem keep15 (X : 𝕍) {b : Ref sig .tc} (hb : b ∉ wr15) : after hostOps1_15 X (Proc.devRef .tc b) = X (Proc.devRef .tc b) :=
  after_of_writes_sub _ X hW15 hb

/-! ## The tail, stretch by stretch

`V k W` is the valuation after the first `k` stretches of the tail from `W`. -/
def V1 (W : 𝕍) : 𝕍 := after hostOps1 W
def V2 (W : 𝕍) : 𝕍 := after hostOps1_1 (V1 W)
def V3 (W : 𝕍) : 𝕍 := after hostOps1_2 (V2 W)
def V4 (W : 𝕍) : 𝕍 := after hostOps1_3 (V3 W)
def V5 (W : 𝕍) : 𝕍 := after hostOps1_4 (V4 W)
def V6 (W : 𝕍) : 𝕍 := after hostOps1_5 (V5 W)
def V7 (W : 𝕍) : 𝕍 := after hostOps1_6 (V6 W)
def V8 (W : 𝕍) : 𝕍 := after hostOps1_7 (V7 W)
def V9 (W : 𝕍) : 𝕍 := after hostOps1_8 (V8 W)
def V10 (W : 𝕍) : 𝕍 := after hostOps1_9 (V9 W)
def V11 (W : 𝕍) : 𝕍 := after hostOps1_10 (V10 W)
def V12 (W : 𝕍) : 𝕍 := after hostOps1_11 (V11 W)
def V13 (W : 𝕍) : 𝕍 := after hostOps1_12 (V12 W)
def V14 (W : 𝕍) : 𝕍 := after hostOps1_13 (V13 W)
def V15 (W : 𝕍) : 𝕍 := after hostOps1_14 (V14 W)
def V16 (W : 𝕍) : 𝕍 := after hostOps1_15 (V15 W)

/-- The whole tail is the sixteen stretches one after the other. -/
theorem tail_eq (W : 𝕍) : after (tail (F := F)).flatten W = V16 W := by
  simp only [tail, List.flatten_cons, List.flatten_nil, List.append_nil, StableHlo.after_append,
    V16, V15, V14, V13, V12, V11, V10, V9, V8, V7, V6, V5, V4, V3, V2, V1]

/-! ### Stretch 0 (`hostOps1`) -/

set_option maxHeartbeats 4000000 in
/-- `main_v2` after stretch 0, as the stretch's operations compose over the buffers it is handed. -/
theorem g0_v2 (X : 𝕍) :
    after hostOps1 X (Proc.devRef .tc main_v2) = (shapeCast S4000000 (extractStridedSlice S4000000x1 ![0, 0] (X (Proc.devRef .tc main_v0) : IVec S4000000x4 32) slices_S4000000x4_S4000000x1_0_0) shapeCasts_S4000000x1_S4000000) := by
  after_results_simp <;> (try dsimp only [Matrix.cons_val]) <;> results_rw <;> (try dsimp only [TRef.toBuf, TRef.ofBuf]) <;> (repeat erw [cast_eq]) <;> rfl
theorem s0_v2 (X : 𝕍) {o : IVec S4000000x4 32} (h_v0 : X (Proc.devRef .tc main_v0) = o) :
    after hostOps1 X (Proc.devRef .tc main_v2) = czOf o := by
  rw [g0_v2, h_v0] <;> rfl

set_option maxHeartbeats 4000000 in
/-- `main_v4` after stretch 0, as the stretch's operations compose over the buffers it is handed. -/
theorem g0_v4 (X : 𝕍) :
    after hostOps1 X (Proc.devRef .tc main_v4) = (shapeCast S4000000 (extractStridedSlice S4000000x1 ![0, 1] (X (Proc.devRef .tc main_v0) : IVec S4000000x4 32) slices_S4000000x4_S4000000x1_0_1) shapeCasts_S4000000x1_S4000000) := by
  after_results_simp <;> (try dsimp only [Matrix.cons_val]) <;> results_rw <;> (try dsimp only [TRef.toBuf, TRef.ofBuf]) <;> (repeat erw [cast_eq]) <;> rfl
theorem s0_v4 (X : 𝕍) {o : IVec S4000000x4 32} (h_v0 : X (Proc.devRef .tc main_v0) = o) :
    after hostOps1 X (Proc.devRef .tc main_v4) = cyOf o := by
  rw [g0_v4, h_v0] <;> rfl

set_option maxHeartbeats 4000000 in
/-- `main_v6` after stretch 0, as the stretch's operations compose over the buffers it is handed. -/
theorem g0_v6 (X : 𝕍) :
    after hostOps1 X (Proc.devRef .tc main_v6) = (shapeCast S4000000 (extractStridedSlice S4000000x1 ![0, 2] (X (Proc.devRef .tc main_v0) : IVec S4000000x4 32) slices_S4000000x4_S4000000x1_0_2) shapeCasts_S4000000x1_S4000000) := by
  after_results_simp <;> (try dsimp only [Matrix.cons_val]) <;> results_rw <;> (try dsimp only [TRef.toBuf, TRef.ofBuf]) <;> (repeat erw [cast_eq]) <;> rfl
theorem s0_v6 (X : 𝕍) {o : IVec S4000000x4 32} (h_v0 : X (Proc.devRef .tc main_v0) = o) :
    after hostOps1 X (Proc.devRef .tc main_v6) = cxOf o := by
  rw [g0_v6, h_v0] <;> rfl

set_option maxHeartbeats 4000000 in
/-- `main_v8` after stretch 0, as the stretch's operations compose over the buffers it is handed. -/
theorem g0_v8 (X : 𝕍) :
    after hostOps1 X (Proc.devRef .tc main_v8) = (shapeCast S4000000 (extractStridedSlice S4000000x1 ![0, 3] (X (Proc.devRef .tc main_v0) : IVec S4000000x4 32) slices_S4000000x4_S4000000x1_0_3) shapeCasts_S4000000x1_S4000000) := by
  after_results_simp <;> (try dsimp only [Matrix.cons_val]) <;> results_rw <;> (try dsimp only [TRef.toBuf, TRef.ofBuf]) <;> (repeat erw [cast_eq]) <;> rfl
theorem s0_v8 (X : 𝕍) {o : IVec S4000000x4 32} (h_v0 : X (Proc.devRef .tc main_v0) = o) :
    after hostOps1 X (Proc.devRef .tc main_v8) = flatOf o := by
  rw [g0_v8, h_v0] <;> rfl
theorem at1_v2 (W : 𝕍) : V1 W (Proc.devRef .tc main_v2) = czOf (W (Proc.devRef .tc main_v0)) :=
  s0_v2 W rfl
theorem at1_v4 (W : 𝕍) : V1 W (Proc.devRef .tc main_v4) = cyOf (W (Proc.devRef .tc main_v0)) :=
  s0_v4 W rfl
theorem at1_v6 (W : 𝕍) : V1 W (Proc.devRef .tc main_v6) = cxOf (W (Proc.devRef .tc main_v0)) :=
  s0_v6 W rfl
theorem at1_v8 (W : 𝕍) : V1 W (Proc.devRef .tc main_v8) = flatOf (W (Proc.devRef .tc main_v0)) :=
  s0_v8 W rfl
theorem at1_arg0 (W : 𝕍) : V1 W (Proc.devRef .tc main_arg0) = (W (Proc.devRef .tc main_arg0)) :=
  keep0 W (b := main_arg0) (by decide)

/-! ### Stretch 1 (`hostOps1_1`) -/

set_option maxHeartbeats 4000000 in
/-- `main_v9` after stretch 1, as the stretch's operations compose over the buffers it is handed. -/
theorem g1_v9 (X : 𝕍) :
    after hostOps1_1 X (Proc.devRef .tc main_v9) = ((Host.sort2 S4000000 0 comparator_i32_i32_d0 (X (Proc.devRef .tc main_v8) : IVec S4000000 32) (iotaInDim S4000000 32 0)).2) := by
  after_results_simp <;> (try dsimp only [Matrix.cons_val]) <;> results_rw <;> (try dsimp only [TRef.toBuf, TRef.ofBuf]) <;> (repeat erw [cast_eq]) <;> rfl
theorem s1_v9 (X : 𝕍) {flat : IVec S4000000 32} (h_v8 : X (Proc.devRef .tc main_v8) = flat) :
    after hostOps1_1 X (Proc.devRef .tc main_v9) = perm flat := by
  rw [g1_v9, h_v8] <;> rfl
theorem at2_v9 (W : 𝕍) : V2 W (Proc.devRef .tc main_v9) = perm (flatOf (W (Proc.devRef .tc main_v0))) :=
  s1_v9 (V1 W) (at1_v8 W)
theorem at2_v8 (W : 𝕍) : V2 W (Proc.devRef .tc main_v8) = flatOf (W (Proc.devRef .tc main_v0)) :=
  (keep1 (V1 W) (b := main_v8) (by decide)).trans (at1_v8 W)
theorem at2_v2 (W : 𝕍) : V2 W (Proc.devRef .tc main_v2) = czOf (W (Proc.devRef .tc main_v0)) :=
  (keep1 (V1 W) (b := main_v2) (by decide)).trans (at1_v2 W)
theorem at2_v4 (W : 𝕍) : V2 W (Proc.devRef .tc main_v4) = cyOf (W (Proc.devRef .tc main_v0)) :=
  (keep1 (V1 W) (b := main_v4) (by decide)).trans (at1_v4 W)
theorem at2_v6 (W : 𝕍) : V2 W (Proc.devRef .tc main_v6) = cxOf (W (Proc.devRef .tc main_v0)) :=
  (keep1 (V1 W) (b := main_v6) (by decide)).trans (at1_v6 W)
theorem at2_arg0 (W : 𝕍) : V2 W (Proc.devRef .tc main_arg0) = (W (Proc.devRef .tc main_arg0)) :=
  (keep1 (V1 W) (b := main_arg0) (by decide)).trans (at1_arg0 W)

/-! ### Stretch 2 (`hostOps1_2`) -/

set_option maxHeartbeats 4000000 in
/-- `main_v16` after stretch 2, as the stretch's operations compose over the buffers it is handed. -/
theorem g2_v16 (X : 𝕍) :
    after hostOps1_2 X (Proc.devRef .tc main_v16) = (Host.gather gather_S4000000_S4000000x1_S4000000_n_0_n_n_0_1_1 (X (Proc.devRef .tc main_v8) : IVec S4000000 32) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32)))) := by
  after_results_simp <;> (try dsimp only [Matrix.cons_val]) <;> results_rw <;> (try dsimp only [TRef.toBuf, TRef.ofBuf]) <;> (repeat erw [cast_eq]) <;> rfl
theorem s2_v16 (X : 𝕍) {flat : IVec S4000000 32} (h_v8 : X (Proc.devRef .tc main_v8) = flat) (h_v9 : X (Proc.devRef .tc main_v9) = perm flat) :
    after hostOps1_2 X (Proc.devRef .tc main_v16) = sf flat := by
  rw [g2_v16, h_v8, h_v9] <;> rfl

set_option maxHeartbeats 4000000 in
/-- `main_v17` after stretch 2, as the stretch's operations compose over the buffers it is handed. -/
theorem g2_v17 (X : 𝕍) :
    after hostOps1_2 X (Proc.devRef .tc main_v17) = (iotaInDim S4000000 32 0) := by
  after_results_simp <;> (try dsimp only [Matrix.cons_val]) <;> results_rw <;> (try dsimp only [TRef.toBuf, TRef.ofBuf]) <;> (repeat erw [cast_eq]) <;> rfl
theorem s2_v17 (X : 𝕍)   :
    after hostOps1_2 X (Proc.devRef .tc main_v17) = pos := by
  rw [g2_v17] <;> rfl

set_option maxHeartbeats 4000000 in
/-- `main_v22` after stretch 2, as the stretch's operations compose over the buffers it is handed. -/
theorem g2_v22 (X : 𝕍) :
    after hostOps1_2 X (Proc.devRef .tc main_v22) = (concatenate S4000000 0 [⟨S1, (broadcastInDim S1 ![] bcast_S_S1 (constantI S_ 1 1#1))⟩, ⟨S3999999, (cmpi .ne (extractStridedSlice S3999999 ![1] (Host.gather gather_S4000000_S4000000x1_S4000000_n_0_n_n_0_1_1 (X (Proc.devRef .tc main_v8) : IVec S4000000 32) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32)))) slices_S4000000_S3999999_1) (extractStridedSlice S3999999 ![0] (Host.gather gather_S4000000_S4000000x1_S4000000_n_0_n_n_0_1_1 (X (Proc.devRef .tc main_v8) : IVec S4000000 32) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32)))) slices_S4000000_S3999999_0))⟩] concatenates_S1_S3999999_S4000000_d0) := by
  after_results_simp <;> (try dsimp only [Matrix.cons_val]) <;> results_rw <;> (try dsimp only [TRef.toBuf, TRef.ofBuf]) <;> (repeat erw [cast_eq]) <;> rfl
theorem s2_v22 (X : 𝕍) {flat : IVec S4000000 32} (h_v8 : X (Proc.devRef .tc main_v8) = flat) (h_v9 : X (Proc.devRef .tc main_v9) = perm flat) :
    after hostOps1_2 X (Proc.devRef .tc main_v22) = new flat := by
  rw [g2_v22, h_v8, h_v9] <;> rfl
theorem at3_v16 (W : 𝕍) : V3 W (Proc.devRef .tc main_v16) = sf (flatOf (W (Proc.devRef .tc main_v0))) :=
  s2_v16 (V2 W) (at2_v8 W) (at2_v9 W)
theorem at3_v17 (W : 𝕍) : V3 W (Proc.devRef .tc main_v17) = pos :=
  s2_v17 (V2 W)
theorem at3_v22 (W : 𝕍) : V3 W (Proc.devRef .tc main_v22) = new (flatOf (W (Proc.devRef .tc main_v0))) :=
  s2_v22 (V2 W) (at2_v8 W) (at2_v9 W)
theorem at3_v9 (W : 𝕍) : V3 W (Proc.devRef .tc main_v9) = perm (flatOf (W (Proc.devRef .tc main_v0))) :=
  (keep2 (V2 W) (b := main_v9) (by decide)).trans (at2_v9 W)
theorem at3_v2 (W : 𝕍) : V3 W (Proc.devRef .tc main_v2) = czOf (W (Proc.devRef .tc main_v0)) :=
  (keep2 (V2 W) (b := main_v2) (by decide)).trans (at2_v2 W)
theorem at3_v4 (W : 𝕍) : V3 W (Proc.devRef .tc main_v4) = cyOf (W (Proc.devRef .tc main_v0)) :=
  (keep2 (V2 W) (b := main_v4) (by decide)).trans (at2_v4 W)
theorem at3_v6 (W : 𝕍) : V3 W (Proc.devRef .tc main_v6) = cxOf (W (Proc.devRef .tc main_v0)) :=
  (keep2 (V2 W) (b := main_v6) (by decide)).trans (at2_v6 W)
theorem at3_arg0 (W : 𝕍) : V3 W (Proc.devRef .tc main_arg0) = (W (Proc.devRef .tc main_arg0)) :=
  (keep2 (V2 W) (b := main_arg0) (by decide)).trans (at2_arg0 W)

/-! ### Stretch 3 (`hostOps1_3`) -/

set_option maxHeartbeats 4000000 in
/-- `main_v23` after stretch 3, as the stretch's operations compose over the buffers it is handed. -/
theorem g3_v23 (X : 𝕍) :
    after hostOps1_3 X (Proc.devRef .tc main_v23) = (Host.reduceWindow IntOp.addi ![4000000] ![1] ![3999999] ![0] (extui 32 (X (Proc.devRef .tc main_v22) : IVec S4000000 1) natLt_1_32) (broadcastInDim S_ ![] bcast_S_S_ (constantI S_ 32 0#32)) reduceWindows_S4000000_S4000000_w4000000s1p3999999_0 h_S_) := by
  after_results_simp <;> (try dsimp only [Matrix.cons_val]) <;> results_rw <;> (try dsimp only [TRef.toBuf, TRef.ofBuf]) <;> (repeat erw [cast_eq]) <;> rfl
theorem s3_v23 (X : 𝕍) {flat : IVec S4000000 32} (h_v22 : X (Proc.devRef .tc main_v22) = new flat) :
    after hostOps1_3 X (Proc.devRef .tc main_v23) = Host.reduceWindow IntOp.addi ![4000000] ![1] ![3999999] ![0] (extui 32 (new flat) natLt_1_32) (broadcastInDim S_ ![] bcast_S_S_ (constantI S_ 32 0#32)) reduceWindows_S4000000_S4000000_w4000000s1p3999999_0 h_S_ := by
  rw [g3_v23, h_v22] <;> rfl
theorem at4_v23 (W : 𝕍) : V4 W (Proc.devRef .tc main_v23) = Host.reduceWindow IntOp.addi ![4000000] ![1] ![3999999] ![0] (extui 32 (new (flatOf (W (Proc.devRef .tc main_v0)))) natLt_1_32) (broadcastInDim S_ ![] bcast_S_S_ (constantI S_ 32 0#32)) reduceWindows_S4000000_S4000000_w4000000s1p3999999_0 h_S_ :=
  s3_v23 (V3 W) (at3_v22 W)
theorem at4_v9 (W : 𝕍) : V4 W (Proc.devRef .tc main_v9) = perm (flatOf (W (Proc.devRef .tc main_v0))) :=
  (keep3 (V3 W) (b := main_v9) (by decide)).trans (at3_v9 W)
theorem at4_v22 (W : 𝕍) : V4 W (Proc.devRef .tc main_v22) = new (flatOf (W (Proc.devRef .tc main_v0))) :=
  (keep3 (V3 W) (b := main_v22) (by decide)).trans (at3_v22 W)
theorem at4_v17 (W : 𝕍) : V4 W (Proc.devRef .tc main_v17) = pos :=
  (keep3 (V3 W) (b := main_v17) (by decide)).trans (at3_v17 W)
theorem at4_v16 (W : 𝕍) : V4 W (Proc.devRef .tc main_v16) = sf (flatOf (W (Proc.devRef .tc main_v0))) :=
  (keep3 (V3 W) (b := main_v16) (by decide)).trans (at3_v16 W)
theorem at4_v2 (W : 𝕍) : V4 W (Proc.devRef .tc main_v2) = czOf (W (Proc.devRef .tc main_v0)) :=
  (keep3 (V3 W) (b := main_v2) (by decide)).trans (at3_v2 W)
theorem at4_v4 (W : 𝕍) : V4 W (Proc.devRef .tc main_v4) = cyOf (W (Proc.devRef .tc main_v0)) :=
  (keep3 (V3 W) (b := main_v4) (by decide)).trans (at3_v4 W)
theorem at4_v6 (W : 𝕍) : V4 W (Proc.devRef .tc main_v6) = cxOf (W (Proc.devRef .tc main_v0)) :=
  (keep3 (V3 W) (b := main_v6) (by decide)).trans (at3_v6 W)
theorem at4_arg0 (W : 𝕍) : V4 W (Proc.devRef .tc main_arg0) = (W (Proc.devRef .tc main_arg0)) :=
  (keep3 (V3 W) (b := main_arg0) (by decide)).trans (at3_arg0 W)

/-! ### Stretch 4 (`hostOps1_4`) -/

set_option maxHeartbeats 4000000 in
/-- `main_v25` after stretch 4, as the stretch's operations compose over the buffers it is handed. -/
theorem g4_v25 (X : 𝕍) :
    after hostOps1_4 X (Proc.devRef .tc main_v25) = (subi (X (Proc.devRef .tc main_v23) : IVec S4000000 32) (broadcastInDim S4000000 ![] bcast_S_S4000000 (constantI S_ 32 1#32))) := by
  after_results_simp <;> (try dsimp only [Matrix.cons_val]) <;> results_rw <;> (try dsimp only [TRef.toBuf, TRef.ofBuf]) <;> (repeat erw [cast_eq]) <;> rfl
theorem s4_v25 (X : 𝕍) {flat : IVec S4000000 32} (h_v23 : X (Proc.devRef .tc main_v23) = Host.reduceWindow IntOp.addi ![4000000] ![1] ![3999999] ![0] (extui 32 (new flat) natLt_1_32) (broadcastInDim S_ ![] bcast_S_S_ (constantI S_ 32 0#32)) reduceWindows_S4000000_S4000000_w4000000s1p3999999_0 h_S_) :
    after hostOps1_4 X (Proc.devRef .tc main_v25) = seg flat := by
  rw [g4_v25, h_v23] <;> rfl

set_option maxHeartbeats 4000000 in
/-- `main_c_3` after stretch 4, as the stretch's operations compose over the buffers it is handed. -/
theorem g4_c_3 (X : 𝕍) :
    after hostOps1_4 X (Proc.devRef .tc main_c_3) = (constantI S_ 32 0#32) := by
  after_results_simp <;> (try dsimp only [Matrix.cons_val]) <;> results_rw <;> (try dsimp only [TRef.toBuf, TRef.ofBuf]) <;> (repeat erw [cast_eq]) <;> rfl
theorem s4_c_3 (X : 𝕍)   :
    after hostOps1_4 X (Proc.devRef .tc main_c_3) = (constantI S_ 32 0#32) := by
  rw [g4_c_3] <;> rfl
theorem at5_v25 (W : 𝕍) : V5 W (Proc.devRef .tc main_v25) = seg (flatOf (W (Proc.devRef .tc main_v0))) :=
  s4_v25 (V4 W) (at4_v23 W)
theorem at5_c_3 (W : 𝕍) : V5 W (Proc.devRef .tc main_c_3) = (constantI S_ 32 0#32) :=
  s4_c_3 (V4 W)
theorem at5_v9 (W : 𝕍) : V5 W (Proc.devRef .tc main_v9) = perm (flatOf (W (Proc.devRef .tc main_v0))) :=
  (keep4 (V4 W) (b := main_v9) (by decide)).trans (at4_v9 W)
theorem at5_v22 (W : 𝕍) : V5 W (Proc.devRef .tc main_v22) = new (flatOf (W (Proc.devRef .tc main_v0))) :=
  (keep4 (V4 W) (b := main_v22) (by decide)).trans (at4_v22 W)
theorem at5_v17 (W : 𝕍) : V5 W (Proc.devRef .tc main_v17) = pos :=
  (keep4 (V4 W) (b := main_v17) (by decide)).trans (at4_v17 W)
theorem at5_v16 (W : 𝕍) : V5 W (Proc.devRef .tc main_v16) = sf (flatOf (W (Proc.devRef .tc main_v0))) :=
  (keep4 (V4 W) (b := main_v16) (by decide)).trans (at4_v16 W)
theorem at5_v2 (W : 𝕍) : V5 W (Proc.devRef .tc main_v2) = czOf (W (Proc.devRef .tc main_v0)) :=
  (keep4 (V4 W) (b := main_v2) (by decide)).trans (at4_v2 W)
theorem at5_v4 (W : 𝕍) : V5 W (Proc.devRef .tc main_v4) = cyOf (W (Proc.devRef .tc main_v0)) :=
  (keep4 (V4 W) (b := main_v4) (by decide)).trans (at4_v4 W)
theorem at5_v6 (W : 𝕍) : V5 W (Proc.devRef .tc main_v6) = cxOf (W (Proc.devRef .tc main_v0)) :=
  (keep4 (V4 W) (b := main_v6) (by decide)).trans (at4_v6 W)
theorem at5_arg0 (W : 𝕍) : V5 W (Proc.devRef .tc main_arg0) = (W (Proc.devRef .tc main_arg0)) :=
  (keep4 (V4 W) (b := main_arg0) (by decide)).trans (at4_arg0 W)

/-! ### Stretch 5 (`hostOps1_5`) -/

set_option maxHeartbeats 4000000 in
/-- `main_v26` after stretch 5, as the stretch's operations compose over the buffers it is handed. -/
theorem g5_v26 (X : 𝕍) :
    after hostOps1_5 X (Proc.devRef .tc main_v26) = (select (X (Proc.devRef .tc main_v22) : IVec S4000000 1) (X (Proc.devRef .tc main_v17) : IVec S4000000 32) (broadcastInDim S4000000 ![] bcast_S_S4000000 (id (X (Proc.devRef .tc main_c_3) : IVec S_ 32)))) := by
  after_results_simp <;> (try dsimp only [Matrix.cons_val]) <;> results_rw <;> (try dsimp only [TRef.toBuf, TRef.ofBuf]) <;> (repeat erw [cast_eq]) <;> rfl
theorem s5_v26 (X : 𝕍) {flat : IVec S4000000 32} (h_c_3 : X (Proc.devRef .tc main_c_3) = (constantI S_ 32 0#32)) (h_v22 : X (Proc.devRef .tc main_v22) = new flat) (h_v17 : X (Proc.devRef .tc main_v17) = pos) :
    after hostOps1_5 X (Proc.devRef .tc main_v26) = select (new flat) pos (broadcastInDim S4000000 ![] bcast_S_S4000000 (id (constantI S_ 32 0#32))) := by
  rw [g5_v26, h_c_3, h_v22, h_v17] <;> rfl
theorem at6_v26 (W : 𝕍) : V6 W (Proc.devRef .tc main_v26) = select (new (flatOf (W (Proc.devRef .tc main_v0)))) pos (broadcastInDim S4000000 ![] bcast_S_S4000000 (id (constantI S_ 32 0#32))) :=
  s5_v26 (V5 W) (at5_c_3 W) (at5_v22 W) (at5_v17 W)
theorem at6_v9 (W : 𝕍) : V6 W (Proc.devRef .tc main_v9) = perm (flatOf (W (Proc.devRef .tc main_v0))) :=
  (keep5 (V5 W) (b := main_v9) (by decide)).trans (at5_v9 W)
theorem at6_v22 (W : 𝕍) : V6 W (Proc.devRef .tc main_v22) = new (flatOf (W (Proc.devRef .tc main_v0))) :=
  (keep5 (V5 W) (b := main_v22) (by decide)).trans (at5_v22 W)
theorem at6_v17 (W : 𝕍) : V6 W (Proc.devRef .tc main_v17) = pos :=
  (keep5 (V5 W) (b := main_v17) (by decide)).trans (at5_v17 W)
theorem at6_v16 (W : 𝕍) : V6 W (Proc.devRef .tc main_v16) = sf (flatOf (W (Proc.devRef .tc main_v0))) :=
  (keep5 (V5 W) (b := main_v16) (by decide)).trans (at5_v16 W)
theorem at6_v25 (W : 𝕍) : V6 W (Proc.devRef .tc main_v25) = seg (flatOf (W (Proc.devRef .tc main_v0))) :=
  (keep5 (V5 W) (b := main_v25) (by decide)).trans (at5_v25 W)
theorem at6_v2 (W : 𝕍) : V6 W (Proc.devRef .tc main_v2) = czOf (W (Proc.devRef .tc main_v0)) :=
  (keep5 (V5 W) (b := main_v2) (by decide)).trans (at5_v2 W)
theorem at6_v4 (W : 𝕍) : V6 W (Proc.devRef .tc main_v4) = cyOf (W (Proc.devRef .tc main_v0)) :=
  (keep5 (V5 W) (b := main_v4) (by decide)).trans (at5_v4 W)
theorem at6_v6 (W : 𝕍) : V6 W (Proc.devRef .tc main_v6) = cxOf (W (Proc.devRef .tc main_v0)) :=
  (keep5 (V5 W) (b := main_v6) (by decide)).trans (at5_v6 W)
theorem at6_arg0 (W : 𝕍) : V6 W (Proc.devRef .tc main_arg0) = (W (Proc.devRef .tc main_arg0)) :=
  (keep5 (V5 W) (b := main_arg0) (by decide)).trans (at5_arg0 W)

/-! ### Stretch 6 (`hostOps1_6`) -/

set_option maxHeartbeats 4000000 in
/-- `main_v27` after stretch 6, as the stretch's operations compose over the buffers it is handed. -/
theorem g6_v27 (X : 𝕍) :
    after hostOps1_6 X (Proc.devRef .tc main_v27) = (Host.reduceWindow IntOp.maxsi ![4000000] ![1] ![3999999] ![0] (X (Proc.devRef .tc main_v26) : IVec S4000000 32) (broadcastInDim S_ ![] bcast_S_S_ (constantI S_ 32 2147483648#32)) reduceWindows_S4000000_S4000000_w4000000s1p3999999_0 h_S_) := by
  after_results_simp <;> (try dsimp only [Matrix.cons_val]) <;> results_rw <;> (try dsimp only [TRef.toBuf, TRef.ofBuf]) <;> (repeat erw [cast_eq]) <;> rfl
theorem s6_v27 (X : 𝕍) {flat : IVec S4000000 32} (h_v26 : X (Proc.devRef .tc main_v26) = select (new flat) pos (broadcastInDim S4000000 ![] bcast_S_S4000000 (id (constantI S_ 32 0#32)))) :
    after hostOps1_6 X (Proc.devRef .tc main_v27) = start flat := by
  rw [g6_v27, h_v26] <;> rfl
theorem at7_v27 (W : 𝕍) : V7 W (Proc.devRef .tc main_v27) = start (flatOf (W (Proc.devRef .tc main_v0))) :=
  s6_v27 (V6 W) (at6_v26 W)
theorem at7_v9 (W : 𝕍) : V7 W (Proc.devRef .tc main_v9) = perm (flatOf (W (Proc.devRef .tc main_v0))) :=
  (keep6 (V6 W) (b := main_v9) (by decide)).trans (at6_v9 W)
theorem at7_v22 (W : 𝕍) : V7 W (Proc.devRef .tc main_v22) = new (flatOf (W (Proc.devRef .tc main_v0))) :=
  (keep6 (V6 W) (b := main_v22) (by decide)).trans (at6_v22 W)
theorem at7_v17 (W : 𝕍) : V7 W (Proc.devRef .tc main_v17) = pos :=
  (keep6 (V6 W) (b := main_v17) (by decide)).trans (at6_v17 W)
theorem at7_v16 (W : 𝕍) : V7 W (Proc.devRef .tc main_v16) = sf (flatOf (W (Proc.devRef .tc main_v0))) :=
  (keep6 (V6 W) (b := main_v16) (by decide)).trans (at6_v16 W)
theorem at7_v25 (W : 𝕍) : V7 W (Proc.devRef .tc main_v25) = seg (flatOf (W (Proc.devRef .tc main_v0))) :=
  (keep6 (V6 W) (b := main_v25) (by decide)).trans (at6_v25 W)
theorem at7_v2 (W : 𝕍) : V7 W (Proc.devRef .tc main_v2) = czOf (W (Proc.devRef .tc main_v0)) :=
  (keep6 (V6 W) (b := main_v2) (by decide)).trans (at6_v2 W)
theorem at7_v4 (W : 𝕍) : V7 W (Proc.devRef .tc main_v4) = cyOf (W (Proc.devRef .tc main_v0)) :=
  (keep6 (V6 W) (b := main_v4) (by decide)).trans (at6_v4 W)
theorem at7_v6 (W : 𝕍) : V7 W (Proc.devRef .tc main_v6) = cxOf (W (Proc.devRef .tc main_v0)) :=
  (keep6 (V6 W) (b := main_v6) (by decide)).trans (at6_v6 W)
theorem at7_arg0 (W : 𝕍) : V7 W (Proc.devRef .tc main_arg0) = (W (Proc.devRef .tc main_arg0)) :=
  (keep6 (V6 W) (b := main_arg0) (by decide)).trans (at6_arg0 W)

/-! ### Stretch 7 (`hostOps1_7`) -/

set_option maxHeartbeats 4000000 in
/-- `main_v28` after stretch 7, as the stretch's operations compose over the buffers it is handed. -/
theorem g7_v28 (X : 𝕍) :
    after hostOps1_7 X (Proc.devRef .tc main_v28) = (subi (X (Proc.devRef .tc main_v17) : IVec S4000000 32) (X (Proc.devRef .tc main_v27) : IVec S4000000 32)) := by
  after_results_simp <;> (try dsimp only [Matrix.cons_val]) <;> results_rw <;> (try dsimp only [TRef.toBuf, TRef.ofBuf]) <;> (repeat erw [cast_eq]) <;> rfl
theorem s7_v28 (X : 𝕍) {flat : IVec S4000000 32} (h_v17 : X (Proc.devRef .tc main_v17) = pos) (h_v27 : X (Proc.devRef .tc main_v27) = start flat) :
    after hostOps1_7 X (Proc.devRef .tc main_v28) = rank flat := by
  rw [g7_v28, h_v17, h_v27] <;> rfl

set_option maxHeartbeats 4000000 in
/-- `main_v30` after stretch 7, as the stretch's operations compose over the buffers it is handed. -/
theorem g7_v30 (X : 𝕍) :
    after hostOps1_7 X (Proc.devRef .tc main_v30) = (cmpi .slt (X (Proc.devRef .tc main_v16) : IVec S4000000 32) (broadcastInDim S4000000 ![] bcast_S_S4000000 (constantI S_ 32 90112000#32))) := by
  after_results_simp <;> (try dsimp only [Matrix.cons_val]) <;> results_rw <;> (try dsimp only [TRef.toBuf, TRef.ofBuf]) <;> (repeat erw [cast_eq]) <;> rfl
theorem s7_v30 (X : 𝕍) {flat : IVec S4000000 32} (h_v16 : X (Proc.devRef .tc main_v16) = sf flat) :
    after hostOps1_7 X (Proc.devRef .tc main_v30) = segValid flat := by
  rw [g7_v30, h_v16] <;> rfl

set_option maxHeartbeats 4000000 in
/-- `main_v31` after stretch 7, as the stretch's operations compose over the buffers it is handed. -/
theorem g7_v31 (X : 𝕍) :
    after hostOps1_7 X (Proc.devRef .tc main_v31) = (broadcastInDim S4000000 ![] bcast_S_S4000000 (constantI S_ 32 4000000#32)) := by
  after_results_simp <;> (try dsimp only [Matrix.cons_val]) <;> results_rw <;> (try dsimp only [TRef.toBuf, TRef.ofBuf]) <;> (repeat erw [cast_eq]) <;> rfl
theorem s7_v31 (X : 𝕍)   :
    after hostOps1_7 X (Proc.devRef .tc main_v31) = broadcastInDim S4000000 ![] bcast_S_S4000000 (constantI S_ 32 4000000#32) := by
  rw [g7_v31] <;> rfl

set_option maxHeartbeats 4000000 in
/-- `main_c_6` after stretch 7, as the stretch's operations compose over the buffers it is handed. -/
theorem g7_c_6 (X : 𝕍) :
    after hostOps1_7 X (Proc.devRef .tc main_c_6) = (constantI S_ 32 4000000#32) := by
  after_results_simp <;> (try dsimp only [Matrix.cons_val]) <;> results_rw <;> (try dsimp only [TRef.toBuf, TRef.ofBuf]) <;> (repeat erw [cast_eq]) <;> rfl
theorem s7_c_6 (X : 𝕍)   :
    after hostOps1_7 X (Proc.devRef .tc main_c_6) = (constantI S_ 32 4000000#32) := by
  rw [g7_c_6] <;> rfl
theorem at8_v28 (W : 𝕍) : V8 W (Proc.devRef .tc main_v28) = rank (flatOf (W (Proc.devRef .tc main_v0))) :=
  s7_v28 (V7 W) (at7_v17 W) (at7_v27 W)
theorem at8_v30 (W : 𝕍) : V8 W (Proc.devRef .tc main_v30) = segValid (flatOf (W (Proc.devRef .tc main_v0))) :=
  s7_v30 (V7 W) (at7_v16 W)
theorem at8_v31 (W : 𝕍) : V8 W (Proc.devRef .tc main_v31) = broadcastInDim S4000000 ![] bcast_S_S4000000 (constantI S_ 32 4000000#32) :=
  s7_v31 (V7 W)
theorem at8_c_6 (W : 𝕍) : V8 W (Proc.devRef .tc main_c_6) = (constantI S_ 32 4000000#32) :=
  s7_c_6 (V7 W)
theorem at8_v9 (W : 𝕍) : V8 W (Proc.devRef .tc main_v9) = perm (flatOf (W (Proc.devRef .tc main_v0))) :=
  (keep7 (V7 W) (b := main_v9) (by decide)).trans (at7_v9 W)
theorem at8_v22 (W : 𝕍) : V8 W (Proc.devRef .tc main_v22) = new (flatOf (W (Proc.devRef .tc main_v0))) :=
  (keep7 (V7 W) (b := main_v22) (by decide)).trans (at7_v22 W)
theorem at8_v17 (W : 𝕍) : V8 W (Proc.devRef .tc main_v17) = pos :=
  (keep7 (V7 W) (b := main_v17) (by decide)).trans (at7_v17 W)
theorem at8_v25 (W : 𝕍) : V8 W (Proc.devRef .tc main_v25) = seg (flatOf (W (Proc.devRef .tc main_v0))) :=
  (keep7 (V7 W) (b := main_v25) (by decide)).trans (at7_v25 W)
theorem at8_v2 (W : 𝕍) : V8 W (Proc.devRef .tc main_v2) = czOf (W (Proc.devRef .tc main_v0)) :=
  (keep7 (V7 W) (b := main_v2) (by decide)).trans (at7_v2 W)
theorem at8_v4 (W : 𝕍) : V8 W (Proc.devRef .tc main_v4) = cyOf (W (Proc.devRef .tc main_v0)) :=
  (keep7 (V7 W) (b := main_v4) (by decide)).trans (at7_v4 W)
theorem at8_v6 (W : 𝕍) : V8 W (Proc.devRef .tc main_v6) = cxOf (W (Proc.devRef .tc main_v0)) :=
  (keep7 (V7 W) (b := main_v6) (by decide)).trans (at7_v6 W)
theorem at8_arg0 (W : 𝕍) : V8 W (Proc.devRef .tc main_arg0) = (W (Proc.devRef .tc main_arg0)) :=
  (keep7 (V7 W) (b := main_arg0) (by decide)).trans (at7_arg0 W)

/-! ### Stretch 8 (`hostOps1_8`) -/

set_option maxHeartbeats 4000000 in
/-- `main_v32` after stretch 8, as the stretch's operations compose over the buffers it is handed. -/
theorem g8_v32 (X : 𝕍) :
    after hostOps1_8 X (Proc.devRef .tc main_v32) = (select (X (Proc.devRef .tc main_v30) : IVec S4000000 1) (X (Proc.devRef .tc main_v9) : IVec S4000000 32) (broadcastInDim S4000000 ![] bcast_S_S4000000 (id (X (Proc.devRef .tc main_c_6) : IVec S_ 32)))) := by
  after_results_simp <;> (try dsimp only [Matrix.cons_val]) <;> results_rw <;> (try dsimp only [TRef.toBuf, TRef.ofBuf]) <;> (repeat erw [cast_eq]) <;> rfl
theorem s8_v32 (X : 𝕍) {flat : IVec S4000000 32} (h_c_6 : X (Proc.devRef .tc main_c_6) = (constantI S_ 32 4000000#32)) (h_v30 : X (Proc.devRef .tc main_v30) = segValid flat) (h_v9 : X (Proc.devRef .tc main_v9) = perm flat) :
    after hostOps1_8 X (Proc.devRef .tc main_v32) = select (segValid flat) (perm flat) (broadcastInDim S4000000 ![] bcast_S_S4000000 (id (constantI S_ 32 4000000#32))) := by
  rw [g8_v32, h_c_6, h_v30, h_v9] <;> rfl
theorem at9_v32 (W : 𝕍) : V9 W (Proc.devRef .tc main_v32) = select (segValid (flatOf (W (Proc.devRef .tc main_v0)))) (perm (flatOf (W (Proc.devRef .tc main_v0)))) (broadcastInDim S4000000 ![] bcast_S_S4000000 (id (constantI S_ 32 4000000#32))) :=
  s8_v32 (V8 W) (at8_c_6 W) (at8_v30 W) (at8_v9 W)
theorem at9_v9 (W : 𝕍) : V9 W (Proc.devRef .tc main_v9) = perm (flatOf (W (Proc.devRef .tc main_v0))) :=
  (keep8 (V8 W) (b := main_v9) (by decide)).trans (at8_v9 W)
theorem at9_v22 (W : 𝕍) : V9 W (Proc.devRef .tc main_v22) = new (flatOf (W (Proc.devRef .tc main_v0))) :=
  (keep8 (V8 W) (b := main_v22) (by decide)).trans (at8_v22 W)
theorem at9_v17 (W : 𝕍) : V9 W (Proc.devRef .tc main_v17) = pos :=
  (keep8 (V8 W) (b := main_v17) (by decide)).trans (at8_v17 W)
theorem at9_v30 (W : 𝕍) : V9 W (Proc.devRef .tc main_v30) = segValid (flatOf (W (Proc.devRef .tc main_v0))) :=
  (keep8 (V8 W) (b := main_v30) (by decide)).trans (at8_v30 W)
theorem at9_v25 (W : 𝕍) : V9 W (Proc.devRef .tc main_v25) = seg (flatOf (W (Proc.devRef .tc main_v0))) :=
  (keep8 (V8 W) (b := main_v25) (by decide)).trans (at8_v25 W)
theorem at9_v31 (W : 𝕍) : V9 W (Proc.devRef .tc main_v31) = broadcastInDim S4000000 ![] bcast_S_S4000000 (constantI S_ 32 4000000#32) :=
  (keep8 (V8 W) (b := main_v31) (by decide)).trans (at8_v31 W)
theorem at9_v28 (W : 𝕍) : V9 W (Proc.devRef .tc main_v28) = rank (flatOf (W (Proc.devRef .tc main_v0))) :=
  (keep8 (V8 W) (b := main_v28) (by decide)).trans (at8_v28 W)
theorem at9_v2 (W : 𝕍) : V9 W (Proc.devRef .tc main_v2) = czOf (W (Proc.devRef .tc main_v0)) :=
  (keep8 (V8 W) (b := main_v2) (by decide)).trans (at8_v2 W)
theorem at9_v4 (W : 𝕍) : V9 W (Proc.devRef .tc main_v4) = cyOf (W (Proc.devRef .tc main_v0)) :=
  (keep8 (V8 W) (b := main_v4) (by decide)).trans (at8_v4 W)
theorem at9_v6 (W : 𝕍) : V9 W (Proc.devRef .tc main_v6) = cxOf (W (Proc.devRef .tc main_v0)) :=
  (keep8 (V8 W) (b := main_v6) (by decide)).trans (at8_v6 W)
theorem at9_arg0 (W : 𝕍) : V9 W (Proc.devRef .tc main_arg0) = (W (Proc.devRef .tc main_arg0)) :=
  (keep8 (V8 W) (b := main_arg0) (by decide)).trans (at8_arg0 W)

/-! ### Stretch 9 (`hostOps1_9`) -/

set_option maxHeartbeats 4000000 in
/-- `main_v39` after stretch 9, as the stretch's operations compose over the buffers it is handed. -/
theorem g9_v39 (X : 𝕍) :
    after hostOps1_9 X (Proc.devRef .tc main_v39) = (Host.scatter scatter_S4000000_S4000000x1_S4000000_n_0_0_1 IntOp.minsi (X (Proc.devRef .tc main_v31) : IVec S4000000 32) (broadcastInDim S4000000x1 ![0] bcast_S4000000_S4000000x1_0 (select (cmpi .slt (X (Proc.devRef .tc main_v25) : IVec S4000000 32) (broadcastInDim S4000000 ![] bcast_S_S4000000 (constantI S_ 32 0#32))) (addi (X (Proc.devRef .tc main_v25) : IVec S4000000 32) (broadcastInDim S4000000 ![] bcast_S_S4000000 (constantI S_ 32 4000000#32))) (X (Proc.devRef .tc main_v25) : IVec S4000000 32))) (X (Proc.devRef .tc main_v32) : IVec S4000000 32)) := by
  after_results_simp <;> (try dsimp only [Matrix.cons_val]) <;> results_rw <;> (try dsimp only [TRef.toBuf, TRef.ofBuf]) <;> (repeat erw [cast_eq]) <;> rfl
theorem s9_v39 (X : 𝕍) {flat : IVec S4000000 32} (h_v25 : X (Proc.devRef .tc main_v25) = seg flat) (h_v31 : X (Proc.devRef .tc main_v31) = broadcastInDim S4000000 ![] bcast_S_S4000000 (constantI S_ 32 4000000#32)) (h_v32 : X (Proc.devRef .tc main_v32) = select (segValid flat) (perm flat) (broadcastInDim S4000000 ![] bcast_S_S4000000 (id (constantI S_ 32 4000000#32)))) :
    after hostOps1_9 X (Proc.devRef .tc main_v39) = segFirst flat := by
  rw [g9_v39, h_v25, h_v31, h_v32] <;> rfl
theorem at10_v39 (W : 𝕍) : V10 W (Proc.devRef .tc main_v39) = segFirst (flatOf (W (Proc.devRef .tc main_v0))) :=
  s9_v39 (V9 W) (at9_v25 W) (at9_v31 W) (at9_v32 W)
theorem at10_v9 (W : 𝕍) : V10 W (Proc.devRef .tc main_v9) = perm (flatOf (W (Proc.devRef .tc main_v0))) :=
  (keep9 (V9 W) (b := main_v9) (by decide)).trans (at9_v9 W)
theorem at10_v22 (W : 𝕍) : V10 W (Proc.devRef .tc main_v22) = new (flatOf (W (Proc.devRef .tc main_v0))) :=
  (keep9 (V9 W) (b := main_v22) (by decide)).trans (at9_v22 W)
theorem at10_v17 (W : 𝕍) : V10 W (Proc.devRef .tc main_v17) = pos :=
  (keep9 (V9 W) (b := main_v17) (by decide)).trans (at9_v17 W)
theorem at10_v30 (W : 𝕍) : V10 W (Proc.devRef .tc main_v30) = segValid (flatOf (W (Proc.devRef .tc main_v0))) :=
  (keep9 (V9 W) (b := main_v30) (by decide)).trans (at9_v30 W)
theorem at10_v25 (W : 𝕍) : V10 W (Proc.devRef .tc main_v25) = seg (flatOf (W (Proc.devRef .tc main_v0))) :=
  (keep9 (V9 W) (b := main_v25) (by decide)).trans (at9_v25 W)
theorem at10_v28 (W : 𝕍) : V10 W (Proc.devRef .tc main_v28) = rank (flatOf (W (Proc.devRef .tc main_v0))) :=
  (keep9 (V9 W) (b := main_v28) (by decide)).trans (at9_v28 W)
theorem at10_v2 (W : 𝕍) : V10 W (Proc.devRef .tc main_v2) = czOf (W (Proc.devRef .tc main_v0)) :=
  (keep9 (V9 W) (b := main_v2) (by decide)).trans (at9_v2 W)
theorem at10_v4 (W : 𝕍) : V10 W (Proc.devRef .tc main_v4) = cyOf (W (Proc.devRef .tc main_v0)) :=
  (keep9 (V9 W) (b := main_v4) (by decide)).trans (at9_v4 W)
theorem at10_v6 (W : 𝕍) : V10 W (Proc.devRef .tc main_v6) = cxOf (W (Proc.devRef .tc main_v0)) :=
  (keep9 (V9 W) (b := main_v6) (by decide)).trans (at9_v6 W)
theorem at10_arg0 (W : 𝕍) : V10 W (Proc.devRef .tc main_arg0) = (W (Proc.devRef .tc main_arg0)) :=
  (keep9 (V9 W) (b := main_arg0) (by decide)).trans (at9_arg0 W)

/-! ### Stretch 10 (`hostOps1_10`) -/

set_option maxHeartbeats 4000000 in
/-- `main_v40` after stretch 10, as the stretch's operations compose over the buffers it is handed. -/
theorem g10_v40 (X : 𝕍) :
    after hostOps1_10 X (Proc.devRef .tc main_v40) = ((Host.sort2 S4000000 0 comparator_i32_i32_d0 (X (Proc.devRef .tc main_v39) : IVec S4000000 32) (iotaInDim S4000000 32 0)).2) := by
  after_results_simp <;> (try dsimp only [Matrix.cons_val]) <;> results_rw <;> (try dsimp only [TRef.toBuf, TRef.ofBuf]) <;> (repeat erw [cast_eq]) <;> rfl
theorem s10_v40 (X : 𝕍) {flat : IVec S4000000 32} (h_v39 : X (Proc.devRef .tc main_v39) = segFirst flat) :
    after hostOps1_10 X (Proc.devRef .tc main_v40) = order flat := by
  rw [g10_v40, h_v39] <;> rfl
theorem at11_v40 (W : 𝕍) : V11 W (Proc.devRef .tc main_v40) = order (flatOf (W (Proc.devRef .tc main_v0))) :=
  s10_v40 (V10 W) (at10_v39 W)
theorem at11_v9 (W : 𝕍) : V11 W (Proc.devRef .tc main_v9) = perm (flatOf (W (Proc.devRef .tc main_v0))) :=
  (keep10 (V10 W) (b := main_v9) (by decide)).trans (at10_v9 W)
theorem at11_v22 (W : 𝕍) : V11 W (Proc.devRef .tc main_v22) = new (flatOf (W (Proc.devRef .tc main_v0))) :=
  (keep10 (V10 W) (b := main_v22) (by decide)).trans (at10_v22 W)
theorem at11_v17 (W : 𝕍) : V11 W (Proc.devRef .tc main_v17) = pos :=
  (keep10 (V10 W) (b := main_v17) (by decide)).trans (at10_v17 W)
theorem at11_v30 (W : 𝕍) : V11 W (Proc.devRef .tc main_v30) = segValid (flatOf (W (Proc.devRef .tc main_v0))) :=
  (keep10 (V10 W) (b := main_v30) (by decide)).trans (at10_v30 W)
theorem at11_v25 (W : 𝕍) : V11 W (Proc.devRef .tc main_v25) = seg (flatOf (W (Proc.devRef .tc main_v0))) :=
  (keep10 (V10 W) (b := main_v25) (by decide)).trans (at10_v25 W)
theorem at11_v28 (W : 𝕍) : V11 W (Proc.devRef .tc main_v28) = rank (flatOf (W (Proc.devRef .tc main_v0))) :=
  (keep10 (V10 W) (b := main_v28) (by decide)).trans (at10_v28 W)
theorem at11_v2 (W : 𝕍) : V11 W (Proc.devRef .tc main_v2) = czOf (W (Proc.devRef .tc main_v0)) :=
  (keep10 (V10 W) (b := main_v2) (by decide)).trans (at10_v2 W)
theorem at11_v4 (W : 𝕍) : V11 W (Proc.devRef .tc main_v4) = cyOf (W (Proc.devRef .tc main_v0)) :=
  (keep10 (V10 W) (b := main_v4) (by decide)).trans (at10_v4 W)
theorem at11_v6 (W : 𝕍) : V11 W (Proc.devRef .tc main_v6) = cxOf (W (Proc.devRef .tc main_v0)) :=
  (keep10 (V10 W) (b := main_v6) (by decide)).trans (at10_v6 W)
theorem at11_arg0 (W : 𝕍) : V11 W (Proc.devRef .tc main_arg0) = (W (Proc.devRef .tc main_arg0)) :=
  (keep10 (V10 W) (b := main_arg0) (by decide)).trans (at10_arg0 W)

/-! ### Stretch 11 (`hostOps1_11`) -/

set_option maxHeartbeats 4000000 in
/-- `main_v55` after stretch 11, as the stretch's operations compose over the buffers it is handed. -/
theorem g11_v55 (X : 𝕍) :
    after hostOps1_11 X (Proc.devRef .tc main_v55) = (Host.gather gather_S4000000_S4000000x1_S4000000_n_0_n_n_0_1_1 (Host.scatter scatter_S4000000_S4000000x1_S4000000_n_0_0_1 (fun _ b => b) (broadcastInDim S4000000 ![] bcast_S_S4000000 (constantI S_ 32 0#32)) (broadcastInDim S4000000x1 ![0] bcast_S4000000_S4000000x1_0 (select (cmpi .slt (X (Proc.devRef .tc main_v40) : IVec S4000000 32) (broadcastInDim S4000000 ![] bcast_S_S4000000 (constantI S_ 32 0#32))) (addi (X (Proc.devRef .tc main_v40) : IVec S4000000 32) (broadcastInDim S4000000 ![] bcast_S_S4000000 (constantI S_ 32 4000000#32))) (X (Proc.devRef .tc main_v40) : IVec S4000000 32))) (X (Proc.devRef .tc main_v17) : IVec S4000000 32)) (broadcastInDim S4000000x1 ![0] bcast_S4000000_S4000000x1_0 (select (cmpi .slt (X (Proc.devRef .tc main_v25) : IVec S4000000 32) (broadcastInDim S4000000 ![] bcast_S_S4000000 (constantI S_ 32 0#32))) (addi (X (Proc.devRef .tc main_v25) : IVec S4000000 32) (broadcastInDim S4000000 ![] bcast_S_S4000000 (constantI S_ 32 4000000#32))) (X (Proc.devRef .tc main_v25) : IVec S4000000 32)))) := by
  after_results_simp <;> (try dsimp only [Matrix.cons_val]) <;> results_rw <;> (try dsimp only [TRef.toBuf, TRef.ofBuf]) <;> (repeat erw [cast_eq]) <;> rfl
theorem s11_v55 (X : 𝕍) {flat : IVec S4000000 32} (h_v40 : X (Proc.devRef .tc main_v40) = order flat) (h_v17 : X (Proc.devRef .tc main_v17) = pos) (h_v25 : X (Proc.devRef .tc main_v25) = seg flat) :
    after hostOps1_11 X (Proc.devRef .tc main_v55) = slot flat := by
  rw [g11_v55, h_v40, h_v17, h_v25] <;> rfl

set_option maxHeartbeats 4000000 in
/-- `main_v61` after stretch 11, as the stretch's operations compose over the buffers it is handed. -/
theorem g11_v61 (X : 𝕍) :
    after hostOps1_11 X (Proc.devRef .tc main_v61) = (andi (andi (X (Proc.devRef .tc main_v30) : IVec S4000000 1) (cmpi .slt (Host.gather gather_S4000000_S4000000x1_S4000000_n_0_n_n_0_1_1 (Host.scatter scatter_S4000000_S4000000x1_S4000000_n_0_0_1 (fun _ b => b) (broadcastInDim S4000000 ![] bcast_S_S4000000 (constantI S_ 32 0#32)) (broadcastInDim S4000000x1 ![0] bcast_S4000000_S4000000x1_0 (select (cmpi .slt (X (Proc.devRef .tc main_v40) : IVec S4000000 32) (broadcastInDim S4000000 ![] bcast_S_S4000000 (constantI S_ 32 0#32))) (addi (X (Proc.devRef .tc main_v40) : IVec S4000000 32) (broadcastInDim S4000000 ![] bcast_S_S4000000 (constantI S_ 32 4000000#32))) (X (Proc.devRef .tc main_v40) : IVec S4000000 32))) (X (Proc.devRef .tc main_v17) : IVec S4000000 32)) (broadcastInDim S4000000x1 ![0] bcast_S4000000_S4000000x1_0 (select (cmpi .slt (X (Proc.devRef .tc main_v25) : IVec S4000000 32) (broadcastInDim S4000000 ![] bcast_S_S4000000 (constantI S_ 32 0#32))) (addi (X (Proc.devRef .tc main_v25) : IVec S4000000 32) (broadcastInDim S4000000 ![] bcast_S_S4000000 (constantI S_ 32 4000000#32))) (X (Proc.devRef .tc main_v25) : IVec S4000000 32)))) (broadcastInDim S4000000 ![] bcast_S_S4000000 (constantI S_ 32 20000#32)))) (cmpi .slt (X (Proc.devRef .tc main_v28) : IVec S4000000 32) (broadcastInDim S4000000 ![] bcast_S_S4000000 (constantI S_ 32 35#32)))) := by
  after_results_simp <;> (try dsimp only [Matrix.cons_val]) <;> results_rw <;> (try dsimp only [TRef.toBuf, TRef.ofBuf]) <;> (repeat erw [cast_eq]) <;> rfl
theorem s11_v61 (X : 𝕍) {flat : IVec S4000000 32} (h_v40 : X (Proc.devRef .tc main_v40) = order flat) (h_v17 : X (Proc.devRef .tc main_v17) = pos) (h_v25 : X (Proc.devRef .tc main_v25) = seg flat) (h_v30 : X (Proc.devRef .tc main_v30) = segValid flat) (h_v28 : X (Proc.devRef .tc main_v28) = rank flat) :
    after hostOps1_11 X (Proc.devRef .tc main_v61) = keep flat := by
  rw [g11_v61, h_v40, h_v17, h_v25, h_v30, h_v28] <;> rfl

set_option maxHeartbeats 4000000 in
/-- `main_c_16` after stretch 11, as the stretch's operations compose over the buffers it is handed. -/
theorem g11_c_16 (X : 𝕍) :
    after hostOps1_11 X (Proc.devRef .tc main_c_16) = (constantI S_ 32 20000#32) := by
  after_results_simp <;> (try dsimp only [Matrix.cons_val]) <;> results_rw <;> (try dsimp only [TRef.toBuf, TRef.ofBuf]) <;> (repeat erw [cast_eq]) <;> rfl
theorem s11_c_16 (X : 𝕍)   :
    after hostOps1_11 X (Proc.devRef .tc main_c_16) = (constantI S_ 32 20000#32) := by
  rw [g11_c_16] <;> rfl
theorem at12_v55 (W : 𝕍) : V12 W (Proc.devRef .tc main_v55) = slot (flatOf (W (Proc.devRef .tc main_v0))) :=
  s11_v55 (V11 W) (at11_v40 W) (at11_v17 W) (at11_v25 W)
theorem at12_v61 (W : 𝕍) : V12 W (Proc.devRef .tc main_v61) = keep (flatOf (W (Proc.devRef .tc main_v0))) :=
  s11_v61 (V11 W) (at11_v40 W) (at11_v17 W) (at11_v25 W) (at11_v30 W) (at11_v28 W)
theorem at12_c_16 (W : 𝕍) : V12 W (Proc.devRef .tc main_c_16) = (constantI S_ 32 20000#32) :=
  s11_c_16 (V11 W)
theorem at12_v9 (W : 𝕍) : V12 W (Proc.devRef .tc main_v9) = perm (flatOf (W (Proc.devRef .tc main_v0))) :=
  (keep11 (V11 W) (b := main_v9) (by decide)).trans (at11_v9 W)
theorem at12_v22 (W : 𝕍) : V12 W (Proc.devRef .tc main_v22) = new (flatOf (W (Proc.devRef .tc main_v0))) :=
  (keep11 (V11 W) (b := main_v22) (by decide)).trans (at11_v22 W)
theorem at12_v30 (W : 𝕍) : V12 W (Proc.devRef .tc main_v30) = segValid (flatOf (W (Proc.devRef .tc main_v0))) :=
  (keep11 (V11 W) (b := main_v30) (by decide)).trans (at11_v30 W)
theorem at12_v28 (W : 𝕍) : V12 W (Proc.devRef .tc main_v28) = rank (flatOf (W (Proc.devRef .tc main_v0))) :=
  (keep11 (V11 W) (b := main_v28) (by decide)).trans (at11_v28 W)
theorem at12_v2 (W : 𝕍) : V12 W (Proc.devRef .tc main_v2) = czOf (W (Proc.devRef .tc main_v0)) :=
  (keep11 (V11 W) (b := main_v2) (by decide)).trans (at11_v2 W)
theorem at12_v4 (W : 𝕍) : V12 W (Proc.devRef .tc main_v4) = cyOf (W (Proc.devRef .tc main_v0)) :=
  (keep11 (V11 W) (b := main_v4) (by decide)).trans (at11_v4 W)
theorem at12_v6 (W : 𝕍) : V12 W (Proc.devRef .tc main_v6) = cxOf (W (Proc.devRef .tc main_v0)) :=
  (keep11 (V11 W) (b := main_v6) (by decide)).trans (at11_v6 W)
theorem at12_arg0 (W : 𝕍) : V12 W (Proc.devRef .tc main_arg0) = (W (Proc.devRef .tc main_arg0)) :=
  (keep11 (V11 W) (b := main_arg0) (by decide)).trans (at11_arg0 W)

/-! ### Stretch 12 (`hostOps1_12`) -/

set_option maxHeartbeats 4000000 in
/-- `main_v62` after stretch 12, as the stretch's operations compose over the buffers it is handed. -/
theorem g12_v62 (X : 𝕍) :
    after hostOps1_12 X (Proc.devRef .tc main_v62) = (select (X (Proc.devRef .tc main_v61) : IVec S4000000 1) (X (Proc.devRef .tc main_v55) : IVec S4000000 32) (broadcastInDim S4000000 ![] bcast_S_S4000000 (id (X (Proc.devRef .tc main_c_16) : IVec S_ 32)))) := by
  after_results_simp <;> (try dsimp only [Matrix.cons_val]) <;> results_rw <;> (try dsimp only [TRef.toBuf, TRef.ofBuf]) <;> (repeat erw [cast_eq]) <;> rfl
theorem s12_v62 (X : 𝕍) {flat : IVec S4000000 32} (h_c_16 : X (Proc.devRef .tc main_c_16) = (constantI S_ 32 20000#32)) (h_v61 : X (Proc.devRef .tc main_v61) = keep flat) (h_v55 : X (Proc.devRef .tc main_v55) = slot flat) :
    after hostOps1_12 X (Proc.devRef .tc main_v62) = s flat := by
  rw [g12_v62, h_c_16, h_v61, h_v55] <;> rfl
theorem at13_v62 (W : 𝕍) : V13 W (Proc.devRef .tc main_v62) = s (flatOf (W (Proc.devRef .tc main_v0))) :=
  s12_v62 (V12 W) (at12_c_16 W) (at12_v61 W) (at12_v55 W)
theorem at13_v9 (W : 𝕍) : V13 W (Proc.devRef .tc main_v9) = perm (flatOf (W (Proc.devRef .tc main_v0))) :=
  (keep12 (V12 W) (b := main_v9) (by decide)).trans (at12_v9 W)
theorem at13_v22 (W : 𝕍) : V13 W (Proc.devRef .tc main_v22) = new (flatOf (W (Proc.devRef .tc main_v0))) :=
  (keep12 (V12 W) (b := main_v22) (by decide)).trans (at12_v22 W)
theorem at13_v30 (W : 𝕍) : V13 W (Proc.devRef .tc main_v30) = segValid (flatOf (W (Proc.devRef .tc main_v0))) :=
  (keep12 (V12 W) (b := main_v30) (by decide)).trans (at12_v30 W)
theorem at13_v28 (W : 𝕍) : V13 W (Proc.devRef .tc main_v28) = rank (flatOf (W (Proc.devRef .tc main_v0))) :=
  (keep12 (V12 W) (b := main_v28) (by decide)).trans (at12_v28 W)
theorem at13_v61 (W : 𝕍) : V13 W (Proc.devRef .tc main_v61) = keep (flatOf (W (Proc.devRef .tc main_v0))) :=
  (keep12 (V12 W) (b := main_v61) (by decide)).trans (at12_v61 W)
theorem at13_v2 (W : 𝕍) : V13 W (Proc.devRef .tc main_v2) = czOf (W (Proc.devRef .tc main_v0)) :=
  (keep12 (V12 W) (b := main_v2) (by decide)).trans (at12_v2 W)
theorem at13_v4 (W : 𝕍) : V13 W (Proc.devRef .tc main_v4) = cyOf (W (Proc.devRef .tc main_v0)) :=
  (keep12 (V12 W) (b := main_v4) (by decide)).trans (at12_v4 W)
theorem at13_v6 (W : 𝕍) : V13 W (Proc.devRef .tc main_v6) = cxOf (W (Proc.devRef .tc main_v0)) :=
  (keep12 (V12 W) (b := main_v6) (by decide)).trans (at12_v6 W)
theorem at13_arg0 (W : 𝕍) : V13 W (Proc.devRef .tc main_arg0) = (W (Proc.devRef .tc main_arg0)) :=
  (keep12 (V12 W) (b := main_arg0) (by decide)).trans (at12_arg0 W)

/-! ### Stretch 13 (`hostOps1_13`) -/

set_option maxHeartbeats 4000000 in
/-- `main_c_17` after stretch 13, as the stretch's operations compose over the buffers it is handed. -/
theorem g13_c_17 (X : 𝕍) :
    after hostOps1_13 X (Proc.devRef .tc main_c_17) = (constantI S_ 32 0#32) := by
  after_results_simp <;> (try dsimp only [Matrix.cons_val]) <;> results_rw <;> (try dsimp only [TRef.toBuf, TRef.ofBuf]) <;> (repeat erw [cast_eq]) <;> rfl
theorem s13_c_17 (X : 𝕍)   :
    after hostOps1_13 X (Proc.devRef .tc main_c_17) = (constantI S_ 32 0#32) := by
  rw [g13_c_17] <;> rfl
theorem at14_c_17 (W : 𝕍) : V14 W (Proc.devRef .tc main_c_17) = (constantI S_ 32 0#32) :=
  s13_c_17 (V13 W)
theorem at14_v9 (W : 𝕍) : V14 W (Proc.devRef .tc main_v9) = perm (flatOf (W (Proc.devRef .tc main_v0))) :=
  (keep13 (V13 W) (b := main_v9) (by decide)).trans (at13_v9 W)
theorem at14_v22 (W : 𝕍) : V14 W (Proc.devRef .tc main_v22) = new (flatOf (W (Proc.devRef .tc main_v0))) :=
  (keep13 (V13 W) (b := main_v22) (by decide)).trans (at13_v22 W)
theorem at14_v30 (W : 𝕍) : V14 W (Proc.devRef .tc main_v30) = segValid (flatOf (W (Proc.devRef .tc main_v0))) :=
  (keep13 (V13 W) (b := main_v30) (by decide)).trans (at13_v30 W)
theorem at14_v28 (W : 𝕍) : V14 W (Proc.devRef .tc main_v28) = rank (flatOf (W (Proc.devRef .tc main_v0))) :=
  (keep13 (V13 W) (b := main_v28) (by decide)).trans (at13_v28 W)
theorem at14_v61 (W : 𝕍) : V14 W (Proc.devRef .tc main_v61) = keep (flatOf (W (Proc.devRef .tc main_v0))) :=
  (keep13 (V13 W) (b := main_v61) (by decide)).trans (at13_v61 W)
theorem at14_v2 (W : 𝕍) : V14 W (Proc.devRef .tc main_v2) = czOf (W (Proc.devRef .tc main_v0)) :=
  (keep13 (V13 W) (b := main_v2) (by decide)).trans (at13_v2 W)
theorem at14_v4 (W : 𝕍) : V14 W (Proc.devRef .tc main_v4) = cyOf (W (Proc.devRef .tc main_v0)) :=
  (keep13 (V13 W) (b := main_v4) (by decide)).trans (at13_v4 W)
theorem at14_v6 (W : 𝕍) : V14 W (Proc.devRef .tc main_v6) = cxOf (W (Proc.devRef .tc main_v0)) :=
  (keep13 (V13 W) (b := main_v6) (by decide)).trans (at13_v6 W)
theorem at14_arg0 (W : 𝕍) : V14 W (Proc.devRef .tc main_arg0) = (W (Proc.devRef .tc main_arg0)) :=
  (keep13 (V13 W) (b := main_arg0) (by decide)).trans (at13_arg0 W)
theorem at14_v62 (W : 𝕍) : V14 W (Proc.devRef .tc main_v62) = s (flatOf (W (Proc.devRef .tc main_v0))) :=
  (keep13 (V13 W) (b := main_v62) (by decide)).trans (at13_v62 W)

/-! ### Stretch 14 (`hostOps1_14`) -/

set_option maxHeartbeats 4000000 in
/-- `main_v63` after stretch 14, as the stretch's operations compose over the buffers it is handed. -/
theorem g14_v63 (X : 𝕍) :
    after hostOps1_14 X (Proc.devRef .tc main_v63) = (select (X (Proc.devRef .tc main_v61) : IVec S4000000 1) (X (Proc.devRef .tc main_v28) : IVec S4000000 32) (broadcastInDim S4000000 ![] bcast_S_S4000000 (id (X (Proc.devRef .tc main_c_17) : IVec S_ 32)))) := by
  after_results_simp <;> (try dsimp only [Matrix.cons_val]) <;> results_rw <;> (try dsimp only [TRef.toBuf, TRef.ofBuf]) <;> (repeat erw [cast_eq]) <;> rfl
theorem s14_v63 (X : 𝕍) {flat : IVec S4000000 32} (h_c_17 : X (Proc.devRef .tc main_c_17) = (constantI S_ 32 0#32)) (h_v61 : X (Proc.devRef .tc main_v61) = keep flat) (h_v28 : X (Proc.devRef .tc main_v28) = rank flat) :
    after hostOps1_14 X (Proc.devRef .tc main_v63) = r flat := by
  rw [g14_v63, h_c_17, h_v61, h_v28] <;> rfl
theorem at15_v63 (W : 𝕍) : V15 W (Proc.devRef .tc main_v63) = r (flatOf (W (Proc.devRef .tc main_v0))) :=
  s14_v63 (V14 W) (at14_c_17 W) (at14_v61 W) (at14_v28 W)
theorem at15_v9 (W : 𝕍) : V15 W (Proc.devRef .tc main_v9) = perm (flatOf (W (Proc.devRef .tc main_v0))) :=
  (keep14 (V14 W) (b := main_v9) (by decide)).trans (at14_v9 W)
theorem at15_v22 (W : 𝕍) : V15 W (Proc.devRef .tc main_v22) = new (flatOf (W (Proc.devRef .tc main_v0))) :=
  (keep14 (V14 W) (b := main_v22) (by decide)).trans (at14_v22 W)
theorem at15_v30 (W : 𝕍) : V15 W (Proc.devRef .tc main_v30) = segValid (flatOf (W (Proc.devRef .tc main_v0))) :=
  (keep14 (V14 W) (b := main_v30) (by decide)).trans (at14_v30 W)
theorem at15_v61 (W : 𝕍) : V15 W (Proc.devRef .tc main_v61) = keep (flatOf (W (Proc.devRef .tc main_v0))) :=
  (keep14 (V14 W) (b := main_v61) (by decide)).trans (at14_v61 W)
theorem at15_v2 (W : 𝕍) : V15 W (Proc.devRef .tc main_v2) = czOf (W (Proc.devRef .tc main_v0)) :=
  (keep14 (V14 W) (b := main_v2) (by decide)).trans (at14_v2 W)
theorem at15_v4 (W : 𝕍) : V15 W (Proc.devRef .tc main_v4) = cyOf (W (Proc.devRef .tc main_v0)) :=
  (keep14 (V14 W) (b := main_v4) (by decide)).trans (at14_v4 W)
theorem at15_v6 (W : 𝕍) : V15 W (Proc.devRef .tc main_v6) = cxOf (W (Proc.devRef .tc main_v0)) :=
  (keep14 (V14 W) (b := main_v6) (by decide)).trans (at14_v6 W)
theorem at15_arg0 (W : 𝕍) : V15 W (Proc.devRef .tc main_arg0) = (W (Proc.devRef .tc main_arg0)) :=
  (keep14 (V14 W) (b := main_arg0) (by decide)).trans (at14_arg0 W)
theorem at15_v62 (W : 𝕍) : V15 W (Proc.devRef .tc main_v62) = s (flatOf (W (Proc.devRef .tc main_v0))) :=
  (keep14 (V14 W) (b := main_v62) (by decide)).trans (at14_v62 W)

/-! ### Stretch 15 (`hostOps1_15`) -/

set_option maxHeartbeats 4000000 in
/-- `main_v74` after stretch 15, as the stretch's operations compose over the buffers it is handed. -/
theorem g15_v74 (X : 𝕍) :
    after hostOps1_15 X (Proc.devRef .tc main_v74) = (Host.gather gather_S4000000x3_S4000000x1_S4000000x3_1_0_n_n_0_1_13 (concatenate S4000000x3 1 [⟨S4000000x1, (broadcastInDim S4000000x1 ![0] bcast_S4000000_S4000000x1_0 (X (Proc.devRef .tc main_v2) : IVec S4000000 32))⟩, ⟨S4000000x1, (broadcastInDim S4000000x1 ![0] bcast_S4000000_S4000000x1_0 (X (Proc.devRef .tc main_v4) : IVec S4000000 32))⟩, ⟨S4000000x1, (broadcastInDim S4000000x1 ![0] bcast_S4000000_S4000000x1_0 (X (Proc.devRef .tc main_v6) : IVec S4000000 32))⟩] concatenates_S4000000x1_S4000000x1_S4000000x1_S4000000x3_d1) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32)))) := by
  after_results_simp <;> (try dsimp only [Matrix.cons_val]) <;> results_rw <;> (try dsimp only [TRef.toBuf, TRef.ofBuf]) <;> (repeat erw [cast_eq]) <;> rfl
theorem s15_v74 (X : 𝕍) {o : IVec S4000000x4 32} (h_v2 : X (Proc.devRef .tc main_v2) = czOf o) (h_v4 : X (Proc.devRef .tc main_v4) = cyOf o) (h_v6 : X (Proc.devRef .tc main_v6) = cxOf o) (h_v9 : X (Proc.devRef .tc main_v9) = perm (flatOf o)) :
    after hostOps1_15 X (Proc.devRef .tc main_v74) = UK o := by
  rw [g15_v74, h_v2, h_v4, h_v6, h_v9] <;> rfl

set_option maxHeartbeats 4000000 in
/-- `main_v96` after stretch 15, as the stretch's operations compose over the buffers it is handed. -/
theorem g15_v96 (X : 𝕍) :
    after hostOps1_15 X (Proc.devRef .tc main_v96) = (Host.scatter scatter_S20000x35x4_S4000000x2_S4000000x4_1_01_01_1 (fun _ b => b) (broadcastInDim S20000x35x4 ![] bcast_S_S20000x35x4 (constant (F := F) S_ .f32 0x00000000#32)) (concatenate S4000000x2 1 [⟨S4000000x1, (broadcastInDim S4000000x1 ![0] bcast_S4000000_S4000000x1_0 (select (cmpi .slt (X (Proc.devRef .tc main_v62) : IVec S4000000 32) (broadcastInDim S4000000 ![] bcast_S_S4000000 (constantI S_ 32 0#32))) (addi (X (Proc.devRef .tc main_v62) : IVec S4000000 32) (broadcastInDim S4000000 ![] bcast_S_S4000000 (constantI S_ 32 20000#32))) (X (Proc.devRef .tc main_v62) : IVec S4000000 32)))⟩, ⟨S4000000x1, (broadcastInDim S4000000x1 ![0] bcast_S4000000_S4000000x1_0 (select (cmpi .slt (X (Proc.devRef .tc main_v63) : IVec S4000000 32) (broadcastInDim S4000000 ![] bcast_S_S4000000 (constantI S_ 32 0#32))) (addi (X (Proc.devRef .tc main_v63) : IVec S4000000 32) (broadcastInDim S4000000 ![] bcast_S_S4000000 (constantI S_ 32 35#32))) (X (Proc.devRef .tc main_v63) : IVec S4000000 32)))⟩] concatenates_S4000000x1_S4000000x1_S4000000x2_d1) (Host.gather gather_S4000000x4_S4000000x1_S4000000x4_1_0_n_n_0_1_14 (X (Proc.devRef .tc main_arg0) : FVec F S4000000x4 .f32) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32))))) := by
  after_results_simp <;> (try dsimp only [Matrix.cons_val]) <;> results_rw <;> (try dsimp only [TRef.toBuf, TRef.ofBuf]) <;> (repeat erw [cast_eq]) <;> rfl
theorem s15_v96 (X : 𝕍) {flat : IVec S4000000 32} {x : FVec F S4000000x4 .f32} (h_v9 : X (Proc.devRef .tc main_v9) = perm flat) (h_arg0 : X (Proc.devRef .tc main_arg0) = x) (h_v62 : X (Proc.devRef .tc main_v62) = s flat) (h_v63 : X (Proc.devRef .tc main_v63) = r flat) :
    after hostOps1_15 X (Proc.devRef .tc main_v96) = TV flat x := by
  rw [g15_v96, h_v9, h_arg0, h_v62, h_v63] <;> rfl

set_option maxHeartbeats 4000000 in
/-- `main_v105` after stretch 15, as the stretch's operations compose over the buffers it is handed. -/
theorem g15_v105 (X : 𝕍) :
    after hostOps1_15 X (Proc.devRef .tc main_v105) = (Host.scatter scatter_S20000_S4000000x1_S4000000_n_0_0_1 IntOp.addi (broadcastInDim S20000 ![] bcast_S_S20000 (constantI S_ 32 0#32)) (broadcastInDim S4000000x1 ![0] bcast_S4000000_S4000000x1_0 (select (cmpi .slt (X (Proc.devRef .tc main_v62) : IVec S4000000 32) (broadcastInDim S4000000 ![] bcast_S_S4000000 (constantI S_ 32 0#32))) (addi (X (Proc.devRef .tc main_v62) : IVec S4000000 32) (broadcastInDim S4000000 ![] bcast_S_S4000000 (constantI S_ 32 20000#32))) (X (Proc.devRef .tc main_v62) : IVec S4000000 32))) (extui 32 (X (Proc.devRef .tc main_v61) : IVec S4000000 1) natLt_1_32)) := by
  after_results_simp <;> (try dsimp only [Matrix.cons_val]) <;> results_rw <;> (try dsimp only [TRef.toBuf, TRef.ofBuf]) <;> (repeat erw [cast_eq]) <;> rfl
theorem s15_v105 (X : 𝕍) {flat : IVec S4000000 32} (h_v62 : X (Proc.devRef .tc main_v62) = s flat) (h_v61 : X (Proc.devRef .tc main_v61) = keep flat) :
    after hostOps1_15 X (Proc.devRef .tc main_v105) = TN flat := by
  rw [g15_v105, h_v62, h_v61] <;> rfl

set_option maxHeartbeats 4000000 in
/-- `main_v113` after stretch 15, as the stretch's operations compose over the buffers it is handed. -/
theorem g15_v113 (X : 𝕍) :
    after hostOps1_15 X (Proc.devRef .tc main_v113) = (Host.scatter scatter_S20000x3_S4000000x1_S4000000x3_1_0_0_1 (fun _ b => b) (broadcastInDim S20000x3 ![] bcast_S_S20000x3 (constantI S_ 32 0#32)) (broadcastInDim S4000000x1 ![0] bcast_S4000000_S4000000x1_0 (select (cmpi .slt (X (Proc.devRef .tc main_v62) : IVec S4000000 32) (broadcastInDim S4000000 ![] bcast_S_S4000000 (constantI S_ 32 0#32))) (addi (X (Proc.devRef .tc main_v62) : IVec S4000000 32) (broadcastInDim S4000000 ![] bcast_S_S4000000 (constantI S_ 32 20000#32))) (X (Proc.devRef .tc main_v62) : IVec S4000000 32))) (Host.gather gather_S4000000x3_S4000000x1_S4000000x3_1_0_n_n_0_1_13 (concatenate S4000000x3 1 [⟨S4000000x1, (broadcastInDim S4000000x1 ![0] bcast_S4000000_S4000000x1_0 (X (Proc.devRef .tc main_v2) : IVec S4000000 32))⟩, ⟨S4000000x1, (broadcastInDim S4000000x1 ![0] bcast_S4000000_S4000000x1_0 (X (Proc.devRef .tc main_v4) : IVec S4000000 32))⟩, ⟨S4000000x1, (broadcastInDim S4000000x1 ![0] bcast_S4000000_S4000000x1_0 (X (Proc.devRef .tc main_v6) : IVec S4000000 32))⟩] concatenates_S4000000x1_S4000000x1_S4000000x1_S4000000x3_d1) (broadcastInDim S4000000x1 ![0] bcast_S4000000_S4000000x1_0 (select (cmpi .slt (X (Proc.devRef .tc main_v9) : IVec S4000000 32) (broadcastInDim S4000000 ![] bcast_S_S4000000 (constantI S_ 32 0#32))) (addi (X (Proc.devRef .tc main_v9) : IVec S4000000 32) (broadcastInDim S4000000 ![] bcast_S_S4000000 (constantI S_ 32 4000000#32))) (X (Proc.devRef .tc main_v9) : IVec S4000000 32))))) := by
  after_results_simp <;> (try dsimp only [Matrix.cons_val]) <;> results_rw <;> (try dsimp only [TRef.toBuf, TRef.ofBuf]) <;> (repeat erw [cast_eq]) <;> rfl
theorem s15_v113 (X : 𝕍) {flat : IVec S4000000 32} {o : IVec S4000000x4 32} (h_v62 : X (Proc.devRef .tc main_v62) = s flat) (h_v2 : X (Proc.devRef .tc main_v2) = czOf o) (h_v4 : X (Proc.devRef .tc main_v4) = cyOf o) (h_v6 : X (Proc.devRef .tc main_v6) = cxOf o) (h_v9 : X (Proc.devRef .tc main_v9) = perm (flatOf o)) :
    after hostOps1_15 X (Proc.devRef .tc main_v113) = TC flat (UK o) := by
  rw [g15_v113, h_v62, h_v2, h_v4, h_v6, h_v9] <;> rfl

set_option maxHeartbeats 4000000 in
/-- `main_v117` after stretch 15, as the stretch's operations compose over the buffers it is handed. -/
theorem g15_v117 (X : 𝕍) :
    after hostOps1_15 X (Proc.devRef .tc main_v117) = (minsi (Host.reduce IntOp.addi (extui 32 (andi (X (Proc.devRef .tc main_v22) : IVec S4000000 1) (X (Proc.devRef .tc main_v30) : IVec S4000000 1)) natLt_1_32) (constantI S_ 32 0#32) reducesTo_S4000000_S_d0 h_S_) (constantI S_ 32 20000#32)) := by
  after_results_simp <;> (try dsimp only [Matrix.cons_val]) <;> results_rw <;> (try dsimp only [TRef.toBuf, TRef.ofBuf]) <;> (repeat erw [cast_eq]) <;> rfl
theorem s15_v117 (X : 𝕍) {flat : IVec S4000000 32} (h_v22 : X (Proc.devRef .tc main_v22) = new flat) (h_v30 : X (Proc.devRef .tc main_v30) = segValid flat) :
    after hostOps1_15 X (Proc.devRef .tc main_v117) = TM flat := by
  rw [g15_v117, h_v22, h_v30] <;> rfl
theorem at16_v74 (W : 𝕍) : V16 W (Proc.devRef .tc main_v74) = UK (W (Proc.devRef .tc main_v0)) :=
  s15_v74 (V15 W) (at15_v2 W) (at15_v4 W) (at15_v6 W) (at15_v9 W)
theorem at16_v96 (W : 𝕍) : V16 W (Proc.devRef .tc main_v96) = TV (flatOf (W (Proc.devRef .tc main_v0))) (W (Proc.devRef .tc main_arg0)) :=
  s15_v96 (V15 W) (at15_v9 W) (at15_arg0 W) (at15_v62 W) (at15_v63 W)
theorem at16_v105 (W : 𝕍) : V16 W (Proc.devRef .tc main_v105) = TN (flatOf (W (Proc.devRef .tc main_v0))) :=
  s15_v105 (V15 W) (at15_v62 W) (at15_v61 W)
theorem at16_v113 (W : 𝕍) : V16 W (Proc.devRef .tc main_v113) = TC (flatOf (W (Proc.devRef .tc main_v0))) (UK (W (Proc.devRef .tc main_v0))) :=
  s15_v113 (V15 W) (at15_v62 W) (at15_v2 W) (at15_v4 W) (at15_v6 W) (at15_v9 W)
theorem at16_v117 (W : 𝕍) : V16 W (Proc.devRef .tc main_v117) = TM (flatOf (W (Proc.devRef .tc main_v0))) :=
  s15_v117 (V15 W) (at15_v22 W) (at15_v30 W)

/-! ## The four results of @main after the tail -/

theorem tail_v96 (W : 𝕍) : after (tail (F := F)).flatten W (Proc.devRef .tc main_v96) = TV (flatOf (W (Proc.devRef .tc main_v0))) (W (Proc.devRef .tc main_arg0)) := by
  rw [tail_eq]; exact at16_v96 W
theorem tail_v113 (W : 𝕍) : after (tail (F := F)).flatten W (Proc.devRef .tc main_v113) = TC (flatOf (W (Proc.devRef .tc main_v0))) (UK (W (Proc.devRef .tc main_v0))) := by
  rw [tail_eq]; exact at16_v113 W
theorem tail_v105 (W : 𝕍) : after (tail (F := F)).flatten W (Proc.devRef .tc main_v105) = TN (flatOf (W (Proc.devRef .tc main_v0))) := by
  rw [tail_eq]; exact at16_v105 W
theorem tail_v117 (W : 𝕍) : after (tail (F := F)).flatten W (Proc.devRef .tc main_v117) = TM (flatOf (W (Proc.devRef .tc main_v0))) := by
  rw [tail_eq]; exact at16_v117 W

end Cert.KernelIdeal.Tl

end
-- ==== Proof.RefOps.lean ====
/- The reference program's @main as lists of its host operations, in program order: 198 operations in 24 stretches.
   A stretch is a run of @main's own operations (at most 16, never across one of @main's 3 windows) or the operations of one
   called function, each formal argument replaced by the call's operand and each value of the body by the buffer the call's
   record gives it. Beside each stretch: every operation touches TensorCore references only, and none leaves its result
   undetermined. -/
import proofs.«163751_j5892695130408_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 16 operations of @main, window 0. -/
abbrev ops0 : List (HloOp τ sig (Elt F)) :=
  [ StableHlo.nullary main_cst (fun i => FloatOps.ofBits .f32 (lit0 (S3.rowMajor i))),
    StableHlo.nullary main_cst_0 (fun i => FloatOps.ofBits .f32 (lit1 (S3.rowMajor i))),
    StableHlo.nullary main_c (fun i => lit2 (S3.rowMajor i)),
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    StableHlo.unary main_cst_0 main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
    StableHlo.binary main_v0 main_v2 main_v3 (subf : (⟨S4000000x3, .f32⟩ : BufTy).Contents (Elt F) → (⟨S4000000x3, .f32⟩ : BufTy).Contents (Elt F) → (⟨S4000000x3, .f32⟩ : BufTy).Contents (Elt F)),
    StableHlo.unary main_cst main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S4000000x3 ![0, 1] bcast_S1x3_S4000000x3_0_1 : (⟨S1x3, .f32⟩ : BufTy).Contents (Elt F) → (⟨S4000000x3, .f32⟩ : BufTy).Contents (Elt F)),
    StableHlo.binary main_v3 main_v5 main_v6 (Host.divf : (⟨S4000000x3, .f32⟩ : BufTy).Contents (Elt F) → (⟨S4000000x3, .f32⟩ : BufTy).Contents (Elt F) → (⟨S4000000x3, .f32⟩ : BufTy).Contents (Elt F)),
    StableHlo.unary main_v6 main_v7 (Host.floor : (⟨S4000000x3, .f32⟩ : BufTy).Contents (Elt F) → (⟨S4000000x3, .f32⟩ : BufTy).Contents (Elt F)),
    StableHlo.unary main_v7 main_v8 (fptosi 32 : (⟨S4000000x3, .f32⟩ : BufTy).Contents (Elt F) → (⟨S4000000x3, .i32⟩ : BufTy).Contents (Elt F)),
    StableHlo.nullary main_c_1 (constantI S_ 32 0#32),
    StableHlo.unary main_c_1 main_v9 (broadcastInDim S4000000x3 ![] bcast_S_S4000000x3 : (⟨S_, .i32⟩ : BufTy).Contents (Elt F) → (⟨S4000000x3, .i32⟩ : BufTy).Contents (Elt F)),
    StableHlo.binary main_v8 main_v9 main_v10 (cmpi .sge : (⟨S4000000x3, .i32⟩ : BufTy).Contents (Elt F) → (⟨S4000000x3, .i32⟩ : BufTy).Contents (Elt F) → (⟨S4000000x3, .i1⟩ : BufTy).Contents (Elt F)),
    StableHlo.unary main_c main_v11 (broadcastInDim S1x3 ![1] bcast_S3_S1x3_1 : (⟨S3, .i32⟩ : BufTy).Contents (Elt F) → (⟨S1x3, .i32⟩ : BufTy).Contents (Elt F)) ]
theorem ops0_sub : (ops0 : List (HloOp τ sig (Elt F))).Forall fun op => op.bufs ⊆ tcRefs τ sig :=
  ⟨nullary_bufs_sub .., nullary_bufs_sub .., nullary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl⟩

/-- 16 operations of @main, window 0. -/
abbrev ops1 : List (HloOp τ sig (Elt F)) :=
  [ StableHlo.unary main_v11 main_v12 (broadcastInDim S4000000x3 ![0, 1] bcast_S1x3_S4000000x3_0_1 : (⟨S1x3, .i32⟩ : BufTy).Contents (Elt F) → (⟨S4000000x3, .i32⟩ : BufTy).Contents (Elt F)),
    StableHlo.binary main_v8 main_v12 main_v13 (cmpi .slt : (⟨S4000000x3, .i32⟩ : BufTy).Contents (Elt F) → (⟨S4000000x3, .i32⟩ : BufTy).Contents (Elt F) → (⟨S4000000x3, .i1⟩ : BufTy).Contents (Elt F)),
    StableHlo.binary main_v10 main_v13 main_v14 (andi : (⟨S4000000x3, .i1⟩ : BufTy).Contents (Elt F) → (⟨S4000000x3, .i1⟩ : BufTy).Contents (Elt F) → (⟨S4000000x3, .i1⟩ : BufTy).Contents (Elt F)),
    StableHlo.nullary main_c_2 (constantI S_ 1 1#1),
    StableHlo.binary main_v14 main_c_2 main_v15 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    StableHlo.unary main_v8 main_v16 ((extractStridedSlice S4000000x1 ![0, 0] · slices_S4000000x3_S4000000x1_0_0) : (⟨S4000000x3, .i32⟩ : BufTy).Contents (Elt F) → (⟨S4000000x1, .i32⟩ : BufTy).Contents (Elt F)),
    StableHlo.reshape main_v16 main_v17 rfl shapeCasts_S4000000x1_S4000000,
    StableHlo.nullary main_c_3 (constantI S_ 32 1600#32),
    StableHlo.unary main_c_3 main_v18 (broadcastInDim S4000000 ![] bcast_S_S4000000 : (⟨S_, .i32⟩ : BufTy).Contents (Elt F) → (⟨S4000000, .i32⟩ : BufTy).Contents (Elt F)),
    StableHlo.binary main_v17 main_v18 main_v19 (muli : (⟨S4000000, .i32⟩ : BufTy).Contents (Elt F) → (⟨S4000000, .i32⟩ : BufTy).Contents (Elt F) → (⟨S4000000, .i32⟩ : BufTy).Contents (Elt F)),
    StableHlo.unary main_v8 main_v20 ((extractStridedSlice S4000000x1 ![0, 1] · slices_S4000000x3_S4000000x1_0_1) : (⟨S4000000x3, .i32⟩ : BufTy).Contents (Elt F) → (⟨S4000000x1, .i32⟩ : BufTy).Contents (Elt F)),
    StableHlo.reshape main_v20 main_v21 rfl shapeCasts_S4000000x1_S4000000,
    StableHlo.binary main_v19 main_v21 main_v22 (addi : (⟨S4000000, .i32⟩ : BufTy).Contents (Elt F) → (⟨S4000000, .i32⟩ : BufTy).Contents (Elt F) → (⟨S4000000, .i32⟩ : BufTy).Contents (Elt F)),
    StableHlo.nullary main_c_4 (constantI S_ 32 40#32),
    StableHlo.unary main_c_4 main_v23 (broadcastInDim S4000000 ![] bcast_S_S4000000 : (⟨S_, .i32⟩ : BufTy).Contents (Elt F) → (⟨S4000000, .i32⟩ : BufTy).Contents (Elt F)),
    StableHlo.binary main_v22 main_v23 main_v24 (muli : (⟨S4000000, .i32⟩ : BufTy).Contents (Elt F) → (⟨S4000000, .i32⟩ : BufTy).Contents (Elt F) → (⟨S4000000, .i32⟩ : BufTy).Contents (Elt F)) ]
theorem ops1_sub : (ops1 : List (HloOp τ sig (Elt F))).Forall fun op => op.bufs ⊆ tcRefs τ sig :=
  ⟨unary_bufs_sub .., binary_bufs_sub .., binary_bufs_sub .., nullary_bufs_sub .., binary_bufs_sub .., unary_bufs_sub .., reshape_bufs_sub .., nullary_bufs_sub .., unary_bufs_sub .., binary_bufs_sub .., unary_bufs_sub .., reshape_bufs_sub .., binary_bufs_sub .., nullary_bufs_sub .., unary_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl⟩

/-- 4 operations of @main, window 0. -/
abbrev ops2 : List (HloOp τ sig (Elt F)) :=
  [ StableHlo.unary main_v8 main_v25 ((extractStridedSlice S4000000x1 ![0, 2] · slices_S4000000x3_S4000000x1_0_2) : (⟨S4000000x3, .i32⟩ : BufTy).Contents (Elt F) → (⟨S4000000x1, .i32⟩ : BufTy).Contents (Elt F)),
    StableHlo.reshape main_v25 main_v26 rfl shapeCasts_S4000000x1_S4000000,
    StableHlo.binary main_v24 main_v26 main_v27 (addi : (⟨S4000000, .i32⟩ : BufTy).Contents (Elt F) → (⟨S4000000, .i32⟩ : BufTy).Contents (Elt F) → (⟨S4000000, .i32⟩ : BufTy).Contents (Elt F)),
    StableHlo.nullary main_c_5 (constantI S_ 32 90112000#32) ]
theorem ops2_sub : (ops2 : List (HloOp τ sig (Elt F))).Forall fun op => op.bufs ⊆ tcRefs τ sig :=
  ⟨unary_bufs_sub .., reshape_bufs_sub .., binary_bufs_sub .., nullary_bufs_sub ..⟩
theorem ops2_fresh : (ops2 : List (HloOp τ sig (Elt F))).Forall fun op => op.fresh = ∅ :=
  ⟨rfl, rfl, rfl, rfl⟩

/-- 3 operations of @where (main_call0), window 0. -/
abbrev ops3 : List (HloOp τ sig (Elt F)) :=
  [ StableHlo.TRef.unary (.of main_c_5 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4000000, .i32⟩) (broadcastInDim S4000000 ![] bcast_S_S4000000),
    StableHlo.TRef.ternary (.of main_v15 : StableHlo.TRef sig ⟨S4000000, .i1⟩) (.of main_v27 : StableHlo.TRef sig ⟨S4000000, .i32⟩) (.of main_call0_v1 : StableHlo.TRef sig ⟨S4000000, .i32⟩) (.of main_v28 : StableHlo.TRef sig ⟨S4000000, .i32⟩) select ]
theorem ops3_sub : (ops3 : List (HloOp τ sig (Elt F))).Forall fun op => op.bufs ⊆ tcRefs τ sig :=
  ⟨unary_bufs_sub .., unary_bufs_sub .., ternary_bufs_sub ..⟩
theorem ops3_fresh : (ops3 : List (HloOp τ sig (Elt F))).Forall fun op => op.fresh = ∅ :=
  ⟨rfl, rfl, rfl⟩

/-- 3 operations of @argsort (main_call1), window 0. -/
abbrev ops4 : List (HloOp τ sig (Elt F)) :=
  [ StableHlo.TRef.nullary (.of main_call1_v0 : StableHlo.TRef sig ⟨S4000000, .i32⟩) (iotaInDim S4000000 32 0),
    StableHlo.TRef.binary (.of main_v28 : StableHlo.TRef sig ⟨S4000000, .i32⟩) (.of main_call1_v0 : StableHlo.TRef sig ⟨S4000000, .i32⟩) (.of main_call1_v1_0 : StableHlo.TRef sig ⟨S4000000, .i32⟩) (fun x y => (Host.sort2 S4000000 0 comparator_i32_i32_d0 x y).1),
    StableHlo.TRef.binary (.of main_v28 : StableHlo.TRef sig ⟨S4000000, .i32⟩) (.of main_call1_v0 : StableHlo.TRef sig ⟨S4000000, .i32⟩) (.of main_v29 : StableHlo.TRef sig ⟨S4000000, .i32⟩) (fun x y => (Host.sort2 S4000000 0 comparator_i32_i32_d0 x y).2) ]
theorem ops4_sub : (ops4 : List (HloOp τ sig (Elt F))).Forall fun op => op.bufs ⊆ tcRefs τ sig :=
  ⟨nullary_bufs_sub .., binary_bufs_sub .., binary_bufs_sub ..⟩
theorem ops4_fresh : (ops4 : List (HloOp τ sig (Elt F))).Forall fun op => op.fresh = ∅ :=
  ⟨rfl, rfl, rfl⟩

/-- 16 operations of @main, window 0. -/
abbrev ops5 : List (HloOp τ sig (Elt F)) :=
  [ StableHlo.nullary main_c_6 (constantI S_ 32 0#32),
    StableHlo.unary main_c_6 main_v30 (broadcastInDim S4000000 ![] bcast_S_S4000000 : (⟨S_, .i32⟩ : BufTy).Contents (Elt F) → (⟨S4000000, .i32⟩ : BufTy).Contents (Elt F)),
    StableHlo.binary main_v29 main_v30 main_v31 (cmpi .slt : (⟨S4000000, .i32⟩ : BufTy).Contents (Elt F) → (⟨S4000000, .i32⟩ : BufTy).Contents (Elt F) → (⟨S4000000, .i1⟩ : BufTy).Contents (Elt F)),
    StableHlo.nullary main_c_7 (constantI S_ 32 4000000#32),
    StableHlo.unary main_c_7 main_v32 (broadcastInDim S4000000 ![] bcast_S_S4000000 : (⟨S_, .i32⟩ : BufTy).Contents (Elt F) → (⟨S4000000, .i32⟩ : BufTy).Contents (Elt F)),
    StableHlo.binary main_v29 main_v32 main_v33 (addi : (⟨S4000000, .i32⟩ : BufTy).Contents (Elt F) → (⟨S4000000, .i32⟩ : BufTy).Contents (Elt F) → (⟨S4000000, .i32⟩ : BufTy).Contents (Elt F)),
    StableHlo.ternary main_v31 main_v33 main_v29 main_v34 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v34 main_v35 (broadcastInDim S4000000x1 ![0] bcast_S4000000_S4000000x1_0 : (⟨S4000000, .i32⟩ : BufTy).Contents (Elt F) → (⟨S4000000x1, .i32⟩ : BufTy).Contents (Elt F)),
    StableHlo.binary main_v28 main_v35 main_v36 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_v37 (iotaInDim S4000000 32 0),
    StableHlo.nullary main_c_8 (constantI S_ 1 1#1),
    StableHlo.unary main_c_8 main_v38 (broadcastInDim S1 ![] bcast_S_S1 : (⟨S_, .i1⟩ : BufTy).Contents (Elt F) → (⟨S1, .i1⟩ : BufTy).Contents (Elt F)),
    StableHlo.unary main_v36 main_v39 ((extractStridedSlice S3999999 ![1] · slices_S4000000_S3999999_1) : (⟨S4000000, .i32⟩ : BufTy).Contents (Elt F) → (⟨S3999999, .i32⟩ : BufTy).Contents (Elt F)),
    StableHlo.unary main_v36 main_v40 ((extractStridedSlice S3999999 ![0] · slices_S4000000_S3999999_0) : (⟨S4000000, .i32⟩ : BufTy).Contents (Elt F) → (⟨S3999999, .i32⟩ : BufTy).Contents (Elt F)),
    StableHlo.binary main_v39 main_v40 main_v41 (cmpi .ne : (⟨S3999999, .i32⟩ : BufTy).Contents (Elt F) → (⟨S3999999, .i32⟩ : BufTy).Contents (Elt F) → (⟨S3999999, .i1⟩ : BufTy).Contents (Elt F)),
    StableHlo.binary main_v38 main_v41 main_v42 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)) ]
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., unary_bufs_sub .., binary_bufs_sub .., binary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl⟩

/-- 4 operations of @cumsum (main_call2), window 0. -/
abbrev ops6 : List (HloOp τ sig (Elt F)) :=
  [ StableHlo.TRef.unary (.of main_v42 : StableHlo.TRef sig ⟨S4000000, .i1⟩) (.of main_call2_v0 : StableHlo.TRef sig ⟨S4000000, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v0 : StableHlo.TRef sig ⟨S4000000, .i32⟩) (.of main_call2_call0_v0 : StableHlo.TRef sig ⟨S_, .i32⟩) (.of main_v43 : StableHlo.TRef sig ⟨S4000000, .i32⟩) (fun x v => Host.reduceWindow IntOp.addi ![4000000] ![1] ![3999999] ![0] x v reduceWindows_S4000000_S4000000_w4000000s1p3999999_0 h_S_) ]
theorem ops6_sub : (ops6 : List (HloOp τ sig (Elt F))).Forall fun op => op.bufs ⊆ tcRefs τ sig :=
  ⟨unary_bufs_sub .., nullary_bufs_sub .., unary_bufs_sub .., binary_bufs_sub ..⟩
theorem ops6_fresh : (ops6 : List (HloOp τ sig (Elt F))).Forall fun op => op.fresh = ∅ :=
  ⟨rfl, rfl, rfl, rfl⟩

/-- 4 operations of @main, window 0. -/
abbrev ops7 : List (HloOp τ sig (Elt F)) :=
  [ StableHlo.nullary main_c_9 (constantI S_ 32 1#32),
    StableHlo.unary main_c_9 main_v44 (broadcastInDim S4000000 ![] bcast_S_S4000000 : (⟨S_, .i32⟩ : BufTy).Contents (Elt F) → (⟨S4000000, .i32⟩ : BufTy).Contents (Elt F)),
    StableHlo.binary main_v43 main_v44 main_v45 (subi : (⟨S4000000, .i32⟩ : BufTy).Contents (Elt F) → (⟨S4000000, .i32⟩ : BufTy).Contents (Elt F) → (⟨S4000000, .i32⟩ : BufTy).Contents (Elt F)),
    StableHlo.nullary main_c_10 (constantI S_ 32 0#32) ]
theorem ops7_sub : (ops7 : List (HloOp τ sig (Elt F))).Forall fun op => op.bufs ⊆ tcRefs τ sig :=
  ⟨nullary_bufs_sub .., unary_bufs_sub .., binary_bufs_sub .., nullary_bufs_sub ..⟩
theorem ops7_fresh : (ops7 : List (HloOp τ sig (Elt F))).Forall fun op => op.fresh = ∅ :=
  ⟨rfl, rfl, rfl, rfl⟩

/-- 3 operations of @where (main_call3), window 0. -/
abbrev ops8 : List (HloOp τ sig (Elt F)) :=
  [ StableHlo.TRef.unary (.of main_c_10 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4000000, .i32⟩) (broadcastInDim S4000000 ![] bcast_S_S4000000),
    StableHlo.TRef.ternary (.of main_v42 : StableHlo.TRef sig ⟨S4000000, .i1⟩) (.of main_v37 : StableHlo.TRef sig ⟨S4000000, .i32⟩) (.of main_call3_v1 : StableHlo.TRef sig ⟨S4000000, .i32⟩) (.of main_v46 : StableHlo.TRef sig ⟨S4000000, .i32⟩) select ]
theorem ops8_sub : (ops8 : List (HloOp τ sig (Elt F))).Forall fun op => op.bufs ⊆ tcRefs τ sig :=
  ⟨unary_bufs_sub .., unary_bufs_sub .., ternary_bufs_sub ..⟩
theorem ops8_fresh : (ops8 : List (HloOp τ sig (Elt F))).Forall fun op => op.fresh = ∅ :=
  ⟨rfl, rfl, rfl⟩

/-- 3 operations of @cummax (main_call4), window 1. -/
abbrev ops9 : List (HloOp τ sig (Elt F)) :=
  [ StableHlo.TRef.nullary (.of main_call4_c : StableHlo.TRef sig ⟨S_, .i32⟩) (constantI S_ 32 2147483648#32),
    StableHlo.TRef.unary (.of main_call4_c : StableHlo.TRef sig ⟨S_, .i32⟩) (.of main_call4_v0 : StableHlo.TRef sig ⟨S_, .i32⟩) (broadcastInDim S_ ![] bcast_S_S_),
    StableHlo.TRef.binary (.of main_v46 : StableHlo.TRef sig ⟨S4000000, .i32⟩) (.of main_call4_v0 : StableHlo.TRef sig ⟨S_, .i32⟩) (.of main_v47 : StableHlo.TRef sig ⟨S4000000, .i32⟩) (fun x v => Host.reduceWindow IntOp.maxsi ![4000000] ![1] ![3999999] ![0] x v reduceWindows_S4000000_S4000000_w4000000s1p3999999_0 h_S_) ]
theorem ops9_sub : (ops9 : List (HloOp τ sig (Elt F))).Forall fun op => op.bufs ⊆ tcRefs τ sig :=
  ⟨nullary_bufs_sub .., unary_bufs_sub .., binary_bufs_sub ..⟩
theorem ops9_fresh : (ops9 : List (HloOp τ sig (Elt F))).Forall fun op => op.fresh = ∅ :=
  ⟨rfl, rfl, rfl⟩

/-- 7 operations of @main, window 1. -/
abbrev ops10 : List (HloOp τ sig (Elt F)) :=
  [ StableHlo.binary main_v37 main_v47 main_v48 (subi : (⟨S4000000, .i32⟩ : BufTy).Contents (Elt F) → (⟨S4000000, .i32⟩ : BufTy).Contents (Elt F) → (⟨S4000000, .i32⟩ : BufTy).Contents (Elt F)),
    StableHlo.nullary main_c_11 (constantI S_ 32 90112000#32),
    StableHlo.unary main_c_11 main_v49 (broadcastInDim S4000000 ![] bcast_S_S4000000 : (⟨S_, .i32⟩ : BufTy).Contents (Elt F) → (⟨S4000000, .i32⟩ : BufTy).Contents (Elt F)),
    StableHlo.binary main_v36 main_v49 main_v50 (cmpi .slt : (⟨S4000000, .i32⟩ : BufTy).Contents (Elt F) → (⟨S4000000, .i32⟩ : BufTy).Contents (Elt F) → (⟨S4000000, .i1⟩ : BufTy).Contents (Elt F)),
    StableHlo.nullary main_c_12 (constantI S_ 32 4000000#32),
    StableHlo.unary main_c_12 main_v51 (broadcastInDim S4000000 ![] bcast_S_S4000000 : (⟨S_, .i32⟩ : BufTy).Contents (Elt F) → (⟨S4000000, .i32⟩ : BufTy).Contents (Elt F)),
    StableHlo.nullary main_c_13 (constantI S_ 32 4000000#32) ]
theorem ops10_sub : (ops10 : List (HloOp τ sig (Elt F))).Forall fun op => op.bufs ⊆ tcRefs τ sig :=
  ⟨binary_bufs_sub .., nullary_bufs_sub .., unary_bufs_sub .., binary_bufs_sub .., nullary_bufs_sub .., unary_bufs_sub .., nullary_bufs_sub ..⟩
theorem ops10_fresh : (ops10 : List (HloOp τ sig (Elt F))).Forall fun op => op.fresh = ∅ :=
  ⟨rfl, rfl, rfl, rfl, rfl, rfl, rfl⟩

/-- 3 operations of @where (main_call5), window 1. -/
abbrev ops11 : List (HloOp τ sig (Elt F)) :=
  [ StableHlo.TRef.unary (.of main_c_13 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S4000000, .i32⟩) (broadcastInDim S4000000 ![] bcast_S_S4000000),
    StableHlo.TRef.ternary (.of main_v50 : StableHlo.TRef sig ⟨S4000000, .i1⟩) (.of main_v29 : StableHlo.TRef sig ⟨S4000000, .i32⟩) (.of main_call5_v1 : StableHlo.TRef sig ⟨S4000000, .i32⟩) (.of main_v52 : StableHlo.TRef sig ⟨S4000000, .i32⟩) select ]
theorem ops11_sub : (ops11 : List (HloOp τ sig (Elt F))).Forall fun op => op.bufs ⊆ tcRefs τ sig :=
  ⟨unary_bufs_sub .., unary_bufs_sub .., ternary_bufs_sub ..⟩
theorem ops11_fresh : (ops11 : List (HloOp τ sig (Elt F))).Forall fun op => op.fresh = ∅ :=
  ⟨rfl, rfl, rfl⟩

/-- 9 operations of @main, window 1. -/
abbrev ops12 : List (HloOp τ sig (Elt F)) :=
  [ StableHlo.nullary main_c_14 (constantI S_ 32 0#32),
    StableHlo.unary main_c_14 main_v53 (broadcastInDim S4000000 ![] bcast_S_S4000000 : (⟨S_, .i32⟩ : BufTy).Contents (Elt F) → (⟨S4000000, .i32⟩ : BufTy).Contents (Elt F)),
    StableHlo.binary main_v45 main_v53 main_v54 (cmpi .slt : (⟨S4000000, .i32⟩ : BufTy).Contents (Elt F) → (⟨S4000000, .i32⟩ : BufTy).Contents (Elt F) → (⟨S4000000, .i1⟩ : BufTy).Contents (Elt F)),
    StableHlo.nullary main_c_15 (constantI S_ 32 4000000#32),
    StableHlo.unary main_c_15 main_v55 (broadcastInDim S4000000 ![] bcast_S_S4000000 : (⟨S_, .i32⟩ : BufTy).Contents (Elt F) → (⟨S4000000, .i32⟩ : BufTy).Contents (Elt F)),
    StableHlo.binary main_v45 main_v55 main_v56 (addi : (⟨S4000000, .i32⟩ : BufTy).Contents (Elt F) → (⟨S4000000, .i32⟩ : BufTy).Contents (Elt F) → (⟨S4000000, .i32⟩ : BufTy).Contents (Elt F)),
    StableHlo.ternary main_v54 main_v56 main_v45 main_v57 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v57 main_v58 (broadcastInDim S4000000x1 ![0] bcast_S4000000_S4000000x1_0 : (⟨S4000000, .i32⟩ : BufTy).Contents (Elt F) → (⟨S4000000x1, .i32⟩ : BufTy).Contents (Elt F)),
    StableHlo.ternary main_v51 main_v58 main_v52 main_v59 ((fun x i u => Host.scatter scatter_S4000000_S4000000x1_S4000000_n_0_0_1 IntOp.minsi x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)) ]
theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩
theorem ops12_fresh : (ops12 : List (HloOp τ sig (Elt F))).Forall fun op => op.fresh = ∅ :=
  ⟨rfl, rfl, rfl, rfl, rfl, rfl, rfl, rfl, rfl⟩

/-- 3 operations of @argsort (main_call6), window 1. -/
abbrev ops13 : List (HloOp τ sig (Elt F)) :=
  [ StableHlo.TRef.nullary (.of main_call6_v0 : StableHlo.TRef sig ⟨S4000000, .i32⟩) (iotaInDim S4000000 32 0),
    StableHlo.TRef.binary (.of main_v59 : StableHlo.TRef sig ⟨S4000000, .i32⟩) (.of main_call6_v0 : StableHlo.TRef sig ⟨S4000000, .i32⟩) (.of main_call6_v1_0 : StableHlo.TRef sig ⟨S4000000, .i32⟩) (fun x y => (Host.sort2 S4000000 0 comparator_i32_i32_d0 x y).1),
    StableHlo.TRef.binary (.of main_v59 : StableHlo.TRef sig ⟨S4000000, .i32⟩) (.of main_call6_v0 : StableHlo.TRef sig ⟨S4000000, .i32⟩) (.of main_v60 : StableHlo.TRef sig ⟨S4000000, .i32⟩) (fun x y => (Host.sort2 S4000000 0 comparator_i32_i32_d0 x y).2) ]
theorem ops13_sub : (ops13 : List (HloOp τ sig (Elt F))).Forall fun op => op.bufs ⊆ tcRefs τ sig :=
  ⟨nullary_bufs_sub .., binary_bufs_sub .., binary_bufs_sub ..⟩
theorem ops13_fresh : (ops13 : List (HloOp τ sig (Elt F))).Forall fun op => op.fresh = ∅ :=
  ⟨rfl, rfl, rfl⟩

/-- 16 operations of @main, window 1. -/
abbrev ops14 : List (HloOp τ sig (Elt F)) :=
  [ StableHlo.nullary main_c_16 (constantI S_ 32 0#32),
    StableHlo.unary main_c_16 main_v61 (broadcastInDim S4000000 ![] bcast_S_S4000000 : (⟨S_, .i32⟩ : BufTy).Contents (Elt F) → (⟨S4000000, .i32⟩ : BufTy).Contents (Elt F)),
    StableHlo.nullary main_c_17 (constantI S_ 32 0#32),
    StableHlo.unary main_c_17 main_v62 (broadcastInDim S4000000 ![] bcast_S_S4000000 : (⟨S_, .i32⟩ : BufTy).Contents (Elt F) → (⟨S4000000, .i32⟩ : BufTy).Contents (Elt F)),
    StableHlo.binary main_v60 main_v62 main_v63 (cmpi .slt : (⟨S4000000, .i32⟩ : BufTy).Contents (Elt F) → (⟨S4000000, .i32⟩ : BufTy).Contents (Elt F) → (⟨S4000000, .i1⟩ : BufTy).Contents (Elt F)),
    StableHlo.nullary main_c_18 (constantI S_ 32 4000000#32),
    StableHlo.unary main_c_18 main_v64 (broadcastInDim S4000000 ![] bcast_S_S4000000 : (⟨S_, .i32⟩ : BufTy).Contents (Elt F) → (⟨S4000000, .i32⟩ : BufTy).Contents (Elt F)),
    StableHlo.binary main_v60 main_v64 main_v65 (addi : (⟨S4000000, .i32⟩ : BufTy).Contents (Elt F) → (⟨S4000000, .i32⟩ : BufTy).Contents (Elt F) → (⟨S4000000, .i32⟩ : BufTy).Contents (Elt F)),
    StableHlo.ternary main_v63 main_v65 main_v60 main_v66 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v66 main_v67 (broadcastInDim S4000000x1 ![0] bcast_S4000000_S4000000x1_0 : (⟨S4000000, .i32⟩ : BufTy).Contents (Elt F) → (⟨S4000000x1, .i32⟩ : BufTy).Contents (Elt F)),
    StableHlo.ternary main_v61 main_v67 main_v37 main_v68 ((fun x i u => Host.scatter scatter_S4000000_S4000000x1_S4000000_n_0_0_1 (fun _ b => b) x i u) : (⟨S4000000, .i32⟩ : BufTy).Contents (Elt F) → (⟨S4000000x1, .i32⟩ : BufTy).Contents (Elt F) → (⟨S4000000, .i32⟩ : BufTy).Contents (Elt F) → (⟨S4000000, .i32⟩ : BufTy).Contents (Elt F)),
    StableHlo.nullary main_c_19 (constantI S_ 32 0#32),
    StableHlo.unary main_c_19 main_v69 (broadcastInDim S4000000 ![] bcast_S_S4000000 : (⟨S_, .i32⟩ : BufTy).Contents (Elt F) → (⟨S4000000, .i32⟩ : BufTy).Contents (Elt F)),
    StableHlo.binary main_v45 main_v69 main_v70 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 4000000#32),
    StableHlo.unary main_c_20 main_v71 (broadcastInDim S4000000 ![] bcast_S_S4000000 : (⟨S_, .i32⟩ : BufTy).Contents (Elt F) → (⟨S4000000, .i32⟩ : BufTy).Contents (Elt F)) ]
theorem ops14_sub : (ops14 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub ..⟩
theorem ops14_fresh : (ops14 : List (HloOp τ sig (Elt F))).Forall fun op => op.fresh = ∅ :=
  ⟨rfl, rfl, rfl, rfl, rfl, rfl, rfl, rfl, rfl, rfl, rfl, rfl, rfl, rfl, rfl, rfl⟩

/-- 13 operations of @main, window 1. -/
abbrev ops15 : List (HloOp τ sig (Elt F)) :=
  [ StableHlo.binary main_v45 main_v71 main_v72 (addi : (⟨S4000000, .i32⟩ : BufTy).Contents (Elt F) → (⟨S4000000, .i32⟩ : BufTy).Contents (Elt F) → (⟨S4000000, .i32⟩ : BufTy).Contents (Elt F)),
    StableHlo.ternary main_v70 main_v72 main_v45 main_v73 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v73 main_v74 (broadcastInDim S4000000x1 ![0] bcast_S4000000_S4000000x1_0 : (⟨S4000000, .i32⟩ : BufTy).Contents (Elt F) → (⟨S4000000x1, .i32⟩ : BufTy).Contents (Elt F)),
    StableHlo.binary main_v68 main_v74 main_v75 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    StableHlo.nullary main_c_21 (constantI S_ 32 20000#32),
    StableHlo.unary main_c_21 main_v76 (broadcastInDim S4000000 ![] bcast_S_S4000000 : (⟨S_, .i32⟩ : BufTy).Contents (Elt F) → (⟨S4000000, .i32⟩ : BufTy).Contents (Elt F)),
    StableHlo.binary main_v75 main_v76 main_v77 (cmpi .slt : (⟨S4000000, .i32⟩ : BufTy).Contents (Elt F) → (⟨S4000000, .i32⟩ : BufTy).Contents (Elt F) → (⟨S4000000, .i1⟩ : BufTy).Contents (Elt F)),
    StableHlo.binary main_v50 main_v77 main_v78 (andi : (⟨S4000000, .i1⟩ : BufTy).Contents (Elt F) → (⟨S4000000, .i1⟩ : BufTy).Contents (Elt F) → (⟨S4000000, .i1⟩ : BufTy).Contents (Elt F)),
    StableHlo.nullary main_c_22 (constantI S_ 32 35#32),
    StableHlo.unary main_c_22 main_v79 (broadcastInDim S4000000 ![] bcast_S_S4000000 : (⟨S_, .i32⟩ : BufTy).Contents (Elt F) → (⟨S4000000, .i32⟩ : BufTy).Contents (Elt F)),
    StableHlo.binary main_v48 main_v79 main_v80 (cmpi .slt : (⟨S4000000, .i32⟩ : BufTy).Contents (Elt F) → (⟨S4000000, .i32⟩ : BufTy).Contents (Elt F) → (⟨S4000000, .i1⟩ : BufTy).Contents (Elt F)),
    StableHlo.binary main_v78 main_v80 main_v81 (andi : (⟨S4000000, .i1⟩ : BufTy).Contents (Elt F) → (⟨S4000000, .i1⟩ : BufTy).Contents (Elt F) → (⟨S4000000, .i1⟩ : BufTy).Contents (Elt F)),
    StableHlo.nullary main_c_23 (constantI S_ 32 20000#32) ]
theorem ops15_sub : (ops15 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩
theorem ops15_fresh : (ops15 : List (HloOp τ sig (Elt F))).Forall fun op => op.fresh = ∅ :=
  ⟨rfl, rfl, rfl, rfl, rfl, rfl, rfl, rfl, rfl, rfl, rfl, rfl, rfl⟩

/-- 3 operations of @where (main_call7), window 1. -/
abbrev ops16 : List (HloOp τ sig (Elt F)) :=
  [ StableHlo.TRef.unary (.of main_c_23 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S4000000, .i32⟩) (broadcastInDim S4000000 ![] bcast_S_S4000000),
    StableHlo.TRef.ternary (.of main_v81 : StableHlo.TRef sig ⟨S4000000, .i1⟩) (.of main_v75 : StableHlo.TRef sig ⟨S4000000, .i32⟩) (.of main_call7_v1 : StableHlo.TRef sig ⟨S4000000, .i32⟩) (.of main_v82 : StableHlo.TRef sig ⟨S4000000, .i32⟩) select ]
theorem ops16_sub : (ops16 : List (HloOp τ sig (Elt F))).Forall fun op => op.bufs ⊆ tcRefs τ sig :=
  ⟨unary_bufs_sub .., unary_bufs_sub .., ternary_bufs_sub ..⟩
theorem ops16_fresh : (ops16 : List (HloOp τ sig (Elt F))).Forall fun op => op.fresh = ∅ :=
  ⟨rfl, rfl, rfl⟩

/-- 1 operation of @main, window 1. -/
abbrev ops17 : List (HloOp τ sig (Elt F)) :=
  [ StableHlo.nullary main_c_24 (constantI S_ 32 0#32) ]
theorem ops17_sub : (ops17 : List (HloOp τ sig (Elt F))).Forall fun op => op.bufs ⊆ tcRefs τ sig :=
  nullary_bufs_sub ..
theorem ops17_fresh : (ops17 : List (HloOp τ sig (Elt F))).Forall fun op => op.fresh = ∅ :=
  rfl

/-- 3 operations of @where (main_call8), window 1. -/
abbrev ops18 : List (HloOp τ sig (Elt F)) :=
  [ StableHlo.TRef.unary (.of main_c_24 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4000000, .i32⟩) (broadcastInDim S4000000 ![] bcast_S_S4000000),
    StableHlo.TRef.ternary (.of main_v81 : StableHlo.TRef sig ⟨S4000000, .i1⟩) (.of main_v48 : StableHlo.TRef sig ⟨S4000000, .i32⟩) (.of main_call8_v1 : StableHlo.TRef sig ⟨S4000000, .i32⟩) (.of main_v83 : StableHlo.TRef sig ⟨S4000000, .i32⟩) select ]
theorem ops18_sub : (ops18 : List (HloOp τ sig (Elt F))).Forall fun op => op.bufs ⊆ tcRefs τ sig :=
  ⟨unary_bufs_sub .., unary_bufs_sub .., ternary_bufs_sub ..⟩
theorem ops18_fresh : (ops18 : List (HloOp τ sig (Elt F))).Forall fun op => op.fresh = ∅ :=
  ⟨rfl, rfl, rfl⟩

/-- 9 operations of @main, window 1. -/
abbrev ops19 : List (HloOp τ sig (Elt F)) :=
  [ StableHlo.nullary main_cst_25 (constant S_ .f32 0x00000000#32),
    StableHlo.unary main_cst_25 main_v84 (broadcastInDim S20000x35x4 ![] bcast_S_S20000x35x4 : (⟨S_, .f32⟩ : BufTy).Contents (Elt F) → (⟨S20000x35x4, .f32⟩ : BufTy).Contents (Elt F)),
    StableHlo.nullary main_c_26 (constantI S_ 32 0#32),
    StableHlo.unary main_c_26 main_v85 (broadcastInDim S4000000 ![] bcast_S_S4000000 : (⟨S_, .i32⟩ : BufTy).Contents (Elt F) → (⟨S4000000, .i32⟩ : BufTy).Contents (Elt F)),
    StableHlo.binary main_v29 main_v85 main_v86 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 4000000#32),
    StableHlo.unary main_c_27 main_v87 (broadcastInDim S4000000 ![] bcast_S_S4000000 : (⟨S_, .i32⟩ : BufTy).Contents (Elt F) → (⟨S4000000, .i32⟩ : BufTy).Contents (Elt F)),
    StableHlo.binary main_v29 main_v87 main_v88 (addi : (⟨S4000000, .i32⟩ : BufTy).Contents (Elt F) → (⟨S4000000, .i32⟩ : BufTy).Contents (Elt F) → (⟨S4000000, .i32⟩ : BufTy).Contents (Elt F)),
    StableHlo.ternary main_v86 main_v88 main_v29 main_v89 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) ]
theorem ops19_sub : (ops19 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub ..⟩
theorem ops19_fresh : (ops19 : List (HloOp τ sig (Elt F))).Forall fun op => op.fresh = ∅ :=
  ⟨rfl, rfl, rfl, rfl, rfl, rfl, rfl, rfl, rfl⟩

/-- 16 operations of @main, window 2. -/
abbrev ops20 : List (HloOp τ sig (Elt F)) :=
  [ StableHlo.unary main_v89 main_v90 (broadcastInDim S4000000x1 ![0] bcast_S4000000_S4000000x1_0 : (⟨S4000000, .i32⟩ : BufTy).Contents (Elt F) → (⟨S4000000x1, .i32⟩ : BufTy).Contents (Elt F)),
    StableHlo.binary main_arg0 main_v90 main_v91 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)),
    StableHlo.nullary main_c_28 (constantI S_ 32 0#32),
    StableHlo.unary main_c_28 main_v92 (broadcastInDim S4000000 ![] bcast_S_S4000000 : (⟨S_, .i32⟩ : BufTy).Contents (Elt F) → (⟨S4000000, .i32⟩ : BufTy).Contents (Elt F)),
    StableHlo.binary main_v82 main_v92 main_v93 (cmpi .slt : (⟨S4000000, .i32⟩ : BufTy).Contents (Elt F) → (⟨S4000000, .i32⟩ : BufTy).Contents (Elt F) → (⟨S4000000, .i1⟩ : BufTy).Contents (Elt F)),
    StableHlo.nullary main_c_29 (constantI S_ 32 20000#32),
    StableHlo.unary main_c_29 main_v94 (broadcastInDim S4000000 ![] bcast_S_S4000000 : (⟨S_, .i32⟩ : BufTy).Contents (Elt F) → (⟨S4000000, .i32⟩ : BufTy).Contents (Elt F)),
    StableHlo.binary main_v82 main_v94 main_v95 (addi : (⟨S4000000, .i32⟩ : BufTy).Contents (Elt F) → (⟨S4000000, .i32⟩ : BufTy).Contents (Elt F) → (⟨S4000000, .i32⟩ : BufTy).Contents (Elt F)),
    StableHlo.ternary main_v93 main_v95 main_v82 main_v96 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_30 (constantI S_ 32 0#32),
    StableHlo.unary main_c_30 main_v97 (broadcastInDim S4000000 ![] bcast_S_S4000000 : (⟨S_, .i32⟩ : BufTy).Contents (Elt F) → (⟨S4000000, .i32⟩ : BufTy).Contents (Elt F)),
    StableHlo.binary main_v83 main_v97 main_v98 (cmpi .slt : (⟨S4000000, .i32⟩ : BufTy).Contents (Elt F) → (⟨S4000000, .i32⟩ : BufTy).Contents (Elt F) → (⟨S4000000, .i1⟩ : BufTy).Contents (Elt F)),
    StableHlo.nullary main_c_31 (constantI S_ 32 35#32),
    StableHlo.unary main_c_31 main_v99 (broadcastInDim S4000000 ![] bcast_S_S4000000 : (⟨S_, .i32⟩ : BufTy).Contents (Elt F) → (⟨S4000000, .i32⟩ : BufTy).Contents (Elt F)),
    StableHlo.binary main_v83 main_v99 main_v100 (addi : (⟨S4000000, .i32⟩ : BufTy).Contents (Elt F) → (⟨S4000000, .i32⟩ : BufTy).Contents (Elt F) → (⟨S4000000, .i32⟩ : BufTy).Contents (Elt F)),
    StableHlo.ternary main_v98 main_v100 main_v83 main_v101 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) ]
theorem ops20_sub : (ops20 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem ops20_fresh : (ops20 : List (HloOp τ sig (Elt F))).Forall fun op => op.fresh = ∅ :=
  ⟨rfl, rfl, rfl, rfl, rfl, rfl, rfl, rfl, rfl, rfl, rfl, rfl, rfl, rfl, rfl, rfl⟩

/-- 16 operations of @main, window 2. -/
abbrev ops21 : List (HloOp τ sig (Elt F)) :=
  [ StableHlo.unary main_v96 main_v102 (broadcastInDim S4000000x1 ![0] bcast_S4000000_S4000000x1_0 : (⟨S4000000, .i32⟩ : BufTy).Contents (Elt F) → (⟨S4000000x1, .i32⟩ : BufTy).Contents (Elt F)),
    StableHlo.unary main_v101 main_v103 (broadcastInDim S4000000x1 ![0] bcast_S4000000_S4000000x1_0 : (⟨S4000000, .i32⟩ : BufTy).Contents (Elt F) → (⟨S4000000x1, .i32⟩ : BufTy).Contents (Elt F)),
    StableHlo.binary main_v102 main_v103 main_v104 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v84 main_v104 main_v91 main_v105 ((fun x i u => Host.scatter scatter_S20000x35x4_S4000000x2_S4000000x4_1_01_01_1 (fun _ b => b) x i u) : (⟨S20000x35x4, .f32⟩ : BufTy).Contents (Elt F) → (⟨S4000000x2, .i32⟩ : BufTy).Contents (Elt F) → (⟨S4000000x4, .f32⟩ : BufTy).Contents (Elt F) → (⟨S20000x35x4, .f32⟩ : BufTy).Contents (Elt F)),
    StableHlo.nullary main_c_32 (constantI S_ 32 0#32),
    StableHlo.unary main_c_32 main_v106 (broadcastInDim S20000 ![] bcast_S_S20000 : (⟨S_, .i32⟩ : BufTy).Contents (Elt F) → (⟨S20000, .i32⟩ : BufTy).Contents (Elt F)),
    StableHlo.unary main_v81 main_v107 ((extui 32 · natLt_1_32) : (⟨S4000000, .i1⟩ : BufTy).Contents (Elt F) → (⟨S4000000, .i32⟩ : BufTy).Contents (Elt F)),
    StableHlo.nullary main_c_33 (constantI S_ 32 0#32),
    StableHlo.unary main_c_33 main_v108 (broadcastInDim S4000000 ![] bcast_S_S4000000 : (⟨S_, .i32⟩ : BufTy).Contents (Elt F) → (⟨S4000000, .i32⟩ : BufTy).Contents (Elt F)),
    StableHlo.binary main_v82 main_v108 main_v109 (cmpi .slt : (⟨S4000000, .i32⟩ : BufTy).Contents (Elt F) → (⟨S4000000, .i32⟩ : BufTy).Contents (Elt F) → (⟨S4000000, .i1⟩ : BufTy).Contents (Elt F)),
    StableHlo.nullary main_c_34 (constantI S_ 32 20000#32),
    StableHlo.unary main_c_34 main_v110 (broadcastInDim S4000000 ![] bcast_S_S4000000 : (⟨S_, .i32⟩ : BufTy).Contents (Elt F) → (⟨S4000000, .i32⟩ : BufTy).Contents (Elt F)),
    StableHlo.binary main_v82 main_v110 main_v111 (addi : (⟨S4000000, .i32⟩ : BufTy).Contents (Elt F) → (⟨S4000000, .i32⟩ : BufTy).Contents (Elt F) → (⟨S4000000, .i32⟩ : BufTy).Contents (Elt F)),
    StableHlo.ternary main_v109 main_v111 main_v82 main_v112 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v112 main_v113 (broadcastInDim S4000000x1 ![0] bcast_S4000000_S4000000x1_0 : (⟨S4000000, .i32⟩ : BufTy).Contents (Elt F) → (⟨S4000000x1, .i32⟩ : BufTy).Contents (Elt F)),
    StableHlo.ternary main_v106 main_v113 main_v107 main_v114 ((fun x i u => Host.scatter scatter_S20000_S4000000x1_S4000000_n_0_0_1 IntOp.addi x i u) : (⟨S20000, .i32⟩ : BufTy).Contents (Elt F) → (⟨S4000000x1, .i32⟩ : BufTy).Contents (Elt F) → (⟨S4000000, .i32⟩ : BufTy).Contents (Elt F) → (⟨S20000, .i32⟩ : BufTy).Contents (Elt F)) ]
theorem ops21_sub : (ops21 : List (HloOp τ sig (Elt F))).Forall fun op => op.bufs ⊆ tcRefs τ sig :=
  ⟨unary_bufs_sub .., unary_bufs_sub .., binary_bufs_sub .., ternary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem ops21_fresh : (ops21 : List (HloOp τ sig (Elt F))).Forall fun op => op.fresh = ∅ :=
  ⟨rfl, rfl, rfl, rfl, rfl, rfl, rfl, rfl, rfl, rfl, rfl, rfl, rfl, rfl, rfl, rfl⟩

/-- 16 operations of @main, window 2. -/
abbrev ops22 : List (HloOp τ sig (Elt F)) :=
  [ StableHlo.nullary main_c_35 (constantI S_ 32 0#32),
    StableHlo.unary main_c_35 main_v115 (broadcastInDim S20000x3 ![] bcast_S_S20000x3 : (⟨S_, .i32⟩ : BufTy).Contents (Elt F) → (⟨S20000x3, .i32⟩ : BufTy).Contents (Elt F)),
    StableHlo.nullary main_c_36 (constantI S_ 32 0#32),
    StableHlo.unary main_c_36 main_v116 (broadcastInDim S4000000 ![] bcast_S_S4000000 : (⟨S_, .i32⟩ : BufTy).Contents (Elt F) → (⟨S4000000, .i32⟩ : BufTy).Contents (Elt F)),
    StableHlo.binary main_v29 main_v116 main_v117 (cmpi .slt : (⟨S4000000, .i32⟩ : BufTy).Contents (Elt F) → (⟨S4000000, .i32⟩ : BufTy).Contents (Elt F) → (⟨S4000000, .i1⟩ : BufTy).Contents (Elt F)),
    StableHlo.nullary main_c_37 (constantI S_ 32 4000000#32),
    StableHlo.unary main_c_37 main_v118 (broadcastInDim S4000000 ![] bcast_S_S4000000 : (⟨S_, .i32⟩ : BufTy).Contents (Elt F) → (⟨S4000000, .i32⟩ : BufTy).Contents (Elt F)),
    StableHlo.binary main_v29 main_v118 main_v119 (addi : (⟨S4000000, .i32⟩ : BufTy).Contents (Elt F) → (⟨S4000000, .i32⟩ : BufTy).Contents (Elt F) → (⟨S4000000, .i32⟩ : BufTy).Contents (Elt F)),
    StableHlo.ternary main_v117 main_v119 main_v29 main_v120 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v120 main_v121 (broadcastInDim S4000000x1 ![0] bcast_S4000000_S4000000x1_0 : (⟨S4000000, .i32⟩ : BufTy).Contents (Elt F) → (⟨S4000000x1, .i32⟩ : BufTy).Contents (Elt F)),
    StableHlo.binary main_v8 main_v121 main_v122 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F)),
    StableHlo.unary main_v122 main_v123 (Host.reverse [1] : (⟨S4000000x3, .i32⟩ : BufTy).Contents (Elt F) → (⟨S4000000x3, .i32⟩ : BufTy).Contents (Elt F)),
    StableHlo.nullary main_c_38 (constantI S_ 32 0#32),
    StableHlo.unary main_c_38 main_v124 (broadcastInDim S4000000 ![] bcast_S_S4000000 : (⟨S_, .i32⟩ : BufTy).Contents (Elt F) → (⟨S4000000, .i32⟩ : BufTy).Contents (Elt F)),
    StableHlo.binary main_v82 main_v124 main_v125 (cmpi .slt : (⟨S4000000, .i32⟩ : BufTy).Contents (Elt F) → (⟨S4000000, .i32⟩ : BufTy).Contents (Elt F) → (⟨S4000000, .i1⟩ : BufTy).Contents (Elt F)),
    StableHlo.nullary main_c_39 (constantI S_ 32 20000#32) ]
theorem ops22_sub : (ops22 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub ..⟩
theorem ops22_fresh : (ops22 : List (HloOp τ sig (Elt F))).Forall fun op => op.fresh = ∅ :=
  ⟨rfl, rfl, rfl, rfl, rfl, rfl, rfl, rfl, rfl, rfl, rfl, rfl, rfl, rfl, rfl, rfl⟩

/-- 11 operations of @main, window 2. -/
abbrev ops23 : List (HloOp τ sig (Elt F)) :=
  [ StableHlo.unary main_c_39 main_v126 (broadcastInDim S4000000 ![] bcast_S_S4000000 : (⟨S_, .i32⟩ : BufTy).Contents (Elt F) → (⟨S4000000, .i32⟩ : BufTy).Contents (Elt F)),
    StableHlo.binary main_v82 main_v126 main_v127 (addi : (⟨S4000000, .i32⟩ : BufTy).Contents (Elt F) → (⟨S4000000, .i32⟩ : BufTy).Contents (Elt F) → (⟨S4000000, .i32⟩ : BufTy).Contents (Elt F)),
    StableHlo.ternary main_v125 main_v127 main_v82 main_v128 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v128 main_v129 (broadcastInDim S4000000x1 ![0] bcast_S4000000_S4000000x1_0 : (⟨S4000000, .i32⟩ : BufTy).Contents (Elt F) → (⟨S4000000x1, .i32⟩ : BufTy).Contents (Elt F)),
    StableHlo.ternary main_v115 main_v129 main_v123 main_v130 ((fun x i u => Host.scatter scatter_S20000x3_S4000000x1_S4000000x3_1_0_0_1 (fun _ b => b) x i u) : (⟨S20000x3, .i32⟩ : BufTy).Contents (Elt F) → (⟨S4000000x1, .i32⟩ : BufTy).Contents (Elt F) → (⟨S4000000x3, .i32⟩ : BufTy).Contents (Elt F) → (⟨S20000x3, .i32⟩ : BufTy).Contents (Elt F)),
    StableHlo.binary main_v42 main_v50 main_v131 (andi : (⟨S4000000, .i1⟩ : BufTy).Contents (Elt F) → (⟨S4000000, .i1⟩ : BufTy).Contents (Elt F) → (⟨S4000000, .i1⟩ : BufTy).Contents (Elt F)),
    StableHlo.unary main_v131 main_v132 ((extui 32 · natLt_1_32) : (⟨S4000000, .i1⟩ : BufTy).Contents (Elt F) → (⟨S4000000, .i32⟩ : BufTy).Contents (Elt F)),
    StableHlo.nullary main_c_40 (constantI S_ 32 0#32),
    StableHlo.binary main_v132 main_c_40 main_v133 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),
    StableHlo.nullary main_c_41 (constantI S_ 32 20000#32),
    StableHlo.binary main_v133 main_c_41 main_v134 (minsi : (⟨S_, .i32⟩ : BufTy).Contents (Elt F) → (⟨S_, .i32⟩ : BufTy).Contents (Elt F) → (⟨S_, .i32⟩ : BufTy).Contents (Elt F)) ]
theorem ops23_sub : (ops23 : List (HloOp τ sig (Elt F))).Forall fun op => op.bufs ⊆ tcRefs τ sig :=
  ⟨unary_bufs_sub .., binary_bufs_sub .., ternary_bufs_sub .., unary_bufs_sub .., ternary_bufs_sub .., binary_bufs_sub .., unary_bufs_sub .., nullary_bufs_sub .., binary_bufs_sub .., nullary_bufs_sub .., binary_bufs_sub ..⟩
theorem ops23_fresh : (ops23 : List (HloOp τ sig (Elt F))).Forall fun op => op.fresh = ∅ :=
  ⟨rfl, rfl, rfl, rfl, rfl, rfl, rfl, rfl, rfl, rfl, rfl⟩

-- window 0: ops0 ops1 ops2 ops3 ops4 ops5 ops6 ops7 ops8
-- window 1: ops9 ops10 ops11 ops12 ops13 ops14 ops15 ops16 ops17 ops18 ops19
-- window 2: ops20 ops21 ops22 ops23

/-- The stretches in program order. -/
abbrev stretches : List (List (HloOp τ sig (Elt F))) :=
  [ ops0, ops1, ops2, ops3, ops4, ops5, ops6, ops7, ops8, ops9, ops10, ops11, ops12, ops13, ops14, ops15, ops16, ops17, ops18, ops19, ops20, ops21, ops22, ops23 ]

theorem stretches_sub : (stretches : List (List (HloOp τ sig (Elt F)))).Forall fun l => l.Forall fun op => op.bufs ⊆ tcRefs τ sig :=
  ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub, ops18_sub, ops19_sub, ops20_sub, ops21_sub, ops22_sub, ops23_sub⟩
theorem stretches_fresh : (stretches : List (List (HloOp τ sig (Elt F)))).Forall fun l => l.Forall fun op => op.fresh = ∅ :=
  ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh, ops18_fresh, ops19_fresh, ops20_fresh, ops21_fresh, ops22_fresh, ops23_fresh⟩

end Cert.ReferenceIdeal.RefRun

end
-- ==== Proof.RefRun.lean ====
/- The reference program's run: @main is the straight line of its host operations (each called function's operations
   inline at its call), so every weakly fair execution of it terminates with each buffer at the fold of the operations'
   results over the launch contents, and the argument is written by none of them. -/
import proofs.«163751_j5892695130408_2_alg».proof.Proof.RefOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Lists of stretches -/

section Lists

variable {nD : Nat} {τ : Topo} {sig : RefSig} {Val : EltTy → Type} {Λ : Labels}

/-- The chain of the stretches' lines is the line of their concatenation. -/
theorem chain_map_seq (L : List (List (HloOp τ sig Val))) :
    Pipeline.chain (L.map fun l => (seq l : Prog (TpuEff nD τ sig Val Λ .tc) PUnit)) = seq L.flatten := by
  induction L with
  | nil => rfl
  | cons l L ih => rw [List.map_cons, Pipeline.chain_cons, ih, List.flatten_cons, seq_append]

/-- A property of every element of every stretch holds of every element of the concatenation. -/
theorem forall_flatten {α : Type} {p : α → Prop} (L : List (List α)) (h : L.Forall fun l => l.Forall p) :
    L.flatten.Forall p := by
  rw [List.forall_iff_forall_mem] at h ⊢
  intro a ha
  obtain ⟨l, hl, hal⟩ := List.mem_flatten.mp ha
  exact List.forall_iff_forall_mem.mp (h l hl) a hal

/-- The fold over a concatenation is the fold over the second part of the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem after_flatten_cons (l : List (HloOp τ sig Val)) (L : List (List (HloOp τ sig Val))) (V : Valuation τ sig Val) :
    after (List.flatten (l :: L)) V = after L.flatten (after l V) := by
  rw [List.flatten_cons, after_append]

theorem after_flatten_nil (V : Valuation τ sig Val) : after (List.flatten ([] : List (List (HloOp τ sig Val)))) V = V := rfl

/-- A buffer every stretch keeps is kept by the concatenation. -/
theorem after_flatten_keep {b : DevRef τ sig} (L : List (List (HloOp τ sig Val)))
    (h : L.Forall fun l => ∀ V : Valuation τ sig Val, after l V b = V b) (V : Valuation τ sig Val) :
    after L.flatten V b = V b := by
  induction L generalizing V with
  | nil => rfl
  | cons l L ih =>
    rw [List.forall_cons] at h
    rw [after_flatten_cons, ih h.2, h.1]

end Lists

variable {F : FTy → Type} [FloatOps F]

/-! ## @main is the line of its operations -/

/-- @main's 198 operations in program order, each called function's operations inline at its call: the
    concatenation of the stretches. -/
abbrev ops : List (HloOp τ sig (Elt F)) := List.flatten stretches

/-- The first window of @main is the chain of its stretches, the last in tail position. -/
theorem main_part0_chain (c : Dev nD) : main_part0 (F := F) c = (Pipeline.chainK
  [ seq ops0, seq ops1, seq ops2, seq ops3, seq ops4, seq ops5, seq ops6, seq ops7 ]
  (seq ops8) : Prog (TpuEff nD τ sig (Elt F) (Pipeline.Sig Λ₀ (Fin 0) fun p => (pcfgs (F := F) p).Adm) .tc) PUnit) := by
  chain_rfl

/-- The second window likewise. -/
theorem main_part1_chain (c : Dev nD) : main_part1 (F := F) c = (Pipeline.chainK
  [ seq ops9, seq ops10, seq ops11, seq ops12, seq ops13, seq ops14, seq ops15, seq ops16, seq ops17, seq ops18 ]
  (seq ops19) : Prog (TpuEff nD τ sig (Elt F) (Pipeline.Sig Λ₀ (Fin 0) fun p => (pcfgs (F := F) p).Adm) .tc) PUnit) := by
  chain_rfl

/-- The last window is the chain of its stretches. -/
theorem main_part2_chain (c : Dev nD) : main_part2 (F := F) c = (Pipeline.chain
  [ seq ops20, seq ops21, seq ops22, seq ops23 ] : Prog (TpuEff nD τ sig (Elt F) (Pipeline.Sig Λ₀ (Fin 0) fun p => (pcfgs (F := F) p).Adm) .tc) PUnit) := by
  chain_rfl

/-- @main is the chain of all the stretches: the windows' equations joined at the two window boundaries. -/
theorem main_chain (c : Dev nD) : main (F := F) c = (Pipeline.chain
  [ seq ops0, seq ops1, seq ops2, seq ops3, seq ops4, seq ops5, seq ops6, seq ops7, seq ops8, seq ops9, seq ops10, seq ops11, seq ops12, seq ops13, seq ops14, seq ops15, seq ops16, seq ops17, seq ops18, seq ops19, seq ops20, seq ops21, seq ops22, seq ops23 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem main_eq (c : Dev nD) : main (F := F) c = seq ops :=
  (main_chain c).trans (chain_map_seq stretches)

theorem ops_sub : (ops : List (HloOp τ sig (Elt F))).Forall fun op => op.bufs ⊆ tcRefs τ sig :=
  forall_flatten stretches stretches_sub

theorem ops_fresh : (ops : List (HloOp τ sig (Elt F))).Forall fun op => op.fresh = ∅ :=
  forall_flatten stretches stretches_fresh

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and every final state has each
    buffer at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-! ## The argument is kept -/

theorem ops0_arg0 (V : Valuation τ sig (Elt F)) : after ops0 V (Proc.devRef .tc main_arg0) = V (Proc.devRef .tc main_arg0) := by after_results_simp
theorem ops1_arg0 (V : Valuation τ sig (Elt F)) : after ops1 V (Proc.devRef .tc main_arg0) = V (Proc.devRef .tc main_arg0) := by after_results_simp
theorem ops2_arg0 (V : Valuation τ sig (Elt F)) : after ops2 V (Proc.devRef .tc main_arg0) = V (Proc.devRef .tc main_arg0) := by after_results_simp
theorem ops3_arg0 (V : Valuation τ sig (Elt F)) : after ops3 V (Proc.devRef .tc main_arg0) = V (Proc.devRef .tc main_arg0) := by after_results_simp
theorem ops4_arg0 (V : Valuation τ sig (Elt F)) : after ops4 V (Proc.devRef .tc main_arg0) = V (Proc.devRef .tc main_arg0) := by after_results_simp
theorem ops5_arg0 (V : Valuation τ sig (Elt F)) : after ops5 V (Proc.devRef .tc main_arg0) = V (Proc.devRef .tc main_arg0) := by after_results_simp
theorem ops6_arg0 (V : Valuation τ sig (Elt F)) : after ops6 V (Proc.devRef .tc main_arg0) = V (Proc.devRef .tc main_arg0) := by after_results_simp
theorem ops7_arg0 (V : Valuation τ sig (Elt F)) : after ops7 V (Proc.devRef .tc main_arg0) = V (Proc.devRef .tc main_arg0) := by after_results_simp
theorem ops8_arg0 (V : Valuation τ sig (Elt F)) : after ops8 V (Proc.devRef .tc main_arg0) = V (Proc.devRef .tc main_arg0) := by after_results_simp
theorem ops9_arg0 (V : Valuation τ sig (Elt F)) : after ops9 V (Proc.devRef .tc main_arg0) = V (Proc.devRef .tc main_arg0) := by after_results_simp
theorem ops10_arg0 (V : Valuation τ sig (Elt F)) : after ops10 V (Proc.devRef .tc main_arg0) = V (Proc.devRef .tc main_arg0) := by after_results_simp
theorem ops11_arg0 (V : Valuation τ sig (Elt F)) : after ops11 V (Proc.devRef .tc main_arg0) = V (Proc.devRef .tc main_arg0) := by after_results_simp
theorem ops12_arg0 (V : Valuation τ sig (Elt F)) : after ops12 V (Proc.devRef .tc main_arg0) = V (Proc.devRef .tc main_arg0) := by after_results_simp
theorem ops13_arg0 (V : Valuation τ sig (Elt F)) : after ops13 V (Proc.devRef .tc main_arg0) = V (Proc.devRef .tc main_arg0) := by after_results_simp
theorem ops14_arg0 (V : Valuation τ sig (Elt F)) : after ops14 V (Proc.devRef .tc main_arg0) = V (Proc.devRef .tc main_arg0) := by after_results_simp
theorem ops15_arg0 (V : Valuation τ sig (Elt F)) : after ops15 V (Proc.devRef .tc main_arg0) = V (Proc.devRef .tc main_arg0) := by after_results_simp
theorem ops16_arg0 (V : Valuation τ sig (Elt F)) : after ops16 V (Proc.devRef .tc main_arg0) = V (Proc.devRef .tc main_arg0) := by after_results_simp
theorem ops17_arg0 (V : Valuation τ sig (Elt F)) : after ops17 V (Proc.devRef .tc main_arg0) = V (Proc.devRef .tc main_arg0) := by after_results_simp
theorem ops18_arg0 (V : Valuation τ sig (Elt F)) : after ops18 V (Proc.devRef .tc main_arg0) = V (Proc.devRef .tc main_arg0) := by after_results_simp
theorem ops19_arg0 (V : Valuation τ sig (Elt F)) : after ops19 V (Proc.devRef .tc main_arg0) = V (Proc.devRef .tc main_arg0) := by after_results_simp
theorem ops20_arg0 (V : Valuation τ sig (Elt F)) : after ops20 V (Proc.devRef .tc main_arg0) = V (Proc.devRef .tc main_arg0) := by after_results_simp
theorem ops21_arg0 (V : Valuation τ sig (Elt F)) : after ops21 V (Proc.devRef .tc main_arg0) = V (Proc.devRef .tc main_arg0) := by after_results_simp
theorem ops22_arg0 (V : Valuation τ sig (Elt F)) : after ops22 V (Proc.devRef .tc main_arg0) = V (Proc.devRef .tc main_arg0) := by after_results_simp
theorem ops23_arg0 (V : Valuation τ sig (Elt F)) : after ops23 V (Proc.devRef .tc main_arg0) = V (Proc.devRef .tc main_arg0) := by after_results_simp

/-- No operation writes the argument: its contents after the line are the launch's. -/
theorem kept_arg0 (m : (ℓ : Loc nD τ sig) → Buf (Elt F) ℓ) (d : Dev nD) :
    after (ops (F := F)) (launchContents m d) (Proc.devRef .tc main_arg0) = m ((d.tc : Thread nD τ).loc main_arg0) :=
  after_flatten_keep stretches ⟨ops0_arg0, ops1_arg0, ops2_arg0, ops3_arg0, ops4_arg0, ops5_arg0, ops6_arg0, ops7_arg0, ops8_arg0, ops9_arg0, ops10_arg0, ops11_arg0, ops12_arg0, ops13_arg0, ops14_arg0, ops15_arg0, ops16_arg0, ops17_arg0, ops18_arg0, ops19_arg0, ops20_arg0, ops21_arg0, ops22_arg0, ops23_arg0⟩ _

/-- Every weakly fair execution of @main terminates with the argument unchanged. -/
theorem frame (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => (h c main_arg0).trans (kept_arg0 m c)) (run_raw m ρ)

end Cert.ReferenceIdeal.RefRun

end
-- ==== Proof.RefKeep.lean ====
/- Which buffers each stretch of the reference's operations writes, and hence which it keeps: a buffer outside a
   stretch's list of results has the same contents after the stretch as before it. -/
import proofs.«163751_j5892695130408_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A single result that is in the list lies in the list's set of device buffers. -/
theorem wsub {W : List (Ref sig .tc)} {y : Ref sig .tc} (h : y ∈ W) :
    ({(Proc.devRef .tc y : DevRef τ sig)} : Finset (DevRef τ sig)) ⊆ (W.map (Proc.devRef (τ := τ) .tc)).toFinset := by
  intro b hb
  rw [Finset.mem_singleton] at hb
  subst hb
  exact List.mem_toFinset.mpr (List.mem_map_of_mem h)

/-- The results of stretch 0. -/
abbrev W0 : List (Ref sig .tc) := [main_cst, main_cst_0, main_c, main_v0, main_v1, main_v2, main_v3, main_v4, main_v5, main_v6, main_v7, main_v8, main_c_1, main_v9, main_v10, main_v11]
theorem keep0 {r : Ref sig .tc} (hr : r ∉ W0) (V : Valuation τ sig (Elt F)) :
    after ops0 V (Proc.devRef .tc r) = V (Proc.devRef .tc r) :=
  after_of_writes_sub ops0 V (W := W0) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 1. -/
abbrev W1 : List (Ref sig .tc) := [main_v12, main_v13, main_v14, main_c_2, main_v15, main_v16, main_v17, main_c_3, main_v18, main_v19, main_v20, main_v21, main_v22, main_c_4, main_v23, main_v24]
theorem keep1 {r : Ref sig .tc} (hr : r ∉ W1) (V : Valuation τ sig (Elt F)) :
    after ops1 V (Proc.devRef .tc r) = V (Proc.devRef .tc r) :=
  after_of_writes_sub ops1 V (W := W1) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 2. -/
abbrev W2 : List (Ref sig .tc) := [main_v25, main_v26, main_v27, main_c_5]
theorem keep2 {r : Ref sig .tc} (hr : r ∉ W2) (V : Valuation τ sig (Elt F)) :
    after ops2 V (Proc.devRef .tc r) = V (Proc.devRef .tc r) :=
  after_of_writes_sub ops2 V (W := W2) ⟨wsub (by decide), wsub (by decide), wsub (by decide), wsub (by decide)⟩ hr

/-- The results of stretch 3. -/
abbrev W3 : List (Ref sig .tc) := [main_call0_v0, main_call0_v1, main_v28]
theorem keep3 {r : Ref sig .tc} (hr : r ∉ W3) (V : Valuation τ sig (Elt F)) :
    after ops3 V (Proc.devRef .tc r) = V (Proc.devRef .tc r) :=
  after_of_writes_sub ops3 V (W := W3) ⟨wsub (by decide), wsub (by decide), wsub (by decide)⟩ hr

/-- The results of stretch 4. -/
abbrev W4 : List (Ref sig .tc) := [main_call1_v0, main_call1_v1_0, main_v29]
theorem keep4 {r : Ref sig .tc} (hr : r ∉ W4) (V : Valuation τ sig (Elt F)) :
    after ops4 V (Proc.devRef .tc r) = V (Proc.devRef .tc r) :=
  after_of_writes_sub ops4 V (W := W4) ⟨wsub (by decide), wsub (by decide), wsub (by decide)⟩ hr

/-- The results of stretch 5. -/
abbrev W5 : List (Ref sig .tc) := [main_c_6, main_v30, main_v31, main_c_7, main_v32, main_v33, main_v34, main_v35, main_v36, main_v37, main_c_8, main_v38, main_v39, main_v40, main_v41, main_v42]
theorem keep5 {r : Ref sig .tc} (hr : r ∉ W5) (V : Valuation τ sig (Elt F)) :
    after ops5 V (Proc.devRef .tc r) = V (Proc.devRef .tc r) :=
  after_of_writes_sub ops5 V (W := W5) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 6. -/
abbrev W6 : List (Ref sig .tc) := [main_call2_v0, main_call2_call0_c, main_call2_call0_v0, main_v43]
theorem keep6 {r : Ref sig .tc} (hr : r ∉ W6) (V : Valuation τ sig (Elt F)) :
    after ops6 V (Proc.devRef .tc r) = V (Proc.devRef .tc r) :=
  after_of_writes_sub ops6 V (W := W6) ⟨wsub (by decide), wsub (by decide), wsub (by decide), wsub (by decide)⟩ hr

/-- The results of stretch 7. -/
abbrev W7 : List (Ref sig .tc) := [main_c_9, main_v44, main_v45, main_c_10]
theorem keep7 {r : Ref sig .tc} (hr : r ∉ W7) (V : Valuation τ sig (Elt F)) :
    after ops7 V (Proc.devRef .tc r) = V (Proc.devRef .tc r) :=
  after_of_writes_sub ops7 V (W := W7) ⟨wsub (by decide), wsub (by decide), wsub (by decide), wsub (by decide)⟩ hr

/-- The results of stretch 8. -/
abbrev W8 : List (Ref sig .tc) := [main_call3_v0, main_call3_v1, main_v46]
theorem keep8 {r : Ref sig .tc} (hr : r ∉ W8) (V : Valuation τ sig (Elt F)) :
    after ops8 V (Proc.devRef .tc r) = V (Proc.devRef .tc r) :=
  after_of_writes_sub ops8 V (W := W8) ⟨wsub (by decide), wsub (by decide), wsub (by decide)⟩ hr

/-- The results of stretch 9. -/
abbrev W9 : List (Ref sig .tc) := [main_call4_c, main_call4_v0, main_v47]
theorem keep9 {r : Ref sig .tc} (hr : r ∉ W9) (V : Valuation τ sig (Elt F)) :
    after ops9 V (Proc.devRef .tc r) = V (Proc.devRef .tc r) :=
  after_of_writes_sub ops9 V (W := W9) ⟨wsub (by decide), wsub (by decide), wsub (by decide)⟩ hr

/-- The results of stretch 10. -/
abbrev W10 : List (Ref sig .tc) := [main_v48, main_c_11, main_v49, main_v50, main_c_12, main_v51, main_c_13]
theorem keep10 {r : Ref sig .tc} (hr : r ∉ W10) (V : Valuation τ sig (Elt F)) :
    after ops10 V (Proc.devRef .tc r) = V (Proc.devRef .tc r) :=
  after_of_writes_sub ops10 V (W := W10) ⟨wsub (by decide), wsub (by decide), wsub (by decide), wsub (by decide), wsub (by decide), wsub (by decide), wsub (by decide)⟩ hr

/-- The results of stretch 11. -/
abbrev W11 : List (Ref sig .tc) := [main_call5_v0, main_call5_v1, main_v52]
theorem keep11 {r : Ref sig .tc} (hr : r ∉ W11) (V : Valuation τ sig (Elt F)) :
    after ops11 V (Proc.devRef .tc r) = V (Proc.devRef .tc r) :=
  after_of_writes_sub ops11 V (W := W11) ⟨wsub (by decide), wsub (by decide), wsub (by decide)⟩ hr

/-- The results of stretch 12. -/
abbrev W12 : List (Ref sig .tc) := [main_c_14, main_v53, main_v54, main_c_15, main_v55, main_v56, main_v57, main_v58, main_v59]
theorem keep12 {r : Ref sig .tc} (hr : r ∉ W12) (V : Valuation τ sig (Elt F)) :
    after ops12 V (Proc.devRef .tc r) = V (Proc.devRef .tc r) :=
  after_of_writes_sub ops12 V (W := W12) ⟨wsub (by decide), wsub (by decide), wsub (by decide), wsub (by decide), wsub (by decide), wsub (by decide), wsub (by decide), wsub (by decide), wsub (by decide)⟩ hr

/-- The results of stretch 13. -/
abbrev W13 : List (Ref sig .tc) := [main_call6_v0, main_call6_v1_0, main_v60]
theorem keep13 {r : Ref sig .tc} (hr : r ∉ W13) (V : Valuation τ sig (Elt F)) :
    after ops13 V (Proc.devRef .tc r) = V (Proc.devRef .tc r) :=
  after_of_writes_sub ops13 V (W := W13) ⟨wsub (by decide), wsub (by decide), wsub (by decide)⟩ hr

/-- The results of stretch 14. -/
abbrev W14 : List (Ref sig .tc) := [main_c_16, main_v61, main_c_17, main_v62, main_v63, main_c_18, main_v64, main_v65, main_v66, main_v67, main_v68, main_c_19, main_v69, main_v70, main_c_20, main_v71]
theorem keep14 {r : Ref sig .tc} (hr : r ∉ W14) (V : Valuation τ sig (Elt F)) :
    after ops14 V (Proc.devRef .tc r) = V (Proc.devRef .tc r) :=
  after_of_writes_sub ops14 V (W := W14) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 15. -/
abbrev W15 : List (Ref sig .tc) := [main_v72, main_v73, main_v74, main_v75, main_c_21, main_v76, main_v77, main_v78, main_c_22, main_v79, main_v80, main_v81, main_c_23]
theorem keep15 {r : Ref sig .tc} (hr : r ∉ W15) (V : Valuation τ sig (Elt F)) :
    after ops15 V (Proc.devRef .tc r) = V (Proc.devRef .tc r) :=
  after_of_writes_sub ops15 V (W := W15) ⟨wsub (by decide), wsub (by decide), wsub (by decide), wsub (by decide), wsub (by decide), wsub (by decide), wsub (by decide), wsub (by decide), wsub (by decide), wsub (by decide), wsub (by decide), wsub (by decide), wsub (by decide)⟩ hr

/-- The results of stretch 16. -/
abbrev W16 : List (Ref sig .tc) := [main_call7_v0, main_call7_v1, main_v82]
theorem keep16 {r : Ref sig .tc} (hr : r ∉ W16) (V : Valuation τ sig (Elt F)) :
    after ops16 V (Proc.devRef .tc r) = V (Proc.devRef .tc r) :=
  after_of_writes_sub ops16 V (W := W16) ⟨wsub (by decide), wsub (by decide), wsub (by decide)⟩ hr

/-- The results of stretch 17. -/
abbrev W17 : List (Ref sig .tc) := [main_c_24]
theorem keep17 {r : Ref sig .tc} (hr : r ∉ W17) (V : Valuation τ sig (Elt F)) :
    after ops17 V (Proc.devRef .tc r) = V (Proc.devRef .tc r) :=
  after_of_writes_sub ops17 V (W := W17) (wsub (by decide)) hr

/-- The results of stretch 18. -/
abbrev W18 : List (Ref sig .tc) := [main_call8_v0, main_call8_v1, main_v83]
theorem keep18 {r : Ref sig .tc} (hr : r ∉ W18) (V : Valuation τ sig (Elt F)) :
    after ops18 V (Proc.devRef .tc r) = V (Proc.devRef .tc r) :=
  after_of_writes_sub ops18 V (W := W18) ⟨wsub (by decide), wsub (by decide), wsub (by decide)⟩ hr

/-- The results of stretch 19. -/
abbrev W19 : List (Ref sig .tc) := [main_cst_25, main_v84, main_c_26, main_v85, main_v86, main_c_27, main_v87, main_v88, main_v89]
theorem keep19 {r : Ref sig .tc} (hr : r ∉ W19) (V : Valuation τ sig (Elt F)) :
    after ops19 V (Proc.devRef .tc r) = V (Proc.devRef .tc r) :=
  after_of_writes_sub ops19 V (W := W19) ⟨wsub (by decide), wsub (by decide), wsub (by decide), wsub (by decide), wsub (by decide), wsub (by decide), wsub (by decide), wsub (by decide), wsub (by decide)⟩ hr

/-- The results of stretch 20. -/
abbrev W20 : List (Ref sig .tc) := [main_v90, main_v91, main_c_28, main_v92, main_v93, main_c_29, main_v94, main_v95, main_v96, main_c_30, main_v97, main_v98, main_c_31, main_v99, main_v100, main_v101]
theorem keep20 {r : Ref sig .tc} (hr : r ∉ W20) (V : Valuation τ sig (Elt F)) :
    after ops20 V (Proc.devRef .tc r) = V (Proc.devRef .tc r) :=
  after_of_writes_sub ops20 V (W := W20) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 21. -/
abbrev W21 : List (Ref sig .tc) := [main_v102, main_v103, main_v104, main_v105, main_c_32, main_v106, main_v107, main_c_33, main_v108, main_v109, main_c_34, main_v110, main_v111, main_v112, main_v113, main_v114]
theorem keep21 {r : Ref sig .tc} (hr : r ∉ W21) (V : Valuation τ sig (Elt F)) :
    after ops21 V (Proc.devRef .tc r) = V (Proc.devRef .tc r) :=
  after_of_writes_sub ops21 V (W := W21) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 22. -/
abbrev W22 : List (Ref sig .tc) := [main_c_35, main_v115, main_c_36, main_v116, main_v117, main_c_37, main_v118, main_v119, main_v120, main_v121, main_v122, main_v123, main_c_38, main_v124, main_v125, main_c_39]
theorem keep22 {r : Ref sig .tc} (hr : r ∉ W22) (V : Valuation τ sig (Elt F)) :
    after ops22 V (Proc.devRef .tc r) = V (Proc.devRef .tc r) :=
  after_of_writes_sub ops22 V (W := W22) ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩ hr

/-- The results of stretch 23. -/
abbrev W23 : List (Ref sig .tc) := [main_v126, main_v127, main_v128, main_v129, main_v130, main_v131, main_v132, main_c_40, main_v133, main_c_41, main_v134]
theorem keep23 {r : Ref sig .tc} (hr : r ∉ W23) (V : Valuation τ sig (Elt F)) :
    after ops23 V (Proc.devRef .tc r) = V (Proc.devRef .tc r) :=
  after_of_writes_sub ops23 V (W := W23) ⟨wsub (by decide), wsub (by decide), wsub (by decide), wsub (by decide), wsub (by decide), wsub (by decide), wsub (by decide), wsub (by decide), wsub (by decide), wsub (by decide), wsub (by decide)⟩ hr

end Cert.ReferenceIdeal.RefRun

end
-- ==== Proof.RefDefs.lean ====
/- The reference's integer voxel coordinates and flat voxel ids as functions of the points array, and the fold over the
   reference's operations cut into its stretches: P k V is the buffers' contents after stretches 0 … k from contents V. -/
import proofs.«163751_j5892695130408_2_alg».proof.Proof.RefRun
import proofs.«163751_j5892695130408_2_alg».proof.Proof.RefKeep

noncomputable section

namespace Cert.ReferenceIdeal.RefVals

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-! ## The head of the program: coordinates and flat ids -/

/-- The table of grid origins (0, −40, −3) as a vector of three floats. -/
def loT : FVec F S3 .f32 := fun i => FloatOps.ofBits .f32 (lit1 (S3.rowMajor i))
/-- The table of voxel sizes (0.05, 0.05, 0.1). -/
def vsT : FVec F S3 .f32 := fun i => FloatOps.ofBits .f32 (lit0 (S3.rowMajor i))
/-- The table of grid extents (1408, 1600, 40). -/
def gridT : IVec S3 32 := fun i => lit2 (S3.rowMajor i)

/-- A table of three entries repeated along every row of an [N, 3] array. -/
def rows3 {α : Type} (t : S3.Idx → α) : S4000000x3.Idx → α :=
  broadcastInDim S4000000x3 ![0, 1] bcast_S1x3_S4000000x3_0_1 (broadcastInDim S1x3 ![1] bcast_S3_S1x3_1 t)

/-- The integer voxel coordinates of every point: per column ⌊(p − lo)/size⌋ as a signed 32-bit integer. -/
def cR (x : FVec F S4000000x4 .f32) : IVec S4000000x3 32 :=
  fptosi 32 (Host.floor (Host.divf
    (subf (extractStridedSlice S4000000x3 ![0, 0] x slices_S4000000x4_S4000000x3_0_0) (rows3 loT))
    (rows3 vsT)))

/-- A point lies in the grid: every coordinate is at least 0 and below the grid's extent, the three columns' bits
    reduced by AND from 1. -/
def validR (c : IVec S4000000x3 32) : IVec S4000000 1 :=
  Host.reduce IntOp.andi
    (andi (cmpi .sge c (broadcastInDim S4000000x3 ![] bcast_S_S4000000x3 (constantI S_ 32 0#32))) (cmpi .slt c (rows3 gridT)))
    (constantI S_ 1 1#1) reducesTo_S4000000x3_S4000000_d1 h_S_

/-- Column k of the coordinates as a flat vector. -/
def colR (c : IVec S4000000x3 32) (off : Fin 2 → Nat) (h : S4000000x3.Slices off S4000000x1) : IVec S4000000 32 :=
  shapeCast S4000000 (extractStridedSlice S4000000x1 off c h) shapeCasts_S4000000x1_S4000000

/-- The flat voxel id (a·1600 + b)·40 + c of every point's coordinates (a, b, c), whether in the grid or not. -/
def rawR (c : IVec S4000000x3 32) : IVec S4000000 32 :=
  addi (muli (addi (muli (colR c ![0, 0] slices_S4000000x3_S4000000x1_0_0)
        (broadcastInDim S4000000 ![] bcast_S_S4000000 (constantI S_ 32 1600#32)))
      (colR c ![0, 1] slices_S4000000x3_S4000000x1_0_1))
    (broadcastInDim S4000000 ![] bcast_S_S4000000 (constantI S_ 32 40#32)))
    (colR c ![0, 2] slices_S4000000x3_S4000000x1_0_2)

/-- The flat voxel id of every point: the id of its coordinates when the point lies in the grid, the sentinel 90112000
    otherwise. -/
def flatR (x : FVec F S4000000x4 .f32) : IVec S4000000 32 :=
  select (validR (cR x)) (rawR (cR x)) (broadcastInDim S4000000 ![] bcast_S_S4000000 (constantI S_ 32 90112000#32))

/-! ## The fold, stretch by stretch -/

def P0 (V : Valuation τ sig (Elt F)) : Valuation τ sig (Elt F) := after ops0 V
def P1 (V : Valuation τ sig (Elt F)) : Valuation τ sig (Elt F) := after ops1 (P0 V)
def P2 (V : Valuation τ sig (Elt F)) : Valuation τ sig (Elt F) := after ops2 (P1 V)
def P3 (V : Valuation τ sig (Elt F)) : Valuation τ sig (Elt F) := after ops3 (P2 V)
def P4 (V : Valuation τ sig (Elt F)) : Valuation τ sig (Elt F) := after ops4 (P3 V)
def P5 (V : Valuation τ sig (Elt F)) : Valuation τ sig (Elt F) := after ops5 (P4 V)
def P6 (V : Valuation τ sig (Elt F)) : Valuation τ sig (Elt F) := after ops6 (P5 V)
def P7 (V : Valuation τ sig (Elt F)) : Valuation τ sig (Elt F) := after ops7 (P6 V)
def P8 (V : Valuation τ sig (Elt F)) : Valuation τ sig (Elt F) := after ops8 (P7 V)
def P9 (V : Valuation τ sig (Elt F)) : Valuation τ sig (Elt F) := after ops9 (P8 V)
def P10 (V : Valuation τ sig (Elt F)) : Valuation τ sig (Elt F) := after ops10 (P9 V)
def P11 (V : Valuation τ sig (Elt F)) : Valuation τ sig (Elt F) := after ops11 (P10 V)
def P12 (V : Valuation τ sig (Elt F)) : Valuation τ sig (Elt F) := after ops12 (P11 V)
def P13 (V : Valuation τ sig (Elt F)) : Valuation τ sig (Elt F) := after ops13 (P12 V)
def P14 (V : Valuation τ sig (Elt F)) : Valuation τ sig (Elt F) := after ops14 (P13 V)
def P15 (V : Valuation τ sig (Elt F)) : Valuation τ sig (Elt F) := after ops15 (P14 V)
def P16 (V : Valuation τ sig (Elt F)) : Valuation τ sig (Elt F) := after ops16 (P15 V)
def P17 (V : Valuation τ sig (Elt F)) : Valuation τ sig (Elt F) := after ops17 (P16 V)
def P18 (V : Valuation τ sig (Elt F)) : Valuation τ sig (Elt F) := after ops18 (P17 V)
def P19 (V : Valuation τ sig (Elt F)) : Valuation τ sig (Elt F) := after ops19 (P18 V)
def P20 (V : Valuation τ sig (Elt F)) : Valuation τ sig (Elt F) := after ops20 (P19 V)
def P21 (V : Valuation τ sig (Elt F)) : Valuation τ sig (Elt F) := after ops21 (P20 V)
def P22 (V : Valuation τ sig (Elt F)) : Valuation τ sig (Elt F) := after ops22 (P21 V)
def P23 (V : Valuation τ sig (Elt F)) : Valuation τ sig (Elt F) := after ops23 (P22 V)

/-- The fold over all the operations is the fold over the last stretch of the fold over the ones before. -/
theorem after_ops_eq (V : Valuation τ sig (Elt F)) : after ops V = P23 V := by
  simp only [ops, stretches, after_flatten_cons, after_flatten_nil]
  rfl

end Cert.ReferenceIdeal.RefVals

end
-- ==== Proof.RefHead.lean ====
/- The reference's fold read at the argument, the integer coordinates (main_v8) and the flat ids (main_v28) after each stretch:
   the head of the program (stretches 0 … 3) computes them, every later stretch keeps them. -/
import proofs.«163751_j5892695130408_2_alg».proof.Proof.RefDefs

noncomputable section

namespace Cert.ReferenceIdeal.RefVals

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

set_option pp.maxSteps 3000
set_option pp.deepTerms false

/-- The operations' results read one at a time by rewriting (under a concatenation, where the one-pass reader does not reach). -/
local macro "after_results_rw" : tactic =>
  `(tactic| (repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

attribute [local irreducible] Host.reduce Host.gather Host.scatter Host.sort2 Host.reduceWindow

theorem P0_arg0 (V : Valuation τ sig (Elt F)) : P0 V (Proc.devRef .tc main_arg0) = (V (Proc.devRef .tc main_arg0)) :=
  keep0 (r := main_arg0) (by decide) V
theorem P0_v8 (V : Valuation τ sig (Elt F)) : P0 V (Proc.devRef .tc main_v8) = (cR (V (Proc.devRef .tc main_arg0))) := by
  show after ops0 V _ = _
  after_results_simp
  try after_results_rw
  try simp only [TRef.toBuf, TRef.ofBuf, cast_eq]
  all_goals rfl
theorem P0_v10 (V : Valuation τ sig (Elt F)) : P0 V (Proc.devRef .tc main_v10) = (((cmpi .sge : (⟨S4000000x3, .i32⟩ : BufTy).Contents (Elt F) → (⟨S4000000x3, .i32⟩ : BufTy).Contents (Elt F) → (⟨S4000000x3, .i1⟩ : BufTy).Contents (Elt F)) (cR (V (Proc.devRef .tc main_arg0))) (((broadcastInDim S4000000x3 ![] bcast_S_S4000000x3 : (⟨S_, .i32⟩ : BufTy).Contents (Elt F) → (⟨S4000000x3, .i32⟩ : BufTy).Contents (Elt F)) ((constantI S_ 32 0#32) : (⟨S_, .i32⟩ : BufTy).Contents (Elt F))) : (⟨S4000000x3, .i32⟩ : BufTy).Contents (Elt F))) : (⟨S4000000x3, .i1⟩ : BufTy).Contents (Elt F)) := by
  show after ops0 V _ = _
  after_results_simp
  try after_results_rw
  try simp only [TRef.toBuf, TRef.ofBuf, cast_eq]
  all_goals rfl
theorem P0_v11 (V : Valuation τ sig (Elt F)) : P0 V (Proc.devRef .tc main_v11) = (((broadcastInDim S1x3 ![1] bcast_S3_S1x3_1 : (⟨S3, .i32⟩ : BufTy).Contents (Elt F) → (⟨S1x3, .i32⟩ : BufTy).Contents (Elt F)) ((fun i => lit2 (S3.rowMajor i)) : (⟨S3, .i32⟩ : BufTy).Contents (Elt F))) : (⟨S1x3, .i32⟩ : BufTy).Contents (Elt F)) := by
  show after ops0 V _ = _
  after_results_simp
  try after_results_rw
  try simp only [TRef.toBuf, TRef.ofBuf, cast_eq]
  all_goals rfl

theorem P1_arg0 (V : Valuation τ sig (Elt F)) : P1 V (Proc.devRef .tc main_arg0) = (V (Proc.devRef .tc main_arg0)) :=
  (keep1 (r := main_arg0) (by decide) (P0 V)).trans (P0_arg0 V)
theorem P1_v8 (V : Valuation τ sig (Elt F)) : P1 V (Proc.devRef .tc main_v8) = (cR (V (Proc.devRef .tc main_arg0))) :=
  (keep1 (r := main_v8) (by decide) (P0 V)).trans (P0_v8 V)
theorem P1_v15 (V : Valuation τ sig (Elt F)) : P1 V (Proc.devRef .tc main_v15) = ((((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)) (((andi : (⟨S4000000x3, .i1⟩ : BufTy).Contents (Elt F) → (⟨S4000000x3, .i1⟩ : BufTy).Contents (Elt F) → (⟨S4000000x3, .i1⟩ : BufTy).Contents (Elt F)) (((cmpi .sge : (⟨S4000000x3, .i32⟩ : BufTy).Contents (Elt F) → (⟨S4000000x3, .i32⟩ : BufTy).Contents (Elt F) → (⟨S4000000x3, .i1⟩ : BufTy).Contents (Elt F)) (cR (V (Proc.devRef .tc main_arg0))) (((broadcastInDim S4000000x3 ![] bcast_S_S4000000x3 : (⟨S_, .i32⟩ : BufTy).Contents (Elt F) → (⟨S4000000x3, .i32⟩ : BufTy).Contents (Elt F)) ((constantI S_ 32 0#32) : (⟨S_, .i32⟩ : BufTy).Contents (Elt F))) : (⟨S4000000x3, .i32⟩ : BufTy).Contents (Elt F))) : (⟨S4000000x3, .i1⟩ : BufTy).Contents (Elt F)) (((cmpi .slt : (⟨S4000000x3, .i32⟩ : BufTy).Contents (Elt F) → (⟨S4000000x3, .i32⟩ : BufTy).Contents (Elt F) → (⟨S4000000x3, .i1⟩ : BufTy).Contents (Elt F)) (cR (V (Proc.devRef .tc main_arg0))) (((broadcastInDim S4000000x3 ![0, 1] bcast_S1x3_S4000000x3_0_1 : (⟨S1x3, .i32⟩ : BufTy).Contents (Elt F) → (⟨S4000000x3, .i32⟩ : BufTy).Contents (Elt F)) (((broadcastInDim S1x3 ![1] bcast_S3_S1x3_1 : (⟨S3, .i32⟩ : BufTy).Contents (Elt F) → (⟨S1x3, .i32⟩ : BufTy).Contents (Elt F)) ((fun i => lit2 (S3.rowMajor i)) : (⟨S3, .i32⟩ : BufTy).Contents (Elt F))) : (⟨S1x3, .i32⟩ : BufTy).Contents (Elt F))) : (⟨S4000000x3, .i32⟩ : BufTy).Contents (Elt F))) : (⟨S4000000x3, .i1⟩ : BufTy).Contents (Elt F))) : (⟨S4000000x3, .i1⟩ : BufTy).Contents (Elt F)) ((constantI S_ 1 1#1) : (⟨S_, .i1⟩ : BufTy).Contents (Elt F))) : (⟨S4000000, .i1⟩ : BufTy).Contents (Elt F)) := by
  have h0 := P0_v10 V
  have h1 := P0_v8 V
  have h2 := P0_v11 V
  show after ops1 (P0 V) _ = _
  generalize P0 V = W at h0 h1 h2 ⊢
  after_results_simp
  try after_results_rw
  try simp only [TRef.toBuf, TRef.ofBuf, cast_eq]
  rw [h0, h1, h2]
  all_goals rfl
theorem P1_v24 (V : Valuation τ sig (Elt F)) : P1 V (Proc.devRef .tc main_v24) = (((muli : (⟨S4000000, .i32⟩ : BufTy).Contents (Elt F) → (⟨S4000000, .i32⟩ : BufTy).Contents (Elt F) → (⟨S4000000, .i32⟩ : BufTy).Contents (Elt F)) (((addi : (⟨S4000000, .i32⟩ : BufTy).Contents (Elt F) → (⟨S4000000, .i32⟩ : BufTy).Contents (Elt F) → (⟨S4000000, .i32⟩ : BufTy).Contents (Elt F)) (((muli : (⟨S4000000, .i32⟩ : BufTy).Contents (Elt F) → (⟨S4000000, .i32⟩ : BufTy).Contents (Elt F) → (⟨S4000000, .i32⟩ : BufTy).Contents (Elt F)) (shapeCast S4000000 ((((extractStridedSlice S4000000x1 ![0, 0] · slices_S4000000x3_S4000000x1_0_0) : (⟨S4000000x3, .i32⟩ : BufTy).Contents (Elt F) → (⟨S4000000x1, .i32⟩ : BufTy).Contents (Elt F)) (cR (V (Proc.devRef .tc main_arg0)))) : (⟨S4000000x1, .i32⟩ : BufTy).Contents (Elt F)) shapeCasts_S4000000x1_S4000000 : (⟨S4000000, .i32⟩ : BufTy).Contents (Elt F)) (((broadcastInDim S4000000 ![] bcast_S_S4000000 : (⟨S_, .i32⟩ : BufTy).Contents (Elt F) → (⟨S4000000, .i32⟩ : BufTy).Contents (Elt F)) ((constantI S_ 32 1600#32) : (⟨S_, .i32⟩ : BufTy).Contents (Elt F))) : (⟨S4000000, .i32⟩ : BufTy).Contents (Elt F))) : (⟨S4000000, .i32⟩ : BufTy).Contents (Elt F)) (shapeCast S4000000 ((((extractStridedSlice S4000000x1 ![0, 1] · slices_S4000000x3_S4000000x1_0_1) : (⟨S4000000x3, .i32⟩ : BufTy).Contents (Elt F) → (⟨S4000000x1, .i32⟩ : BufTy).Contents (Elt F)) (cR (V (Proc.devRef .tc main_arg0)))) : (⟨S4000000x1, .i32⟩ : BufTy).Contents (Elt F)) shapeCasts_S4000000x1_S4000000 : (⟨S4000000, .i32⟩ : BufTy).Contents (Elt F))) : (⟨S4000000, .i32⟩ : BufTy).Contents (Elt F)) (((broadcastInDim S4000000 ![] bcast_S_S4000000 : (⟨S_, .i32⟩ : BufTy).Contents (Elt F) → (⟨S4000000, .i32⟩ : BufTy).Contents (Elt F)) ((constantI S_ 32 40#32) : (⟨S_, .i32⟩ : BufTy).Contents (Elt F))) : (⟨S4000000, .i32⟩ : BufTy).Contents (Elt F))) : (⟨S4000000, .i32⟩ : BufTy).Contents (Elt F)) := by
  have h0 := P0_v8 V
  show after ops1 (P0 V) _ = _
  generalize P0 V = W at h0 ⊢
  after_results_simp
  try after_results_rw
  try simp only [TRef.toBuf, TRef.ofBuf, cast_eq]
  rw [h0]
  all_goals rfl

theorem P2_arg0 (V : Valuation τ sig (Elt F)) : P2 V (Proc.devRef .tc main_arg0) = (V (Proc.devRef .tc main_arg0)) :=
  (keep2 (r := main_arg0) (by decide) (P1 V)).trans (P1_arg0 V)
theorem P2_v8 (V : Valuation τ sig (Elt F)) : P2 V (Proc.devRef .tc main_v8) = (cR (V (Proc.devRef .tc main_arg0))) :=
  (keep2 (r := main_v8) (by decide) (P1 V)).trans (P1_v8 V)
theorem P2_v15 (V : Valuation τ sig (Elt F)) : P2 V (Proc.devRef .tc main_v15) = ((((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)) (((andi : (⟨S4000000x3, .i1⟩ : BufTy).Contents (Elt F) → (⟨S4000000x3, .i1⟩ : BufTy).Contents (Elt F) → (⟨S4000000x3, .i1⟩ : BufTy).Contents (Elt F)) (((cmpi .sge : (⟨S4000000x3, .i32⟩ : BufTy).Contents (Elt F) → (⟨S4000000x3, .i32⟩ : BufTy).Contents (Elt F) → (⟨S4000000x3, .i1⟩ : BufTy).Contents (Elt F)) (cR (V (Proc.devRef .tc main_arg0))) (((broadcastInDim S4000000x3 ![] bcast_S_S4000000x3 : (⟨S_, .i32⟩ : BufTy).Contents (Elt F) → (⟨S4000000x3, .i32⟩ : BufTy).Contents (Elt F)) ((constantI S_ 32 0#32) : (⟨S_, .i32⟩ : BufTy).Contents (Elt F))) : (⟨S4000000x3, .i32⟩ : BufTy).Contents (Elt F))) : (⟨S4000000x3, .i1⟩ : BufTy).Contents (Elt F)) (((cmpi .slt : (⟨S4000000x3, .i32⟩ : BufTy).Contents (Elt F) → (⟨S4000000x3, .i32⟩ : BufTy).Contents (Elt F) → (⟨S4000000x3, .i1⟩ : BufTy).Contents (Elt F)) (cR (V (Proc.devRef .tc main_arg0))) (((broadcastInDim S4000000x3 ![0, 1] bcast_S1x3_S4000000x3_0_1 : (⟨S1x3, .i32⟩ : BufTy).Contents (Elt F) → (⟨S4000000x3, .i32⟩ : BufTy).Contents (Elt F)) (((broadcastInDim S1x3 ![1] bcast_S3_S1x3_1 : (⟨S3, .i32⟩ : BufTy).Contents (Elt F) → (⟨S1x3, .i32⟩ : BufTy).Contents (Elt F)) ((fun i => lit2 (S3.rowMajor i)) : (⟨S3, .i32⟩ : BufTy).Contents (Elt F))) : (⟨S1x3, .i32⟩ : BufTy).Contents (Elt F))) : (⟨S4000000x3, .i32⟩ : BufTy).Contents (Elt F))) : (⟨S4000000x3, .i1⟩ : BufTy).Contents (Elt F))) : (⟨S4000000x3, .i1⟩ : BufTy).Contents (Elt F)) ((constantI S_ 1 1#1) : (⟨S_, .i1⟩ : BufTy).Contents (Elt F))) : (⟨S4000000, .i1⟩ : BufTy).Contents (Elt F)) :=
  (keep2 (r := main_v15) (by decide) (P1 V)).trans (P1_v15 V)
theorem P2_v27 (V : Valuation τ sig (Elt F)) : P2 V (Proc.devRef .tc main_v27) = (((addi : (⟨S4000000, .i32⟩ : BufTy).Contents (Elt F) → (⟨S4000000, .i32⟩ : BufTy).Contents (Elt F) → (⟨S4000000, .i32⟩ : BufTy).Contents (Elt F)) (((muli : (⟨S4000000, .i32⟩ : BufTy).Contents (Elt F) → (⟨S4000000, .i32⟩ : BufTy).Contents (Elt F) → (⟨S4000000, .i32⟩ : BufTy).Contents (Elt F)) (((addi : (⟨S4000000, .i32⟩ : BufTy).Contents (Elt F) → (⟨S4000000, .i32⟩ : BufTy).Contents (Elt F) → (⟨S4000000, .i32⟩ : BufTy).Contents (Elt F)) (((muli : (⟨S4000000, .i32⟩ : BufTy).Contents (Elt F) → (⟨S4000000, .i32⟩ : BufTy).Contents (Elt F) → (⟨S4000000, .i32⟩ : BufTy).Contents (Elt F)) (shapeCast S4000000 ((((extractStridedSlice S4000000x1 ![0, 0] · slices_S4000000x3_S4000000x1_0_0) : (⟨S4000000x3, .i32⟩ : BufTy).Contents (Elt F) → (⟨S4000000x1, .i32⟩ : BufTy).Contents (Elt F)) (cR (V (Proc.devRef .tc main_arg0)))) : (⟨S4000000x1, .i32⟩ : BufTy).Contents (Elt F)) shapeCasts_S4000000x1_S4000000 : (⟨S4000000, .i32⟩ : BufTy).Contents (Elt F)) (((broadcastInDim S4000000 ![] bcast_S_S4000000 : (⟨S_, .i32⟩ : BufTy).Contents (Elt F) → (⟨S4000000, .i32⟩ : BufTy).Contents (Elt F)) ((constantI S_ 32 1600#32) : (⟨S_, .i32⟩ : BufTy).Contents (Elt F))) : (⟨S4000000, .i32⟩ : BufTy).Contents (Elt F))) : (⟨S4000000, .i32⟩ : BufTy).Contents (Elt F)) (shapeCast S4000000 ((((extractStridedSlice S4000000x1 ![0, 1] · slices_S4000000x3_S4000000x1_0_1) : (⟨S4000000x3, .i32⟩ : BufTy).Contents (Elt F) → (⟨S4000000x1, .i32⟩ : BufTy).Contents (Elt F)) (cR (V (Proc.devRef .tc main_arg0)))) : (⟨S4000000x1, .i32⟩ : BufTy).Contents (Elt F)) shapeCasts_S4000000x1_S4000000 : (⟨S4000000, .i32⟩ : BufTy).Contents (Elt F))) : (⟨S4000000, .i32⟩ : BufTy).Contents (Elt F)) (((broadcastInDim S4000000 ![] bcast_S_S4000000 : (⟨S_, .i32⟩ : BufTy).Contents (Elt F) → (⟨S4000000, .i32⟩ : BufTy).Contents (Elt F)) ((constantI S_ 32 40#32) : (⟨S_, .i32⟩ : BufTy).Contents (Elt F))) : (⟨S4000000, .i32⟩ : BufTy).Contents (Elt F))) : (⟨S4000000, .i32⟩ : BufTy).Contents (Elt F)) (shapeCast S4000000 ((((extractStridedSlice S4000000x1 ![0, 2] · slices_S4000000x3_S4000000x1_0_2) : (⟨S4000000x3, .i32⟩ : BufTy).Contents (Elt F) → (⟨S4000000x1, .i32⟩ : BufTy).Contents (Elt F)) (cR (V (Proc.devRef .tc main_arg0)))) : (⟨S4000000x1, .i32⟩ : BufTy).Contents (Elt F)) shapeCasts_S4000000x1_S4000000 : (⟨S4000000, .i32⟩ : BufTy).Contents (Elt F))) : (⟨S4000000, .i32⟩ : BufTy).Contents (Elt F)) := by
  have h0 := P1_v24 V
  have h1 := P1_v8 V
  show after ops2 (P1 V) _ = _
  generalize P1 V = W at h0 h1 ⊢
  after_results_simp
  try after_results_rw
  try simp only [TRef.toBuf, TRef.ofBuf, cast_eq]
  rw [h0, h1]
  all_goals rfl
theorem P2_c_5 (V : Valuation τ sig (Elt F)) : P2 V (Proc.devRef .tc main_c_5) = ((constantI S_ 32 90112000#32) : (⟨S_, .i32⟩ : BufTy).Contents (Elt F)) := by
  show after ops2 (P1 V) _ = _
  generalize P1 V = W
  after_results_simp
  try after_results_rw
  try simp only [TRef.toBuf, TRef.ofBuf, cast_eq]
  all_goals rfl

theorem P3_arg0 (V : Valuation τ sig (Elt F)) : P3 V (Proc.devRef .tc main_arg0) = (V (Proc.devRef .tc main_arg0)) :=
  (keep3 (r := main_arg0) (by decide) (P2 V)).trans (P2_arg0 V)
theorem P3_v8 (V : Valuation τ sig (Elt F)) : P3 V (Proc.devRef .tc main_v8) = (cR (V (Proc.devRef .tc main_arg0))) :=
  (keep3 (r := main_v8) (by decide) (P2 V)).trans (P2_v8 V)
theorem P3_v28 (V : Valuation τ sig (Elt F)) : P3 V (Proc.devRef .tc main_v28) = (flatR (V (Proc.devRef .tc main_arg0))) := by
  have h0 := P2_v15 V
  have h1 := P2_v27 V
  have h2 := P2_c_5 V
  show after ops3 (P2 V) _ = _
  generalize P2 V = W at h0 h1 h2 ⊢
  after_results_simp
  try after_results_rw
  try simp only [TRef.toBuf, TRef.ofBuf, cast_eq]
  rw [h0, h1, h2]
  all_goals rfl

theorem P4_arg0 (V : Valuation τ sig (Elt F)) : P4 V (Proc.devRef .tc main_arg0) = (V (Proc.devRef .tc main_arg0)) :=
  (keep4 (r := main_arg0) (by decide) (P3 V)).trans (P3_arg0 V)
theorem P4_v8 (V : Valuation τ sig (Elt F)) : P4 V (Proc.devRef .tc main_v8) = (cR (V (Proc.devRef .tc main_arg0))) :=
  (keep4 (r := main_v8) (by decide) (P3 V)).trans (P3_v8 V)
theorem P4_v28 (V : Valuation τ sig (Elt F)) : P4 V (Proc.devRef .tc main_v28) = (flatR (V (Proc.devRef .tc main_arg0))) :=
  (keep4 (r := main_v28) (by decide) (P3 V)).trans (P3_v28 V)

theorem P5_arg0 (V : Valuation τ sig (Elt F)) : P5 V (Proc.devRef .tc main_arg0) = (V (Proc.devRef .tc main_arg0)) :=
  (keep5 (r := main_arg0) (by decide) (P4 V)).trans (P4_arg0 V)
theorem P5_v8 (V : Valuation τ sig (Elt F)) : P5 V (Proc.devRef .tc main_v8) = (cR (V (Proc.devRef .tc main_arg0))) :=
  (keep5 (r := main_v8) (by decide) (P4 V)).trans (P4_v8 V)
theorem P5_v28 (V : Valuation τ sig (Elt F)) : P5 V (Proc.devRef .tc main_v28) = (flatR (V (Proc.devRef .tc main_arg0))) :=
  (keep5 (r := main_v28) (by decide) (P4 V)).trans (P4_v28 V)

theorem P6_arg0 (V : Valuation τ sig (Elt F)) : P6 V (Proc.devRef .tc main_arg0) = (V (Proc.devRef .tc main_arg0)) :=
  (keep6 (r := main_arg0) (by decide) (P5 V)).trans (P5_arg0 V)
theorem P6_v8 (V : Valuation τ sig (Elt F)) : P6 V (Proc.devRef .tc main_v8) = (cR (V (Proc.devRef .tc main_arg0))) :=
  (keep6 (r := main_v8) (by decide) (P5 V)).trans (P5_v8 V)
theorem P6_v28 (V : Valuation τ sig (Elt F)) : P6 V (Proc.devRef .tc main_v28) = (flatR (V (Proc.devRef .tc main_arg0))) :=
  (keep6 (r := main_v28) (by decide) (P5 V)).trans (P5_v28 V)

theorem P7_arg0 (V : Valuation τ sig (Elt F)) : P7 V (Proc.devRef .tc main_arg0) = (V (Proc.devRef .tc main_arg0)) :=
  (keep7 (r := main_arg0) (by decide) (P6 V)).trans (P6_arg0 V)
theorem P7_v8 (V : Valuation τ sig (Elt F)) : P7 V (Proc.devRef .tc main_v8) = (cR (V (Proc.devRef .tc main_arg0))) :=
  (keep7 (r := main_v8) (by decide) (P6 V)).trans (P6_v8 V)
theorem P7_v28 (V : Valuation τ sig (Elt F)) : P7 V (Proc.devRef .tc main_v28) = (flatR (V (Proc.devRef .tc main_arg0))) :=
  (keep7 (r := main_v28) (by decide) (P6 V)).trans (P6_v28 V)

theorem P8_arg0 (V : Valuation τ sig (Elt F)) : P8 V (Proc.devRef .tc main_arg0) = (V (Proc.devRef .tc main_arg0)) :=
  (keep8 (r := main_arg0) (by decide) (P7 V)).trans (P7_arg0 V)
theorem P8_v8 (V : Valuation τ sig (Elt F)) : P8 V (Proc.devRef .tc main_v8) = (cR (V (Proc.devRef .tc main_arg0))) :=
  (keep8 (r := main_v8) (by decide) (P7 V)).trans (P7_v8 V)
theorem P8_v28 (V : Valuation τ sig (Elt F)) : P8 V (Proc.devRef .tc main_v28) = (flatR (V (Proc.devRef .tc main_arg0))) :=
  (keep8 (r := main_v28) (by decide) (P7 V)).trans (P7_v28 V)

theorem P9_arg0 (V : Valuation τ sig (Elt F)) : P9 V (Proc.devRef .tc main_arg0) = (V (Proc.devRef .tc main_arg0)) :=
  (keep9 (r := main_arg0) (by decide) (P8 V)).trans (P8_arg0 V)
theorem P9_v8 (V : Valuation τ sig (Elt F)) : P9 V (Proc.devRef .tc main_v8) = (cR (V (Proc.devRef .tc main_arg0))) :=
  (keep9 (r := main_v8) (by decide) (P8 V)).trans (P8_v8 V)
theorem P9_v28 (V : Valuation τ sig (Elt F)) : P9 V (Proc.devRef .tc main_v28) = (flatR (V (Proc.devRef .tc main_arg0))) :=
  (keep9 (r := main_v28) (by decide) (P8 V)).trans (P8_v28 V)

theorem P10_arg0 (V : Valuation τ sig (Elt F)) : P10 V (Proc.devRef .tc main_arg0) = (V (Proc.devRef .tc main_arg0)) :=
  (keep10 (r := main_arg0) (by decide) (P9 V)).trans (P9_arg0 V)
theorem P10_v8 (V : Valuation τ sig (Elt F)) : P10 V (Proc.devRef .tc main_v8) = (cR (V (Proc.devRef .tc main_arg0))) :=
  (keep10 (r := main_v8) (by decide) (P9 V)).trans (P9_v8 V)
theorem P10_v28 (V : Valuation τ sig (Elt F)) : P10 V (Proc.devRef .tc main_v28) = (flatR (V (Proc.devRef .tc main_arg0))) :=
  (keep10 (r := main_v28) (by decide) (P9 V)).trans (P9_v28 V)

theorem P11_arg0 (V : Valuation τ sig (Elt F)) : P11 V (Proc.devRef .tc main_arg0) = (V (Proc.devRef .tc main_arg0)) :=
  (keep11 (r := main_arg0) (by decide) (P10 V)).trans (P10_arg0 V)
theorem P11_v8 (V : Valuation τ sig (Elt F)) : P11 V (Proc.devRef .tc main_v8) = (cR (V (Proc.devRef .tc main_arg0))) :=
  (keep11 (r := main_v8) (by decide) (P10 V)).trans (P10_v8 V)
theorem P11_v28 (V : Valuation τ sig (Elt F)) : P11 V (Proc.devRef .tc main_v28) = (flatR (V (Proc.devRef .tc main_arg0))) :=
  (keep11 (r := main_v28) (by decide) (P10 V)).trans (P10_v28 V)

theorem P12_arg0 (V : Valuation τ sig (Elt F)) : P12 V (Proc.devRef .tc main_arg0) = (V (Proc.devRef .tc main_arg0)) :=
  (keep12 (r := main_arg0) (by decide) (P11 V)).trans (P11_arg0 V)
theorem P12_v8 (V : Valuation τ sig (Elt F)) : P12 V (Proc.devRef .tc main_v8) = (cR (V (Proc.devRef .tc main_arg0))) :=
  (keep12 (r := main_v8) (by decide) (P11 V)).trans (P11_v8 V)
theorem P12_v28 (V : Valuation τ sig (Elt F)) : P12 V (Proc.devRef .tc main_v28) = (flatR (V (Proc.devRef .tc main_arg0))) :=
  (keep12 (r := main_v28) (by decide) (P11 V)).trans (P11_v28 V)

theorem P13_arg0 (V : Valuation τ sig (Elt F)) : P13 V (Proc.devRef .tc main_arg0) = (V (Proc.devRef .tc main_arg0)) :=
  (keep13 (r := main_arg0) (by decide) (P12 V)).trans (P12_arg0 V)
theorem P13_v8 (V : Valuation τ sig (Elt F)) : P13 V (Proc.devRef .tc main_v8) = (cR (V (Proc.devRef .tc main_arg0))) :=
  (keep13 (r := main_v8) (by decide) (P12 V)).trans (P12_v8 V)
theorem P13_v28 (V : Valuation τ sig (Elt F)) : P13 V (Proc.devRef .tc main_v28) = (flatR (V (Proc.devRef .tc main_arg0))) :=
  (keep13 (r := main_v28) (by decide) (P12 V)).trans (P12_v28 V)

theorem P14_arg0 (V : Valuation τ sig (Elt F)) : P14 V (Proc.devRef .tc main_arg0) = (V (Proc.devRef .tc main_arg0)) :=
  (keep14 (r := main_arg0) (by decide) (P13 V)).trans (P13_arg0 V)
theorem P14_v8 (V : Valuation τ sig (Elt F)) : P14 V (Proc.devRef .tc main_v8) = (cR (V (Proc.devRef .tc main_arg0))) :=
  (keep14 (r := main_v8) (by decide) (P13 V)).trans (P13_v8 V)
theorem P14_v28 (V : Valuation τ sig (Elt F)) : P14 V (Proc.devRef .tc main_v28) = (flatR (V (Proc.devRef .tc main_arg0))) :=
  (keep14 (r := main_v28) (by decide) (P13 V)).trans (P13_v28 V)

theorem P15_arg0 (V : Valuation τ sig (Elt F)) : P15 V (Proc.devRef .tc main_arg0) = (V (Proc.devRef .tc main_arg0)) :=
  (keep15 (r := main_arg0) (by decide) (P14 V)).trans (P14_arg0 V)
theorem P15_v8 (V : Valuation τ sig (Elt F)) : P15 V (Proc.devRef .tc main_v8) = (cR (V (Proc.devRef .tc main_arg0))) :=
  (keep15 (r := main_v8) (by decide) (P14 V)).trans (P14_v8 V)
theorem P15_v28 (V : Valuation τ sig (Elt F)) : P15 V (Proc.devRef .tc main_v28) = (flatR (V (Proc.devRef .tc main_arg0))) :=
  (keep15 (r := main_v28) (by decide) (P14 V)).trans (P14_v28 V)

theorem P16_arg0 (V : Valuation τ sig (Elt F)) : P16 V (Proc.devRef .tc main_arg0) = (V (Proc.devRef .tc main_arg0)) :=
  (keep16 (r := main_arg0) (by decide) (P15 V)).trans (P15_arg0 V)
theorem P16_v8 (V : Valuation τ sig (Elt F)) : P16 V (Proc.devRef .tc main_v8) = (cR (V (Proc.devRef .tc main_arg0))) :=
  (keep16 (r := main_v8) (by decide) (P15 V)).trans (P15_v8 V)
theorem P16_v28 (V : Valuation τ sig (Elt F)) : P16 V (Proc.devRef .tc main_v28) = (flatR (V (Proc.devRef .tc main_arg0))) :=
  (keep16 (r := main_v28) (by decide) (P15 V)).trans (P15_v28 V)

theorem P17_arg0 (V : Valuation τ sig (Elt F)) : P17 V (Proc.devRef .tc main_arg0) = (V (Proc.devRef .tc main_arg0)) :=
  (keep17 (r := main_arg0) (by decide) (P16 V)).trans (P16_arg0 V)
theorem P17_v8 (V : Valuation τ sig (Elt F)) : P17 V (Proc.devRef .tc main_v8) = (cR (V (Proc.devRef .tc main_arg0))) :=
  (keep17 (r := main_v8) (by decide) (P16 V)).trans (P16_v8 V)
theorem P17_v28 (V : Valuation τ sig (Elt F)) : P17 V (Proc.devRef .tc main_v28) = (flatR (V (Proc.devRef .tc main_arg0))) :=
  (keep17 (r := main_v28) (by decide) (P16 V)).trans (P16_v28 V)

theorem P18_arg0 (V : Valuation τ sig (Elt F)) : P18 V (Proc.devRef .tc main_arg0) = (V (Proc.devRef .tc main_arg0)) :=
  (keep18 (r := main_arg0) (by decide) (P17 V)).trans (P17_arg0 V)
theorem P18_v8 (V : Valuation τ sig (Elt F)) : P18 V (Proc.devRef .tc main_v8) = (cR (V (Proc.devRef .tc main_arg0))) :=
  (keep18 (r := main_v8) (by decide) (P17 V)).trans (P17_v8 V)
theorem P18_v28 (V : Valuation τ sig (Elt F)) : P18 V (Proc.devRef .tc main_v28) = (flatR (V (Proc.devRef .tc main_arg0))) :=
  (keep18 (r := main_v28) (by decide) (P17 V)).trans (P17_v28 V)

theorem P19_arg0 (V : Valuation τ sig (Elt F)) : P19 V (Proc.devRef .tc main_arg0) = (V (Proc.devRef .tc main_arg0)) :=
  (keep19 (r := main_arg0) (by decide) (P18 V)).trans (P18_arg0 V)
theorem P19_v8 (V : Valuation τ sig (Elt F)) : P19 V (Proc.devRef .tc main_v8) = (cR (V (Proc.devRef .tc main_arg0))) :=
  (keep19 (r := main_v8) (by decide) (P18 V)).trans (P18_v8 V)
theorem P19_v28 (V : Valuation τ sig (Elt F)) : P19 V (Proc.devRef .tc main_v28) = (flatR (V (Proc.devRef .tc main_arg0))) :=
  (keep19 (r := main_v28) (by decide) (P18 V)).trans (P18_v28 V)

theorem P20_arg0 (V : Valuation τ sig (Elt F)) : P20 V (Proc.devRef .tc main_arg0) = (V (Proc.devRef .tc main_arg0)) :=
  (keep20 (r := main_arg0) (by decide) (P19 V)).trans (P19_arg0 V)
theorem P20_v8 (V : Valuation τ sig (Elt F)) : P20 V (Proc.devRef .tc main_v8) = (cR (V (Proc.devRef .tc main_arg0))) :=
  (keep20 (r := main_v8) (by decide) (P19 V)).trans (P19_v8 V)
theorem P20_v28 (V : Valuation τ sig (Elt F)) : P20 V (Proc.devRef .tc main_v28) = (flatR (V (Proc.devRef .tc main_arg0))) :=
  (keep20 (r := main_v28) (by decide) (P19 V)).trans (P19_v28 V)

theorem P21_arg0 (V : Valuation τ sig (Elt F)) : P21 V (Proc.devRef .tc main_arg0) = (V (Proc.devRef .tc main_arg0)) :=
  (keep21 (r := main_arg0) (by decide) (P20 V)).trans (P20_arg0 V)
theorem P21_v8 (V : Valuation τ sig (Elt F)) : P21 V (Proc.devRef .tc main_v8) = (cR (V (Proc.devRef .tc main_arg0))) :=
  (keep21 (r := main_v8) (by decide) (P20 V)).trans (P20_v8 V)
theorem P21_v28 (V : Valuation τ sig (Elt F)) : P21 V (Proc.devRef .tc main_v28) = (flatR (V (Proc.devRef .tc main_arg0))) :=
  (keep21 (r := main_v28) (by decide) (P20 V)).trans (P20_v28 V)

theorem P22_arg0 (V : Valuation τ sig (Elt F)) : P22 V (Proc.devRef .tc main_arg0) = (V (Proc.devRef .tc main_arg0)) :=
  (keep22 (r := main_arg0) (by decide) (P21 V)).trans (P21_arg0 V)
theorem P22_v8 (V : Valuation τ sig (Elt F)) : P22 V (Proc.devRef .tc main_v8) = (cR (V (Proc.devRef .tc main_arg0))) :=
  (keep22 (r := main_v8) (by decide) (P21 V)).trans (P21_v8 V)
theorem P22_v28 (V : Valuation τ sig (Elt F)) : P22 V (Proc.devRef .tc main_v28) = (flatR (V (Proc.devRef .tc main_arg0))) :=
  (keep22 (r := main_v28) (by decide) (P21 V)).trans (P21_v28 V)

theorem P23_arg0 (V : Valuation τ sig (Elt F)) : P23 V (Proc.devRef .tc main_arg0) = (V (Proc.devRef .tc main_arg0)) :=
  (keep23 (r := main_arg0) (by decide) (P22 V)).trans (P22_arg0 V)
theorem P23_v8 (V : Valuation τ sig (Elt F)) : P23 V (Proc.devRef .tc main_v8) = (cR (V (Proc.devRef .tc main_arg0))) :=
  (keep23 (r := main_v8) (by decide) (P22 V)).trans (P22_v8 V)
theorem P23_v28 (V : Valuation τ sig (Elt F)) : P23 V (Proc.devRef .tc main_v28) = (flatR (V (Proc.devRef .tc main_arg0))) :=
  (keep23 (r := main_v28) (by decide) (P22 V)).trans (P22_v28 V)

end Cert.ReferenceIdeal.RefVals

end
-- ==== Proof.RefU.lean ====
/-
  The reference's coordinate rows in sorted order: the integer coordinates (x, y, z) of every point, their rows taken in
  the order of the stable argsort of the flat ids, each row then reversed to (z, y, x). Spelt with the kernel program's
  index column and dimension record, which are the reference's own (the same operations on the same shapes).
-/
import proofs.«163751_j5892695130408_2_alg».proof.Proof.RefDefs
import proofs.«163751_j5892695130408_2_alg».proof.Proof.KITailDefs

noncomputable section

namespace Cert.ReferenceIdeal.RefVals

open Idealize.ShloMosaic

variable {F : FTy → Type} [FloatOps F]

/-- The coordinate rows in sorted order, each reversed. -/
def UR (x : FVec F Cert.ReferenceIdeal.S4000000x4 .f32) : IVec Cert.KernelIdeal.S4000000x3 32 :=
  Host.reverse [(1 : Fin 2)] (Host.gather Cert.KernelIdeal.gather_S4000000x3_S4000000x1_S4000000x3_1_0_n_n_0_1_13 (cR x)
    (Cert.KernelIdeal.Tl.idxCol (flatR x)))

end Cert.ReferenceIdeal.RefVals

end
-- ==== Proof.RefTail.lean ====
/- The reference's fold read, after each stretch from the argsort on, at the buffers still to be read: each is the kernel
   program's stage function of the same name applied to the reference's own flat ids (and points, and coordinate rows). -/
import proofs.«163751_j5892695130408_2_alg».proof.Proof.RefHead
import proofs.«163751_j5892695130408_2_alg».proof.Proof.RefU

noncomputable section

namespace Cert.ReferenceIdeal.RefVals

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

set_option pp.maxSteps 3000
set_option pp.deepTerms false

/-- The operations' results read one at a time by rewriting (under a concatenation, where the one-pass reader does not reach). -/
local macro "after_results_rw" : tactic =>
  `(tactic| (repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-- The last operation of a line, a two-operand one, read at its result: its function of the line's own contents of its
    two operands (which it does not write). -/
theorem after_snoc_binary (l : List (HloOp τ sig (Elt F))) (a b y : Ref sig .tc)
    (f : a.ty.Contents (Elt F) → b.ty.Contents (Elt F) → y.ty.Contents (Elt F)) (ha hb hy) (W : Valuation τ sig (Elt F))
    (hay : a ≠ y) (hby : b ≠ y) :
    after (l ++ [binary a b y f ha hb hy]) W (Proc.devRef .tc y)
      = f (after (l ++ [binary a b y f ha hb hy]) W (Proc.devRef .tc a)) (after (l ++ [binary a b y f ha hb hy]) W (Proc.devRef .tc b)) := by
  simp only [after_append, after_cons, after_nil]
  rw [binary_result, binary_result_ne (h := hay), binary_result_ne (h := hby)]

attribute [local irreducible] Host.reduce Host.gather Host.scatter Host.sort2 Host.reduceWindow

theorem P4_v29 (V : Valuation τ sig (Elt F)) : P4 V (Proc.devRef .tc main_v29) = (Cert.KernelIdeal.Tl.perm (flatR (V (Proc.devRef .tc main_arg0)))) := by
  have h0 := P3_v28 V
  show after ops4 (P3 V) _ = _
  generalize P3 V = W at h0 ⊢
  after_results_simp
  try after_results_rw
  try simp only [TRef.toBuf, TRef.ofBuf, cast_eq]
  rw [h0]
  all_goals rfl

theorem P5_v29 (V : Valuation τ sig (Elt F)) : P5 V (Proc.devRef .tc main_v29) = (Cert.KernelIdeal.Tl.perm (flatR (V (Proc.devRef .tc main_arg0)))) :=
  (keep5 (r := main_v29) (by decide) (P4 V)).trans (P4_v29 V)
theorem P5_v36 (V : Valuation τ sig (Elt F)) : P5 V (Proc.devRef .tc main_v36) = (Cert.KernelIdeal.Tl.sf (flatR (V (Proc.devRef .tc main_arg0)))) := by
  have h0 := P4_v28 V
  have h1 := P4_v29 V
  show after ops5 (P4 V) _ = _
  generalize P4 V = W at h0 h1 ⊢
  after_results_simp
  try after_results_rw
  try simp only [TRef.toBuf, TRef.ofBuf, cast_eq]
  rw [h0, h1]
  all_goals rfl
theorem P5_v37 (V : Valuation τ sig (Elt F)) : P5 V (Proc.devRef .tc main_v37) = (Cert.KernelIdeal.Tl.pos) := by
  show after ops5 (P4 V) _ = _
  generalize P4 V = W
  after_results_simp
  try after_results_rw
  try simp only [TRef.toBuf, TRef.ofBuf, cast_eq]
  all_goals rfl
theorem P5_v38 (V : Valuation τ sig (Elt F)) : P5 V (Proc.devRef .tc main_v38) = (((broadcastInDim S1 ![] bcast_S_S1 : (⟨S_, .i1⟩ : BufTy).Contents (Elt F) → (⟨S1, .i1⟩ : BufTy).Contents (Elt F)) ((constantI S_ 1 1#1) : (⟨S_, .i1⟩ : BufTy).Contents (Elt F))) : (⟨S1, .i1⟩ : BufTy).Contents (Elt F)) := by
  show after ops5 (P4 V) _ = _
  generalize P4 V = W
  after_results_simp
  try after_results_rw
  try simp only [TRef.toBuf, TRef.ofBuf, cast_eq]
  all_goals rfl
theorem P5_v41 (V : Valuation τ sig (Elt F)) : P5 V (Proc.devRef .tc main_v41) = (((cmpi .ne : (⟨S3999999, .i32⟩ : BufTy).Contents (Elt F) → (⟨S3999999, .i32⟩ : BufTy).Contents (Elt F) → (⟨S3999999, .i1⟩ : BufTy).Contents (Elt F)) ((((extractStridedSlice S3999999 ![1] · slices_S4000000_S3999999_1) : (⟨S4000000, .i32⟩ : BufTy).Contents (Elt F) → (⟨S3999999, .i32⟩ : BufTy).Contents (Elt F)) (Cert.KernelIdeal.Tl.sf (flatR (V (Proc.devRef .tc main_arg0))))) : (⟨S3999999, .i32⟩ : BufTy).Contents (Elt F)) ((((extractStridedSlice S3999999 ![0] · slices_S4000000_S3999999_0) : (⟨S4000000, .i32⟩ : BufTy).Contents (Elt F) → (⟨S3999999, .i32⟩ : BufTy).Contents (Elt F)) (Cert.KernelIdeal.Tl.sf (flatR (V (Proc.devRef .tc main_arg0))))) : (⟨S3999999, .i32⟩ : BufTy).Contents (Elt F))) : (⟨S3999999, .i1⟩ : BufTy).Contents (Elt F)) := by
  have h0 := P4_v28 V
  have h1 := P4_v29 V
  show after ops5 (P4 V) _ = _
  generalize P4 V = W at h0 h1 ⊢
  after_results_simp
  try after_results_rw
  try simp only [TRef.toBuf, TRef.ofBuf, cast_eq]
  rw [h0, h1]
  all_goals rfl
theorem P5_v42 (V : Valuation τ sig (Elt F)) : P5 V (Proc.devRef .tc main_v42) = (Cert.KernelIdeal.Tl.new (flatR (V (Proc.devRef .tc main_arg0)))) := by
  have ha := P5_v38 V
  have hb := P5_v41 V
  refine (after_snoc_binary (ops5.take 15) main_v38 main_v41 main_v42 _ _ _ _ (P4 V) (by decide) (by decide)).trans ?_
  show (fun a b => concatenate S4000000 0 [⟨S1, a⟩, ⟨S3999999, b⟩] concatenates_S1_S3999999_S4000000_d0) (P5 V (Proc.devRef .tc main_v38)) (P5 V (Proc.devRef .tc main_v41)) = _
  rw [ha, hb]
  rfl

theorem P6_v29 (V : Valuation τ sig (Elt F)) : P6 V (Proc.devRef .tc main_v29) = (Cert.KernelIdeal.Tl.perm (flatR (V (Proc.devRef .tc main_arg0)))) :=
  (keep6 (r := main_v29) (by decide) (P5 V)).trans (P5_v29 V)
theorem P6_v36 (V : Valuation τ sig (Elt F)) : P6 V (Proc.devRef .tc main_v36) = (Cert.KernelIdeal.Tl.sf (flatR (V (Proc.devRef .tc main_arg0)))) :=
  (keep6 (r := main_v36) (by decide) (P5 V)).trans (P5_v36 V)
theorem P6_v37 (V : Valuation τ sig (Elt F)) : P6 V (Proc.devRef .tc main_v37) = (Cert.KernelIdeal.Tl.pos) :=
  (keep6 (r := main_v37) (by decide) (P5 V)).trans (P5_v37 V)
theorem P6_v42 (V : Valuation τ sig (Elt F)) : P6 V (Proc.devRef .tc main_v42) = (Cert.KernelIdeal.Tl.new (flatR (V (Proc.devRef .tc main_arg0)))) :=
  (keep6 (r := main_v42) (by decide) (P5 V)).trans (P5_v42 V)
theorem P6_v43 (V : Valuation τ sig (Elt F)) : P6 V (Proc.devRef .tc main_v43) = (((fun x v => Host.reduceWindow IntOp.addi ![4000000] ![1] ![3999999] ![0] x v reduceWindows_S4000000_S4000000_w4000000s1p3999999_0 h_S_) (((extui 32 · natLt_1_32) (Cert.KernelIdeal.Tl.new (flatR (V (Proc.devRef .tc main_arg0))))) : (⟨S4000000, .i32⟩ : BufTy).Contents (Elt F)) (((broadcastInDim S_ ![] bcast_S_S_) ((constantI S_ 32 0#32) : (⟨S_, .i32⟩ : BufTy).Contents (Elt F))) : (⟨S_, .i32⟩ : BufTy).Contents (Elt F))) : (⟨S4000000, .i32⟩ : BufTy).Contents (Elt F)) := by
  have h0 := P5_v42 V
  show after ops6 (P5 V) _ = _
  generalize P5 V = W at h0 ⊢
  after_results_simp
  try after_results_rw
  try simp only [TRef.toBuf, TRef.ofBuf, cast_eq]
  rw [h0]
  all_goals rfl

theorem P7_v29 (V : Valuation τ sig (Elt F)) : P7 V (Proc.devRef .tc main_v29) = (Cert.KernelIdeal.Tl.perm (flatR (V (Proc.devRef .tc main_arg0)))) :=
  (keep7 (r := main_v29) (by decide) (P6 V)).trans (P6_v29 V)
theorem P7_v36 (V : Valuation τ sig (Elt F)) : P7 V (Proc.devRef .tc main_v36) = (Cert.KernelIdeal.Tl.sf (flatR (V (Proc.devRef .tc main_arg0)))) :=
  (keep7 (r := main_v36) (by decide) (P6 V)).trans (P6_v36 V)
theorem P7_v37 (V : Valuation τ sig (Elt F)) : P7 V (Proc.devRef .tc main_v37) = (Cert.KernelIdeal.Tl.pos) :=
  (keep7 (r := main_v37) (by decide) (P6 V)).trans (P6_v37 V)
theorem P7_v42 (V : Valuation τ sig (Elt F)) : P7 V (Proc.devRef .tc main_v42) = (Cert.KernelIdeal.Tl.new (flatR (V (Proc.devRef .tc main_arg0)))) :=
  (keep7 (r := main_v42) (by decide) (P6 V)).trans (P6_v42 V)
theorem P7_v45 (V : Valuation τ sig (Elt F)) : P7 V (Proc.devRef .tc main_v45) = (Cert.KernelIdeal.Tl.seg (flatR (V (Proc.devRef .tc main_arg0)))) := by
  have h0 := P6_v43 V
  show after ops7 (P6 V) _ = _
  generalize P6 V = W at h0 ⊢
  after_results_simp
  try after_results_rw
  try simp only [TRef.toBuf, TRef.ofBuf, cast_eq]
  rw [h0]
  all_goals rfl
theorem P7_c_10 (V : Valuation τ sig (Elt F)) : P7 V (Proc.devRef .tc main_c_10) = ((constantI S_ 32 0#32) : (⟨S_, .i32⟩ : BufTy).Contents (Elt F)) := by
  show after ops7 (P6 V) _ = _
  generalize P6 V = W
  after_results_simp
  try after_results_rw
  try simp only [TRef.toBuf, TRef.ofBuf, cast_eq]
  all_goals rfl

theorem P8_v29 (V : Valuation τ sig (Elt F)) : P8 V (Proc.devRef .tc main_v29) = (Cert.KernelIdeal.Tl.perm (flatR (V (Proc.devRef .tc main_arg0)))) :=
  (keep8 (r := main_v29) (by decide) (P7 V)).trans (P7_v29 V)
theorem P8_v36 (V : Valuation τ sig (Elt F)) : P8 V (Proc.devRef .tc main_v36) = (Cert.KernelIdeal.Tl.sf (flatR (V (Proc.devRef .tc main_arg0)))) :=
  (keep8 (r := main_v36) (by decide) (P7 V)).trans (P7_v36 V)
theorem P8_v37 (V : Valuation τ sig (Elt F)) : P8 V (Proc.devRef .tc main_v37) = (Cert.KernelIdeal.Tl.pos) :=
  (keep8 (r := main_v37) (by decide) (P7 V)).trans (P7_v37 V)
theorem P8_v42 (V : Valuation τ sig (Elt F)) : P8 V (Proc.devRef .tc main_v42) = (Cert.KernelIdeal.Tl.new (flatR (V (Proc.devRef .tc main_arg0)))) :=
  (keep8 (r := main_v42) (by decide) (P7 V)).trans (P7_v42 V)
theorem P8_v45 (V : Valuation τ sig (Elt F)) : P8 V (Proc.devRef .tc main_v45) = (Cert.KernelIdeal.Tl.seg (flatR (V (Proc.devRef .tc main_arg0)))) :=
  (keep8 (r := main_v45) (by decide) (P7 V)).trans (P7_v45 V)
theorem P8_v46 (V : Valuation τ sig (Elt F)) : P8 V (Proc.devRef .tc main_v46) = ((select (Cert.KernelIdeal.Tl.new (flatR (V (Proc.devRef .tc main_arg0)))) (Cert.KernelIdeal.Tl.pos) (((broadcastInDim S4000000 ![] bcast_S_S4000000) ((id ((constantI S_ 32 0#32) : (⟨S_, .i32⟩ : BufTy).Contents (Elt F))) : (⟨S_, .i32⟩ : BufTy).Contents (Elt F))) : (⟨S4000000, .i32⟩ : BufTy).Contents (Elt F))) : (⟨S4000000, .i32⟩ : BufTy).Contents (Elt F)) := by
  have h0 := P7_v42 V
  have h1 := P7_v37 V
  have h2 := P7_c_10 V
  show after ops8 (P7 V) _ = _
  generalize P7 V = W at h0 h1 h2 ⊢
  after_results_simp
  try after_results_rw
  try simp only [TRef.toBuf, TRef.ofBuf, cast_eq]
  rw [h0, h1, h2]
  all_goals rfl

theorem P9_v29 (V : Valuation τ sig (Elt F)) : P9 V (Proc.devRef .tc main_v29) = (Cert.KernelIdeal.Tl.perm (flatR (V (Proc.devRef .tc main_arg0)))) :=
  (keep9 (r := main_v29) (by decide) (P8 V)).trans (P8_v29 V)
theorem P9_v36 (V : Valuation τ sig (Elt F)) : P9 V (Proc.devRef .tc main_v36) = (Cert.KernelIdeal.Tl.sf (flatR (V (Proc.devRef .tc main_arg0)))) :=
  (keep9 (r := main_v36) (by decide) (P8 V)).trans (P8_v36 V)
theorem P9_v37 (V : Valuation τ sig (Elt F)) : P9 V (Proc.devRef .tc main_v37) = (Cert.KernelIdeal.Tl.pos) :=
  (keep9 (r := main_v37) (by decide) (P8 V)).trans (P8_v37 V)
theorem P9_v42 (V : Valuation τ sig (Elt F)) : P9 V (Proc.devRef .tc main_v42) = (Cert.KernelIdeal.Tl.new (flatR (V (Proc.devRef .tc main_arg0)))) :=
  (keep9 (r := main_v42) (by decide) (P8 V)).trans (P8_v42 V)
theorem P9_v45 (V : Valuation τ sig (Elt F)) : P9 V (Proc.devRef .tc main_v45) = (Cert.KernelIdeal.Tl.seg (flatR (V (Proc.devRef .tc main_arg0)))) :=
  (keep9 (r := main_v45) (by decide) (P8 V)).trans (P8_v45 V)
theorem P9_v47 (V : Valuation τ sig (Elt F)) : P9 V (Proc.devRef .tc main_v47) = (Cert.KernelIdeal.Tl.start (flatR (V (Proc.devRef .tc main_arg0)))) := by
  have h0 := P8_v46 V
  show after ops9 (P8 V) _ = _
  generalize P8 V = W at h0 ⊢
  after_results_simp
  try after_results_rw
  try simp only [TRef.toBuf, TRef.ofBuf, cast_eq]
  rw [h0]
  all_goals rfl

theorem P10_v29 (V : Valuation τ sig (Elt F)) : P10 V (Proc.devRef .tc main_v29) = (Cert.KernelIdeal.Tl.perm (flatR (V (Proc.devRef .tc main_arg0)))) :=
  (keep10 (r := main_v29) (by decide) (P9 V)).trans (P9_v29 V)
theorem P10_v37 (V : Valuation τ sig (Elt F)) : P10 V (Proc.devRef .tc main_v37) = (Cert.KernelIdeal.Tl.pos) :=
  (keep10 (r := main_v37) (by decide) (P9 V)).trans (P9_v37 V)
theorem P10_v42 (V : Valuation τ sig (Elt F)) : P10 V (Proc.devRef .tc main_v42) = (Cert.KernelIdeal.Tl.new (flatR (V (Proc.devRef .tc main_arg0)))) :=
  (keep10 (r := main_v42) (by decide) (P9 V)).trans (P9_v42 V)
theorem P10_v45 (V : Valuation τ sig (Elt F)) : P10 V (Proc.devRef .tc main_v45) = (Cert.KernelIdeal.Tl.seg (flatR (V (Proc.devRef .tc main_arg0)))) :=
  (keep10 (r := main_v45) (by decide) (P9 V)).trans (P9_v45 V)
theorem P10_v48 (V : Valuation τ sig (Elt F)) : P10 V (Proc.devRef .tc main_v48) = (Cert.KernelIdeal.Tl.rank (flatR (V (Proc.devRef .tc main_arg0)))) := by
  have h0 := P9_v37 V
  have h1 := P9_v47 V
  show after ops10 (P9 V) _ = _
  generalize P9 V = W at h0 h1 ⊢
  after_results_simp
  try after_results_rw
  try simp only [TRef.toBuf, TRef.ofBuf, cast_eq]
  rw [h0, h1]
  all_goals rfl
theorem P10_v50 (V : Valuation τ sig (Elt F)) : P10 V (Proc.devRef .tc main_v50) = (Cert.KernelIdeal.Tl.segValid (flatR (V (Proc.devRef .tc main_arg0)))) := by
  have h0 := P9_v36 V
  show after ops10 (P9 V) _ = _
  generalize P9 V = W at h0 ⊢
  after_results_simp
  try after_results_rw
  try simp only [TRef.toBuf, TRef.ofBuf, cast_eq]
  rw [h0]
  all_goals rfl
theorem P10_v51 (V : Valuation τ sig (Elt F)) : P10 V (Proc.devRef .tc main_v51) = (((broadcastInDim S4000000 ![] bcast_S_S4000000 : (⟨S_, .i32⟩ : BufTy).Contents (Elt F) → (⟨S4000000, .i32⟩ : BufTy).Contents (Elt F)) ((constantI S_ 32 4000000#32) : (⟨S_, .i32⟩ : BufTy).Contents (Elt F))) : (⟨S4000000, .i32⟩ : BufTy).Contents (Elt F)) := by
  show after ops10 (P9 V) _ = _
  generalize P9 V = W
  after_results_simp
  try after_results_rw
  try simp only [TRef.toBuf, TRef.ofBuf, cast_eq]
  all_goals rfl
theorem P10_c_13 (V : Valuation τ sig (Elt F)) : P10 V (Proc.devRef .tc main_c_13) = ((constantI S_ 32 4000000#32) : (⟨S_, .i32⟩ : BufTy).Contents (Elt F)) := by
  show after ops10 (P9 V) _ = _
  generalize P9 V = W
  after_results_simp
  try after_results_rw
  try simp only [TRef.toBuf, TRef.ofBuf, cast_eq]
  all_goals rfl

theorem P11_v29 (V : Valuation τ sig (Elt F)) : P11 V (Proc.devRef .tc main_v29) = (Cert.KernelIdeal.Tl.perm (flatR (V (Proc.devRef .tc main_arg0)))) :=
  (keep11 (r := main_v29) (by decide) (P10 V)).trans (P10_v29 V)
theorem P11_v37 (V : Valuation τ sig (Elt F)) : P11 V (Proc.devRef .tc main_v37) = (Cert.KernelIdeal.Tl.pos) :=
  (keep11 (r := main_v37) (by decide) (P10 V)).trans (P10_v37 V)
theorem P11_v42 (V : Valuation τ sig (Elt F)) : P11 V (Proc.devRef .tc main_v42) = (Cert.KernelIdeal.Tl.new (flatR (V (Proc.devRef .tc main_arg0)))) :=
  (keep11 (r := main_v42) (by decide) (P10 V)).trans (P10_v42 V)
theorem P11_v45 (V : Valuation τ sig (Elt F)) : P11 V (Proc.devRef .tc main_v45) = (Cert.KernelIdeal.Tl.seg (flatR (V (Proc.devRef .tc main_arg0)))) :=
  (keep11 (r := main_v45) (by decide) (P10 V)).trans (P10_v45 V)
theorem P11_v48 (V : Valuation τ sig (Elt F)) : P11 V (Proc.devRef .tc main_v48) = (Cert.KernelIdeal.Tl.rank (flatR (V (Proc.devRef .tc main_arg0)))) :=
  (keep11 (r := main_v48) (by decide) (P10 V)).trans (P10_v48 V)
theorem P11_v50 (V : Valuation τ sig (Elt F)) : P11 V (Proc.devRef .tc main_v50) = (Cert.KernelIdeal.Tl.segValid (flatR (V (Proc.devRef .tc main_arg0)))) :=
  (keep11 (r := main_v50) (by decide) (P10 V)).trans (P10_v50 V)
theorem P11_v51 (V : Valuation τ sig (Elt F)) : P11 V (Proc.devRef .tc main_v51) = (((broadcastInDim S4000000 ![] bcast_S_S4000000 : (⟨S_, .i32⟩ : BufTy).Contents (Elt F) → (⟨S4000000, .i32⟩ : BufTy).Contents (Elt F)) ((constantI S_ 32 4000000#32) : (⟨S_, .i32⟩ : BufTy).Contents (Elt F))) : (⟨S4000000, .i32⟩ : BufTy).Contents (Elt F)) :=
  (keep11 (r := main_v51) (by decide) (P10 V)).trans (P10_v51 V)
theorem P11_v52 (V : Valuation τ sig (Elt F)) : P11 V (Proc.devRef .tc main_v52) = ((select (Cert.KernelIdeal.Tl.segValid (flatR (V (Proc.devRef .tc main_arg0)))) (Cert.KernelIdeal.Tl.perm (flatR (V (Proc.devRef .tc main_arg0)))) (((broadcastInDim S4000000 ![] bcast_S_S4000000) ((id ((constantI S_ 32 4000000#32) : (⟨S_, .i32⟩ : BufTy).Contents (Elt F))) : (⟨S_, .i32⟩ : BufTy).Contents (Elt F))) : (⟨S4000000, .i32⟩ : BufTy).Contents (Elt F))) : (⟨S4000000, .i32⟩ : BufTy).Contents (Elt F)) := by
  have h0 := P10_v50 V
  have h1 := P10_v29 V
  have h2 := P10_c_13 V
  show after ops11 (P10 V) _ = _
  generalize P10 V = W at h0 h1 h2 ⊢
  after_results_simp
  try after_results_rw
  try simp only [TRef.toBuf, TRef.ofBuf, cast_eq]
  rw [h0, h1, h2]
  all_goals rfl

theorem P12_v29 (V : Valuation τ sig (Elt F)) : P12 V (Proc.devRef .tc main_v29) = (Cert.KernelIdeal.Tl.perm (flatR (V (Proc.devRef .tc main_arg0)))) :=
  (keep12 (r := main_v29) (by decide) (P11 V)).trans (P11_v29 V)
theorem P12_v37 (V : Valuation τ sig (Elt F)) : P12 V (Proc.devRef .tc main_v37) = (Cert.KernelIdeal.Tl.pos) :=
  (keep12 (r := main_v37) (by decide) (P11 V)).trans (P11_v37 V)
theorem P12_v42 (V : Valuation τ sig (Elt F)) : P12 V (Proc.devRef .tc main_v42) = (Cert.KernelIdeal.Tl.new (flatR (V (Proc.devRef .tc main_arg0)))) :=
  (keep12 (r := main_v42) (by decide) (P11 V)).trans (P11_v42 V)
theorem P12_v45 (V : Valuation τ sig (Elt F)) : P12 V (Proc.devRef .tc main_v45) = (Cert.KernelIdeal.Tl.seg (flatR (V (Proc.devRef .tc main_arg0)))) :=
  (keep12 (r := main_v45) (by decide) (P11 V)).trans (P11_v45 V)
theorem P12_v48 (V : Valuation τ sig (Elt F)) : P12 V (Proc.devRef .tc main_v48) = (Cert.KernelIdeal.Tl.rank (flatR (V (Proc.devRef .tc main_arg0)))) :=
  (keep12 (r := main_v48) (by decide) (P11 V)).trans (P11_v48 V)
theorem P12_v50 (V : Valuation τ sig (Elt F)) : P12 V (Proc.devRef .tc main_v50) = (Cert.KernelIdeal.Tl.segValid (flatR (V (Proc.devRef .tc main_arg0)))) :=
  (keep12 (r := main_v50) (by decide) (P11 V)).trans (P11_v50 V)
theorem P12_v59 (V : Valuation τ sig (Elt F)) : P12 V (Proc.devRef .tc main_v59) = (Cert.KernelIdeal.Tl.segFirst (flatR (V (Proc.devRef .tc main_arg0)))) := by
  have h0 := P11_v51 V
  have h1 := P11_v45 V
  have h2 := P11_v52 V
  show after ops12 (P11 V) _ = _
  generalize P11 V = W at h0 h1 h2 ⊢
  after_results_simp
  try after_results_rw
  try simp only [TRef.toBuf, TRef.ofBuf, cast_eq]
  rw [h0, h1, h2]
  all_goals rfl

theorem P13_v29 (V : Valuation τ sig (Elt F)) : P13 V (Proc.devRef .tc main_v29) = (Cert.KernelIdeal.Tl.perm (flatR (V (Proc.devRef .tc main_arg0)))) :=
  (keep13 (r := main_v29) (by decide) (P12 V)).trans (P12_v29 V)
theorem P13_v37 (V : Valuation τ sig (Elt F)) : P13 V (Proc.devRef .tc main_v37) = (Cert.KernelIdeal.Tl.pos) :=
  (keep13 (r := main_v37) (by decide) (P12 V)).trans (P12_v37 V)
theorem P13_v42 (V : Valuation τ sig (Elt F)) : P13 V (Proc.devRef .tc main_v42) = (Cert.KernelIdeal.Tl.new (flatR (V (Proc.devRef .tc main_arg0)))) :=
  (keep13 (r := main_v42) (by decide) (P12 V)).trans (P12_v42 V)
theorem P13_v45 (V : Valuation τ sig (Elt F)) : P13 V (Proc.devRef .tc main_v45) = (Cert.KernelIdeal.Tl.seg (flatR (V (Proc.devRef .tc main_arg0)))) :=
  (keep13 (r := main_v45) (by decide) (P12 V)).trans (P12_v45 V)
theorem P13_v48 (V : Valuation τ sig (Elt F)) : P13 V (Proc.devRef .tc main_v48) = (Cert.KernelIdeal.Tl.rank (flatR (V (Proc.devRef .tc main_arg0)))) :=
  (keep13 (r := main_v48) (by decide) (P12 V)).trans (P12_v48 V)
theorem P13_v50 (V : Valuation τ sig (Elt F)) : P13 V (Proc.devRef .tc main_v50) = (Cert.KernelIdeal.Tl.segValid (flatR (V (Proc.devRef .tc main_arg0)))) :=
  (keep13 (r := main_v50) (by decide) (P12 V)).trans (P12_v50 V)
theorem P13_v60 (V : Valuation τ sig (Elt F)) : P13 V (Proc.devRef .tc main_v60) = (Cert.KernelIdeal.Tl.order (flatR (V (Proc.devRef .tc main_arg0)))) := by
  have h0 := P12_v59 V
  have e : (ops13 : List (HloOp τ sig (Elt F))) = [ StableHlo.nullary main_call6_v0 ((iotaInDim S4000000 32 0) : (⟨S4000000, .i32⟩ : BufTy).Contents (Elt F)),
    StableHlo.binary main_v59 main_call6_v0 main_call6_v1_0 ((fun x y => (Host.sort2 S4000000 0 comparator_i32_i32_d0 x y).1) : (⟨S4000000, .i32⟩ : BufTy).Contents (Elt F) → (⟨S4000000, .i32⟩ : BufTy).Contents (Elt F) → (⟨S4000000, .i32⟩ : BufTy).Contents (Elt F)),
    StableHlo.binary main_v59 main_call6_v0 main_v60 ((fun x y => (Host.sort2 S4000000 0 comparator_i32_i32_d0 x y).2) : (⟨S4000000, .i32⟩ : BufTy).Contents (Elt F) → (⟨S4000000, .i32⟩ : BufTy).Contents (Elt F) → (⟨S4000000, .i32⟩ : BufTy).Contents (Elt F)) ] := rfl
  show after ops13 (P12 V) _ = _
  rw [e]
  generalize P12 V = W at h0 ⊢
  after_results_simp
  rw [h0]
  rfl

theorem P14_v29 (V : Valuation τ sig (Elt F)) : P14 V (Proc.devRef .tc main_v29) = (Cert.KernelIdeal.Tl.perm (flatR (V (Proc.devRef .tc main_arg0)))) :=
  (keep14 (r := main_v29) (by decide) (P13 V)).trans (P13_v29 V)
theorem P14_v42 (V : Valuation τ sig (Elt F)) : P14 V (Proc.devRef .tc main_v42) = (Cert.KernelIdeal.Tl.new (flatR (V (Proc.devRef .tc main_arg0)))) :=
  (keep14 (r := main_v42) (by decide) (P13 V)).trans (P13_v42 V)
theorem P14_v45 (V : Valuation τ sig (Elt F)) : P14 V (Proc.devRef .tc main_v45) = (Cert.KernelIdeal.Tl.seg (flatR (V (Proc.devRef .tc main_arg0)))) :=
  (keep14 (r := main_v45) (by decide) (P13 V)).trans (P13_v45 V)
theorem P14_v48 (V : Valuation τ sig (Elt F)) : P14 V (Proc.devRef .tc main_v48) = (Cert.KernelIdeal.Tl.rank (flatR (V (Proc.devRef .tc main_arg0)))) :=
  (keep14 (r := main_v48) (by decide) (P13 V)).trans (P13_v48 V)
theorem P14_v50 (V : Valuation τ sig (Elt F)) : P14 V (Proc.devRef .tc main_v50) = (Cert.KernelIdeal.Tl.segValid (flatR (V (Proc.devRef .tc main_arg0)))) :=
  (keep14 (r := main_v50) (by decide) (P13 V)).trans (P13_v50 V)
theorem P14_v68 (V : Valuation τ sig (Elt F)) : P14 V (Proc.devRef .tc main_v68) = (Cert.KernelIdeal.Tl.slotOfSeg (flatR (V (Proc.devRef .tc main_arg0)))) := by
  have h0 := P13_v60 V
  have h1 := P13_v37 V
  show after ops14 (P13 V) _ = _
  generalize P13 V = W at h0 h1 ⊢
  after_results_simp
  try after_results_rw
  try simp only [TRef.toBuf, TRef.ofBuf, cast_eq]
  rw [h0, h1]
  all_goals rfl
theorem P14_v70 (V : Valuation τ sig (Elt F)) : P14 V (Proc.devRef .tc main_v70) = (((cmpi .slt : (⟨S4000000, .i32⟩ : BufTy).Contents (Elt F) → (⟨S4000000, .i32⟩ : BufTy).Contents (Elt F) → (⟨S4000000, .i1⟩ : BufTy).Contents (Elt F)) (Cert.KernelIdeal.Tl.seg (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 0#32) : (⟨S_, .i32⟩ : BufTy).Contents (Elt F))) : (⟨S4000000, .i32⟩ : BufTy).Contents (Elt F))) : (⟨S4000000, .i1⟩ : BufTy).Contents (Elt F)) := by
  have h0 := P13_v45 V
  show after ops14 (P13 V) _ = _
  generalize P13 V = W at h0 ⊢
  after_results_simp
  try after_results_rw
  try simp only [TRef.toBuf, TRef.ofBuf, cast_eq]
  rw [h0]
  all_goals rfl
theorem P14_v71 (V : Valuation τ sig (Elt F)) : P14 V (Proc.devRef .tc main_v71) = (((broadcastInDim S4000000 ![] bcast_S_S4000000 : (⟨S_, .i32⟩ : BufTy).Contents (Elt F) → (⟨S4000000, .i32⟩ : BufTy).Contents (Elt F)) ((constantI S_ 32 4000000#32) : (⟨S_, .i32⟩ : BufTy).Contents (Elt F))) : (⟨S4000000, .i32⟩ : BufTy).Contents (Elt F)) := by
  show after ops14 (P13 V) _ = _
  generalize P13 V = W
  after_results_simp
  try after_results_rw
  try simp only [TRef.toBuf, TRef.ofBuf, cast_eq]
  all_goals rfl

theorem P15_v29 (V : Valuation τ sig (Elt F)) : P15 V (Proc.devRef .tc main_v29) = (Cert.KernelIdeal.Tl.perm (flatR (V (Proc.devRef .tc main_arg0)))) :=
  (keep15 (r := main_v29) (by decide) (P14 V)).trans (P14_v29 V)
theorem P15_v42 (V : Valuation τ sig (Elt F)) : P15 V (Proc.devRef .tc main_v42) = (Cert.KernelIdeal.Tl.new (flatR (V (Proc.devRef .tc main_arg0)))) :=
  (keep15 (r := main_v42) (by decide) (P14 V)).trans (P14_v42 V)
theorem P15_v48 (V : Valuation τ sig (Elt F)) : P15 V (Proc.devRef .tc main_v48) = (Cert.KernelIdeal.Tl.rank (flatR (V (Proc.devRef .tc main_arg0)))) :=
  (keep15 (r := main_v48) (by decide) (P14 V)).trans (P14_v48 V)
theorem P15_v50 (V : Valuation τ sig (Elt F)) : P15 V (Proc.devRef .tc main_v50) = (Cert.KernelIdeal.Tl.segValid (flatR (V (Proc.devRef .tc main_arg0)))) :=
  (keep15 (r := main_v50) (by decide) (P14 V)).trans (P14_v50 V)
theorem P15_v75 (V : Valuation τ sig (Elt F)) : P15 V (Proc.devRef .tc main_v75) = (Cert.KernelIdeal.Tl.slot (flatR (V (Proc.devRef .tc main_arg0)))) := by
  have h0 := P14_v68 V
  have h1 := P14_v70 V
  have h2 := P14_v45 V
  have h3 := P14_v71 V
  show after ops15 (P14 V) _ = _
  generalize P14 V = W at h0 h1 h2 h3 ⊢
  after_results_simp
  try after_results_rw
  try simp only [TRef.toBuf, TRef.ofBuf, cast_eq]
  rw [h0, h1, h2, h3]
  all_goals rfl
theorem P15_v81 (V : Valuation τ sig (Elt F)) : P15 V (Proc.devRef .tc main_v81) = (Cert.KernelIdeal.Tl.keep (flatR (V (Proc.devRef .tc main_arg0)))) := by
  have h0 := P14_v50 V
  have h1 := P14_v68 V
  have h2 := P14_v70 V
  have h3 := P14_v45 V
  have h4 := P14_v71 V
  have h5 := P14_v48 V
  show after ops15 (P14 V) _ = _
  generalize P14 V = W at h0 h1 h2 h3 h4 h5 ⊢
  after_results_simp
  try after_results_rw
  try simp only [TRef.toBuf, TRef.ofBuf, cast_eq]
  rw [h0, h1, h2, h3, h4, h5]
  all_goals rfl
theorem P15_c_23 (V : Valuation τ sig (Elt F)) : P15 V (Proc.devRef .tc main_c_23) = ((constantI S_ 32 20000#32) : (⟨S_, .i32⟩ : BufTy).Contents (Elt F)) := by
  show after ops15 (P14 V) _ = _
  generalize P14 V = W
  after_results_simp
  try after_results_rw
  try simp only [TRef.toBuf, TRef.ofBuf, cast_eq]
  all_goals rfl

theorem P16_v29 (V : Valuation τ sig (Elt F)) : P16 V (Proc.devRef .tc main_v29) = (Cert.KernelIdeal.Tl.perm (flatR (V (Proc.devRef .tc main_arg0)))) :=
  (keep16 (r := main_v29) (by decide) (P15 V)).trans (P15_v29 V)
theorem P16_v42 (V : Valuation τ sig (Elt F)) : P16 V (Proc.devRef .tc main_v42) = (Cert.KernelIdeal.Tl.new (flatR (V (Proc.devRef .tc main_arg0)))) :=
  (keep16 (r := main_v42) (by decide) (P15 V)).trans (P15_v42 V)
theorem P16_v48 (V : Valuation τ sig (Elt F)) : P16 V (Proc.devRef .tc main_v48) = (Cert.KernelIdeal.Tl.rank (flatR (V (Proc.devRef .tc main_arg0)))) :=
  (keep16 (r := main_v48) (by decide) (P15 V)).trans (P15_v48 V)
theorem P16_v50 (V : Valuation τ sig (Elt F)) : P16 V (Proc.devRef .tc main_v50) = (Cert.KernelIdeal.Tl.segValid (flatR (V (Proc.devRef .tc main_arg0)))) :=
  (keep16 (r := main_v50) (by decide) (P15 V)).trans (P15_v50 V)
theorem P16_v81 (V : Valuation τ sig (Elt F)) : P16 V (Proc.devRef .tc main_v81) = (Cert.KernelIdeal.Tl.keep (flatR (V (Proc.devRef .tc main_arg0)))) :=
  (keep16 (r := main_v81) (by decide) (P15 V)).trans (P15_v81 V)
theorem P16_v82 (V : Valuation τ sig (Elt F)) : P16 V (Proc.devRef .tc main_v82) = (Cert.KernelIdeal.Tl.s (flatR (V (Proc.devRef .tc main_arg0)))) := by
  have h0 := P15_v81 V
  have h1 := P15_v75 V
  have h2 := P15_c_23 V
  show after ops16 (P15 V) _ = _
  generalize P15 V = W at h0 h1 h2 ⊢
  after_results_simp
  try after_results_rw
  try simp only [TRef.toBuf, TRef.ofBuf, cast_eq]
  rw [h0, h1, h2]
  all_goals rfl

theorem P17_v29 (V : Valuation τ sig (Elt F)) : P17 V (Proc.devRef .tc main_v29) = (Cert.KernelIdeal.Tl.perm (flatR (V (Proc.devRef .tc main_arg0)))) :=
  (keep17 (r := main_v29) (by decide) (P16 V)).trans (P16_v29 V)
theorem P17_v42 (V : Valuation τ sig (Elt F)) : P17 V (Proc.devRef .tc main_v42) = (Cert.KernelIdeal.Tl.new (flatR (V (Proc.devRef .tc main_arg0)))) :=
  (keep17 (r := main_v42) (by decide) (P16 V)).trans (P16_v42 V)
theorem P17_v48 (V : Valuation τ sig (Elt F)) : P17 V (Proc.devRef .tc main_v48) = (Cert.KernelIdeal.Tl.rank (flatR (V (Proc.devRef .tc main_arg0)))) :=
  (keep17 (r := main_v48) (by decide) (P16 V)).trans (P16_v48 V)
theorem P17_v50 (V : Valuation τ sig (Elt F)) : P17 V (Proc.devRef .tc main_v50) = (Cert.KernelIdeal.Tl.segValid (flatR (V (Proc.devRef .tc main_arg0)))) :=
  (keep17 (r := main_v50) (by decide) (P16 V)).trans (P16_v50 V)
theorem P17_v81 (V : Valuation τ sig (Elt F)) : P17 V (Proc.devRef .tc main_v81) = (Cert.KernelIdeal.Tl.keep (flatR (V (Proc.devRef .tc main_arg0)))) :=
  (keep17 (r := main_v81) (by decide) (P16 V)).trans (P16_v81 V)
theorem P17_v82 (V : Valuation τ sig (Elt F)) : P17 V (Proc.devRef .tc main_v82) = (Cert.KernelIdeal.Tl.s (flatR (V (Proc.devRef .tc main_arg0)))) :=
  (keep17 (r := main_v82) (by decide) (P16 V)).trans (P16_v82 V)
theorem P17_c_24 (V : Valuation τ sig (Elt F)) : P17 V (Proc.devRef .tc main_c_24) = ((constantI S_ 32 0#32) : (⟨S_, .i32⟩ : BufTy).Contents (Elt F)) := by
  show after ops17 (P16 V) _ = _
  generalize P16 V = W
  after_results_simp
  try after_results_rw
  try simp only [TRef.toBuf, TRef.ofBuf, cast_eq]
  all_goals rfl

theorem P18_v29 (V : Valuation τ sig (Elt F)) : P18 V (Proc.devRef .tc main_v29) = (Cert.KernelIdeal.Tl.perm (flatR (V (Proc.devRef .tc main_arg0)))) :=
  (keep18 (r := main_v29) (by decide) (P17 V)).trans (P17_v29 V)
theorem P18_v42 (V : Valuation τ sig (Elt F)) : P18 V (Proc.devRef .tc main_v42) = (Cert.KernelIdeal.Tl.new (flatR (V (Proc.devRef .tc main_arg0)))) :=
  (keep18 (r := main_v42) (by decide) (P17 V)).trans (P17_v42 V)
theorem P18_v50 (V : Valuation τ sig (Elt F)) : P18 V (Proc.devRef .tc main_v50) = (Cert.KernelIdeal.Tl.segValid (flatR (V (Proc.devRef .tc main_arg0)))) :=
  (keep18 (r := main_v50) (by decide) (P17 V)).trans (P17_v50 V)
theorem P18_v81 (V : Valuation τ sig (Elt F)) : P18 V (Proc.devRef .tc main_v81) = (Cert.KernelIdeal.Tl.keep (flatR (V (Proc.devRef .tc main_arg0)))) :=
  (keep18 (r := main_v81) (by decide) (P17 V)).trans (P17_v81 V)
theorem P18_v82 (V : Valuation τ sig (Elt F)) : P18 V (Proc.devRef .tc main_v82) = (Cert.KernelIdeal.Tl.s (flatR (V (Proc.devRef .tc main_arg0)))) :=
  (keep18 (r := main_v82) (by decide) (P17 V)).trans (P17_v82 V)
theorem P18_v83 (V : Valuation τ sig (Elt F)) : P18 V (Proc.devRef .tc main_v83) = (Cert.KernelIdeal.Tl.r (flatR (V (Proc.devRef .tc main_arg0)))) := by
  have h0 := P17_v81 V
  have h1 := P17_v48 V
  have h2 := P17_c_24 V
  show after ops18 (P17 V) _ = _
  generalize P17 V = W at h0 h1 h2 ⊢
  after_results_simp
  try after_results_rw
  try simp only [TRef.toBuf, TRef.ofBuf, cast_eq]
  rw [h0, h1, h2]
  all_goals rfl

theorem P19_v29 (V : Valuation τ sig (Elt F)) : P19 V (Proc.devRef .tc main_v29) = (Cert.KernelIdeal.Tl.perm (flatR (V (Proc.devRef .tc main_arg0)))) :=
  (keep19 (r := main_v29) (by decide) (P18 V)).trans (P18_v29 V)
theorem P19_v42 (V : Valuation τ sig (Elt F)) : P19 V (Proc.devRef .tc main_v42) = (Cert.KernelIdeal.Tl.new (flatR (V (Proc.devRef .tc main_arg0)))) :=
  (keep19 (r := main_v42) (by decide) (P18 V)).trans (P18_v42 V)
theorem P19_v50 (V : Valuation τ sig (Elt F)) : P19 V (Proc.devRef .tc main_v50) = (Cert.KernelIdeal.Tl.segValid (flatR (V (Proc.devRef .tc main_arg0)))) :=
  (keep19 (r := main_v50) (by decide) (P18 V)).trans (P18_v50 V)
theorem P19_v81 (V : Valuation τ sig (Elt F)) : P19 V (Proc.devRef .tc main_v81) = (Cert.KernelIdeal.Tl.keep (flatR (V (Proc.devRef .tc main_arg0)))) :=
  (keep19 (r := main_v81) (by decide) (P18 V)).trans (P18_v81 V)
theorem P19_v82 (V : Valuation τ sig (Elt F)) : P19 V (Proc.devRef .tc main_v82) = (Cert.KernelIdeal.Tl.s (flatR (V (Proc.devRef .tc main_arg0)))) :=
  (keep19 (r := main_v82) (by decide) (P18 V)).trans (P18_v82 V)
theorem P19_v83 (V : Valuation τ sig (Elt F)) : P19 V (Proc.devRef .tc main_v83) = (Cert.KernelIdeal.Tl.r (flatR (V (Proc.devRef .tc main_arg0)))) :=
  (keep19 (r := main_v83) (by decide) (P18 V)).trans (P18_v83 V)
theorem P19_v84 (V : Valuation τ sig (Elt F)) : P19 V (Proc.devRef .tc main_v84) = (((broadcastInDim S20000x35x4 ![] bcast_S_S20000x35x4 : (⟨S_, .f32⟩ : BufTy).Contents (Elt F) → (⟨S20000x35x4, .f32⟩ : BufTy).Contents (Elt F)) ((constant S_ .f32 0x00000000#32) : (⟨S_, .f32⟩ : BufTy).Contents (Elt F))) : (⟨S20000x35x4, .f32⟩ : BufTy).Contents (Elt F)) := by
  show after ops19 (P18 V) _ = _
  generalize P18 V = W
  after_results_simp
  try after_results_rw
  try simp only [TRef.toBuf, TRef.ofBuf, cast_eq]
  all_goals rfl
theorem P19_v89 (V : Valuation τ sig (Elt F)) : P19 V (Proc.devRef .tc main_v89) = (((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (((cmpi .slt : (⟨S4000000, .i32⟩ : BufTy).Contents (Elt F) → (⟨S4000000, .i32⟩ : BufTy).Contents (Elt F) → (⟨S4000000, .i1⟩ : BufTy).Contents (Elt F)) (Cert.KernelIdeal.Tl.perm (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 0#32) : (⟨S_, .i32⟩ : BufTy).Contents (Elt F))) : (⟨S4000000, .i32⟩ : BufTy).Contents (Elt F))) : (⟨S4000000, .i1⟩ : BufTy).Contents (Elt F)) (((addi : (⟨S4000000, .i32⟩ : BufTy).Contents (Elt F) → (⟨S4000000, .i32⟩ : BufTy).Contents (Elt F) → (⟨S4000000, .i32⟩ : BufTy).Contents (Elt F)) (Cert.KernelIdeal.Tl.perm (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 4000000#32) : (⟨S_, .i32⟩ : BufTy).Contents (Elt F))) : (⟨S4000000, .i32⟩ : BufTy).Contents (Elt F))) : (⟨S4000000, .i32⟩ : BufTy).Contents (Elt F)) (Cert.KernelIdeal.Tl.perm (flatR (V (Proc.devRef .tc main_arg0))))) : (⟨S4000000, .i32⟩ : BufTy).Contents (Elt F)) := by
  have h0 := P18_v29 V
  show after ops19 (P18 V) _ = _
  generalize P18 V = W at h0 ⊢
  after_results_simp
  try after_results_rw
  try simp only [TRef.toBuf, TRef.ofBuf, cast_eq]
  rw [h0]
  all_goals rfl

theorem P20_v29 (V : Valuation τ sig (Elt F)) : P20 V (Proc.devRef .tc main_v29) = (Cert.KernelIdeal.Tl.perm (flatR (V (Proc.devRef .tc main_arg0)))) :=
  (keep20 (r := main_v29) (by decide) (P19 V)).trans (P19_v29 V)
theorem P20_v42 (V : Valuation τ sig (Elt F)) : P20 V (Proc.devRef .tc main_v42) = (Cert.KernelIdeal.Tl.new (flatR (V (Proc.devRef .tc main_arg0)))) :=
  (keep20 (r := main_v42) (by decide) (P19 V)).trans (P19_v42 V)
theorem P20_v50 (V : Valuation τ sig (Elt F)) : P20 V (Proc.devRef .tc main_v50) = (Cert.KernelIdeal.Tl.segValid (flatR (V (Proc.devRef .tc main_arg0)))) :=
  (keep20 (r := main_v50) (by decide) (P19 V)).trans (P19_v50 V)
theorem P20_v81 (V : Valuation τ sig (Elt F)) : P20 V (Proc.devRef .tc main_v81) = (Cert.KernelIdeal.Tl.keep (flatR (V (Proc.devRef .tc main_arg0)))) :=
  (keep20 (r := main_v81) (by decide) (P19 V)).trans (P19_v81 V)
theorem P20_v82 (V : Valuation τ sig (Elt F)) : P20 V (Proc.devRef .tc main_v82) = (Cert.KernelIdeal.Tl.s (flatR (V (Proc.devRef .tc main_arg0)))) :=
  (keep20 (r := main_v82) (by decide) (P19 V)).trans (P19_v82 V)
theorem P20_v84 (V : Valuation τ sig (Elt F)) : P20 V (Proc.devRef .tc main_v84) = (((broadcastInDim S20000x35x4 ![] bcast_S_S20000x35x4 : (⟨S_, .f32⟩ : BufTy).Contents (Elt F) → (⟨S20000x35x4, .f32⟩ : BufTy).Contents (Elt F)) ((constant S_ .f32 0x00000000#32) : (⟨S_, .f32⟩ : BufTy).Contents (Elt F))) : (⟨S20000x35x4, .f32⟩ : BufTy).Contents (Elt F)) :=
  (keep20 (r := main_v84) (by decide) (P19 V)).trans (P19_v84 V)
theorem P20_v91 (V : Valuation τ sig (Elt F)) : P20 V (Proc.devRef .tc main_v91) = (Cert.KernelIdeal.Tl.pointsPerm (flatR (V (Proc.devRef .tc main_arg0))) (V (Proc.devRef .tc main_arg0))) := by
  have h0 := P19_arg0 V
  have h1 := P19_v89 V
  show after ops20 (P19 V) _ = _
  generalize P19 V = W at h0 h1 ⊢
  after_results_simp
  try after_results_rw
  try simp only [TRef.toBuf, TRef.ofBuf, cast_eq]
  rw [h0, h1]
  all_goals rfl
theorem P20_v96 (V : Valuation τ sig (Elt F)) : P20 V (Proc.devRef .tc main_v96) = (((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (((cmpi .slt : (⟨S4000000, .i32⟩ : BufTy).Contents (Elt F) → (⟨S4000000, .i32⟩ : BufTy).Contents (Elt F) → (⟨S4000000, .i1⟩ : BufTy).Contents (Elt F)) (Cert.KernelIdeal.Tl.s (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 0#32) : (⟨S_, .i32⟩ : BufTy).Contents (Elt F))) : (⟨S4000000, .i32⟩ : BufTy).Contents (Elt F))) : (⟨S4000000, .i1⟩ : BufTy).Contents (Elt F)) (((addi : (⟨S4000000, .i32⟩ : BufTy).Contents (Elt F) → (⟨S4000000, .i32⟩ : BufTy).Contents (Elt F) → (⟨S4000000, .i32⟩ : BufTy).Contents (Elt F)) (Cert.KernelIdeal.Tl.s (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 20000#32) : (⟨S_, .i32⟩ : BufTy).Contents (Elt F))) : (⟨S4000000, .i32⟩ : BufTy).Contents (Elt F))) : (⟨S4000000, .i32⟩ : BufTy).Contents (Elt F)) (Cert.KernelIdeal.Tl.s (flatR (V (Proc.devRef .tc main_arg0))))) : (⟨S4000000, .i32⟩ : BufTy).Contents (Elt F)) := by
  have h0 := P19_v82 V
  show after ops20 (P19 V) _ = _
  generalize P19 V = W at h0 ⊢
  after_results_simp
  try after_results_rw
  try simp only [TRef.toBuf, TRef.ofBuf, cast_eq]
  rw [h0]
  all_goals rfl
theorem P20_v101 (V : Valuation τ sig (Elt F)) : P20 V (Proc.devRef .tc main_v101) = (((select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)) (((cmpi .slt : (⟨S4000000, .i32⟩ : BufTy).Contents (Elt F) → (⟨S4000000, .i32⟩ : BufTy).Contents (Elt F) → (⟨S4000000, .i1⟩ : BufTy).Contents (Elt F)) (Cert.KernelIdeal.Tl.r (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 0#32) : (⟨S_, .i32⟩ : BufTy).Contents (Elt F))) : (⟨S4000000, .i32⟩ : BufTy).Contents (Elt F))) : (⟨S4000000, .i1⟩ : BufTy).Contents (Elt F)) (((addi : (⟨S4000000, .i32⟩ : BufTy).Contents (Elt F) → (⟨S4000000, .i32⟩ : BufTy).Contents (Elt F) → (⟨S4000000, .i32⟩ : BufTy).Contents (Elt F)) (Cert.KernelIdeal.Tl.r (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 35#32) : (⟨S_, .i32⟩ : BufTy).Contents (Elt F))) : (⟨S4000000, .i32⟩ : BufTy).Contents (Elt F))) : (⟨S4000000, .i32⟩ : BufTy).Contents (Elt F)) (Cert.KernelIdeal.Tl.r (flatR (V (Proc.devRef .tc main_arg0))))) : (⟨S4000000, .i32⟩ : BufTy).Contents (Elt F)) := by
  have h0 := P19_v83 V
  show after ops20 (P19 V) _ = _
  generalize P19 V = W at h0 ⊢
  after_results_simp
  try after_results_rw
  try simp only [TRef.toBuf, TRef.ofBuf, cast_eq]
  rw [h0]
  all_goals rfl

theorem P21_v29 (V : Valuation τ sig (Elt F)) : P21 V (Proc.devRef .tc main_v29) = (Cert.KernelIdeal.Tl.perm (flatR (V (Proc.devRef .tc main_arg0)))) :=
  (keep21 (r := main_v29) (by decide) (P20 V)).trans (P20_v29 V)
theorem P21_v42 (V : Valuation τ sig (Elt F)) : P21 V (Proc.devRef .tc main_v42) = (Cert.KernelIdeal.Tl.new (flatR (V (Proc.devRef .tc main_arg0)))) :=
  (keep21 (r := main_v42) (by decide) (P20 V)).trans (P20_v42 V)
theorem P21_v50 (V : Valuation τ sig (Elt F)) : P21 V (Proc.devRef .tc main_v50) = (Cert.KernelIdeal.Tl.segValid (flatR (V (Proc.devRef .tc main_arg0)))) :=
  (keep21 (r := main_v50) (by decide) (P20 V)).trans (P20_v50 V)
theorem P21_v82 (V : Valuation τ sig (Elt F)) : P21 V (Proc.devRef .tc main_v82) = (Cert.KernelIdeal.Tl.s (flatR (V (Proc.devRef .tc main_arg0)))) :=
  (keep21 (r := main_v82) (by decide) (P20 V)).trans (P20_v82 V)
theorem P21_v105 (V : Valuation τ sig (Elt F)) : P21 V (Proc.devRef .tc main_v105) = (Cert.KernelIdeal.Tl.TV (flatR (V (Proc.devRef .tc main_arg0))) (V (Proc.devRef .tc main_arg0))) := by
  have h0 := P20_v84 V
  have h1 := P20_v96 V
  have h2 := P20_v101 V
  have h3 := P20_v91 V
  show after ops21 (P20 V) _ = _
  generalize P20 V = W at h0 h1 h2 h3 ⊢
  after_results_simp
  try after_results_rw
  try simp only [TRef.toBuf, TRef.ofBuf, cast_eq]
  rw [h0, h1, h2, h3]
  all_goals rfl
theorem P21_v114 (V : Valuation τ sig (Elt F)) : P21 V (Proc.devRef .tc main_v114) = (Cert.KernelIdeal.Tl.TN (flatR (V (Proc.devRef .tc main_arg0)))) := by
  have h0 := P20_v82 V
  have h1 := P20_v81 V
  show after ops21 (P20 V) _ = _
  generalize P20 V = W at h0 h1 ⊢
  after_results_simp
  try after_results_rw
  try simp only [TRef.toBuf, TRef.ofBuf, cast_eq]
  rw [h0, h1]
  all_goals rfl

theorem P22_v42 (V : Valuation τ sig (Elt F)) : P22 V (Proc.devRef .tc main_v42) = (Cert.KernelIdeal.Tl.new (flatR (V (Proc.devRef .tc main_arg0)))) :=
  (keep22 (r := main_v42) (by decide) (P21 V)).trans (P21_v42 V)
theorem P22_v50 (V : Valuation τ sig (Elt F)) : P22 V (Proc.devRef .tc main_v50) = (Cert.KernelIdeal.Tl.segValid (flatR (V (Proc.devRef .tc main_arg0)))) :=
  (keep22 (r := main_v50) (by decide) (P21 V)).trans (P21_v50 V)
theorem P22_v82 (V : Valuation τ sig (Elt F)) : P22 V (Proc.devRef .tc main_v82) = (Cert.KernelIdeal.Tl.s (flatR (V (Proc.devRef .tc main_arg0)))) :=
  (keep22 (r := main_v82) (by decide) (P21 V)).trans (P21_v82 V)
theorem P22_v105 (V : Valuation τ sig (Elt F)) : P22 V (Proc.devRef .tc main_v105) = (Cert.KernelIdeal.Tl.TV (flatR (V (Proc.devRef .tc main_arg0))) (V (Proc.devRef .tc main_arg0))) :=
  (keep22 (r := main_v105) (by decide) (P21 V)).trans (P21_v105 V)
theorem P22_v114 (V : Valuation τ sig (Elt F)) : P22 V (Proc.devRef .tc main_v114) = (Cert.KernelIdeal.Tl.TN (flatR (V (Proc.devRef .tc main_arg0)))) :=
  (keep22 (r := main_v114) (by decide) (P21 V)).trans (P21_v114 V)
theorem P22_v115 (V : Valuation τ sig (Elt F)) : P22 V (Proc.devRef .tc main_v115) = (((broadcastInDim S20000x3 ![] bcast_S_S20000x3 : (⟨S_, .i32⟩ : BufTy).Contents (Elt F) → (⟨S20000x3, .i32⟩ : BufTy).Contents (Elt F)) ((constantI S_ 32 0#32) : (⟨S_, .i32⟩ : BufTy).Contents (Elt F))) : (⟨S20000x3, .i32⟩ : BufTy).Contents (Elt F)) := by
  show after ops22 (P21 V) _ = _
  generalize P21 V = W
  after_results_simp
  try after_results_rw
  try simp only [TRef.toBuf, TRef.ofBuf, cast_eq]
  all_goals rfl
theorem P22_v123 (V : Valuation τ sig (Elt F)) : P22 V (Proc.devRef .tc main_v123) = (UR (V (Proc.devRef .tc main_arg0))) := by
  have h0 := P21_v8 V
  have h1 := P21_v29 V
  show after ops22 (P21 V) _ = _
  generalize P21 V = W at h0 h1 ⊢
  after_results_simp
  try after_results_rw
  try simp only [TRef.toBuf, TRef.ofBuf, cast_eq]
  rw [h0, h1]
  all_goals rfl
theorem P22_v125 (V : Valuation τ sig (Elt F)) : P22 V (Proc.devRef .tc main_v125) = (((cmpi .slt : (⟨S4000000, .i32⟩ : BufTy).Contents (Elt F) → (⟨S4000000, .i32⟩ : BufTy).Contents (Elt F) → (⟨S4000000, .i1⟩ : BufTy).Contents (Elt F)) (Cert.KernelIdeal.Tl.s (flatR (V (Proc.devRef .tc main_arg0)))) (((broadcastInDim S4000000 ![] bcast_S_S4000000 : (⟨S_, .i32⟩ : BufTy).Contents (Elt F) → (⟨S4000000, .i32⟩ : BufTy).Contents (Elt F)) ((constantI S_ 32 0#32) : (⟨S_, .i32⟩ : BufTy).Contents (Elt F))) : (⟨S4000000, .i32⟩ : BufTy).Contents (Elt F))) : (⟨S4000000, .i1⟩ : BufTy).Contents (Elt F)) := by
  have h0 := P21_v82 V
  show after ops22 (P21 V) _ = _
  generalize P21 V = W at h0 ⊢
  after_results_simp
  try after_results_rw
  try simp only [TRef.toBuf, TRef.ofBuf, cast_eq]
  rw [h0]
  all_goals rfl
theorem P22_c_39 (V : Valuation τ sig (Elt F)) : P22 V (Proc.devRef .tc main_c_39) = ((constantI S_ 32 20000#32) : (⟨S_, .i32⟩ : BufTy).Contents (Elt F)) := by
  show after ops22 (P21 V) _ = _
  generalize P21 V = W
  after_results_simp
  try after_results_rw
  try simp only [TRef.toBuf, TRef.ofBuf, cast_eq]
  all_goals rfl

theorem P23_v105 (V : Valuation τ sig (Elt F)) : P23 V (Proc.devRef .tc main_v105) = (Cert.KernelIdeal.Tl.TV (flatR (V (Proc.devRef .tc main_arg0))) (V (Proc.devRef .tc main_arg0))) :=
  (keep23 (r := main_v105) (by decide) (P22 V)).trans (P22_v105 V)
theorem P23_v114 (V : Valuation τ sig (Elt F)) : P23 V (Proc.devRef .tc main_v114) = (Cert.KernelIdeal.Tl.TN (flatR (V (Proc.devRef .tc main_arg0)))) :=
  (keep23 (r := main_v114) (by decide) (P22 V)).trans (P22_v114 V)
theorem P23_v130 (V : Valuation τ sig (Elt F)) : P23 V (Proc.devRef .tc main_v130) = (Cert.KernelIdeal.Tl.TC (flatR (V (Proc.devRef .tc main_arg0))) (UR (V (Proc.devRef .tc main_arg0)))) := by
  have h0 := P22_v115 V
  have h1 := P22_v125 V
  have h2 := P22_v82 V
  have h3 := P22_c_39 V
  have h4 := P22_v123 V
  show after ops23 (P22 V) _ = _
  generalize P22 V = W at h0 h1 h2 h3 h4 ⊢
  after_results_simp
  try after_results_rw
  try simp only [TRef.toBuf, TRef.ofBuf, cast_eq]
  rw [h0, h1, h2, h3, h4]
  all_goals rfl
theorem P23_v134 (V : Valuation τ sig (Elt F)) : P23 V (Proc.devRef .tc main_v134) = (Cert.KernelIdeal.Tl.TM (flatR (V (Proc.devRef .tc main_arg0)))) := by
  have h0 := P22_v42 V
  have h1 := P22_v50 V
  show after ops23 (P22 V) _ = _
  generalize P22 V = W at h0 h1 ⊢
  after_results_simp
  try after_results_rw
  try simp only [TRef.toBuf, TRef.ofBuf, cast_eq]
  rw [h0, h1]
  all_goals rfl

end Cert.ReferenceIdeal.RefVals

end
-- ==== Proof.RefVals.lean ====
/- The reference's buffers after the whole program, as functions of the points array x: the integer coordinates and the
   flat ids, and the four results as the kernel program's tail functions of the reference's own flat ids. -/
import proofs.«163751_j5892695130408_2_alg».proof.Proof.RefTail

noncomputable section

namespace Cert.ReferenceIdeal.RefVals

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- After the program the coordinates' buffer holds the coordinates of the launch's points. -/
theorem val_v8 (m : (ℓ : Loc nD τ sig) → Buf (Elt F) ℓ) (d : Dev nD) :
    after (ops (F := F)) (launchContents m d) (Proc.devRef .tc main_v8) = cR (m ((d.tc : Thread nD τ).loc main_arg0)) := by
  rw [after_ops_eq]; exact P23_v8 _

/-- After the program the flat ids' buffer holds the flat ids of the launch's points. -/
theorem val_v28 (m : (ℓ : Loc nD τ sig) → Buf (Elt F) ℓ) (d : Dev nD) :
    after (ops (F := F)) (launchContents m d) (Proc.devRef .tc main_v28) = flatR (m ((d.tc : Thread nD τ).loc main_arg0)) := by
  rw [after_ops_eq]; exact P23_v28 _

/-- The voxels: the kernel program's voxel function of the reference's flat ids and the points. -/
theorem val_v105 (m : (ℓ : Loc nD τ sig) → Buf (Elt F) ℓ) (d : Dev nD) :
    after (ops (F := F)) (launchContents m d) (Proc.devRef .tc main_v105)
      = Cert.KernelIdeal.Tl.TV (flatR (m ((d.tc : Thread nD τ).loc main_arg0))) (m ((d.tc : Thread nD τ).loc main_arg0)) := by
  rw [after_ops_eq]; exact P23_v105 _

/-- The voxels' coordinates: the kernel program's coordinate function of the reference's flat ids and its sorted, reversed
    coordinate rows. -/
theorem val_v130 (m : (ℓ : Loc nD τ sig) → Buf (Elt F) ℓ) (d : Dev nD) :
    after (ops (F := F)) (launchContents m d) (Proc.devRef .tc main_v130)
      = Cert.KernelIdeal.Tl.TC (flatR (m ((d.tc : Thread nD τ).loc main_arg0))) (UR (m ((d.tc : Thread nD τ).loc main_arg0))) := by
  rw [after_ops_eq]; exact P23_v130 _

/-- The number of points per voxel. -/
theorem val_v114 (m : (ℓ : Loc nD τ sig) → Buf (Elt F) ℓ) (d : Dev nD) :
    after (ops (F := F)) (launchContents m d) (Proc.devRef .tc main_v114)
      = Cert.KernelIdeal.Tl.TN (flatR (m ((d.tc : Thread nD τ).loc main_arg0))) := by
  rw [after_ops_eq]; exact P23_v114 _

/-- The number of voxels. -/
theorem val_v134 (m : (ℓ : Loc nD τ sig) → Buf (Elt F) ℓ) (d : Dev nD) :
    after (ops (F := F)) (launchContents m d) (Proc.devRef .tc main_v134)
      = Cert.KernelIdeal.Tl.TM (flatR (m ((d.tc : Thread nD τ).loc main_arg0))) := by
  rw [after_ops_eq]; exact P23_v134 _

end Cert.ReferenceIdeal.RefVals

end
-- ==== Proof.LibCols.lean ====
/-
  Columns of a table read at an index, for any number of rows N.

  Column k of a table [N, C] taken as a slice [N, 1] and flattened to [N] reads at i the table's entry (i, k); a vector
  [N] laid out as a column [N, 1] reads at (i, 0) the vector's entry i; three columns laid side by side read at (i, d)
  the d-th column's entry (i, 0); a table reversed along its second axis reads at (e, d) the entry (e, C − 1 − d).
-/
import Idealize.ShloMosaic.Lib.Pipeline.Value
import Idealize.ShloMosaic.Lib.ValueIdx

noncomputable section

namespace Cert.LibCols

open Idealize.ShloMosaic Idealize.ShloMosaic.ValueIdx

variable {α : Type}

/-- Column k of [N, C] as a slice [N, 1] flattened to [N], at row i. -/
theorem col_flat_apply {N C : Nat} (x : (⟨2, ![N, C]⟩ : Shape).Idx → α) (k : Fin C) (off : Fin 2 → Nat) (hoff : off = ![0, k.val])
    (h1 : (⟨2, ![N, C]⟩ : Shape).Slices off ⟨2, ![N, 1]⟩) (h2 : (⟨2, ![N, 1]⟩ : Shape).ShapeCasts ⟨1, ![N]⟩) (i : Fin N) :
    shapeCast ⟨1, ![N]⟩ (extractStridedSlice ⟨2, ![N, 1]⟩ off x h1) h2 (ix1 i) = x (ix2 i k) := by
  rw [shapeCast_apply _ h2 (ix1 i) (ix2 i (0 : Fin 1)) (by rw [Shape.rowMajor_val_two, Shape.rowMajor_val_one]; show i.val * 1 + 0 = i.val; omega)]
  refine extractStridedSlice_apply off x h1 (ix2 i (0 : Fin 1)) (ix2 i k) (fun a => ?_)
  subst hoff
  match a with
  | ⟨0, _⟩ => simp
  | ⟨1, _⟩ => simp

/-- A vector [N] laid out as a column [N, 1] (broadcast along the new unit axis), at (i, 0). -/
theorem bcast_col_apply {N : Nat} (v : (⟨1, ![N]⟩ : Shape).Idx → α)
    (h : (⟨1, ![N]⟩ : Shape).BroadcastsInDim ⟨2, ![N, 1]⟩ ![0]) (i : Fin N) :
    broadcastInDim ⟨2, ![N, 1]⟩ ![0] h v (ix2 i (0 : Fin 1)) = v (ix1 i) := by
  refine broadcastInDim_apply ![0] h v (ix2 i (0 : Fin 1)) (ix1 i) (fun a => ?_)
  match a with
  | ⟨0, _⟩ =>
    show i.val = if N = 1 then 0 else i.val
    split
    · have := i.isLt; omega
    · rfl

/-- Three columns [N, 1] side by side, at (i, d): column d at (i, 0). -/
theorem concat3_apply {N : Nat} (v0 v1 v2 : (⟨2, ![N, 1]⟩ : Shape).Idx → α)
    (h : Shape.Concatenates (([⟨⟨2, ![N, 1]⟩, v0⟩, ⟨⟨2, ![N, 1]⟩, v1⟩, ⟨⟨2, ![N, 1]⟩, v2⟩] : List ((s : Shape) × (s.Idx → α))).map (·.1)) ⟨2, ![N, 3]⟩ 1)
    (i : Fin N) (d : Fin 3) :
    concatenate ⟨2, ![N, 3]⟩ 1 [⟨⟨2, ![N, 1]⟩, v0⟩, ⟨⟨2, ![N, 1]⟩, v1⟩, ⟨⟨2, ![N, 1]⟩, v2⟩] h (ix2 i d)
      = (match d with | ⟨0, _⟩ => v0 | ⟨1, _⟩ => v1 | ⟨2, _⟩ => v2) (ix2 i (0 : Fin 1)) := by
  have hb : ∀ (dd : Fin 3) (b : Fin 2), b.cast (rfl : (⟨2, ![N, 1]⟩ : Shape).rank = (⟨2, ![N, 3]⟩ : Shape).rank) ≠ (1 : Fin 2) →
      ((ix2 i (0 : Fin 1) : (⟨2, ![N, 1]⟩ : Shape).Idx) b).val = ((ix2 i dd : (⟨2, ![N, 3]⟩ : Shape).Idx) (b.cast rfl)).val := by
    intro dd b hb
    match b with
    | ⟨0, _⟩ => rfl
    | ⟨1, _⟩ => exact absurd rfl hb
  match d with
  | ⟨0, _⟩ =>
    exact concatenate_apply_piece (1 : Fin 2) [⟨⟨2, ![N, 1]⟩, v0⟩, ⟨⟨2, ![N, 1]⟩, v1⟩, ⟨⟨2, ![N, 1]⟩, v2⟩] h (ix2 i (0 : Fin 3)) 0 (by show (0 : Nat) < 3; decide) ⟨2, ![N, 1]⟩ v0 rfl rfl 0 rfl
      (ix2 i (0 : Fin 1)) (hb 0) rfl
  | ⟨1, _⟩ =>
    exact concatenate_apply_piece (1 : Fin 2) [⟨⟨2, ![N, 1]⟩, v0⟩, ⟨⟨2, ![N, 1]⟩, v1⟩, ⟨⟨2, ![N, 1]⟩, v2⟩] h (ix2 i (1 : Fin 3)) 1 (by show (1 : Nat) < 3; decide) ⟨2, ![N, 1]⟩ v1 rfl rfl 1 rfl
      (ix2 i (0 : Fin 1)) (hb 1) rfl
  | ⟨2, _⟩ =>
    exact concatenate_apply_piece (1 : Fin 2) [⟨⟨2, ![N, 1]⟩, v0⟩, ⟨⟨2, ![N, 1]⟩, v1⟩, ⟨⟨2, ![N, 1]⟩, v2⟩] h (ix2 i (2 : Fin 3)) 2 (by show (2 : Nat) < 3; decide) ⟨2, ![N, 1]⟩ v2 rfl rfl 2 rfl
      (ix2 i (0 : Fin 1)) (hb 2) rfl

/-- A table reversed along its second axis, at (e, d): the entry (e, C − 1 − d). -/
theorem reverse1_apply {E C : Nat} (Y : (⟨2, ![E, C]⟩ : Shape).Idx → α) (e : Fin E) (d : Fin C) :
    Host.reverse [(1 : Fin 2)] Y (ix2 e d) = Y (ix2 e d.rev) := by
  unfold Host.reverse
  refine congrArg Y (funext fun a => ?_)
  match a with
  | ⟨0, _⟩ => simp
  | ⟨1, _⟩ => simp; rfl

end Cert.LibCols

end
-- ==== Proof.RefIdx.lean ====
/-
  The head of the reference read at an index, at the exact reals. Column k of the reference's integer coordinates at
  point i is ⌊(p − lo_k)/size_k⌋ of the point's k-th float, converted to a signed 32-bit integer: the host's floor and
  quotient are the kernel's at the exact reals, so this is the kernel's voxel coordinate. The reference's flat id at
  point i is the flat id of the three coordinates: the in-grid mask is the "and" of the three columns' range tests from 1,
  which is the kernel's chain of six comparisons in another order.
-/
import proofs.«163751_j5892695130408_2_alg».proof.Proof.RefDefs
import proofs.«163751_j5892695130408_2_alg».proof.Proof.KIBody
import proofs.«163751_j5892695130408_2_alg».proof.Proof.LibCols
import Idealize.ShloMosaic.Lib.Pipeline.Value
import Idealize.ShloMosaic.Lib.ValueIdx
import Idealize.ShloMosaic.PureOps.Reduce

noncomputable section

namespace Cert.ReferenceIdeal.RefIdx

open Cert.ReferenceIdeal Cert.ReferenceIdeal.Gen Cert.ReferenceIdeal.RefVals
open Idealize.ShloMosaic Idealize.ShloMosaic.ValueIdx Cert.KernelIdeal.Bd Cert.LibCols

/-- A three-entry table repeated along every row, at (i, k): the table's entry k. -/
theorem rows3_apply {α : Type} (t : S3.Idx → α) (i : Fin 4000000) (k : Fin 3) : rows3 t (ix2 i k) = t (ix1 k) := by
  unfold rows3
  rw [broadcastInDim_apply ![0, 1] bcast_S1x3_S4000000x3_0_1 _ (ix2 i k) (ix2 (0 : Fin 1) k) (fun a => by
    match a with
    | ⟨0, _⟩ => rfl
    | ⟨1, _⟩ => rfl)]
  exact broadcastInDim_apply ![1] bcast_S3_S1x3_1 t (ix2 (0 : Fin 1) k) (ix1 k) (fun a => by
    match a with
    | ⟨0, _⟩ => rfl)

/-- The points' first three columns, at (i, k). -/
theorem slice3_apply {α : Type} (x : S4000000x4.Idx → α) (i : Fin 4000000) (k : Fin 3) :
    extractStridedSlice S4000000x3 ![0, 0] x slices_S4000000x4_S4000000x3_0_0 (ix2 i k) = x (ix2 i k.castSucc) :=
  extractStridedSlice_apply ![0, 0] x slices_S4000000x4_S4000000x3_0_0 (ix2 i k) (ix2 i k.castSucc) (fun a => by
    match a with
    | ⟨0, _⟩ => simp
    | ⟨1, _⟩ => simp)

theorem cR_apply (x : FVec Ideal S4000000x4 .f32) (i : Fin 4000000) (k : Fin 3) :
    cR x (ix2 i k) = FloatOps.fptosi 32 (FloatOps.floor (FloatOps.divf (FloatOps.subf (x (ix2 i k.castSucc)) (loT (F := Ideal) (ix1 k))) (vsT (F := Ideal) (ix1 k)))) := by
  unfold cR
  show FloatOps.fptosi 32 (FloatOps.hostUnary .floor (FloatOps.hostDivf (FloatOps.subf
    (extractStridedSlice S4000000x3 ![0, 0] x slices_S4000000x4_S4000000x3_0_0 (ix2 i k)) (rows3 loT (ix2 i k))) (rows3 vsT (ix2 i k)))) = _
  rw [slice3_apply, rows3_apply, rows3_apply]
  rfl

theorem cR_apply0 (x : FVec Ideal S4000000x4 .f32) (i : Fin 4000000) :
    cR x (ix2 i (0 : Fin 3)) = vox 0x00000000#32 0x3D4CCCCD#32 (x (ix2 i (0 : Fin 4))) := by
  rw [cR_apply]; rfl
theorem cR_apply1 (x : FVec Ideal S4000000x4 .f32) (i : Fin 4000000) :
    cR x (ix2 i (1 : Fin 3)) = vox 0xC2200000#32 0x3D4CCCCD#32 (x (ix2 i (1 : Fin 4))) := by
  rw [cR_apply]; rfl
theorem cR_apply2 (x : FVec Ideal S4000000x4 .f32) (i : Fin 4000000) :
    cR x (ix2 i (2 : Fin 3)) = vox 0xC0400000#32 0x3DCCCCCD#32 (x (ix2 i (2 : Fin 4))) := by
  rw [cR_apply]; rfl

/-! ## The flat ids -/

/-- Column k of the coordinates as a flat vector, at point i. -/
theorem colR_apply (c : IVec S4000000x3 32) (k : Fin 3) (off : Fin 2 → Nat) (hoff : off = ![0, k.val])
    (h : S4000000x3.Slices off S4000000x1) (i : Fin 4000000) : colR c off h (ix1 i) = c (ix2 i k) := by
  unfold colR
  exact col_flat_apply (N := 4000000) (C := 3) c k off hoff h shapeCasts_S4000000x1_S4000000 i

/-- The flat id (a·1600 + b)·40 + c of point i's coordinates. -/
theorem rawR_apply (c : IVec S4000000x3 32) (i : Fin 4000000) :
    rawR c (ix1 i) = IntOp.addi (IntOp.muli (IntOp.addi (IntOp.muli (c (ix2 i 0)) 1600#32) (c (ix2 i 1))) 40#32) (c (ix2 i 2)) := by
  show IntOp.addi (IntOp.muli (IntOp.addi (IntOp.muli (colR c ![0, 0] slices_S4000000x3_S4000000x1_0_0 (ix1 i)) 1600#32)
      (colR c ![0, 1] slices_S4000000x3_S4000000x1_0_1 (ix1 i))) 40#32) (colR c ![0, 2] slices_S4000000x3_S4000000x1_0_2 (ix1 i)) = _
  rw [colR_apply c 0 ![0, 0] rfl, colR_apply c 1 ![0, 1] rfl, colR_apply c 2 ![0, 2] rfl]

/-- The fold of "and" over three bits from b. -/
theorem fold_andi_fin3 (g : Fin 3 → BitVec 1) (b : BitVec 1) :
    (Finset.univ : Finset (Fin 3)).fold IntOp.andi b g = IntOp.andi (g 0) (IntOp.andi (g 1) (IntOp.andi (g 2) b)) := by
  rw [show (Finset.univ : Finset (Fin 3)) = {0, 1, 2} from by decide]
  rw [Finset.fold_insert (by decide), Finset.fold_insert (by decide), Finset.fold_singleton]

/-- The in-grid bit of point i: the "and" over the three columns of "at least 0 and below the extent" is the kernel's
    chain of the same six comparisons. -/
theorem validR_apply (c : IVec S4000000x3 32) (i : Fin 4000000) :
    validR c (ix1 i) = inGrid (c (ix2 i 0)) (c (ix2 i 1)) (c (ix2 i 2)) := by
  have hR : S4000000x3.Reduces [1] S4000000 := by decide
  unfold validR
  rw [Host.reduce_eq_fold_single IntOp.andi _ _ reducesTo_S4000000x3_S4000000_d1 hR h_S_ (ix1 i)]
  have hl : ∀ k : Fin 3, hR.lift (ix1 i) k = ix2 i k := fun k => funext fun a => by
    match a with
    | ⟨0, _⟩ => exact Fin.ext rfl
    | ⟨1, _⟩ => exact Fin.ext rfl
  refine (fold_andi_fin3 _ _).trans ?_
  simp only [Function.comp, hl]
  show IntOp.andi (IntOp.andi (IntOp.cmpi .sge (c (ix2 i 0)) 0#32) (IntOp.cmpi .slt (c (ix2 i 0)) (rows3 gridT (ix2 i 0))))
      (IntOp.andi (IntOp.andi (IntOp.cmpi .sge (c (ix2 i 1)) 0#32) (IntOp.cmpi .slt (c (ix2 i 1)) (rows3 gridT (ix2 i 1))))
        (IntOp.andi (IntOp.andi (IntOp.cmpi .sge (c (ix2 i 2)) 0#32) (IntOp.cmpi .slt (c (ix2 i 2)) (rows3 gridT (ix2 i 2)))) 1#1)) = _
  rw [rows3_apply, rows3_apply, rows3_apply]
  unfold inGrid
  show IntOp.andi (IntOp.andi (IntOp.cmpi .sge (c (ix2 i 0)) 0#32) (IntOp.cmpi .slt (c (ix2 i 0)) 1408#32))
      (IntOp.andi (IntOp.andi (IntOp.cmpi .sge (c (ix2 i 1)) 0#32) (IntOp.cmpi .slt (c (ix2 i 1)) 1600#32))
        (IntOp.andi (IntOp.andi (IntOp.cmpi .sge (c (ix2 i 2)) 0#32) (IntOp.cmpi .slt (c (ix2 i 2)) 40#32)) 1#1)) = _
  generalize IntOp.cmpi .sge (c (ix2 i 0)) 0#32 = p0
  generalize IntOp.cmpi .slt (c (ix2 i 0)) 1408#32 = q0
  generalize IntOp.cmpi .sge (c (ix2 i 1)) 0#32 = p1
  generalize IntOp.cmpi .slt (c (ix2 i 1)) 1600#32 = q1
  generalize IntOp.cmpi .sge (c (ix2 i 2)) 0#32 = p2
  generalize IntOp.cmpi .slt (c (ix2 i 2)) 40#32 = q2
  revert p0 q0 p1 q1 p2 q2
  decide

/-- The flat id of point i is the kernel's flat id of the point's three coordinates. -/
theorem flatR_apply (x : FVec Ideal S4000000x4 .f32) (i : Fin 4000000) :
    flatR x (ix1 i) = flatId (cR x (ix2 i 0)) (cR x (ix2 i 1)) (cR x (ix2 i 2)) := by
  unfold flatR flatId
  generalize cR x = c
  show Scalar.select (validR c (ix1 i)) (rawR c (ix1 i)) 90112000#32 = _
  rw [validR_apply, rawR_apply]

end Cert.ReferenceIdeal.RefIdx

end
-- ==== Proof.LibGatherScatterIdx.lean ====
/-
  Row gathers and row scatters read at an index.

  `x[idx]` of a table `x : [N, D]` (or of a vector `x : [N]`) at a column of start indices `idx : [E, 1]` lowers to a
  gather whose result row `e` is the operand's row at the start index `idx[e, 0]`, read as a signed integer and clamped
  into `[0, N − 1]`; `x.at[idx].add(u)` lowers to a scatter in which update row `e` lands on the operand's row
  `idx[e, 0]`, read signed and NOT clamped, and is dropped when that is no row. The lemmas below read the two
  operations' index maps at coordinates: the gather's operand index (`rowGather_operandIdx`, `vecGather_operandIdx`),
  and what it means for update `(e, d)` to land on element `i` (`rowScatter_lands`).
-/
import Idealize.ShloMosaic.PureOps.Ideal
import Idealize.ShloMosaic.Lib.ValueIdx

noncomputable section

namespace Cert.LibIdx

open Idealize.ShloMosaic Idealize.ShloMosaic.ValueIdx

/-- The dimension numbers of `x[idx]` for a table `[N, D]` and start indices `[E, 1]`: whole rows are taken. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of `x[idx]` for a vector `[N]` and start indices `[E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of `x.at[idx].add(u)` for a table `[N, D]`, scatter indices `[E, 1]`, updates `[E, D]`. -/
abbrev rowScatter (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- THE ROW GATHER'S OPERAND INDEX at `(e, d)`: row `idx[e, 0]` read signed and clamped into `[0, N − 1]`, column `d`. -/
theorem rowGather_operandIdx {N D E w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (d : Fin D) :
    (rowGather N D E wf).operandIdx (ix2 e d) idx
      = ix2 ⟨min (idx (ix2 e (0 : Fin 1))).toInt.toNat (N - 1), by omega⟩ d := by
  have h0 : ((rowGather N D E wf).operandIdx (ix2 e d) idx (0 : Fin 2)).val = min (idx (ix2 e (0 : Fin 1))).toInt.toNat (N - 1) := by
    show (rowGather N D E wf).start (ix2 e d) idx 0 + (rowGather N D E wf).batchCoord (ix2 e d) 0
      + (rowGather N D E wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e d) ⟨List.idxOf (0 : Fin 2) (rowGather N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGather N D E wf).operandIdx (ix2 e d) idx (1 : Fin 2)).val = d.val := by
    show (rowGather N D E wf).start (ix2 e d) idx 1 + (rowGather N D E wf).batchCoord (ix2 e d) 1
      + (rowGather N D E wf).offCoord (ix2 e d) 1 = _
    rw [GatherDims.batchCoord_eq_zero _ _ _ List.not_mem_nil]
    unfold GatherDims.start
    rw [dif_neg (by decide : (1 : Fin 2) ∉ ([0] : List (Fin 2)))]
    unfold GatherDims.offCoord
    rw [dif_pos ((GatherDims.mem_sKept _ _).mpr ⟨(by decide : (1 : Fin 2) ∉ ([0] : List (Fin 2))), List.not_mem_nil⟩)]
    have hone : ∀ (k : Nat) (h : k < ([1] : List (Fin 2)).length), ([1] : List (Fin 2))[k] = 1 := by
      intro k h
      have hk : k = 0 := by simpa using h
      subst hk; rfl
    dsimp only
    rw [hone]
    simp
  funext a
  refine Fin.ext ?_
  match a with
  | ⟨0, _⟩ => exact h0
  | ⟨1, _⟩ => exact h1

/-- THE VECTOR GATHER'S OPERAND INDEX at `e`: element `idx[e, 0]` read signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGather N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- WHERE A ROW SCATTER'S UPDATE LANDS: if update `(e, d)` lands on element `i`, then the scatter index `idx[e, 0]`,
    read signed, is `i`'s row. -/
theorem rowScatter_lands {N D E w : Nat}
    (wf : ScatterDims.WF ⟨2, ![N, D]⟩ ⟨2, ![E, 1]⟩ ⟨2, ![E, D]⟩ [1] [0] [0] 1)
    (idx : IVec ⟨2, ![E, 1]⟩ w) (e : Fin E) (d : Fin D) (i : (⟨2, ![N, D]⟩ : Shape).Idx)
    (h : (rowScatter N D E wf).resultIdx? (ix2 e d) idx = some i) :
    (idx (ix2 e (0 : Fin 1))).toInt = ((i 0).val : Int) := by
  unfold ScatterDims.resultIdx? at h
  split at h
  · rename_i hb
    have hi := congrFun (Option.some.inj h) 0
    have h0 := (hb 0).1
    have hw : (rowScatter N D E wf).window (ix2 e d) 0 = 0 := by
      unfold ScatterDims.window
      rw [dif_neg (by simp [ScatterDims.sKept, Shape.kept, List.mem_filter])]
    have hs : (rowScatter N D E wf).start (ix2 e d) idx 0 = (idx (ix2 e (0 : Fin 1))).toInt := by
      unfold ScatterDims.start
      rw [dif_pos (show (0 : Fin 2) ∈ (rowScatter N D E wf).scatterDimsToOperandDims from List.mem_singleton.mpr rfl)]
      have hsi : (rowScatter N D E wf).siIdx (ix2 e d) ⟨List.idxOf (0 : Fin 2) (rowScatter N D E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    rw [hw, hs] at h0
    have hv : ((rowScatter N D E wf).start (ix2 e d) idx 0 + ((rowScatter N D E wf).window (ix2 e d) 0 : Int)).toNat = (i 0).val :=
      congrArg Fin.val hi
    rw [hw, hs] at hv
    simp only [Nat.cast_zero, Int.add_zero] at hv h0
    omega
  · exact absurd h (by simp)

end Cert.LibIdx

end
-- ==== Proof.KIHead.lean ====
/-
  The kernel side of the comparison, read at an index. The kernel's result array is `G` of the points array: its columns
  0, 1, 2 are the z, y, x voxel coordinates of each point and column 3 the flat voxel id. The coordinate rows in sorted
  order (a gather of whole rows of the three coordinate columns laid side by side) read at (e, d) coordinate d — z, y, x —
  of the point that the index column names at e.
-/
import proofs.«163751_j5892695130408_2_alg».proof.Proof.KIBlocks
import proofs.«163751_j5892695130408_2_alg».proof.Proof.KITailDefs
import proofs.«163751_j5892695130408_2_alg».proof.Proof.LibCols
import proofs.«163751_j5892695130408_2_alg».proof.Proof.LibGatherScatterIdx

noncomputable section

namespace Cert.KernelIdeal.Hd

open Cert.KernelIdeal Cert.KernelIdeal.Gen Cert.KernelIdeal.Bd Cert.KernelIdeal.Bl Cert.KernelIdeal.Tl
open Idealize.ShloMosaic Idealize.ShloMosaic.ValueIdx Cert.LibCols Cert.LibIdx

variable {F : FTy → Type} [FloatOps F]

/-- The x, y, z voxel coordinates of a point. -/
def vx (p : F .f32) : BitVec 32 := vox 0x00000000#32 0x3D4CCCCD#32 p
def vy (p : F .f32) : BitVec 32 := vox 0xC2200000#32 0x3D4CCCCD#32 p
def vz (p : F .f32) : BitVec 32 := vox 0xC0400000#32 0x3DCCCCCD#32 p

theorem czOf_G (x : S4000000x4.Idx → F .f32) (i : Fin 4000000) : czOf (G x) (ix1 i) = vz (x (ix2 i 2)) := by
  unfold czOf
  rw [col_flat_apply (N := 4000000) (C := 4) (G x) 0 ![0, 0] rfl]
  rfl

theorem cyOf_G (x : S4000000x4.Idx → F .f32) (i : Fin 4000000) : cyOf (G x) (ix1 i) = vy (x (ix2 i 1)) := by
  unfold cyOf
  rw [col_flat_apply (N := 4000000) (C := 4) (G x) 1 ![0, 1] rfl]
  rfl

theorem cxOf_G (x : S4000000x4.Idx → F .f32) (i : Fin 4000000) : cxOf (G x) (ix1 i) = vx (x (ix2 i 0)) := by
  unfold cxOf
  rw [col_flat_apply (N := 4000000) (C := 4) (G x) 2 ![0, 2] rfl]
  rfl

theorem flatOf_G (x : S4000000x4.Idx → F .f32) (i : Fin 4000000) :
    flatOf (G x) (ix1 i) = flatId (vx (x (ix2 i 0))) (vy (x (ix2 i 1))) (vz (x (ix2 i 2))) := by
  unfold flatOf
  rw [col_flat_apply (N := 4000000) (C := 4) (G x) 3 ![0, 3] rfl]
  rfl

/-- The row an index column names at e: its entry read signed and clamped into the table's rows. -/
def rowAt (I : IVec S4000000x1 32) (e : Fin 4000000) : Fin 4000000 :=
  ⟨min (I (ix2 e (0 : Fin 1))).toInt.toNat (4000000 - 1), by omega⟩

/-- A gather of whole rows of a table [4000000, 3] at an index column reads at (e, d) the table's entry (rowAt I e, d). -/
theorem gatherRows3_apply {α : Type} (X : S4000000x3.Idx → α) (I : IVec S4000000x1 32) (e : Fin 4000000) (d : Fin 3) :
    Host.gather gather_S4000000x3_S4000000x1_S4000000x3_1_0_n_n_0_1_13 X I (ix2 e d) = X (ix2 (rowAt I e) d) := by
  unfold Host.gather
  have wf : GatherDims.WF ⟨2, ![4000000, 3]⟩ ⟨2, ![4000000, 1]⟩ ⟨2, ![4000000, 3]⟩ [1] [0] [] [0] [] 1 ![1, 3] :=
    gather_S4000000x3_S4000000x1_S4000000x3_1_0_n_n_0_1_13.wf
  have hD : gather_S4000000x3_S4000000x1_S4000000x3_1_0_n_n_0_1_13 = rowGather 4000000 3 4000000 wf := rfl
  rw [hD, rowGather_operandIdx (by decide) wf I e d]
  rfl

/-- The three coordinate columns side by side, at (i, d). -/
theorem czyx_G (x : S4000000x4.Idx → F .f32) (i : Fin 4000000) (d : Fin 3) :
    czyx (G x) (ix2 i d) = (match d with | ⟨0, _⟩ => vz (x (ix2 i 2)) | ⟨1, _⟩ => vy (x (ix2 i 1)) | ⟨2, _⟩ => vx (x (ix2 i 0))) := by
  unfold czyx
  rw [concat3_apply (N := 4000000)]
  match d with
  | ⟨0, _⟩ => dsimp only; unfold col; rw [bcast_col_apply (N := 4000000), czOf_G]
  | ⟨1, _⟩ => dsimp only; unfold col; rw [bcast_col_apply (N := 4000000), cyOf_G]
  | ⟨2, _⟩ => dsimp only; unfold col; rw [bcast_col_apply (N := 4000000), cxOf_G]

/-- The coordinate rows in sorted order, at (e, d). -/
theorem UK_G (x : S4000000x4.Idx → F .f32) (e : Fin 4000000) (d : Fin 3) :
    UK (G x) (ix2 e d) = (match d with
      | ⟨0, _⟩ => vz (x (ix2 (rowAt (idxCol (flatOf (G x))) e) 2))
      | ⟨1, _⟩ => vy (x (ix2 (rowAt (idxCol (flatOf (G x))) e) 1))
      | ⟨2, _⟩ => vx (x (ix2 (rowAt (idxCol (flatOf (G x))) e) 0))) := by
  unfold UK
  rw [gatherRows3_apply, czyx_G]

end Cert.KernelIdeal.Hd

end
-- ==== Proof.Bridge.lean ====
/-
  The two programs meet. At the exact reals the reference's voxel coordinate ⌊(p − lo)/size⌋ is the kernel's (the host's
  floor and quotient are the kernel's, the conversion to a 32-bit integer is one function), its in-grid test is the same
  six comparisons joined by "and" in another order, and its flat id the same integer arithmetic: so the reference's
  flat-id vector is column 3 of the kernel's result array. The reference orders the coordinate rows (x, y, z) by the
  sorting permutation and then reverses each row; the kernel orders the rows (z, y, x): the same table.
-/
import proofs.«163751_j5892695130408_2_alg».proof.Proof.RefIdx
import proofs.«163751_j5892695130408_2_alg».proof.Proof.RefU
import proofs.«163751_j5892695130408_2_alg».proof.Proof.KIHead

noncomputable section

namespace Cert.Bridge

open Idealize.ShloMosaic Idealize.ShloMosaic.ValueIdx
open Cert.KernelIdeal.Bd Cert.KernelIdeal.Bl Cert.KernelIdeal.Tl Cert.KernelIdeal.Hd Cert.ReferenceIdeal.RefVals Cert.ReferenceIdeal.RefIdx

/-- The reference's flat-id vector is the flat-id column of the kernel's result array. -/
theorem flat_eq (x : FVec Ideal Cert.KernelIdeal.S4000000x4 .f32) : flatR x = flatOf (G x) := by
  funext j
  obtain ⟨i, rfl⟩ : ∃ i : Fin 4000000, j = ix1 i := ⟨j 0, eq_ix1 j⟩
  rw [flatR_apply, cR_apply0, cR_apply1, cR_apply2, flatOf_G]
  rfl

/-- The reference's coordinate rows in sorted order, each reversed, are the kernel's (z, y, x) rows in sorted order. -/
theorem U_eq (x : FVec Ideal Cert.KernelIdeal.S4000000x4 .f32) : Cert.ReferenceIdeal.RefVals.UR x = UK (G x) := by
  funext j
  obtain ⟨e, d, rfl⟩ : ∃ (e : Fin 4000000) (d : Fin 3), j = ix2 e d := ⟨j 0, j 1, eq_ix2 j⟩
  rw [UK_G, ← flat_eq]
  unfold Cert.ReferenceIdeal.RefVals.UR
  rw [Cert.LibCols.reverse1_apply (E := 4000000) (C := 3), gatherRows3_apply]
  match d with
  | ⟨0, _⟩ => exact cR_apply2 x _
  | ⟨1, _⟩ => exact cR_apply1 x _
  | ⟨2, _⟩ => exact cR_apply0 x _

end Cert.Bridge

end
-- ==== Proof.lean ====
/-
  The certificate of the point-cloud voxelization kernel against its reference.

  The kernel program buckets the points in one launch — per point the three voxel coordinates ⌊(p − lo)/size⌋ and the flat
  voxel id, or the sentinel when a coordinate falls outside the grid — and then, on the host, sorts the flat ids stably,
  numbers the segments of equal ids, ranks each point inside its segment, orders the segments by first appearance and
  scatters the first 35 points of the first 20000 voxels into the fixed-size results. The reference does all of it on the
  host. Both host parts are the same functions of the flat-id vector (and of the points, and of the coordinate rows in
  sorted order); at the exact reals the two flat-id vectors and the two tables of coordinate rows agree, so the four
  results agree. The frames: the launch and the host operations terminate without a fault and never write the points.
-/
import proofs.«163751_j5892695130408_2_alg».proof.Defs
import proofs.«163751_j5892695130408_2_alg».proof.Proof.Gen.Pre_finite_inputs
import proofs.«163751_j5892695130408_2_alg».proof.Proof.KFrame
import proofs.«163751_j5892695130408_2_alg».proof.Proof.KIValue
import proofs.«163751_j5892695130408_2_alg».proof.Proof.KITail
import proofs.«163751_j5892695130408_2_alg».proof.Proof.RefRun
import proofs.«163751_j5892695130408_2_alg».proof.Proof.RefVals
import proofs.«163751_j5892695130408_2_alg».proof.Proof.RefIdx
import proofs.«163751_j5892695130408_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.RefRun.frame m ρ

/-- The ideal pass rewrote nothing. -/
theorem preserves : Cert.preserves_Kernel_KernelIdeal := trivial

open Cert.KernelIdeal.Tl Cert.KernelIdeal.Bl in
/-- From memories agreeing on the points, both programs end with each result at the same function of the points. -/
theorem algebraic : Cert.algebraic_KernelIdeal_ReferenceIdeal := by
  intro m ρ m' ρ' _ hagree
  refine ⟨fun c => TV (F := Ideal) (flatOf (G (F := Ideal) (m ((c.tc : Thread Cert.KernelIdeal.nD Cert.KernelIdeal.τ).loc Cert.KernelIdeal.main_arg0)))) (m ((c.tc : Thread Cert.KernelIdeal.nD Cert.KernelIdeal.τ).loc Cert.KernelIdeal.main_arg0)),
    fun c => TC (flatOf (G (F := Ideal) (m ((c.tc : Thread Cert.KernelIdeal.nD Cert.KernelIdeal.τ).loc Cert.KernelIdeal.main_arg0)))) (UK (G (F := Ideal) (m ((c.tc : Thread Cert.KernelIdeal.nD Cert.KernelIdeal.τ).loc Cert.KernelIdeal.main_arg0)))),
    fun c => TN (flatOf (G (F := Ideal) (m ((c.tc : Thread Cert.KernelIdeal.nD Cert.KernelIdeal.τ).loc Cert.KernelIdeal.main_arg0)))),
    fun c => TM (flatOf (G (F := Ideal) (m ((c.tc : Thread Cert.KernelIdeal.nD Cert.KernelIdeal.τ).loc Cert.KernelIdeal.main_arg0)))), ?_, ?_⟩
  · refine (θ_run Cert.KernelIdeal.defs _ _).mono (fun r h c => ?_) (Cert.KernelIdeal.Vl.run (F := Ideal) m ρ)
    obtain ⟨h1, h2, h3, h4, h5⟩ := h c
    refine ⟨h1.trans ?_, h2.trans ?_, h3.trans ?_, h4.trans ?_, h5⟩
    · rw [tail_v96, Cert.KernelIdeal.Vl.W_out, Cert.KernelIdeal.Vl.W_arg0]
    · rw [tail_v113, Cert.KernelIdeal.Vl.W_out]
    · rw [tail_v105, Cert.KernelIdeal.Vl.W_out]
    · rw [tail_v117, Cert.KernelIdeal.Vl.W_out]
  · refine (θ_run Cert.ReferenceIdeal.defs _ _).mono (fun r h c => ?_) (Cert.ReferenceIdeal.RefRun.run_raw (F := Ideal) m' ρ')
    refine ⟨(h c Cert.ReferenceIdeal.main_v105).trans ?_, (h c Cert.ReferenceIdeal.main_v130).trans ?_,
      (h c Cert.ReferenceIdeal.main_v114).trans ?_, (h c Cert.ReferenceIdeal.main_v134).trans ?_,
      (h c Cert.ReferenceIdeal.main_arg0).trans (Cert.ReferenceIdeal.RefRun.kept_arg0 m' c)⟩
    · rw [Cert.ReferenceIdeal.RefVals.val_v105, hagree c, Cert.Bridge.flat_eq]
    · rw [Cert.ReferenceIdeal.RefVals.val_v130, hagree c, Cert.Bridge.flat_eq, Cert.Bridge.U_eq]
    · rw [Cert.ReferenceIdeal.RefVals.val_v114, hagree c, Cert.Bridge.flat_eq]
    · rw [Cert.ReferenceIdeal.RefVals.val_v134, hagree c, Cert.Bridge.flat_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
